-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64x256 .f32) (main_arg13 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S64x256 .f32 := Host.absf main_arg12
  let main_cst_20 : FVec F S_ .f32 := constant S_ .f32 0x7F800000#32
  let main_v55 : FVec F S64x256 .f32 := broadcastInDim S64x256 ![] bcast_S_S64x256 main_cst_20
  let main_v56 : IVec S64x256 1 := cmpf .olt main_v54 main_v55
  let main_c_21 : IVec S_ 1 := constantI S_ 1 1#1
  let main_v57 : IVec S_ 1 := (fun x v => Host.reduce IntOp.andi x v reducesTo_S64x256_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S256 .f32) (main_arg9 : FVec F S256 .f32) (main_arg10 : FVec F S256x256 .f32) (main_arg11 : FVec F S256 .f32) (main_arg12 : FVec F S64x256 .f32) (main_arg13 : FVec F S64 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256 .f32) (main_arg6 : FVec F S256 .f32) (main_arg7 : FVec F S256 .f32) (main_arg8 : FVec F S256 .f32) (main_arg9 : FVec F S256 .f32) (main_arg10 : FVec F S256x256 .f32) (main_arg11 : FVec F S256 .f32) (main_arg12 : FVec F S64x256 .f32) (main_arg13 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x800000 32) (main_arg2 : FVec F S256x128 .f32) (main_arg3 : FVec F S256 .f32) (main_arg4 : FVec F S256x256 .f32) (main_arg5 : FVec F S256 .f32) (main_arg6 : FVec F S256 .f32) (main_arg7 : FVec F S256 .f32) (main_arg8 : FVec F S256 .f32) (main_arg9 : FVec F S256 .f32) (main_arg10 : FVec F S256x256 .f32) (main_arg11 : FVec F S256 .f32) (main_arg12 : FVec F S64x256 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S128x256 : Shape := ⟨2, ![128, 256]⟩
abbrev S1x256 : Shape := ⟨2, ![1, 256]⟩
abbrev S100000x256 : Shape := ⟨2, ![100000, 256]⟩
abbrev S2000x128 : Shape := ⟨2, ![2000, 128]⟩
abbrev S2000x256 : Shape := ⟨2, ![2000, 256]⟩
abbrev S900000x256 : Shape := ⟨2, ![900000, 256]⟩
abbrev S256x64 : Shape := ⟨2, ![256, 64]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 118
  | .vmem => 52
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S64x256, .f32⟩
  | .hbm, ⟨13, _⟩ => ⟨S64, .f32⟩
  | .hbm, ⟨14, _⟩ => ⟨S100000, .i32⟩
  | .hbm, ⟨15, _⟩ => ⟨S1x800000, .i32⟩
  | .hbm, ⟨16, _⟩ => ⟨S800000, .i32⟩
  | .hbm, ⟨17, _⟩ => ⟨S900000, .i32⟩
  | .hbm, ⟨18, _⟩ => ⟨S1x800000, .i32⟩
  | .hbm, ⟨19, _⟩ => ⟨S800000, .i32⟩
  | .hbm, ⟨20, _⟩ => ⟨S900000, .i32⟩
  | .hbm, ⟨21, _⟩ => ⟨S_, .f32⟩
  | .hbm, ⟨22, _⟩ => ⟨S900000, .f32⟩
  | .hbm, ⟨23, _⟩ => ⟨S_, .f32⟩
  | .hbm, ⟨24, _⟩ => ⟨S100000, .f32⟩
  | .hbm, ⟨25, _⟩ => ⟨S900000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S900000, .i32⟩
  | .hbm, ⟨37, _⟩ => ⟨S900000, .i1⟩
  | .hbm, ⟨38, _⟩ => ⟨S_, .i32⟩
  | .hbm, ⟨39, _⟩ => ⟨S900000, .i32⟩
  | .hbm, ⟨40, _⟩ => ⟨S900000, .i32⟩
  | .hbm, ⟨41, _⟩ => ⟨S900000, .i32⟩
  | .hbm, ⟨42, _⟩ => ⟨S900000x1, .i32⟩
  | .hbm, ⟨43, _⟩ => ⟨S900000, .f32⟩
  | .hbm, ⟨44, _⟩ => ⟨S_, .i32⟩
  | .hbm, ⟨45, _⟩ => ⟨S900000, .i32⟩
  | .hbm, ⟨46, _⟩ => ⟨S900000, .i1⟩
  | .hbm, ⟨47, _⟩ => ⟨S_, .i32⟩
  | .hbm, ⟨48, _⟩ => ⟨S900000, .i32⟩
  | .hbm, ⟨49, _⟩ => ⟨S900000, .i32⟩
  | .hbm, ⟨50, _⟩ => ⟨S900000, .i32⟩
  | .hbm, ⟨51, _⟩ => ⟨S900000x1, .i32⟩
  | .hbm, ⟨52, _⟩ => ⟨S900000, .f32⟩
  | .hbm, ⟨53, _⟩ => ⟨S900000, .f32⟩
  | .hbm, ⟨54, _⟩ => ⟨S128x256, .f32⟩
  | .hbm, ⟨55, _⟩ => ⟨S_, .f32⟩
  | .hbm, ⟨56, _⟩ => ⟨S256, .f32⟩
  | .hbm, ⟨57, _⟩ => ⟨S1x256, .f32⟩
  | .hbm, ⟨58, _⟩ => ⟨S100000x256, .f32⟩
  | .hbm, ⟨59, _⟩ => ⟨S_, .i32⟩
  | .hbm, ⟨60, _⟩ => ⟨S900000, .i32⟩
  | .hbm, ⟨61, _⟩ => ⟨S900000, .i1⟩
  | .hbm, ⟨62, _⟩ => ⟨S_, .i32⟩
  | .hbm, ⟨63, _⟩ => ⟨S900000, .i32⟩
  | .hbm, ⟨64, _⟩ => ⟨S900000, .i32⟩
  | .hbm, ⟨65, _⟩ => ⟨S900000, .i32⟩
  | .hbm, ⟨66, _⟩ => ⟨S900000x1, .i32⟩
  | .hbm, ⟨67, _⟩ => ⟨S900000x256, .f32⟩
  | .hbm, ⟨68, _⟩ => ⟨S900000x1, .f32⟩
  | .hbm, ⟨69, _⟩ => ⟨S900000x256, .f32⟩
  | .hbm, ⟨70, _⟩ => ⟨S900000x256, .f32⟩
  | .hbm, ⟨71, _⟩ => ⟨S_, .f32⟩
  | .hbm, ⟨72, _⟩ => ⟨S100000x256, .f32⟩
  | .hbm, ⟨73, _⟩ => ⟨S900000x1, .i32⟩
  | .hbm, ⟨74, _⟩ => ⟨S100000x256, .f32⟩
  | .hbm, ⟨75, _⟩ => ⟨S1x256, .f32⟩
  | .hbm, ⟨76, _⟩ => ⟨S100000x256, .f32⟩
  | .hbm, ⟨77, _⟩ => ⟨S100000x256, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S100000x256, .f32⟩
  | .hbm, ⟨83, _⟩ => ⟨S256x256, .f32⟩
  | .hbm, ⟨84, _⟩ => ⟨S_, .f32⟩
  | .hbm, ⟨85, _⟩ => ⟨S256, .f32⟩
  | .hbm, ⟨86, _⟩ => ⟨S1x256, .f32⟩
  | .hbm, ⟨87, _⟩ => ⟨S100000x256, .f32⟩
  | .hbm, ⟨88, _⟩ => ⟨S_, .i32⟩
  | .hbm, ⟨89, _⟩ => ⟨S900000, .i32⟩
  | .hbm, ⟨90, _⟩ => ⟨S900000, .i1⟩
  | .hbm, ⟨91, _⟩ => ⟨S_, .i32⟩
  | .hbm, ⟨92, _⟩ => ⟨S900000, .i32⟩
  | .hbm, ⟨93, _⟩ => ⟨S900000, .i32⟩
  | .hbm, ⟨94, _⟩ => ⟨S900000, .i32⟩
  | .hbm, ⟨95, _⟩ => ⟨S900000x1, .i32⟩
  | .hbm, ⟨96, _⟩ => ⟨S900000x256, .f32⟩
  | .hbm, ⟨97, _⟩ => ⟨S900000x1, .f32⟩
  | .hbm, ⟨98, _⟩ => ⟨S900000x256, .f32⟩
  | .hbm, ⟨99, _⟩ => ⟨S900000x256, .f32⟩
  | .hbm, ⟨100, _⟩ => ⟨S_, .f32⟩
  | .hbm, ⟨101, _⟩ => ⟨S100000x256, .f32⟩
  | .hbm, ⟨102, _⟩ => ⟨S900000x1, .i32⟩
  | .hbm, ⟨103, _⟩ => ⟨S100000x256, .f32⟩
  | .hbm, ⟨104, _⟩ => ⟨S1x256, .f32⟩
  | .hbm, ⟨105, _⟩ => ⟨S100000x256, .f32⟩
  | .hbm, ⟨106, _⟩ => ⟨S100000x256, .f32⟩
  | .hbm, ⟨107, _⟩ => ⟨S1x256, .f32⟩
  | .hbm, ⟨108, _⟩ => ⟨S1x256, .f32⟩
  | .hbm, ⟨109, _⟩ => ⟨S1x256, .f32⟩
  | .hbm, ⟨110, _⟩ => ⟨S1x256, .f32⟩
  | .hbm, ⟨111, _⟩ => ⟨S100000x256, .f32⟩
  | .hbm, ⟨112, _⟩ => ⟨S256x256, .f32⟩
  | .hbm, ⟨113, _⟩ => ⟨S1x256, .f32⟩
  | .hbm, ⟨114, _⟩ => ⟨S100000x256, .f32⟩
  | .hbm, ⟨115, _⟩ => ⟨S256x64, .f32⟩
  | .hbm, ⟨116, _⟩ => ⟨S1x64, .f32⟩
  | .hbm, ⟨117, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S256x256, .f32⟩
  | .local _ .vmem, ⟨43, _⟩ => ⟨S1x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S256x64, .f32⟩
  | .local _ .vmem, ⟨49, _⟩ => ⟨S1x64, .f32⟩
  | .local _ .vmem, ⟨50, _⟩ => ⟨S2000x64, .f32⟩
  | .local _ .vmem, ⟨51, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52_0 : Ref sig .tc := ⟨.hbm, 80, rfl⟩
abbrev main_v52_1 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76_0 : Ref sig .tc := ⟨.hbm, 109, rfl⟩
abbrev main_v76_1 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_scratch0 : Ref sig .tc := ⟨.vmem, 30, rfl⟩
abbrev cc4_scratch1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg3_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  transposes_S256x128_S128x256_1_0 : S256x128.Transposes [1, 0] S128x256
  bcast_S_S256 : S_.BroadcastsInDim S256 (![] : Fin 0 → Fin S256.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S2000x256_S2000x256 : S2000x256.ShapeCasts S2000x256
  reduces_S2000x256_S256 : S2000x256.Reduces [0] S256
  transposes_S256x256_S256x256_1_0 : S256x256.Transposes [1, 0] S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S64x256_S256x64_1_0 : S64x256.Transposes [1, 0] S256x64
  shapeCasts_S64_S1x64 : S64.ShapeCasts S1x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S2000x128_S128x256_S2000x256_1_0_0_1_n_n_wf : DotDims.WF S2000x128 S128x256 S2000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S100000x256.size a
  hwx2_5 : ∀ i : grid2.Coords, EltTy.bits .f32 = 32 ∨ (Rect.block (s := S100000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S100000x256.size a
  hwx3_3 : ∀ i : grid3.Coords, EltTy.bits .f32 = 32 ∨ (Rect.block (s := S100000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S100000x256.size a
  hwx5_5 : ∀ i : grid5.Coords, EltTy.bits .f32 = 32 ∨ (Rect.block (s := S100000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S100000x256.size a
  hwx6_0 : ∀ i : grid6.Coords, EltTy.bits .f32 = 32 ∨ (Rect.block (s := S100000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x256.size a ≤ S100000x256.size a
  hwx6_3 : ∀ i : grid6.Coords, EltTy.bits .f32 = 32 ∨ (Rect.block (s := S100000x256) S2000x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S100000x256.size a
  hwx7_0 : ∀ i : grid7.Coords, EltTy.bits .f32 = 32 ∨ (Rect.block (s := S100000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x64.size a ≤ S256x64.size a
  hwx7_1 : ∀ i : grid7.Coords, EltTy.bits .f32 = 32 ∨ (Rect.block (s := S256x64) S256x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x64.size a ≤ S100000x64.size a
  hwx7_3 : ∀ i : grid7.Coords, EltTy.bits .f32 = 32 ∨ (Rect.block (s := S100000x64) S2000x64.size (cc7_transform_3 i) (hinb7_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52_0) S1x256.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52_1) S1x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v49) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52_0) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52_1) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v73) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76_0) S1x256.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76_1) S1x256.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v73) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76_0) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76_1) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v77) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v77) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v80) S2000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v80) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v81) S256x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v82) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v83) S2000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S128x256 : Shape := ⟨2, ![128, 256]⟩
abbrev S100000x256 : Shape := ⟨2, ![100000, 256]⟩
abbrev S_ : Shape := ⟨0, ![]⟩
abbrev S900000x1 : Shape := ⟨2, ![900000, 1]⟩
abbrev S900000x256 : Shape := ⟨2, ![900000, 256]⟩
abbrev S1x256 : Shape := ⟨2, ![1, 256]⟩
abbrev S256x64 : Shape := ⟨2, ![256, 64]⟩
abbrev S100000x64 : Shape := ⟨2, ![100000, 64]⟩
abbrev S1x64 : Shape := ⟨2, ![1, 64]⟩

abbrev nBuf : Space → Nat
  | .hbm => 208
  | .vmem => 0
  | .smem => 0
  | _ => 0

abbrev hbmTy0_0 (i : Nat) : BufTy := match i % 128 with
  | 0 => ⟨S100000x128, .f32⟩
  | 1 => ⟨S2x800000, .i32⟩
  | 2 => ⟨S256x128, .f32⟩
  | 3 => ⟨S256, .f32⟩
  | 4 => ⟨S256x256, .f32⟩
  | 5 => ⟨S256, .f32⟩
  | 6 => ⟨S256, .f32⟩
  | 7 => ⟨S256, .f32⟩
  | 8 => ⟨S256, .f32⟩
  | 9 => ⟨S256, .f32⟩
  | 10 => ⟨S256x256, .f32⟩
  | 11 => ⟨S256, .f32⟩
  | 12 => ⟨S64x256, .f32⟩
  | 13 => ⟨S64, .f32⟩
  | 14 => ⟨S100000, .i32⟩
  | 15 => ⟨S1x800000, .i32⟩
  | 16 => ⟨S800000, .i32⟩
  | 17 => ⟨S900000, .i32⟩
  | 18 => ⟨S1x800000, .i32⟩
  | 19 => ⟨S800000, .i32⟩
  | 20 => ⟨S900000, .i32⟩
  | 21 => ⟨S128x256, .f32⟩
  | 22 => ⟨S100000x256, .f32⟩
  | 23 => ⟨S_, .f32⟩
  | 24 => ⟨S900000, .f32⟩
  | 25 => ⟨S_, .f32⟩
  | 26 => ⟨S100000, .f32⟩
  | 27 => ⟨S900000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S900000, .i32⟩
  | 39 => ⟨S900000, .i1⟩
  | 40 => ⟨S_, .i32⟩
  | 41 => ⟨S900000, .i32⟩
  | 42 => ⟨S900000, .i32⟩
  | 43 => ⟨S900000, .i32⟩
  | 44 => ⟨S900000x1, .i32⟩
  | 45 => ⟨S900000, .f32⟩
  | 46 => ⟨S_, .i32⟩
  | 47 => ⟨S900000, .i32⟩
  | 48 => ⟨S900000, .i1⟩
  | 49 => ⟨S_, .i32⟩
  | 50 => ⟨S900000, .i32⟩
  | 51 => ⟨S900000, .i32⟩
  | 52 => ⟨S900000, .i32⟩
  | 53 => ⟨S900000x1, .i32⟩
  | 54 => ⟨S900000, .f32⟩
  | 55 => ⟨S900000, .f32⟩
  | 56 => ⟨S_, .i32⟩
  | 57 => ⟨S900000, .i32⟩
  | 58 => ⟨S900000, .i1⟩
  | 59 => ⟨S_, .i32⟩
  | 60 => ⟨S900000, .i32⟩
  | 61 => ⟨S900000, .i32⟩
  | 62 => ⟨S900000, .i32⟩
  | 63 => ⟨S900000x1, .i32⟩
  | 64 => ⟨S900000x256, .f32⟩
  | 65 => ⟨S900000x1, .f32⟩
  | 66 => ⟨S900000x256, .f32⟩
  | 67 => ⟨S900000x256, .f32⟩
  | 68 => ⟨S_, .f32⟩
  | 69 => ⟨S100000x256, .f32⟩
  | 70 => ⟨S900000x1, .i32⟩
  | 71 => ⟨S100000x256, .f32⟩
  | 72 => ⟨S1x256, .f32⟩
  | 73 => ⟨S100000x256, .f32⟩
  | 74 => ⟨S100000x256, .f32⟩
  | 75 => ⟨S_, .f32⟩
  | 76 => ⟨S256, .f32⟩
  | 77 => ⟨S_, .f32⟩
  | 78 => ⟨S256, .f32⟩
  | 79 => ⟨S256, .f32⟩
  | 80 => ⟨S1x256, .f32⟩
  | 81 => ⟨S100000x256, .f32⟩
  | 82 => ⟨S100000x256, .f32⟩
  | 83 => ⟨S100000x256, .f32⟩
  | 84 => ⟨S_, .f32⟩
  | 85 => ⟨S256, .f32⟩
  | 86 => ⟨S_, .f32⟩
  | 87 => ⟨S256, .f32⟩
  | 88 => ⟨S256, .f32⟩
  | 89 => ⟨S1x256, .f32⟩
  | 90 => ⟨S100000x256, .f32⟩
  | 91 => ⟨S100000x256, .f32⟩
  | 92 => ⟨S_, .f32⟩
  | 93 => ⟨S256, .f32⟩
  | 94 => ⟨S256, .f32⟩
  | 95 => ⟨S256, .f32⟩
  | 96 => ⟨S1x256, .f32⟩
  | 97 => ⟨S100000x256, .f32⟩
  | 98 => ⟨S100000x256, .f32⟩
  | 99 => ⟨S1x256, .f32⟩
  | 100 => ⟨S100000x256, .f32⟩
  | 101 => ⟨S100000x256, .f32⟩
  | 102 => ⟨S1x256, .f32⟩
  | 103 => ⟨S100000x256, .f32⟩
  | 104 => ⟨S100000x256, .f32⟩
  | 105 => ⟨S_, .f32⟩
  | 106 => ⟨S100000x256, .f32⟩
  | 107 => ⟨S100000x256, .f32⟩
  | 108 => ⟨S256x256, .f32⟩
  | 109 => ⟨S100000x256, .f32⟩
  | 110 => ⟨S_, .f32⟩
  | 111 => ⟨S900000, .f32⟩
  | 112 => ⟨S_, .f32⟩
  | 113 => ⟨S100000, .f32⟩
  | 114 => ⟨S900000x1, .i32⟩
  | 115 => ⟨S100000, .f32⟩
  | 116 => ⟨S_, .f32⟩
  | 117 => ⟨S100000, .f32⟩
  | 118 => ⟨S100000, .i1⟩
  | 119 => ⟨S100000, .f32⟩
  | 120 => ⟨S_, .f32⟩
  | 121 => ⟨S_, .f32⟩
  | 122 => ⟨S100000, .f32⟩
  | 123 => ⟨S100000, .f32⟩
  | 124 => ⟨S_, .i32⟩
  | 125 => ⟨S900000, .i32⟩
  | 126 => ⟨S900000, .i1⟩
  | 127 => ⟨S_, .i32⟩
  | _ => ⟨S100000x128, .f32⟩

abbrev hbmTy0_1 (i : Nat) : BufTy := match i % 128 with
  | 0 => ⟨S900000, .i32⟩
  | 1 => ⟨S900000, .i32⟩
  | 2 => ⟨S900000, .i32⟩
  | 3 => ⟨S900000x1, .i32⟩
  | 4 => ⟨S900000, .f32⟩
  | 5 => ⟨S_, .i32⟩
  | 6 => ⟨S900000, .i32⟩
  | 7 => ⟨S900000, .i1⟩
  | 8 => ⟨S_, .i32⟩
  | 9 => ⟨S900000, .i32⟩
  | 10 => ⟨S900000, .i32⟩
  | 11 => ⟨S900000, .i32⟩
  | 12 => ⟨S900000x1, .i32⟩
  | 13 => ⟨S900000, .f32⟩
  | 14 => ⟨S900000, .f32⟩
  | 15 => ⟨S_, .i32⟩
  | 16 => ⟨S900000, .i32⟩
  | 17 => ⟨S900000, .i1⟩
  | 18 => ⟨S_, .i32⟩
  | 19 => ⟨S900000, .i32⟩
  | 20 => ⟨S900000, .i32⟩
  | 21 => ⟨S900000, .i32⟩
  | 22 => ⟨S900000x1, .i32⟩
  | 23 => ⟨S900000x256, .f32⟩
  | 24 => ⟨S900000x1, .f32⟩
  | 25 => ⟨S900000x256, .f32⟩
  | 26 => ⟨S900000x256, .f32⟩
  | 27 => ⟨S_, .f32⟩
  | 28 => ⟨S100000x256, .f32⟩
  | 29 => ⟨S900000x1, .i32⟩
  | 30 => ⟨S100000x256, .f32⟩
  | 31 => ⟨S1x256, .f32⟩
  | 32 => ⟨S100000x256, .f32⟩
  | 33 => ⟨S100000x256, .f32⟩
  | 34 => ⟨S_, .f32⟩
  | 35 => ⟨S256, .f32⟩
  | 36 => ⟨S_, .f32⟩
  | 37 => ⟨S256, .f32⟩
  | 38 => ⟨S256, .f32⟩
  | 39 => ⟨S1x256, .f32⟩
  | 40 => ⟨S100000x256, .f32⟩
  | 41 => ⟨S100000x256, .f32⟩
  | 42 => ⟨S100000x256, .f32⟩
  | 43 => ⟨S_, .f32⟩
  | 44 => ⟨S256, .f32⟩
  | 45 => ⟨S_, .f32⟩
  | 46 => ⟨S256, .f32⟩
  | 47 => ⟨S256, .f32⟩
  | 48 => ⟨S1x256, .f32⟩
  | 49 => ⟨S100000x256, .f32⟩
  | 50 => ⟨S100000x256, .f32⟩
  | 51 => ⟨S_, .f32⟩
  | 52 => ⟨S256, .f32⟩
  | 53 => ⟨S256, .f32⟩
  | 54 => ⟨S256, .f32⟩
  | 55 => ⟨S1x256, .f32⟩
  | 56 => ⟨S100000x256, .f32⟩
  | 57 => ⟨S100000x256, .f32⟩
  | 58 => ⟨S1x256, .f32⟩
  | 59 => ⟨S100000x256, .f32⟩
  | 60 => ⟨S100000x256, .f32⟩
  | 61 => ⟨S1x256, .f32⟩
  | 62 => ⟨S100000x256, .f32⟩
  | 63 => ⟨S100000x256, .f32⟩
  | 64 => ⟨S_, .f32⟩
  | 65 => ⟨S100000x256, .f32⟩
  | 66 => ⟨S100000x256, .f32⟩
  | 67 => ⟨S256x256, .f32⟩
  | 68 => ⟨S100000x256, .f32⟩
  | 69 => ⟨S1x256, .f32⟩
  | 70 => ⟨S100000x256, .f32⟩
  | 71 => ⟨S100000x256, .f32⟩
  | 72 => ⟨S_, .f32⟩
  | 73 => ⟨S100000x256, .f32⟩
  | 74 => ⟨S100000x256, .f32⟩
  | 75 => ⟨S256x64, .f32⟩
  | 76 => ⟨S100000x64, .f32⟩
  | 77 => ⟨S1x64, .f32⟩
  | 78 => ⟨S100000x64, .f32⟩
  | 79 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call1_cst : Ref sig .tc := ⟨.hbm, 105, rfl⟩
abbrev main_call1_v0 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_17 : Ref sig .tc := ⟨.hbm, 120, rfl⟩
abbrev main_call2_v0 : Ref sig .tc := ⟨.hbm, 121, rfl⟩
abbrev main_call2_v1 : Ref sig .tc := ⟨.hbm, 122, rfl⟩
abbrev main_v83 : Ref sig .tc := ⟨.hbm, 123, rfl⟩
abbrev main_c_18 : Ref sig .tc := ⟨.hbm, 124, rfl⟩
abbrev main_v84 : Ref sig .tc := ⟨.hbm, 125, rfl⟩
abbrev main_v85 : Ref sig .tc := ⟨.hbm, 126, rfl⟩
abbrev main_c_19 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_c_20 : Ref sig .tc := ⟨.hbm, 133, rfl⟩
abbrev main_v91 : Ref sig .tc := ⟨.hbm, 134, rfl⟩
abbrev main_v92 : Ref sig .tc := ⟨.hbm, 135, rfl⟩
abbrev main_c_21 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_c_22 : Ref sig .tc := ⟨.hbm, 143, rfl⟩
abbrev main_v99 : Ref sig .tc := ⟨.hbm, 144, rfl⟩
abbrev main_v100 : Ref sig .tc := ⟨.hbm, 145, rfl⟩
abbrev main_c_23 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_24 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_25 : Ref sig .tc := ⟨.hbm, 162, rfl⟩
abbrev main_v115 : Ref sig .tc := ⟨.hbm, 163, rfl⟩
abbrev main_cst_26 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_27 : Ref sig .tc := ⟨.hbm, 171, rfl⟩
abbrev main_v122 : Ref sig .tc := ⟨.hbm, 172, rfl⟩
abbrev main_cst_28 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_29 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_call3_cst : Ref sig .tc := ⟨.hbm, 192, rfl⟩
abbrev main_call3_v0 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_call4_cst : Ref sig .tc := ⟨.hbm, 200, rfl⟩
abbrev main_call4_v0 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  transposes_S256x128_S128x256_1_0 : S256x128.Transposes [1, 0] S128x256
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  transposes_S256x256_S256x256_1_0 : S256x256.Transposes [1, 0] S256x256
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x256_S100000x256_1_0_0_1_n_n_wf : DotDims.WF S100000x128 S128x256 S100000x256 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x256_S100000x256_1_0_0_1_n_n_wf : DotDims.WF S100000x256 S256x256 S100000x256 [1] [0] [0] [1] [] []
  dot_S100000x256_S256x64_S100000x64_1_0_0_1_n_n_wf : DotDims.WF S100000x256 S256x64 S100000x64 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.K.Assembly.lean ====
/-
  The run of @main, assembled from the eight regions' proof data.

  Between two items of @main (a stretch of host operations, or a kernel region) core `c` holds every unscoped buffer
  whole at a known valuation: the launch memory, then each host stretch applied, then — across a region — the
  region's arrays at what its fifty write-backs leave and every other buffer as it was. Each region enters the
  pipeline from that state, gives the pipeline its arrays, and takes them back at the end; nothing else changes.
  Read at the end, every argument array is as launched (no stretch and no region writes one), and the result array
  is what the last region leaves. Everything here is generic in the float instance and in the regions' proof data,
  which enter as one record per region (`PackK`): the arrays the region finds, the body's obligation at every grid
  point, and the two entailments that move the scoped buffers into the region's invariant and back.
-/
import proofs.«166096_j40321152975189_1_alg».proof.Proof.Gen.Kernel.Launch
import proofs.«166096_j40321152975189_1_alg».proof.Proof.Gen.Kernel.Skeleton
import proofs.«166096_j40321152975189_1_alg».proof.Proof.Gen.Kernel.Points
import proofs.«166096_j40321152975189_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core: what a region's proof data are stated at. -/
abbrev Contents (F : FTy → Type) [FloatOps F] : Type := (c : Dev nD) → (b : Ref sig .tc) → Buf (Elt F) ((c : Thread nD τ).loc b)

/-- No pallas_call of this program has a prefetched table. -/
abbrev adm' : (p : Fin 8) → (pcfgs (F := F) p).Adm := fun p => (cfgs p).toPCfg_adm

/-! ## One record per region: what the run needs to know of it -/

/-- Region 0 at the entry contents `V`: its proof data on each core (arrays as found, full shares, nothing owed),
    the body's obligation at every grid point, and its invariant entered from / left to the scoped buffers no window
    stages beside the core's generator register. -/
structure Pack0 (V : Contents F) where
  dat : (c : Dev nD) → Dat τ (Elt F) Unit ℕ (UR sig nD τ) ℕ cfg0 c
  A_eq : ∀ (c : Dev nD) (w : Fin cfg0.W), (dat c).A w = V c (Pipeline.arrRef spec0 w)
  q_full : ∀ (c : Dev nD) (w : Fin cfg0.W), (dat c).q w = fullShare
  owed_zero : ∀ (c : Dev nD) (t : Fin (cfg0.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 0).pre c (fun _ => fullShare) (adm' (F := F) 0).1
      ∗ Pipeline.scopedRest spec0 c) : sProp 𝕄) ⊢ (dat c).Φ 0
  hout : ∀ c : Dev nD, (dat c).Φ (Fin.last cfg0.N) ⊢ (iprop((∃ r, prngReg c r) ∗ Pipeline.ownSems0 (fun k : PEmpty => k.elim) c
      ∗ Pipeline.scopedRest spec0 c) : sProp 𝕄)

/-- Region 1 at the entry contents `V`: its proof data on each core (arrays as found, full shares, nothing owed),
    the body's obligation at every grid point, and its invariant entered from / left to the scoped buffers no window
    stages beside the core's generator register. -/
structure Pack1 (V : Contents F) where
  dat : (c : Dev nD) → Dat τ (Elt F) Unit ℕ (UR sig nD τ) ℕ cfg1 c
  A_eq : ∀ (c : Dev nD) (w : Fin cfg1.W), (dat c).A w = V c (Pipeline.arrRef spec1 w)
  q_full : ∀ (c : Dev nD) (w : Fin cfg1.W), (dat c).q w = fullShare
  owed_zero : ∀ (c : Dev nD) (t : Fin (cfg1.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 1).pre c (fun _ => fullShare) (adm' (F := F) 1).1
      ∗ Pipeline.scopedRest spec1 c) : sProp 𝕄) ⊢ (dat c).Φ 0
  hout : ∀ c : Dev nD, (dat c).Φ (Fin.last cfg1.N) ⊢ (iprop((∃ r, prngReg c r) ∗ Pipeline.ownSems0 (fun k : PEmpty => k.elim) c
      ∗ Pipeline.scopedRest spec1 c) : sProp 𝕄)

/-- Region 2 at the entry contents `V`: its proof data on each core (arrays as found, full shares, nothing owed),
    the body's obligation at every grid point, and its invariant entered from / left to the scoped buffers no window
    stages beside the core's generator register. -/
structure Pack2 (V : Contents F) where
  dat : (c : Dev nD) → Dat τ (Elt F) Unit ℕ (UR sig nD τ) ℕ cfg2 c
  A_eq : ∀ (c : Dev nD) (w : Fin cfg2.W), (dat c).A w = V c (Pipeline.arrRef spec2 w)
  q_full : ∀ (c : Dev nD) (w : Fin cfg2.W), (dat c).q w = fullShare
  owed_zero : ∀ (c : Dev nD) (t : Fin (cfg2.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 2).pre c (fun _ => fullShare) (adm' (F := F) 2).1
      ∗ Pipeline.scopedRest spec2 c) : sProp 𝕄) ⊢ (dat c).Φ 0
  hout : ∀ c : Dev nD, (dat c).Φ (Fin.last cfg2.N) ⊢ (iprop((∃ r, prngReg c r) ∗ Pipeline.ownSems0 (fun k : PEmpty => k.elim) c
      ∗ Pipeline.scopedRest spec2 c) : sProp 𝕄)

/-- Region 3 at the entry contents `V`: its proof data on each core (arrays as found, full shares, nothing owed),
    the body's obligation at every grid point, and its invariant entered from / left to the scoped buffers no window
    stages beside the core's generator register. -/
structure Pack3 (V : Contents F) where
  dat : (c : Dev nD) → Dat τ (Elt F) Unit ℕ (UR sig nD τ) ℕ cfg3 c
  A_eq : ∀ (c : Dev nD) (w : Fin cfg3.W), (dat c).A w = V c (Pipeline.arrRef spec3 w)
  q_full : ∀ (c : Dev nD) (w : Fin cfg3.W), (dat c).q w = fullShare
  owed_zero : ∀ (c : Dev nD) (t : Fin (cfg3.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 3).pre c (fun _ => fullShare) (adm' (F := F) 3).1
      ∗ Pipeline.scopedRest spec3 c) : sProp 𝕄) ⊢ (dat c).Φ 0
  hout : ∀ c : Dev nD, (dat c).Φ (Fin.last cfg3.N) ⊢ (iprop((∃ r, prngReg c r) ∗ Pipeline.ownSems0 (fun k : PEmpty => k.elim) c
      ∗ Pipeline.scopedRest spec3 c) : sProp 𝕄)

/-- Region 4 at the entry contents `V`: its proof data on each core (arrays as found, full shares, nothing owed),
    the body's obligation at every grid point, and its invariant entered from / left to the scoped buffers no window
    stages beside the core's generator register. -/
structure Pack4 (V : Contents F) where
  dat : (c : Dev nD) → Dat τ (Elt F) Unit ℕ (UR sig nD τ) ℕ cfg4 c
  A_eq : ∀ (c : Dev nD) (w : Fin cfg4.W), (dat c).A w = V c (Pipeline.arrRef spec4 w)
  q_full : ∀ (c : Dev nD) (w : Fin cfg4.W), (dat c).q w = fullShare
  owed_zero : ∀ (c : Dev nD) (t : Fin (cfg4.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 4).pre c (fun _ => fullShare) (adm' (F := F) 4).1
      ∗ Pipeline.scopedRest spec4 c) : sProp 𝕄) ⊢ (dat c).Φ 0
  hout : ∀ c : Dev nD, (dat c).Φ (Fin.last cfg4.N) ⊢ (iprop((∃ r, prngReg c r) ∗ Pipeline.ownSems0 (fun k : PEmpty => k.elim) c
      ∗ Pipeline.scopedRest spec4 c) : sProp 𝕄)

/-- Region 5 at the entry contents `V`: its proof data on each core (arrays as found, full shares, nothing owed),
    the body's obligation at every grid point, and its invariant entered from / left to the scoped buffers no window
    stages beside the core's generator register. -/
structure Pack5 (V : Contents F) where
  dat : (c : Dev nD) → Dat τ (Elt F) Unit ℕ (UR sig nD τ) ℕ cfg5 c
  A_eq : ∀ (c : Dev nD) (w : Fin cfg5.W), (dat c).A w = V c (Pipeline.arrRef spec5 w)
  q_full : ∀ (c : Dev nD) (w : Fin cfg5.W), (dat c).q w = fullShare
  owed_zero : ∀ (c : Dev nD) (t : Fin (cfg5.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 5).pre c (fun _ => fullShare) (adm' (F := F) 5).1
      ∗ Pipeline.scopedRest spec5 c) : sProp 𝕄) ⊢ (dat c).Φ 0
  hout : ∀ c : Dev nD, (dat c).Φ (Fin.last cfg5.N) ⊢ (iprop((∃ r, prngReg c r) ∗ Pipeline.ownSems0 (fun k : PEmpty => k.elim) c
      ∗ Pipeline.scopedRest spec5 c) : sProp 𝕄)

/-- Region 6 at the entry contents `V`: its proof data on each core (arrays as found, full shares, nothing owed),
    the body's obligation at every grid point, and its invariant entered from / left to the scoped buffers no window
    stages beside the core's generator register. -/
structure Pack6 (V : Contents F) where
  dat : (c : Dev nD) → Dat τ (Elt F) Unit ℕ (UR sig nD τ) ℕ cfg6 c
  A_eq : ∀ (c : Dev nD) (w : Fin cfg6.W), (dat c).A w = V c (Pipeline.arrRef spec6 w)
  q_full : ∀ (c : Dev nD) (w : Fin cfg6.W), (dat c).q w = fullShare
  owed_zero : ∀ (c : Dev nD) (t : Fin (cfg6.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 6).pre c (fun _ => fullShare) (adm' (F := F) 6).1
      ∗ Pipeline.scopedRest spec6 c) : sProp 𝕄) ⊢ (dat c).Φ 0
  hout : ∀ c : Dev nD, (dat c).Φ (Fin.last cfg6.N) ⊢ (iprop((∃ r, prngReg c r) ∗ Pipeline.ownSems0 (fun k : PEmpty => k.elim) c
      ∗ Pipeline.scopedRest spec6 c) : sProp 𝕄)

/-- Region 7 at the entry contents `V`: its proof data on each core (arrays as found, full shares, nothing owed),
    the body's obligation at every grid point, and its invariant entered from / left to the scoped buffers no window
    stages beside the core's generator register. -/
structure Pack7 (V : Contents F) where
  dat : (c : Dev nD) → Dat τ (Elt F) Unit ℕ (UR sig nD τ) ℕ cfg7 c
  A_eq : ∀ (c : Dev nD) (w : Fin cfg7.W), (dat c).A w = V c (Pipeline.arrRef spec7 w)
  q_full : ∀ (c : Dev nD) (w : Fin cfg7.W), (dat c).q w = fullShare
  owed_zero : ∀ (c : Dev nD) (t : Fin (cfg7.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 7).pre c (fun _ => fullShare) (adm' (F := F) 7).1
      ∗ Pipeline.scopedRest spec7 c) : sProp 𝕄) ⊢ (dat c).Φ 0
  hout : ∀ c : Dev nD, (dat c).Φ (Fin.last cfg7.N) ⊢ (iprop((∃ r, prngReg c r) ∗ Pipeline.ownSems0 (fun k : PEmpty => k.elim) c
      ∗ Pipeline.scopedRest spec7 c) : sProp 𝕄)

/-- The eight regions' records, each at any entry contents. -/
structure Packs (F : FTy → Type) [FloatOps F] where
  p0 : (V : Contents F) → Pack0 V
  p1 : (V : Contents F) → Pack1 V
  p2 : (V : Contents F) → Pack2 V
  p3 : (V : Contents F) → Pack3 V
  p4 : (V : Contents F) → Pack4 V
  p5 : (V : Contents F) → Pack5 V
  p6 : (V : Contents F) → Pack6 V
  p7 : (V : Contents F) → Pack7 V

/-- A launch memory. -/
abbrev Mem (F : FTy → Type) [FloatOps F] : Type := (ℓ : Loc nD τ sig) → Buf (Elt F) ℓ

/-! ## The buffer contents at each boundary between two items of @main -/

/-- Core `c`'s buffers at launch. -/
abbrev W0 (m : Mem F) (P : Packs F) : Dev nD → Valuation τ sig (Elt F) := fun c b => m (c, b)
abbrev C0 (m : Mem F) (P : Packs F) : Contents F := fun c b => W0 m P c b

/-- After the host stretch `hostOps0`. -/
abbrev W1 (m : Mem F) (P : Packs F) : Dev nD → Valuation τ sig (Elt F) := fun c => StableHlo.after hostOps0 (W0 m P c)
abbrev C1 (m : Mem F) (P : Packs F) : Contents F := fun c b => W1 m P c b
/-- A buffer the stretch does not write keeps its contents. -/
theorem W1_keep (m : Mem F) (P : Packs F) (c : Dev nD) (b : Ref sig .tc) (h : b ∉ hostOps0_W) : W1 m P c b = W0 m P c b :=
  StableHlo.after_of_writes_sub hostOps0 _ hostOps0_writes h

/-- After the host stretch `hostOps0_1`. -/
abbrev W2 (m : Mem F) (P : Packs F) : Dev nD → Valuation τ sig (Elt F) := fun c => StableHlo.after hostOps0_1 (W1 m P c)
abbrev C2 (m : Mem F) (P : Packs F) : Contents F := fun c b => W2 m P c b
/-- A buffer the stretch does not write keeps its contents. -/
theorem W2_keep (m : Mem F) (P : Packs F) (c : Dev nD) (b : Ref sig .tc) (h : b ∉ hostOps0_1_W) : W2 m P c b = W1 m P c b :=
  StableHlo.after_of_writes_sub hostOps0_1 _ hostOps0_1_writes h

/-- After the host stretch `hostOps0_2`. -/
abbrev W3 (m : Mem F) (P : Packs F) : Dev nD → Valuation τ sig (Elt F) := fun c => StableHlo.after hostOps0_2 (W2 m P c)
abbrev C3 (m : Mem F) (P : Packs F) : Contents F := fun c b => W3 m P c b
/-- A buffer the stretch does not write keeps its contents. -/
theorem W3_keep (m : Mem F) (P : Packs F) (c : Dev nD) (b : Ref sig .tc) (h : b ∉ hostOps0_2_W) : W3 m P c b = W2 m P c b :=
  StableHlo.after_of_writes_sub hostOps0_2 _ hostOps0_2_writes h

/-- After region 0: its arrays at what the pipeline's write-backs leave, every other buffer as it was. -/
def W4 (m : Mem F) (P : Packs F) (c : Dev nD) : Valuation τ sig (Elt F) :=
  Pipeline.withArrays spec0 c (W3 m P c) fun w => ((P.p0 (C3 m P)).dat c).arrAt w cfg0.N
theorem W4_arr (m : Mem F) (P : Packs F) (c : Dev nD) (w : Fin cfg0.W) :
    W4 m P c (Proc.devRef .tc (Pipeline.arrRef spec0 w)) = ((P.p0 (C3 m P)).dat c).arrAt w cfg0.N := by
  unfold W4; exact Pipeline.withArrays_arr spec0 launch0.win.arr_inj c _ _ w
theorem W4_of_ne (m : Mem F) (P : Packs F) (c : Dev nD) (b : Ref sig .tc) (hb : ∀ w, Pipeline.arrRef spec0 w ≠ b) :
    W4 m P c (Proc.devRef .tc b) = W3 m P c (Proc.devRef .tc b) := by
  unfold W4; exact Pipeline.withArrays_of_ne spec0 c _ _ b hb
abbrev C4 (m : Mem F) (P : Packs F) : Contents F := fun c b => W4 m P c b
theorem hF0 (m : Mem F) (P : Packs F) (c : Dev nD) (w : Fin cfg0.W) :
    ((P.p0 (C3 m P)).dat c).arrAt w cfg0.N = C4 m P c (Pipeline.arrRef spec0 w) := (W4_arr m P c w).symm
theorem hrest0 (m : Mem F) (P : Packs F) (c : Dev nD) :
    ∀ b, b ∉ Finset.univ.image (Pipeline.arrRef spec0) → C4 m P c b = C3 m P c b :=
  fun b hb => W4_of_ne m P c b fun w e => hb (Finset.mem_image.mpr ⟨w, Finset.mem_univ _, e⟩)

/-- After the host stretch `hostOps1`. -/
abbrev W5 (m : Mem F) (P : Packs F) : Dev nD → Valuation τ sig (Elt F) := fun c => StableHlo.after hostOps1 (W4 m P c)
abbrev C5 (m : Mem F) (P : Packs F) : Contents F := fun c b => W5 m P c b
/-- A buffer the stretch does not write keeps its contents. -/
theorem W5_keep (m : Mem F) (P : Packs F) (c : Dev nD) (b : Ref sig .tc) (h : b ∉ hostOps1_W) : W5 m P c b = W4 m P c b :=
  StableHlo.after_of_writes_sub hostOps1 _ hostOps1_writes h

/-- After region 1: its arrays at what the pipeline's write-backs leave, every other buffer as it was. -/
def W6 (m : Mem F) (P : Packs F) (c : Dev nD) : Valuation τ sig (Elt F) :=
  Pipeline.withArrays spec1 c (W5 m P c) fun w => ((P.p1 (C5 m P)).dat c).arrAt w cfg1.N
theorem W6_arr (m : Mem F) (P : Packs F) (c : Dev nD) (w : Fin cfg1.W) :
    W6 m P c (Proc.devRef .tc (Pipeline.arrRef spec1 w)) = ((P.p1 (C5 m P)).dat c).arrAt w cfg1.N := by
  unfold W6; exact Pipeline.withArrays_arr spec1 launch1.win.arr_inj c _ _ w
theorem W6_of_ne (m : Mem F) (P : Packs F) (c : Dev nD) (b : Ref sig .tc) (hb : ∀ w, Pipeline.arrRef spec1 w ≠ b) :
    W6 m P c (Proc.devRef .tc b) = W5 m P c (Proc.devRef .tc b) := by
  unfold W6; exact Pipeline.withArrays_of_ne spec1 c _ _ b hb
abbrev C6 (m : Mem F) (P : Packs F) : Contents F := fun c b => W6 m P c b
theorem hF1 (m : Mem F) (P : Packs F) (c : Dev nD) (w : Fin cfg1.W) :
    ((P.p1 (C5 m P)).dat c).arrAt w cfg1.N = C6 m P c (Pipeline.arrRef spec1 w) := (W6_arr m P c w).symm
theorem hrest1 (m : Mem F) (P : Packs F) (c : Dev nD) :
    ∀ b, b ∉ Finset.univ.image (Pipeline.arrRef spec1) → C6 m P c b = C5 m P c b :=
  fun b hb => W6_of_ne m P c b fun w e => hb (Finset.mem_image.mpr ⟨w, Finset.mem_univ _, e⟩)

/-- After region 2: its arrays at what the pipeline's write-backs leave, every other buffer as it was. -/
def W7 (m : Mem F) (P : Packs F) (c : Dev nD) : Valuation τ sig (Elt F) :=
  Pipeline.withArrays spec2 c (W6 m P c) fun w => ((P.p2 (C6 m P)).dat c).arrAt w cfg2.N
theorem W7_arr (m : Mem F) (P : Packs F) (c : Dev nD) (w : Fin cfg2.W) :
    W7 m P c (Proc.devRef .tc (Pipeline.arrRef spec2 w)) = ((P.p2 (C6 m P)).dat c).arrAt w cfg2.N := by
  unfold W7; exact Pipeline.withArrays_arr spec2 launch2.win.arr_inj c _ _ w
theorem W7_of_ne (m : Mem F) (P : Packs F) (c : Dev nD) (b : Ref sig .tc) (hb : ∀ w, Pipeline.arrRef spec2 w ≠ b) :
    W7 m P c (Proc.devRef .tc b) = W6 m P c (Proc.devRef .tc b) := by
  unfold W7; exact Pipeline.withArrays_of_ne spec2 c _ _ b hb
abbrev C7 (m : Mem F) (P : Packs F) : Contents F := fun c b => W7 m P c b
theorem hF2 (m : Mem F) (P : Packs F) (c : Dev nD) (w : Fin cfg2.W) :
    ((P.p2 (C6 m P)).dat c).arrAt w cfg2.N = C7 m P c (Pipeline.arrRef spec2 w) := (W7_arr m P c w).symm
theorem hrest2 (m : Mem F) (P : Packs F) (c : Dev nD) :
    ∀ b, b ∉ Finset.univ.image (Pipeline.arrRef spec2) → C7 m P c b = C6 m P c b :=
  fun b hb => W7_of_ne m P c b fun w e => hb (Finset.mem_image.mpr ⟨w, Finset.mem_univ _, e⟩)

/-- After the host stretch `hostOps3`. -/
abbrev W8 (m : Mem F) (P : Packs F) : Dev nD → Valuation τ sig (Elt F) := fun c => StableHlo.after hostOps3 (W7 m P c)
abbrev C8 (m : Mem F) (P : Packs F) : Contents F := fun c b => W8 m P c b
/-- A buffer the stretch does not write keeps its contents. -/
theorem W8_keep (m : Mem F) (P : Packs F) (c : Dev nD) (b : Ref sig .tc) (h : b ∉ hostOps3_W) : W8 m P c b = W7 m P c b :=
  StableHlo.after_of_writes_sub hostOps3 _ hostOps3_writes h

/-- After region 3: its arrays at what the pipeline's write-backs leave, every other buffer as it was. -/
def W9 (m : Mem F) (P : Packs F) (c : Dev nD) : Valuation τ sig (Elt F) :=
  Pipeline.withArrays spec3 c (W8 m P c) fun w => ((P.p3 (C8 m P)).dat c).arrAt w cfg3.N
theorem W9_arr (m : Mem F) (P : Packs F) (c : Dev nD) (w : Fin cfg3.W) :
    W9 m P c (Proc.devRef .tc (Pipeline.arrRef spec3 w)) = ((P.p3 (C8 m P)).dat c).arrAt w cfg3.N := by
  unfold W9; exact Pipeline.withArrays_arr spec3 launch3.win.arr_inj c _ _ w
theorem W9_of_ne (m : Mem F) (P : Packs F) (c : Dev nD) (b : Ref sig .tc) (hb : ∀ w, Pipeline.arrRef spec3 w ≠ b) :
    W9 m P c (Proc.devRef .tc b) = W8 m P c (Proc.devRef .tc b) := by
  unfold W9; exact Pipeline.withArrays_of_ne spec3 c _ _ b hb
abbrev C9 (m : Mem F) (P : Packs F) : Contents F := fun c b => W9 m P c b
theorem hF3 (m : Mem F) (P : Packs F) (c : Dev nD) (w : Fin cfg3.W) :
    ((P.p3 (C8 m P)).dat c).arrAt w cfg3.N = C9 m P c (Pipeline.arrRef spec3 w) := (W9_arr m P c w).symm
theorem hrest3 (m : Mem F) (P : Packs F) (c : Dev nD) :
    ∀ b, b ∉ Finset.univ.image (Pipeline.arrRef spec3) → C9 m P c b = C8 m P c b :=
  fun b hb => W9_of_ne m P c b fun w e => hb (Finset.mem_image.mpr ⟨w, Finset.mem_univ _, e⟩)

/-- After the host stretch `hostOps4`. -/
abbrev W10 (m : Mem F) (P : Packs F) : Dev nD → Valuation τ sig (Elt F) := fun c => StableHlo.after hostOps4 (W9 m P c)
abbrev C10 (m : Mem F) (P : Packs F) : Contents F := fun c b => W10 m P c b
/-- A buffer the stretch does not write keeps its contents. -/
theorem W10_keep (m : Mem F) (P : Packs F) (c : Dev nD) (b : Ref sig .tc) (h : b ∉ hostOps4_W) : W10 m P c b = W9 m P c b :=
  StableHlo.after_of_writes_sub hostOps4 _ hostOps4_writes h

/-- After region 4: its arrays at what the pipeline's write-backs leave, every other buffer as it was. -/
def W11 (m : Mem F) (P : Packs F) (c : Dev nD) : Valuation τ sig (Elt F) :=
  Pipeline.withArrays spec4 c (W10 m P c) fun w => ((P.p4 (C10 m P)).dat c).arrAt w cfg4.N
theorem W11_arr (m : Mem F) (P : Packs F) (c : Dev nD) (w : Fin cfg4.W) :
    W11 m P c (Proc.devRef .tc (Pipeline.arrRef spec4 w)) = ((P.p4 (C10 m P)).dat c).arrAt w cfg4.N := by
  unfold W11; exact Pipeline.withArrays_arr spec4 launch4.win.arr_inj c _ _ w
theorem W11_of_ne (m : Mem F) (P : Packs F) (c : Dev nD) (b : Ref sig .tc) (hb : ∀ w, Pipeline.arrRef spec4 w ≠ b) :
    W11 m P c (Proc.devRef .tc b) = W10 m P c (Proc.devRef .tc b) := by
  unfold W11; exact Pipeline.withArrays_of_ne spec4 c _ _ b hb
abbrev C11 (m : Mem F) (P : Packs F) : Contents F := fun c b => W11 m P c b
theorem hF4 (m : Mem F) (P : Packs F) (c : Dev nD) (w : Fin cfg4.W) :
    ((P.p4 (C10 m P)).dat c).arrAt w cfg4.N = C11 m P c (Pipeline.arrRef spec4 w) := (W11_arr m P c w).symm
theorem hrest4 (m : Mem F) (P : Packs F) (c : Dev nD) :
    ∀ b, b ∉ Finset.univ.image (Pipeline.arrRef spec4) → C11 m P c b = C10 m P c b :=
  fun b hb => W11_of_ne m P c b fun w e => hb (Finset.mem_image.mpr ⟨w, Finset.mem_univ _, e⟩)

/-- After region 5: its arrays at what the pipeline's write-backs leave, every other buffer as it was. -/
def W12 (m : Mem F) (P : Packs F) (c : Dev nD) : Valuation τ sig (Elt F) :=
  Pipeline.withArrays spec5 c (W11 m P c) fun w => ((P.p5 (C11 m P)).dat c).arrAt w cfg5.N
theorem W12_arr (m : Mem F) (P : Packs F) (c : Dev nD) (w : Fin cfg5.W) :
    W12 m P c (Proc.devRef .tc (Pipeline.arrRef spec5 w)) = ((P.p5 (C11 m P)).dat c).arrAt w cfg5.N := by
  unfold W12; exact Pipeline.withArrays_arr spec5 launch5.win.arr_inj c _ _ w
theorem W12_of_ne (m : Mem F) (P : Packs F) (c : Dev nD) (b : Ref sig .tc) (hb : ∀ w, Pipeline.arrRef spec5 w ≠ b) :
    W12 m P c (Proc.devRef .tc b) = W11 m P c (Proc.devRef .tc b) := by
  unfold W12; exact Pipeline.withArrays_of_ne spec5 c _ _ b hb
abbrev C12 (m : Mem F) (P : Packs F) : Contents F := fun c b => W12 m P c b
theorem hF5 (m : Mem F) (P : Packs F) (c : Dev nD) (w : Fin cfg5.W) :
    ((P.p5 (C11 m P)).dat c).arrAt w cfg5.N = C12 m P c (Pipeline.arrRef spec5 w) := (W12_arr m P c w).symm
theorem hrest5 (m : Mem F) (P : Packs F) (c : Dev nD) :
    ∀ b, b ∉ Finset.univ.image (Pipeline.arrRef spec5) → C12 m P c b = C11 m P c b :=
  fun b hb => W12_of_ne m P c b fun w e => hb (Finset.mem_image.mpr ⟨w, Finset.mem_univ _, e⟩)

/-- After the host stretch `hostOps6`. -/
abbrev W13 (m : Mem F) (P : Packs F) : Dev nD → Valuation τ sig (Elt F) := fun c => StableHlo.after hostOps6 (W12 m P c)
abbrev C13 (m : Mem F) (P : Packs F) : Contents F := fun c b => W13 m P c b
/-- A buffer the stretch does not write keeps its contents. -/
theorem W13_keep (m : Mem F) (P : Packs F) (c : Dev nD) (b : Ref sig .tc) (h : b ∉ hostOps6_W) : W13 m P c b = W12 m P c b :=
  StableHlo.after_of_writes_sub hostOps6 _ hostOps6_writes h

/-- After region 6: its arrays at what the pipeline's write-backs leave, every other buffer as it was. -/
def W14 (m : Mem F) (P : Packs F) (c : Dev nD) : Valuation τ sig (Elt F) :=
  Pipeline.withArrays spec6 c (W13 m P c) fun w => ((P.p6 (C13 m P)).dat c).arrAt w cfg6.N
theorem W14_arr (m : Mem F) (P : Packs F) (c : Dev nD) (w : Fin cfg6.W) :
    W14 m P c (Proc.devRef .tc (Pipeline.arrRef spec6 w)) = ((P.p6 (C13 m P)).dat c).arrAt w cfg6.N := by
  unfold W14; exact Pipeline.withArrays_arr spec6 launch6.win.arr_inj c _ _ w
theorem W14_of_ne (m : Mem F) (P : Packs F) (c : Dev nD) (b : Ref sig .tc) (hb : ∀ w, Pipeline.arrRef spec6 w ≠ b) :
    W14 m P c (Proc.devRef .tc b) = W13 m P c (Proc.devRef .tc b) := by
  unfold W14; exact Pipeline.withArrays_of_ne spec6 c _ _ b hb
abbrev C14 (m : Mem F) (P : Packs F) : Contents F := fun c b => W14 m P c b
theorem hF6 (m : Mem F) (P : Packs F) (c : Dev nD) (w : Fin cfg6.W) :
    ((P.p6 (C13 m P)).dat c).arrAt w cfg6.N = C14 m P c (Pipeline.arrRef spec6 w) := (W14_arr m P c w).symm
theorem hrest6 (m : Mem F) (P : Packs F) (c : Dev nD) :
    ∀ b, b ∉ Finset.univ.image (Pipeline.arrRef spec6) → C14 m P c b = C13 m P c b :=
  fun b hb => W14_of_ne m P c b fun w e => hb (Finset.mem_image.mpr ⟨w, Finset.mem_univ _, e⟩)

/-- After the host stretch `hostOps7`. -/
abbrev W15 (m : Mem F) (P : Packs F) : Dev nD → Valuation τ sig (Elt F) := fun c => StableHlo.after hostOps7 (W14 m P c)
abbrev C15 (m : Mem F) (P : Packs F) : Contents F := fun c b => W15 m P c b
/-- A buffer the stretch does not write keeps its contents. -/
theorem W15_keep (m : Mem F) (P : Packs F) (c : Dev nD) (b : Ref sig .tc) (h : b ∉ hostOps7_W) : W15 m P c b = W14 m P c b :=
  StableHlo.after_of_writes_sub hostOps7 _ hostOps7_writes h

/-- After region 7: its arrays at what the pipeline's write-backs leave, every other buffer as it was. -/
def W16 (m : Mem F) (P : Packs F) (c : Dev nD) : Valuation τ sig (Elt F) :=
  Pipeline.withArrays spec7 c (W15 m P c) fun w => ((P.p7 (C15 m P)).dat c).arrAt w cfg7.N
theorem W16_arr (m : Mem F) (P : Packs F) (c : Dev nD) (w : Fin cfg7.W) :
    W16 m P c (Proc.devRef .tc (Pipeline.arrRef spec7 w)) = ((P.p7 (C15 m P)).dat c).arrAt w cfg7.N := by
  unfold W16; exact Pipeline.withArrays_arr spec7 launch7.win.arr_inj c _ _ w
theorem W16_of_ne (m : Mem F) (P : Packs F) (c : Dev nD) (b : Ref sig .tc) (hb : ∀ w, Pipeline.arrRef spec7 w ≠ b) :
    W16 m P c (Proc.devRef .tc b) = W15 m P c (Proc.devRef .tc b) := by
  unfold W16; exact Pipeline.withArrays_of_ne spec7 c _ _ b hb
abbrev C16 (m : Mem F) (P : Packs F) : Contents F := fun c b => W16 m P c b
theorem hF7 (m : Mem F) (P : Packs F) (c : Dev nD) (w : Fin cfg7.W) :
    ((P.p7 (C15 m P)).dat c).arrAt w cfg7.N = C16 m P c (Pipeline.arrRef spec7 w) := (W16_arr m P c w).symm
theorem hrest7 (m : Mem F) (P : Packs F) (c : Dev nD) :
    ∀ b, b ∉ Finset.univ.image (Pipeline.arrRef spec7) → C16 m P c b = C15 m P c b :=
  fun b hb => W16_of_ne m P c b fun w e => hb (Finset.mem_image.mpr ⟨w, Finset.mem_univ _, e⟩)

/-! ## The arguments end as launched -/

/-- A buffer that no host stretch writes and that is no region's array holds its launch contents at the end. -/
theorem W16_untouched (m : Mem F) (P : Packs F) (c : Dev nD) (b : Ref sig .tc)
    (h0 : b ∉ hostOps0_W) (h1 : b ∉ hostOps0_1_W) (h2 : b ∉ hostOps0_2_W) (h3 : ∀ w, Pipeline.arrRef spec0 w ≠ b) (h4 : b ∉ hostOps1_W) (h5 : ∀ w, Pipeline.arrRef spec1 w ≠ b) (h6 : ∀ w, Pipeline.arrRef spec2 w ≠ b) (h7 : b ∉ hostOps3_W) (h8 : ∀ w, Pipeline.arrRef spec3 w ≠ b) (h9 : b ∉ hostOps4_W) (h10 : ∀ w, Pipeline.arrRef spec4 w ≠ b) (h11 : ∀ w, Pipeline.arrRef spec5 w ≠ b) (h12 : b ∉ hostOps6_W) (h13 : ∀ w, Pipeline.arrRef spec6 w ≠ b) (h14 : b ∉ hostOps7_W) (h15 : ∀ w, Pipeline.arrRef spec7 w ≠ b) :
    W16 m P c (Proc.devRef .tc b) = m ((c : Thread nD τ).loc b) :=
  (W16_of_ne m P c b h15).trans <| (W15_keep m P c b h14).trans <| (W14_of_ne m P c b h13).trans <| (W13_keep m P c b h12).trans <| (W12_of_ne m P c b h11).trans <| (W11_of_ne m P c b h10).trans <| (W10_keep m P c b h9).trans <| (W9_of_ne m P c b h8).trans <| (W8_keep m P c b h7).trans <| (W7_of_ne m P c b h6).trans <| (W6_of_ne m P c b h5).trans <| (W5_keep m P c b h4).trans <| (W4_of_ne m P c b h3).trans <| (W3_keep m P c b h2).trans <| (W2_keep m P c b h1).trans <| (W1_keep m P c b h0).trans <| rfl

/-! ## The proof data family and the thread state -/

/-- Every pipeline's proof data, each at its region's entry contents (a literal match on the pipeline's index). -/
def pdats (m : Mem F) (P : Packs F) : (p : Fin 8) → (c : Dev nD) → Dat τ (Elt F) Unit ℕ (UR sig nD τ) ℕ (Pipeline.pin (pcfgs (F := F)) adm' p) c
  | ⟨0, _⟩ => fun c => (P.p0 (C3 m P)).dat c
  | ⟨1, _⟩ => fun c => (P.p1 (C5 m P)).dat c
  | ⟨2, _⟩ => fun c => (P.p2 (C6 m P)).dat c
  | ⟨3, _⟩ => fun c => (P.p3 (C8 m P)).dat c
  | ⟨4, _⟩ => fun c => (P.p4 (C10 m P)).dat c
  | ⟨5, _⟩ => fun c => (P.p5 (C11 m P)).dat c
  | ⟨6, _⟩ => fun c => (P.p6 (C13 m P)).dat c
  | ⟨7, _⟩ => fun c => (P.p7 (C15 m P)).dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W3`, left with them at `W4`. Its arrays
    are split out of the unscoped buffers and put back at their exit contents; the generator register and the scoped
    buffers go into the region's invariant and come back; nothing is owed; the kernel has no semaphore of its own. -/
def reg0 (m : Mem F) (P : Packs F) : Pipeline.RegionSeg (pcfgs (F := F)) adm' (pdats m P) () defs₀ 𝒱₀ L lv 0 where
  win := launch0.win.to₀
  block_pos := launch0.block_pos
  stage_whole := launch0.stage_whole
  K := PEmpty
  osem k := k.elim
  ho := Pipeline.OwnSemFacts.none _
  hbody c := ((P.p0 (C3 m P)).body c).loose
  hwaits := Pipeline.hwaits_of_owed_zero _ _ _ _ L lv 0 fun c t => (P.p0 (C3 m P)).owed_zero c t
  pre c := iprop(StableHlo.held (c : Thread nD τ) (Pipeline.ucRefs τ sig) (W3 m P c) ∗ R c)
  post c := iprop(StableHlo.held (c : Thread nD τ) (Pipeline.ucRefs τ sig) (W4 m P c) ∗ R c)
  X c := iprop(∃ r, prngReg c r)
  Y c := iprop(∃ r, prngReg c r)
  Z c := Pipeline.unscopedRest (Ix := Unit) (Name := ℕ) (U := UR sig nD τ) (Lvl := ℕ) spec0 c (C3 m P c)
  hentry c := by
    rw [Pipeline.ownSems0_none]
    have hsplit := Pipeline.arrays_of_unscopedBufs (p := 0) (pcfgs (F := F)) adm' (pdats m P) launch0.win launch0.arr_whole c
      ((pdats m P 0 c).share_full fun w => (P.p0 (C3 m P)).q_full c w) (C3 m P c) fun w => (P.p0 (C3 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p0 (C3 m P)).owes_in c); iexact HO
    isplitl [Hp]; · iexact Hp
    iexact Hrest
  hin c := (P.p0 (C3 m P)).hin c
  hout c := (P.p0 (C3 m P)).hout c
  hexit c := by
    have hjoin := Pipeline.unscopedBufs_of_arrays (p := 0) (pcfgs (F := F)) adm' (Ix := Unit) (Name := ℕ) (U := UR sig nD τ) (Lvl := ℕ)
      launch0.win launch0.arr_whole c (pdats m P) ((pdats m P 0 c).share_full fun w => (P.p0 (C3 m P)).q_full c w)
      (C3 m P c) (C4 m P c) ((pdats m P 0 c).arrAt · cfg0.N) (hF0 m P c) (hrest0 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p0 (C3 m P)).owes_out c); iexact HO

set_option backward.isDefEq.respectTransparency.types false in
/-- Region 1 over the thread state: entered with every unscoped buffer at `W5`, left with them at `W6`. Its arrays
    are split out of the unscoped buffers and put back at their exit contents; the generator register and the scoped
    buffers go into the region's invariant and come back; nothing is owed; the kernel has no semaphore of its own. -/
def reg1 (m : Mem F) (P : Packs F) : Pipeline.RegionSeg (pcfgs (F := F)) adm' (pdats m P) () defs₀ 𝒱₀ L lv 1 where
  win := launch1.win.to₀
  block_pos := launch1.block_pos
  stage_whole := launch1.stage_whole
  K := PEmpty
  osem k := k.elim
  ho := Pipeline.OwnSemFacts.none _
  hbody c := ((P.p1 (C5 m P)).body c).loose
  hwaits := Pipeline.hwaits_of_owed_zero _ _ _ _ L lv 1 fun c t => (P.p1 (C5 m P)).owed_zero c t
  pre c := iprop(StableHlo.held (c : Thread nD τ) (Pipeline.ucRefs τ sig) (W5 m P c) ∗ R c)
  post c := iprop(StableHlo.held (c : Thread nD τ) (Pipeline.ucRefs τ sig) (W6 m P c) ∗ R c)
  X c := iprop(∃ r, prngReg c r)
  Y c := iprop(∃ r, prngReg c r)
  Z c := Pipeline.unscopedRest (Ix := Unit) (Name := ℕ) (U := UR sig nD τ) (Lvl := ℕ) spec1 c (C5 m P c)
  hentry c := by
    rw [Pipeline.ownSems0_none]
    have hsplit := Pipeline.arrays_of_unscopedBufs (p := 1) (pcfgs (F := F)) adm' (pdats m P) launch1.win launch1.arr_whole c
      ((pdats m P 1 c).share_full fun w => (P.p1 (C5 m P)).q_full c w) (C5 m P c) fun w => (P.p1 (C5 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p1 (C5 m P)).owes_in c); iexact HO
    isplitl [Hp]; · iexact Hp
    iexact Hrest
  hin c := (P.p1 (C5 m P)).hin c
  hout c := (P.p1 (C5 m P)).hout c
  hexit c := by
    have hjoin := Pipeline.unscopedBufs_of_arrays (p := 1) (pcfgs (F := F)) adm' (Ix := Unit) (Name := ℕ) (U := UR sig nD τ) (Lvl := ℕ)
      launch1.win launch1.arr_whole c (pdats m P) ((pdats m P 1 c).share_full fun w => (P.p1 (C5 m P)).q_full c w)
      (C5 m P c) (C6 m P c) ((pdats m P 1 c).arrAt · cfg1.N) (hF1 m P c) (hrest1 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p1 (C5 m P)).owes_out c); iexact HO

set_option backward.isDefEq.respectTransparency.types false in
/-- Region 2 over the thread state: entered with every unscoped buffer at `W6`, left with them at `W7`. Its arrays
    are split out of the unscoped buffers and put back at their exit contents; the generator register and the scoped
    buffers go into the region's invariant and come back; nothing is owed; the kernel has no semaphore of its own. -/
def reg2 (m : Mem F) (P : Packs F) : Pipeline.RegionSeg (pcfgs (F := F)) adm' (pdats m P) () defs₀ 𝒱₀ L lv 2 where
  win := launch2.win.to₀
  block_pos := launch2.block_pos
  stage_whole := launch2.stage_whole
  K := PEmpty
  osem k := k.elim
  ho := Pipeline.OwnSemFacts.none _
  hbody c := ((P.p2 (C6 m P)).body c).loose
  hwaits := Pipeline.hwaits_of_owed_zero _ _ _ _ L lv 2 fun c t => (P.p2 (C6 m P)).owed_zero c t
  pre c := iprop(StableHlo.held (c : Thread nD τ) (Pipeline.ucRefs τ sig) (W6 m P c) ∗ R c)
  post c := iprop(StableHlo.held (c : Thread nD τ) (Pipeline.ucRefs τ sig) (W7 m P c) ∗ R c)
  X c := iprop(∃ r, prngReg c r)
  Y c := iprop(∃ r, prngReg c r)
  Z c := Pipeline.unscopedRest (Ix := Unit) (Name := ℕ) (U := UR sig nD τ) (Lvl := ℕ) spec2 c (C6 m P c)
  hentry c := by
    rw [Pipeline.ownSems0_none]
    have hsplit := Pipeline.arrays_of_unscopedBufs (p := 2) (pcfgs (F := F)) adm' (pdats m P) launch2.win launch2.arr_whole c
      ((pdats m P 2 c).share_full fun w => (P.p2 (C6 m P)).q_full c w) (C6 m P c) fun w => (P.p2 (C6 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p2 (C6 m P)).owes_in c); iexact HO
    isplitl [Hp]; · iexact Hp
    iexact Hrest
  hin c := (P.p2 (C6 m P)).hin c
  hout c := (P.p2 (C6 m P)).hout c
  hexit c := by
    have hjoin := Pipeline.unscopedBufs_of_arrays (p := 2) (pcfgs (F := F)) adm' (Ix := Unit) (Name := ℕ) (U := UR sig nD τ) (Lvl := ℕ)
      launch2.win launch2.arr_whole c (pdats m P) ((pdats m P 2 c).share_full fun w => (P.p2 (C6 m P)).q_full c w)
      (C6 m P c) (C7 m P c) ((pdats m P 2 c).arrAt · cfg2.N) (hF2 m P c) (hrest2 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p2 (C6 m P)).owes_out c); iexact HO

set_option backward.isDefEq.respectTransparency.types false in
/-- Region 3 over the thread state: entered with every unscoped buffer at `W8`, left with them at `W9`. Its arrays
    are split out of the unscoped buffers and put back at their exit contents; the generator register and the scoped
    buffers go into the region's invariant and come back; nothing is owed; the kernel has no semaphore of its own. -/
def reg3 (m : Mem F) (P : Packs F) : Pipeline.RegionSeg (pcfgs (F := F)) adm' (pdats m P) () defs₀ 𝒱₀ L lv 3 where
  win := launch3.win.to₀
  block_pos := launch3.block_pos
  stage_whole := launch3.stage_whole
  K := PEmpty
  osem k := k.elim
  ho := Pipeline.OwnSemFacts.none _
  hbody c := ((P.p3 (C8 m P)).body c).loose
  hwaits := Pipeline.hwaits_of_owed_zero _ _ _ _ L lv 3 fun c t => (P.p3 (C8 m P)).owed_zero c t
  pre c := iprop(StableHlo.held (c : Thread nD τ) (Pipeline.ucRefs τ sig) (W8 m P c) ∗ R c)
  post c := iprop(StableHlo.held (c : Thread nD τ) (Pipeline.ucRefs τ sig) (W9 m P c) ∗ R c)
  X c := iprop(∃ r, prngReg c r)
  Y c := iprop(∃ r, prngReg c r)
  Z c := Pipeline.unscopedRest (Ix := Unit) (Name := ℕ) (U := UR sig nD τ) (Lvl := ℕ) spec3 c (C8 m P c)
  hentry c := by
    rw [Pipeline.ownSems0_none]
    have hsplit := Pipeline.arrays_of_unscopedBufs (p := 3) (pcfgs (F := F)) adm' (pdats m P) launch3.win launch3.arr_whole c
      ((pdats m P 3 c).share_full fun w => (P.p3 (C8 m P)).q_full c w) (C8 m P c) fun w => (P.p3 (C8 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p3 (C8 m P)).owes_in c); iexact HO
    isplitl [Hp]; · iexact Hp
    iexact Hrest
  hin c := (P.p3 (C8 m P)).hin c
  hout c := (P.p3 (C8 m P)).hout c
  hexit c := by
    have hjoin := Pipeline.unscopedBufs_of_arrays (p := 3) (pcfgs (F := F)) adm' (Ix := Unit) (Name := ℕ) (U := UR sig nD τ) (Lvl := ℕ)
      launch3.win launch3.arr_whole c (pdats m P) ((pdats m P 3 c).share_full fun w => (P.p3 (C8 m P)).q_full c w)
      (C8 m P c) (C9 m P c) ((pdats m P 3 c).arrAt · cfg3.N) (hF3 m P c) (hrest3 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p3 (C8 m P)).owes_out c); iexact HO

set_option backward.isDefEq.respectTransparency.types false in
/-- Region 4 over the thread state: entered with every unscoped buffer at `W10`, left with them at `W11`. Its arrays
    are split out of the unscoped buffers and put back at their exit contents; the generator register and the scoped
    buffers go into the region's invariant and come back; nothing is owed; the kernel has no semaphore of its own. -/
def reg4 (m : Mem F) (P : Packs F) : Pipeline.RegionSeg (pcfgs (F := F)) adm' (pdats m P) () defs₀ 𝒱₀ L lv 4 where
  win := launch4.win.to₀
  block_pos := launch4.block_pos
  stage_whole := launch4.stage_whole
  K := PEmpty
  osem k := k.elim
  ho := Pipeline.OwnSemFacts.none _
  hbody c := ((P.p4 (C10 m P)).body c).loose
  hwaits := Pipeline.hwaits_of_owed_zero _ _ _ _ L lv 4 fun c t => (P.p4 (C10 m P)).owed_zero c t
  pre c := iprop(StableHlo.held (c : Thread nD τ) (Pipeline.ucRefs τ sig) (W10 m P c) ∗ R c)
  post c := iprop(StableHlo.held (c : Thread nD τ) (Pipeline.ucRefs τ sig) (W11 m P c) ∗ R c)
  X c := iprop(∃ r, prngReg c r)
  Y c := iprop(∃ r, prngReg c r)
  Z c := Pipeline.unscopedRest (Ix := Unit) (Name := ℕ) (U := UR sig nD τ) (Lvl := ℕ) spec4 c (C10 m P c)
  hentry c := by
    rw [Pipeline.ownSems0_none]
    have hsplit := Pipeline.arrays_of_unscopedBufs (p := 4) (pcfgs (F := F)) adm' (pdats m P) launch4.win launch4.arr_whole c
      ((pdats m P 4 c).share_full fun w => (P.p4 (C10 m P)).q_full c w) (C10 m P c) fun w => (P.p4 (C10 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p4 (C10 m P)).owes_in c); iexact HO
    isplitl [Hp]; · iexact Hp
    iexact Hrest
  hin c := (P.p4 (C10 m P)).hin c
  hout c := (P.p4 (C10 m P)).hout c
  hexit c := by
    have hjoin := Pipeline.unscopedBufs_of_arrays (p := 4) (pcfgs (F := F)) adm' (Ix := Unit) (Name := ℕ) (U := UR sig nD τ) (Lvl := ℕ)
      launch4.win launch4.arr_whole c (pdats m P) ((pdats m P 4 c).share_full fun w => (P.p4 (C10 m P)).q_full c w)
      (C10 m P c) (C11 m P c) ((pdats m P 4 c).arrAt · cfg4.N) (hF4 m P c) (hrest4 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p4 (C10 m P)).owes_out c); iexact HO

set_option backward.isDefEq.respectTransparency.types false in
/-- Region 5 over the thread state: entered with every unscoped buffer at `W11`, left with them at `W12`. Its arrays
    are split out of the unscoped buffers and put back at their exit contents; the generator register and the scoped
    buffers go into the region's invariant and come back; nothing is owed; the kernel has no semaphore of its own. -/
def reg5 (m : Mem F) (P : Packs F) : Pipeline.RegionSeg (pcfgs (F := F)) adm' (pdats m P) () defs₀ 𝒱₀ L lv 5 where
  win := launch5.win.to₀
  block_pos := launch5.block_pos
  stage_whole := launch5.stage_whole
  K := PEmpty
  osem k := k.elim
  ho := Pipeline.OwnSemFacts.none _
  hbody c := ((P.p5 (C11 m P)).body c).loose
  hwaits := Pipeline.hwaits_of_owed_zero _ _ _ _ L lv 5 fun c t => (P.p5 (C11 m P)).owed_zero c t
  pre c := iprop(StableHlo.held (c : Thread nD τ) (Pipeline.ucRefs τ sig) (W11 m P c) ∗ R c)
  post c := iprop(StableHlo.held (c : Thread nD τ) (Pipeline.ucRefs τ sig) (W12 m P c) ∗ R c)
  X c := iprop(∃ r, prngReg c r)
  Y c := iprop(∃ r, prngReg c r)
  Z c := Pipeline.unscopedRest (Ix := Unit) (Name := ℕ) (U := UR sig nD τ) (Lvl := ℕ) spec5 c (C11 m P c)
  hentry c := by
    rw [Pipeline.ownSems0_none]
    have hsplit := Pipeline.arrays_of_unscopedBufs (p := 5) (pcfgs (F := F)) adm' (pdats m P) launch5.win launch5.arr_whole c
      ((pdats m P 5 c).share_full fun w => (P.p5 (C11 m P)).q_full c w) (C11 m P c) fun w => (P.p5 (C11 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p5 (C11 m P)).owes_in c); iexact HO
    isplitl [Hp]; · iexact Hp
    iexact Hrest
  hin c := (P.p5 (C11 m P)).hin c
  hout c := (P.p5 (C11 m P)).hout c
  hexit c := by
    have hjoin := Pipeline.unscopedBufs_of_arrays (p := 5) (pcfgs (F := F)) adm' (Ix := Unit) (Name := ℕ) (U := UR sig nD τ) (Lvl := ℕ)
      launch5.win launch5.arr_whole c (pdats m P) ((pdats m P 5 c).share_full fun w => (P.p5 (C11 m P)).q_full c w)
      (C11 m P c) (C12 m P c) ((pdats m P 5 c).arrAt · cfg5.N) (hF5 m P c) (hrest5 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p5 (C11 m P)).owes_out c); iexact HO

set_option backward.isDefEq.respectTransparency.types false in
/-- Region 6 over the thread state: entered with every unscoped buffer at `W13`, left with them at `W14`. Its arrays
    are split out of the unscoped buffers and put back at their exit contents; the generator register and the scoped
    buffers go into the region's invariant and come back; nothing is owed; the kernel has no semaphore of its own. -/
def reg6 (m : Mem F) (P : Packs F) : Pipeline.RegionSeg (pcfgs (F := F)) adm' (pdats m P) () defs₀ 𝒱₀ L lv 6 where
  win := launch6.win.to₀
  block_pos := launch6.block_pos
  stage_whole := launch6.stage_whole
  K := PEmpty
  osem k := k.elim
  ho := Pipeline.OwnSemFacts.none _
  hbody c := ((P.p6 (C13 m P)).body c).loose
  hwaits := Pipeline.hwaits_of_owed_zero _ _ _ _ L lv 6 fun c t => (P.p6 (C13 m P)).owed_zero c t
  pre c := iprop(StableHlo.held (c : Thread nD τ) (Pipeline.ucRefs τ sig) (W13 m P c) ∗ R c)
  post c := iprop(StableHlo.held (c : Thread nD τ) (Pipeline.ucRefs τ sig) (W14 m P c) ∗ R c)
  X c := iprop(∃ r, prngReg c r)
  Y c := iprop(∃ r, prngReg c r)
  Z c := Pipeline.unscopedRest (Ix := Unit) (Name := ℕ) (U := UR sig nD τ) (Lvl := ℕ) spec6 c (C13 m P c)
  hentry c := by
    rw [Pipeline.ownSems0_none]
    have hsplit := Pipeline.arrays_of_unscopedBufs (p := 6) (pcfgs (F := F)) adm' (pdats m P) launch6.win launch6.arr_whole c
      ((pdats m P 6 c).share_full fun w => (P.p6 (C13 m P)).q_full c w) (C13 m P c) fun w => (P.p6 (C13 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p6 (C13 m P)).owes_in c); iexact HO
    isplitl [Hp]; · iexact Hp
    iexact Hrest
  hin c := (P.p6 (C13 m P)).hin c
  hout c := (P.p6 (C13 m P)).hout c
  hexit c := by
    have hjoin := Pipeline.unscopedBufs_of_arrays (p := 6) (pcfgs (F := F)) adm' (Ix := Unit) (Name := ℕ) (U := UR sig nD τ) (Lvl := ℕ)
      launch6.win launch6.arr_whole c (pdats m P) ((pdats m P 6 c).share_full fun w => (P.p6 (C13 m P)).q_full c w)
      (C13 m P c) (C14 m P c) ((pdats m P 6 c).arrAt · cfg6.N) (hF6 m P c) (hrest6 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p6 (C13 m P)).owes_out c); iexact HO

set_option backward.isDefEq.respectTransparency.types false in
/-- Region 7 over the thread state: entered with every unscoped buffer at `W15`, left with them at `W16`. Its arrays
    are split out of the unscoped buffers and put back at their exit contents; the generator register and the scoped
    buffers go into the region's invariant and come back; nothing is owed; the kernel has no semaphore of its own. -/
def reg7 (m : Mem F) (P : Packs F) : Pipeline.RegionSeg (pcfgs (F := F)) adm' (pdats m P) () defs₀ 𝒱₀ L lv 7 where
  win := launch7.win.to₀
  block_pos := launch7.block_pos
  stage_whole := launch7.stage_whole
  K := PEmpty
  osem k := k.elim
  ho := Pipeline.OwnSemFacts.none _
  hbody c := ((P.p7 (C15 m P)).body c).loose
  hwaits := Pipeline.hwaits_of_owed_zero _ _ _ _ L lv 7 fun c t => (P.p7 (C15 m P)).owed_zero c t
  pre c := iprop(StableHlo.held (c : Thread nD τ) (Pipeline.ucRefs τ sig) (W15 m P c) ∗ R c)
  post c := iprop(StableHlo.held (c : Thread nD τ) (Pipeline.ucRefs τ sig) (W16 m P c) ∗ R c)
  X c := iprop(∃ r, prngReg c r)
  Y c := iprop(∃ r, prngReg c r)
  Z c := Pipeline.unscopedRest (Ix := Unit) (Name := ℕ) (U := UR sig nD τ) (Lvl := ℕ) spec7 c (C15 m P c)
  hentry c := by
    rw [Pipeline.ownSems0_none]
    have hsplit := Pipeline.arrays_of_unscopedBufs (p := 7) (pcfgs (F := F)) adm' (pdats m P) launch7.win launch7.arr_whole c
      ((pdats m P 7 c).share_full fun w => (P.p7 (C15 m P)).q_full c w) (C15 m P c) fun w => (P.p7 (C15 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p7 (C15 m P)).owes_in c); iexact HO
    isplitl [Hp]; · iexact Hp
    iexact Hrest
  hin c := (P.p7 (C15 m P)).hin c
  hout c := (P.p7 (C15 m P)).hout c
  hexit c := by
    have hjoin := Pipeline.unscopedBufs_of_arrays (p := 7) (pcfgs (F := F)) adm' (Ix := Unit) (Name := ℕ) (U := UR sig nD τ) (Lvl := ℕ)
      launch7.win launch7.arr_whole c (pdats m P) ((pdats m P 7 c).share_full fun w => (P.p7 (C15 m P)).q_full c w)
      (C15 m P c) (C16 m P c) ((pdats m P 7 c).arrAt · cfg7.N) (hF7 m P c) (hrest7 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p7 (C15 m P)).owes_out c); iexact HO

/-! ## @main as segments, and the launch -/

/-- @main's sixteen items in order. -/
abbrev segs (m : Mem F) (P : Packs F) : List (Pipeline.Seg (pcfgs (F := F)) adm' (pdats m P) () defs₀ 𝒱₀ L lv) :=
  [ .host (hseg hostOps0 hostOps0_sub hostOps0_fresh (W0 m P)),
    .host (hseg hostOps0_1 hostOps0_1_sub hostOps0_1_fresh (W1 m P)),
    .host (hseg hostOps0_2 hostOps0_2_sub hostOps0_2_fresh (W2 m P)),
    .region (reg0 m P),
    .host (hseg hostOps1 hostOps1_sub hostOps1_fresh (W4 m P)),
    .region (reg1 m P),
    .region (reg2 m P),
    .host (hseg hostOps3 hostOps3_sub hostOps3_fresh (W7 m P)),
    .region (reg3 m P),
    .host (hseg hostOps4 hostOps4_sub hostOps4_fresh (W9 m P)),
    .region (reg4 m P),
    .region (reg5 m P),
    .host (hseg hostOps6 hostOps6_sub hostOps6_fresh (W12 m P)),
    .region (reg6 m P),
    .host (hseg hostOps7 hostOps7_sub hostOps7_fresh (W14 m P)),
    .region (reg7 m P) ]
/-- @main is the run of the segments. -/
theorem main_run (m : Mem F) (P : Packs F) (c : Dev nD) : main (F := F) c = Pipeline.Seg.run (segs m P) := (main_chain c).trans (by chain_rfl)

/-- The last thread state without the `owes`: every unscoped buffer at the last boundary's contents, the generator
    register at some state. -/
abbrev Tₙ (m : Mem F) (P : Packs F) (c : Dev nD) : sProp 𝕄 :=
  iprop(StableHlo.held (c : Thread nD τ) (Pipeline.ucRefs τ sig) (W16 m P c) ∗ ∃ r, prngReg c r)

set_option backward.isDefEq.respectTransparency.types false in
/-- THE RUN. From any memory with zero counters every weakly fair execution of @main on the TensorCores terminates,
    nothing faulting, and in every final state each unscoped buffer of each core holds the last boundary's contents
    `W16`: the launch over the sixteen segments, then the last thread state read against the final state. -/
theorem run (m : Mem F) (ρ : Dev nD → PrngReg) (P : Packs F) :
    θ_run defs (onTc (τ := τ) (main (F := F))) ⟨m, fun _ => 0, ρ⟩ (fun r => ∀ c : Dev nD,
      ∀ b ∈ Pipeline.ucRefs τ sig, r.2.mem (((c : Thread nD τ)).1, b) = W16 m P c b) :=
  Pipeline.θ_run_regions_kit (pcfgs (F := F)) adm' (pdats m P) () cellOf_inj emb₁ defs₀ 𝒱₀ L lv m ρ main (segs m P)
    (fun c Q => by rw [main_run m P c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m P c) ∗ R c)) (Tₙ := Tₙ m P)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
        show (iprop(StableHlo.held (c : Thread nD τ) (Pipeline.ucRefs τ sig) (W16 m P c) ∗ R c) : sProp 𝕄)
          ⊢ iprop(Tₙ m P c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m P c)
        from Pipeline.unscopedBufs_held c (W0 m P c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m P c b)
    (hfin := fun c s' => by
      iintro ⟨⟨Hh, -⟩, HSI⟩
      unfold StableHlo.held
      imodintro
      iapply (pointsTo_read_all (Pipeline.ucRefs τ sig) (fun b => (((c : Thread nD τ)).1, b)) (W16 m P c) s')
      isplitl [Hh] <;> iassumption)
    (hQ := fun s h c => h c)

/-! ## The arguments end as launched -/

/-- The first argument is region 0's first (input) window's array: the region hands it back as found. -/
theorem W16_main_arg0 (m : Mem F) (P : Packs F) (c : Dev nD) : W16 m P c (Proc.devRef .tc main_arg0) = m ((c : Thread nD τ).loc main_arg0) :=
  (W16_of_ne m P c main_arg0 (by decide)).trans <| (W15_keep m P c main_arg0 (by decide)).trans <| (W14_of_ne m P c main_arg0 (by decide)).trans <| (W13_keep m P c main_arg0 (by decide)).trans <| (W12_of_ne m P c main_arg0 (by decide)).trans <| (W11_of_ne m P c main_arg0 (by decide)).trans <| (W10_keep m P c main_arg0 (by decide)).trans <| (W9_of_ne m P c main_arg0 (by decide)).trans <| (W8_keep m P c main_arg0 (by decide)).trans <| (W7_of_ne m P c main_arg0 (by decide)).trans <| (W6_of_ne m P c main_arg0 (by decide)).trans <| (W5_keep m P c main_arg0 (by decide)).trans <| ((W4_arr m P c 0).trans ((((P.p0 (C3 m P)).dat c).arrAt_in 0 rfl _).trans ((P.p0 (C3 m P)).A_eq c 0))).trans <| (W3_keep m P c main_arg0 (by decide)).trans <| (W2_keep m P c main_arg0 (by decide)).trans <| (W1_keep m P c main_arg0 (by decide)).trans <| rfl

theorem W16_main_arg1 (m : Mem F) (P : Packs F) (c : Dev nD) : W16 m P c (Proc.devRef .tc main_arg1) = m ((c : Thread nD τ).loc main_arg1) :=
  W16_untouched m P c main_arg1 (by decide) (by decide) (by decide) (by decide) (by decide) (by decide) (by decide) (by decide) (by decide) (by decide) (by decide) (by decide) (by decide) (by decide) (by decide) (by decide)

theorem W16_main_arg2 (m : Mem F) (P : Packs F) (c : Dev nD) : W16 m P c (Proc.devRef .tc main_arg2) = m ((c : Thread nD τ).loc main_arg2) :=
  W16_untouched m P c main_arg2 (by decide) (by decide) (by decide) (by decide) (by decide) (by decide) (by decide) (by decide) (by decide) (by decide) (by decide) (by decide) (by decide) (by decide) (by decide) (by decide)

theorem W16_main_arg3 (m : Mem F) (P : Packs F) (c : Dev nD) : W16 m P c (Proc.devRef .tc main_arg3) = m ((c : Thread nD τ).loc main_arg3) :=
  W16_untouched m P c main_arg3 (by decide) (by decide) (by decide) (by decide) (by decide) (by decide) (by decide) (by decide) (by decide) (by decide) (by decide) (by decide) (by decide) (by decide) (by decide) (by decide)

theorem W16_main_arg4 (m : Mem F) (P : Packs F) (c : Dev nD) : W16 m P c (Proc.devRef .tc main_arg4) = m ((c : Thread nD τ).loc main_arg4) :=
  W16_untouched m P c main_arg4 (by decide) (by decide) (by decide) (by decide) (by decide) (by decide) (by decide) (by decide) (by decide) (by decide) (by decide) (by decide) (by decide) (by decide) (by decide) (by decide)

theorem W16_main_arg5 (m : Mem F) (P : Packs F) (c : Dev nD) : W16 m P c (Proc.devRef .tc main_arg5) = m ((c : Thread nD τ).loc main_arg5) :=
  W16_untouched m P c main_arg5 (by decide) (by decide) (by decide) (by decide) (by decide) (by decide) (by decide) (by decide) (by decide) (by decide) (by decide) (by decide) (by decide) (by decide) (by decide) (by decide)

theorem W16_main_arg6 (m : Mem F) (P : Packs F) (c : Dev nD) : W16 m P c (Proc.devRef .tc main_arg6) = m ((c : Thread nD τ).loc main_arg6) :=
  W16_untouched m P c main_arg6 (by decide) (by decide) (by decide) (by decide) (by decide) (by decide) (by decide) (by decide) (by decide) (by decide) (by decide) (by decide) (by decide) (by decide) (by decide) (by decide)

theorem W16_main_arg7 (m : Mem F) (P : Packs F) (c : Dev nD) : W16 m P c (Proc.devRef .tc main_arg7) = m ((c : Thread nD τ).loc main_arg7) :=
  W16_untouched m P c main_arg7 (by decide) (by decide) (by decide) (by decide) (by decide) (by decide) (by decide) (by decide) (by decide) (by decide) (by decide) (by decide) (by decide) (by decide) (by decide) (by decide)

theorem W16_main_arg8 (m : Mem F) (P : Packs F) (c : Dev nD) : W16 m P c (Proc.devRef .tc main_arg8) = m ((c : Thread nD τ).loc main_arg8) :=
  W16_untouched m P c main_arg8 (by decide) (by decide) (by decide) (by decide) (by decide) (by decide) (by decide) (by decide) (by decide) (by decide) (by decide) (by decide) (by decide) (by decide) (by decide) (by decide)

theorem W16_main_arg9 (m : Mem F) (P : Packs F) (c : Dev nD) : W16 m P c (Proc.devRef .tc main_arg9) = m ((c : Thread nD τ).loc main_arg9) :=
  W16_untouched m P c main_arg9 (by decide) (by decide) (by decide) (by decide) (by decide) (by decide) (by decide) (by decide) (by decide) (by decide) (by decide) (by decide) (by decide) (by decide) (by decide) (by decide)

theorem W16_main_arg10 (m : Mem F) (P : Packs F) (c : Dev nD) : W16 m P c (Proc.devRef .tc main_arg10) = m ((c : Thread nD τ).loc main_arg10) :=
  W16_untouched m P c main_arg10 (by decide) (by decide) (by decide) (by decide) (by decide) (by decide) (by decide) (by decide) (by decide) (by decide) (by decide) (by decide) (by decide) (by decide) (by decide) (by decide)

theorem W16_main_arg11 (m : Mem F) (P : Packs F) (c : Dev nD) : W16 m P c (Proc.devRef .tc main_arg11) = m ((c : Thread nD τ).loc main_arg11) :=
  W16_untouched m P c main_arg11 (by decide) (by decide) (by decide) (by decide) (by decide) (by decide) (by decide) (by decide) (by decide) (by decide) (by decide) (by decide) (by decide) (by decide) (by decide) (by decide)

theorem W16_main_arg12 (m : Mem F) (P : Packs F) (c : Dev nD) : W16 m P c (Proc.devRef .tc main_arg12) = m ((c : Thread nD τ).loc main_arg12) :=
  W16_untouched m P c main_arg12 (by decide) (by decide) (by decide) (by decide) (by decide) (by decide) (by decide) (by decide) (by decide) (by decide) (by decide) (by decide) (by decide) (by decide) (by decide) (by decide)

theorem W16_main_arg13 (m : Mem F) (P : Packs F) (c : Dev nD) : W16 m P c (Proc.devRef .tc main_arg13) = m ((c : Thread nD τ).loc main_arg13) :=
  W16_untouched m P c main_arg13 (by decide) (by decide) (by decide) (by decide) (by decide) (by decide) (by decide) (by decide) (by decide) (by decide) (by decide) (by decide) (by decide) (by decide) (by decide) (by decide)

/-- The frame: every argument array ends as launched. -/
theorem frame (m : Mem F) (ρ : Dev nD → PrngReg) (P : Packs F) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W16_main_arg0 m P c),
    (h c _ (mem_uc main_arg1 (by decide))).trans (W16_main_arg1 m P c),
    (h c _ (mem_uc main_arg2 (by decide))).trans (W16_main_arg2 m P c),
    (h c _ (mem_uc main_arg3 (by decide))).trans (W16_main_arg3 m P c),
    (h c _ (mem_uc main_arg4 (by decide))).trans (W16_main_arg4 m P c),
    (h c _ (mem_uc main_arg5 (by decide))).trans (W16_main_arg5 m P c),
    (h c _ (mem_uc main_arg6 (by decide))).trans (W16_main_arg6 m P c),
    (h c _ (mem_uc main_arg7 (by decide))).trans (W16_main_arg7 m P c),
    (h c _ (mem_uc main_arg8 (by decide))).trans (W16_main_arg8 m P c),
    (h c _ (mem_uc main_arg9 (by decide))).trans (W16_main_arg9 m P c),
    (h c _ (mem_uc main_arg10 (by decide))).trans (W16_main_arg10 m P c),
    (h c _ (mem_uc main_arg11 (by decide))).trans (W16_main_arg11 m P c),
    (h c _ (mem_uc main_arg12 (by decide))).trans (W16_main_arg12 m P c),
    (h c _ (mem_uc main_arg13 (by decide))).trans (W16_main_arg13 m P c)⟩) (run m ρ P)

/-- The run with the result named: the result array ends at the last boundary's contents, the arguments as launched. -/
theorem run_result (m : Mem F) (ρ : Dev nD → PrngReg) (P : Packs F) :
    θ_run defs (onTc (τ := τ) (main (F := F))) ⟨m, fun _ => 0, ρ⟩ (fun r => ∀ c : Dev nD,
      r.2.mem ((c.tc : Thread nD τ).loc main_v83) = W16 m P c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_uc main_v83 (by decide)), (h c _ (mem_uc main_arg0 (by decide))).trans (W16_main_arg0 m P c),
    (h c _ (mem_uc main_arg1 (by decide))).trans (W16_main_arg1 m P c),
    (h c _ (mem_uc main_arg2 (by decide))).trans (W16_main_arg2 m P c),
    (h c _ (mem_uc main_arg3 (by decide))).trans (W16_main_arg3 m P c),
    (h c _ (mem_uc main_arg4 (by decide))).trans (W16_main_arg4 m P c),
    (h c _ (mem_uc main_arg5 (by decide))).trans (W16_main_arg5 m P c),
    (h c _ (mem_uc main_arg6 (by decide))).trans (W16_main_arg6 m P c),
    (h c _ (mem_uc main_arg7 (by decide))).trans (W16_main_arg7 m P c),
    (h c _ (mem_uc main_arg8 (by decide))).trans (W16_main_arg8 m P c),
    (h c _ (mem_uc main_arg9 (by decide))).trans (W16_main_arg9 m P c),
    (h c _ (mem_uc main_arg10 (by decide))).trans (W16_main_arg10 m P c),
    (h c _ (mem_uc main_arg11 (by decide))).trans (W16_main_arg11 m P c),
    (h c _ (mem_uc main_arg12 (by decide))).trans (W16_main_arg12 m P c),
    (h c _ (mem_uc main_arg13 (by decide))).trans (W16_main_arg13 m P c)⟩) (run m ρ P)

end Cert.Kernel.Hand

end
-- ==== Proof.K.Linear0.lean ====
import proofs.«166096_j40321152975189_1_alg».proof.Proof.Gen.Kernel.Launch
import proofs.«166096_j40321152975189_1_alg».proof.Proof.Gen.Kernel.Skeleton
import proofs.«166096_j40321152975189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 0: the linear layer `cc0__linear_kernel` — rows of `x[2000,128] · w[128,256] + b[1,256]`

Four windows: 0 the row block of the activations (a new block at every grid point), 1 the weight matrix and
2 the bias row (one block for the whole grid, so the transfer happens at the first point only and the staging
buffer is left alone afterwards), 3 the row block of the result (written back at every point). Everything is
stated at a parameter `V`: the contents of the core's buffers when the region is entered. -/

/-! ## The windows' blocks -/

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What an input's staging buffer holds when the body starts

For each of the three inputs: whenever the proof data's array is the entry contents and the body leaves the
buffer at the block, the buffer holds the block at EVERY point. At a point where the window is fetched this is
what the transfer wrote; at a point where it is not (windows 1 and 2 after the first point) the block index has
not moved since the previous point, whose body left that same block there. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
    (fun t => by rw [hafter]; unfold Dat.blockOf iblk0; rw [hA]; try rfl) t d).trans
    (by unfold Dat.fetched Dat.blockOf iblk0; rw [hA]; try rfl)

/-! ## The body's accesses: each buffer, whole -/

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S2000x256 := Rect.unit (s := S2000x256) ![0, 0] S2000x256.size inb_S2000x256_S2000x256_0_0

/-! ## What the body leaves in the result's buffer -/

/-- The result window's buffer after the body, as a function of the three input blocks: the one store, of the
    payload computed from the three whole loads, laid over the buffer. -/
def out0_3 (x0 : Vec F S2000x128 .f32) (x1 : Vec F S128x256 .f32) (x2 : Vec F S1x256 .f32) : Vec F S2000x256 .f32 :=
  View.canon [⟨r0_3, k0_pay1 (View.ld x0 r0_0) (View.ld x1 r0_1) (View.ld x2 r0_2)⟩]

/-- The one store is of the whole buffer, so every position of the buffer lies in it. -/
theorem cover0_3 (p0 : Vec F S2000x256 .f32) (y : S2000x256.Idx) :
    ∃ pc ∈ ([⟨r0_3, p0⟩] : List (View.Piece (Elt F) S2000x256 .f32)), y ∈ pc.1.set :=
  View.cover_of_tiled [⟨r0_3, p0⟩] S2000x256.size (by rfl) y

/-! ## The body's triple -/

set_option maxHeartbeats 4000000 in
/-- The body on whole staging memrefs — the inputs' at contents `x0`, `x1`, `x2`, the result's at anything — runs
    without a fault to the continuation, which receives the inputs' memrefs as they were and the result's at
    `out0_3 x0 x1 x2`. The function is a straight line of three whole loads of the inputs, one whole load of the
    result's buffer (whose value is not used) and one whole store: the triple follows operation by operation. -/
theorem sound_kernel0 (c : Dev nD) (E : Set ℕ) (i : grid0.Coords)
    (arg1 : Memref sig .tc .vmem S2000x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core `c`: the arrays as the region finds them; after the body at
    point `t` each input's buffer still at its block and the result's at `out0_3` of the three input blocks; the
    invariant that leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and each window's current
    staging memref at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Stats1.lean ====
import proofs.«166096_j40321152975189_1_alg».proof.Proof.Gen.Kernel.Launch
import proofs.«166096_j40321152975189_1_alg».proof.Proof.Gen.Kernel.Skeleton
import proofs.«166096_j40321152975189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The statistics kernel of region 1: column sums and column sums of squares accumulated over the grid

The body runs at 50 grid points over row blocks of 2000 rows. Two scratch rows are carried from point to
point: the running column sums and the running column sums of squares. At the first point both are zeroed
before the block is added; at every point the block's column sums (of squares) are added; at the last point
the mean and the reciprocal standard deviation are formed from the totals and stored in the two output rows. -/

/-! ## The two conditionals of the body -/

/-- The first conditional: the grid coordinate is 0 (the kernel's scalar chain, substituted). -/
abbrev cond1_1 (i : grid1.Coords) : Prop := (Scalar.cmpi .ne (Scalar.extui (Scalar.cmpi .eq (BitVec.ofNat 32 (i 0).val) 0#32)) 0#32) = 1#1
/-- It holds at the first point only. -/
theorem hcond1_1 : ∀ t : Fin cfg1.N, cond1_1 (grid1.coords t) ↔ t.val = 0 :=
  (by decide +kernel : ∀ t : Fin grid1.N, cond1_1 (grid1.coords t) ↔ t.val = 0)

/-- The second conditional: the grid coordinate is 49. -/
abbrev cond1_2 (i : grid1.Coords) : Prop := k1_cond2 i = 1#1
/-- It holds at the last point only. -/
theorem hcond1_2 : ∀ t : Fin cfg1.N, cond1_2 (grid1.coords t) ↔ t.val = 49 :=
  (by decide +kernel : ∀ t : Fin grid1.N, cond1_2 (grid1.coords t) ↔ t.val = 49)

/-! ## Where the windows are idle -/

/-- The input window is never idle. -/
theorem live1_0 : ∀ t : Fin cfg1.N, cfg1.idle 0 (grid1.coords t) = false := by decide +kernel
/-- Off the last point the two output windows are idle and are not written back. -/
theorem idle1_1 : ∀ t : Fin cfg1.N, ¬cond1_2 (grid1.coords t) → cfg1.idle 1 (grid1.coords t) = true := by decide +kernel
theorem noFlush1_1 : ∀ t : Fin cfg1.N, ¬cond1_2 (grid1.coords t) → (cfg1.win 1).flush t = false := by decide +kernel
theorem idle1_2 : ∀ t : Fin cfg1.N, ¬cond1_2 (grid1.coords t) → cfg1.idle 2 (grid1.coords t) = true := by decide +kernel
theorem noFlush1_2 : ∀ t : Fin cfg1.N, ¬cond1_2 (grid1.coords t) → (cfg1.win 2).flush t = false := by decide +kernel
/-- At the last point they are live. -/
theorem live1_1 : ∀ t : Fin cfg1.N, cond1_2 (grid1.coords t) → cfg1.idle 1 (grid1.coords t) = false := by decide +kernel
theorem live1_2 : ∀ t : Fin cfg1.N, cond1_2 (grid1.coords t) → cfg1.idle 2 (grid1.coords t) = false := by decide +kernel

/-! ## Whole-row accesses -/

/-- The zero offsets of a rank-2 access, as the constant function. -/
theorem off2_zero : (![0, 0] : Fin 2 → ℕ) = fun _ => 0 := by
  funext a; fin_cases a <;> rfl

/-- One store through the whole row covers the row. -/
theorem cover_row (p : Vec F S1x256 .f32) (L : List (View.Piece (Elt F) S1x256 .f32)) (y : S1x256.Idx) :
    ∃ pc ∈ ((⟨Rect.unit (s := S1x256) ![0, 0] S1x256.size inb_S1x256_S1x256_0_0, p⟩ : View.Piece (Elt F) S1x256 .f32) :: L), y ∈ pc.1.set :=
  ⟨_, List.mem_cons_self, View.mem_set_unit_zero off2_zero inb_S1x256_S1x256_0_0 y⟩

/-- What a view reads after a last store through the whole row: the stored row. -/
theorem read_row_store {sp : Space} (v : View sig .tc sp S1x256 .f32) (f : v.ty.Contents (Elt F)) (p : Vec F S1x256 .f32)
    (L : List (View.Piece (Elt F) S1x256 .f32)) :
    v.read (Elt F) (v.writes (Elt F) f ((⟨Rect.unit (s := S1x256) ![0, 0] S1x256.size inb_S1x256_S1x256_0_0, p⟩ : View.Piece (Elt F) S1x256 .f32) :: L)) = p := by
  rw [View.read_writes_eq_canon _ _ _ (cover_row p L), View.canon_cons_unit_zero off2_zero]

/-! ## The body's runs, one per control case -/

/-- A load through the whole block reads the block. -/
theorem ld_blk (X : Vec F S2000x256 .f32) :
    View.ld X (Rect.unit (s := S2000x256) ![0, 0] S2000x256.size inb_S2000x256_S2000x256_0_0) = X :=
  View.ld_unit_zero off2_zero _ X
/-- A load through the whole row reads the row. -/
theorem ld_row (X : Vec F S1x256 .f32) :
    View.ld X (Rect.unit (s := S1x256) ![0, 0] S1x256.size inb_S1x256_S1x256_0_0) = X :=
  View.ld_unit_zero off2_zero _ X

set_option maxHeartbeats 1000000 in
/-- A MIDDLE point (neither conditional taken): on whole memrefs, the block at `x0`, the two output rows at
    any contents `y1`, `y2` (handed back untouched), the running sums at `s0`, `s1`, the body runs to the
    continuation with the block's column sums added to `s0` and its column sums of squares to `s1`. -/
theorem sound_kernel1_B (c : Dev nD) (E : Set ℕ) (i : grid1.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc1 : ¬cond1_1 i) (hc2 : ¬cond1_2 i)
    (x0 : Vec F S2000x256 .f32) (y1 y2 s0 s1 : Vec F S1x256 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_row_store]; exact congrArg₂ _ (ld_blk _) (ld_row _)
  iexists _; isplitr
  swap; · iexact H4
  ipureintro
  rw [read_row_store]; exact congrArg₂ _ (ld_blk _) (ld_row _)

/-- A load through the whole row of what one store through the whole row left reads the stored row. -/
theorem readCov_row {sp : Space} (v : View sig .tc sp S1x256 .f32) (p : Vec F S1x256 .f32) :
    v.readCov [(⟨Rect.unit (s := S1x256) ![0, 0] S1x256.size inb_S1x256_S1x256_0_0, p⟩ : View.Piece (Elt F) S1x256 .f32)]
      (Rect.unit (s := S1x256) ![0, 0] S1x256.size inb_S1x256_S1x256_0_0).toLoadRect = p :=
  View.readCov_unit_zero v off2_zero _ p

set_option maxHeartbeats 1000000 in
/-- The FIRST point (first conditional taken, second not): the two running sums at anything; the body zeroes
    them, then adds the block's column sums (of squares): they end at the block's sums over zero. The output
    rows are handed back untouched. -/
theorem sound_kernel1_A (c : Dev nD) (E : Set ℕ) (i : grid1.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc1 : cond1_1 i) (hc2 : ¬cond1_2 i)
    (x0 : Vec F S2000x256 .f32) (y1 y2 : Vec F S1x256 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 k1_pay1) ∗ owns (c : Thread nD τ) arg5 fullShare (k1_pay5 x0 k1_pay2)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_row_store]
    sl_unfold_run_names
    exact congrArg₂ _ (ld_blk (View.read (Elt F) arg1.view f0)) (readCov_row _ _)
  iexists _; isplitr
  swap; · iexact H4
  ipureintro
  rw [read_row_store]
  sl_unfold_run_names
  exact congrArg₂ _ (ld_blk (View.read (Elt F) arg1.view f0)) (readCov_row _ _)

set_option maxHeartbeats 1000000 in
/-- The LAST point (first conditional not taken, second taken): the running sums at `s0`, `s1`, the output rows at
    anything; the body adds the block's sums, then stores the mean and the reciprocal standard deviation of the
    totals in the two output rows. -/
theorem sound_kernel1_C (c : Dev nD) (E : Set ℕ) (i : grid1.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc1 : ¬cond1_1 i) (hc2 : cond1_2 i)
    (x0 : Vec F S2000x256 .f32) (s0 s1 : Vec F S1x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k1_pay6 (k1_pay4 x0 s0)) ∗ owns (c : Thread nD τ) arg3 fullShare (k1_pay7 (k1_pay4 x0 s0) (k1_pay5 x0 s1))
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0; subst hf3; subst hf4
  sl_exec (disch := first | exact hc1 | exact hc2)
  sl_step
  iapply Hk
  isplitl [H0]
  · iexists f0; isplitr; · ipureintro; rfl
    iexact H0
  isplitl [H1]
  · iexists _; isplitr
    swap; · iexact H1
    ipureintro
    rw [read_row_store]
    sl_unfold_run_names
    rw [readCov_row]
    exact congrArg _ (congrArg₂ _ (ld_blk (View.read (Elt F) arg1.view f0)) (ld_row (View.read (Elt F) arg4.view f3)))
  isplitl [H2]
  · iexists _; isplitr
    swap; · iexact H2
    ipureintro
    rw [read_row_store]
    sl_unfold_run_names
    rw [readCov_row, readCov_row]
    exact congrArg₂ _ (congrArg₂ _ (ld_blk (View.read (Elt F) arg1.view f0)) (ld_row (View.read (Elt F) arg4.view f3)))
      (congrArg₂ _ (ld_blk (View.read (Elt F) arg1.view f0)) (ld_row (View.read (Elt F) arg5.view f4)))
  isplitl [H3]
  · iexists _; isplitr
    swap; · iexact H3
    ipureintro
    sl_unfold_run_names
    rw [read_row_store]
    exact congrArg₂ _ (ld_blk (View.read (Elt F) arg1.view f0)) (ld_row (View.read (Elt F) arg4.view f3))
  iexists _; isplitr
  swap; · iexact H4
  ipureintro
  sl_unfold_run_names
  rw [read_row_store]
  exact congrArg₂ _ (ld_blk (View.read (Elt F) arg1.view f0)) (ld_row (View.read (Elt F) arg5.view f4))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place: the window is uncut, never idle, fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The running sums, point by point -/

/-- The grid is not empty. -/
theorem N1_pos : 0 < cfg1.N := by rw [show cfg1.N = 50 from N_1]; decide

/-- The input block at position `n` of the grid (a position past the grid wraps around: only positions on the
    grid are ever consulted). -/
def xb1 (c : Dev nD) (n : ℕ) : Vec F S2000x256 .f32 :=
  iblk1 V c 0 ⟨n % cfg1.N, Nat.mod_lt _ N1_pos⟩

theorem xb1_val (c : Dev nD) (t : Fin cfg1.N) : xb1 V c t.val = iblk1 V c 0 t := by
  have e : (⟨t.val % cfg1.N, Nat.mod_lt _ N1_pos⟩ : Fin cfg1.N) = t :=
    Fin.ext (Nat.mod_eq_of_lt t.isLt)
  unfold xb1; rw [e]

/-- The running column sums after the body at position `n`: the block's column sums added to zero at the first
    point, to what the point before left afterwards. -/
def accS1 (c : Dev nD) : ℕ → Vec F S1x256 .f32
  | 0 => k1_pay4 (xb1 V c 0) k1_pay1
  | n + 1 => k1_pay4 (xb1 V c (n + 1)) (accS1 c n)

/-- The running column sums of squares after the body at position `n`. -/
def accQ1 (c : Dev nD) : ℕ → Vec F S1x256 .f32
  | 0 => k1_pay5 (xb1 V c 0) k1_pay2
  | n + 1 => k1_pay5 (xb1 V c (n + 1)) (accQ1 c n)

theorem accS1_zero (c : Dev nD) : accS1 V c 0 = k1_pay4 (xb1 V c 0) k1_pay1 := rfl
theorem accS1_succ (c : Dev nD) (n : ℕ) : accS1 V c (n + 1) = k1_pay4 (xb1 V c (n + 1)) (accS1 V c n) := rfl
theorem accQ1_zero (c : Dev nD) : accQ1 V c 0 = k1_pay5 (xb1 V c 0) k1_pay2 := rfl
theorem accQ1_succ (c : Dev nD) (n : ℕ) : accQ1 V c (n + 1) = k1_pay5 (xb1 V c (n + 1)) (accQ1 V c n) := rfl

/-- At the first point: the block's sums over zero. -/
theorem accS1_first (c : Dev nD) (t : Fin cfg1.N) (h0 : t.val = 0) : accS1 V c t.val = k1_pay4 (iblk1 V c 0 t) k1_pay1 := by
  rw [← xb1_val V c t, h0]; rfl
theorem accQ1_first (c : Dev nD) (t : Fin cfg1.N) (h0 : t.val = 0) : accQ1 V c t.val = k1_pay5 (iblk1 V c 0 t) k1_pay2 := by
  rw [← xb1_val V c t, h0]; rfl
/-- At a later point: the block's sums over what the point before left. -/
theorem accS1_next (c : Dev nD) (t : Fin cfg1.N) (n : ℕ) (hn : t.val = n + 1) : accS1 V c t.val = k1_pay4 (iblk1 V c 0 t) (accS1 V c n) := by
  rw [← xb1_val V c t, hn]; rfl
theorem accQ1_next (c : Dev nD) (t : Fin cfg1.N) (n : ℕ) (hn : t.val = n + 1) : accQ1 V c t.val = k1_pay5 (iblk1 V c 0 t) (accQ1 V c n) := by
  rw [← xb1_val V c t, hn]; rfl

/-- The mean row, of the running column sums `s`: `s / 100000`. -/
def out1_1 (s : Vec F S1x256 .f32) : Vec F S1x256 .f32 := k1_pay6 s
/-- The reciprocal standard deviation row, of the running sums `s` and sums of squares `q`:
    `rsqrt (q / 100000 - (s / 100000)² + ε)`. -/
def out1_2 (s q : Vec F S1x256 .f32) : Vec F S1x256 .f32 := k1_pay7 s q

/-! ## The invariant: the two scratch rows at the running sums -/

/-- The scratch operands: whole scoped buffers of the kernel's own. -/
abbrev scM1_0 : Memref sig .tc .vmem S1x256 .f32 := Memref.whole cc1_scratch0
abbrev scM1_1 : Memref sig .tc .vmem S1x256 .f32 := Memref.whole cc1_scratch1

/-- The region invariant before position `n`: before the first point every scoped buffer no window stages at
    anything and the generator register at some state; afterwards the two scratch rows at the running sums the
    point before left, the other scoped buffers at anything, the generator register at some state. -/
def Phi1 (c : Dev nD) : ℕ → sProp 𝕄
  | 0 => iprop(Pipeline.scopedRest (Ix := Unit) (Name := ℕ) (U := UR sig nD τ) (Lvl := ℕ) (Val := Elt F) spec1 c ∗ ∃ r, prngReg c r)
  | n + 1 => iprop(owns (c : Thread nD τ) scM1_0 fullShare (accS1 V c n) ∗ owns (c : Thread nD τ) scM1_1 fullShare (accQ1 V c n)
      ∗ Pipeline.scopedRestBut (Ix := Unit) (Name := ℕ) (U := UR sig nD τ) (Lvl := ℕ) (Val := Elt F) spec1 c [cc1_scratch0, cc1_scratch1] ∗ ∃ r, prngReg c r)

theorem Phi1_zero (c : Dev nD) : Phi1 V c 0 = iprop(Pipeline.scopedRest (Ix := Unit) (Name := ℕ) (U := UR sig nD τ) (Lvl := ℕ) (Val := Elt F) spec1 c ∗ ∃ r, prngReg c r) := rfl
theorem Phi1_succ (c : Dev nD) (n : ℕ) : Phi1 V c (n + 1) = iprop(owns (c : Thread nD τ) scM1_0 fullShare (accS1 V c n) ∗ owns (c : Thread nD τ) scM1_1 fullShare (accQ1 V c n)
      ∗ Pipeline.scopedRestBut (Ix := Unit) (Name := ℕ) (U := UR sig nD τ) (Lvl := ℕ) (Val := Elt F) spec1 c [cc1_scratch0, cc1_scratch1] ∗ ∃ r, prngReg c r) := rfl

/-- Before the first point, opened at the two scratch rows: each whole, at some contents. -/
theorem Phi1_zero_open (c : Dev nD) :
    Phi1 V c 0 = iprop(iprop(iprop((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]) ∗ ∃ r, prngReg c r) := by
  rw [Phi1_zero, scopedRest1_split]; simp only [scM1_0, scM1_1, owns_whole]; try rfl

/-! ## The pipeline's proof data -/

/-- The proof data of the pipeline on core `c`: the arrays as the region finds them (`V`); after the body at
    point `t` the input's buffer at its block, the mean row at the mean of the running sums up to `t`, the third at
    their reciprocal standard deviation (what the body stores at the last point; at the other points the two
    output windows are idle and these are not consulted); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (accS1 V c t.val)
    | ⟨2, _⟩ => out1_2 (accS1 V c t.val) (accQ1 V c t.val)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (accS1 V c t.val) := by dsimp only [dat1]
theorem after1_2 (c : Dev nD) (t : Fin cfg1.N) : (dat1 V c).after 2 t = out1_2 (accS1 V c t.val) (accQ1 V c t.val) := by dsimp only [dat1]

theorem Phi1_at (c : Dev nD) (t : Fin (cfg1.N + 1)) : (dat1 V c).Φ t = Phi1 V c t.val := rfl

theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input's memref holds its block; the point is the first, a middle one or the last
    (the grid has 50 points); the invariant hands the body the two scratch rows — at anything at the first point, at
    the running sums the point before left afterwards — and takes them back at this point's running sums; off the
    last point the two output rows are idle and go back as they came, at the last point they are left at the mean
    and the reciprocal standard deviation of the totals; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) from rfl, Phi1_succ]
  rw [show (dat1 V c).Φ t.castSucc = Phi1 V c t.val from rfl]
  rw [show (dat1 V c).leavesExact 0 t = owns (c : Thread nD τ) (st1_0 t) fullShare ((dat1 V c).after 0 t) from by
    unfold Dat.leavesExact; rw [live1_0 t], after1_0]
  have hN : t.val < 50 := lt_of_lt_of_eq t.isLt (show cfg1.N = 50 from N_1)
  by_cases h0 : t.val = 0
  · -- the first point
    have hc1 : cond1_1 (grid1.coords t) := (hcond1_1 t).mpr h0
    have hc2 : ¬cond1_2 (grid1.coords t) := fun h => by have := (hcond1_2 t).mp h; omega
    rw [Dat.leavesExact_idle (dat1 V c) 1 t (idle1_1 t hc2) (noFlush1_1 t hc2),
      Dat.leavesExact_idle (dat1 V c) 2 t (idle1_2 t hc2) (noFlush1_2 t hc2)]
    rw [show Phi1 V c t.val = Phi1 V c 0 from by rw [h0], Phi1_zero_open, accS1_first V c t h0, accQ1_first V c t h0]
    iintro ⟨⟨⟨⟨HS0, HS1⟩, Hrest⟩, Hg⟩, Ho, ⟨%d0, H0⟩, ⟨%d1, H1⟩, ⟨%d2, H2⟩⟩
    iapply (sound_kernel1_A c Set.univ (grid1.coords t) _ _ _ _ _ _ _ _ _ _ hc1 hc2 (iblk1 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexists _; iexact H1
    iexists _; iexact H2
  · obtain ⟨n, hn⟩ := Nat.exists_eq_succ_of_ne_zero h0
    have hc1 : ¬cond1_1 (grid1.coords t) := fun h => h0 ((hcond1_1 t).mp h)
    rw [show Phi1 V c t.val = Phi1 V c (n + 1) from by rw [hn], Phi1_succ, accS1_next V c t n hn, accQ1_next V c t n hn]
    by_cases h2 : t.val = 49
    · -- the last point
      have hc2 : cond1_2 (grid1.coords t) := (hcond1_2 t).mpr h2
      rw [show (dat1 V c).leavesExact 1 t = owns (c : Thread nD τ) (st1_1 t) fullShare ((dat1 V c).after 1 t) from by
        unfold Dat.leavesExact; rw [live1_1 t hc2], after1_1]
      rw [show (dat1 V c).leavesExact 2 t = owns (c : Thread nD τ) (st1_2 t) fullShare ((dat1 V c).after 2 t) from by
        unfold Dat.leavesExact; rw [live1_2 t hc2], after1_2]
      rw [accS1_next V c t n hn, accQ1_next V c t n hn]
      unfold out1_1 out1_2
      iintro ⟨⟨HS0, HS1, Hrest, Hg⟩, Ho, ⟨%d0, H0⟩, ⟨%d1, H1⟩, ⟨%d2, H2⟩⟩
      iapply (sound_kernel1_C c Set.univ (grid1.coords t) _ _ _ _ _ _ _ _ _ _ hc1 hc2 (iblk1 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexact H2
    · -- a middle point
      have hc2 : ¬cond1_2 (grid1.coords t) := fun h => h2 ((hcond1_2 t).mp h)
      rw [Dat.leavesExact_idle (dat1 V c) 1 t (idle1_1 t hc2) (noFlush1_1 t hc2),
        Dat.leavesExact_idle (dat1 V c) 2 t (idle1_2 t hc2) (noFlush1_2 t hc2)]
      iintro ⟨⟨HS0, HS1, Hrest, Hg⟩, Ho, ⟨%d0, H0⟩, ⟨%d1, H1⟩, ⟨%d2, H2⟩⟩
      iapply (sound_kernel1_B c Set.univ (grid1.coords t) _ _ _ _ _ _ _ _ _ _ hc1 hc2 (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the invariant -/

/-- What the region hands the pipeline — the generator register, anything `P` beside it (the prefetched tables:
    none here) and the scoped buffers no window stages — is the invariant before the first point. -/
theorem hin1 (c : Dev nD) (P : sProp 𝕄) :
    iprop(iprop(∃ r, prngReg c r) ∗ P ∗ Pipeline.scopedRest (Ix := Unit) (Name := ℕ) (U := UR sig nD τ) (Lvl := ℕ) (Val := Elt F) spec1 c) ⊢ (dat1 V c).Φ 0 := by
  rw [show (dat1 V c).Φ 0 = Phi1 V c 0 from rfl, Phi1_zero]
  iintro ⟨Hp, -, Hr⟩
  isplitl [Hr]; · iexact Hr
  iexact Hp

/-- After the last point the invariant gives the generator register and the scoped buffers back: the two scratch
    rows' named contents are forgotten. -/
theorem hout1 (c : Dev nD) :
    (dat1 V c).Φ (Fin.last cfg1.N) ⊢ iprop(iprop(∃ r, prngReg c r)
      ∗ Pipeline.ownSems0 (Ix := Unit) (Name := ℕ) (U := UR sig nD τ) (Lvl := ℕ) (Val := Elt F) (fun k : PEmpty => k.elim) c ∗ Pipeline.scopedRest (Ix := Unit) (Name := ℕ) (U := UR sig nD τ) (Lvl := ℕ) (Val := Elt F) spec1 c) := by
  rw [Pipeline.ownSems0_none, show (dat1 V c).Φ (Fin.last cfg1.N) = Phi1 V c (49 + 1) from by
    rw [Phi1_at, Fin.val_last, show cfg1.N = 50 from N_1], Phi1_succ, scopedRest1_split]
  simp only [scM1_0, scM1_1, owns_whole]
  iintro ⟨HS0, HS1, Hrest, Hg⟩
  isplitl [Hg]; · iexact Hg
  isplitr; · iempintro
  isplitl [HS0 HS1]
  · isplitl [HS0]; · iexists _; iexact HS0
    iexists _; iexact HS1
  iexact Hrest

end Cert.Kernel.Hand
end
-- ==== Proof.K.Norm2.lean ====
import proofs.«166096_j40321152975189_1_alg».proof.Proof.Gen.Kernel.Launch
import proofs.«166096_j40321152975189_1_alg».proof.Proof.Gen.Kernel.Skeleton
import proofs.«166096_j40321152975189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The normalise region 2: y = max(((x − mean) · inv_std) · gamma + beta, 0) on a row block,
    the four row vectors broadcast down the rows. Everything at the entry contents `V`. -/

/-! ## The windows' blocks -/

/-- The block of window `w` at grid point `t`: what the window's view at that point reads of the
    window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: the staging buffer the body is handed at a point holds the window's block there,
    whether the pipeline fetched it at that point or at an earlier one (the row block, fetched at every point).
    Holds for any proof data over `V`'s array (`hA`) whose body leaves the block as it found it (`hafter`);
    the window is uncut and has no idle point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := by
    intro t; rw [hafter]; unfold Dat.blockOf iblk2; rw [hA]; try rfl
  have hfetched : dat.fetched 0 t d = iblk2 V c 0 t := by
    unfold Dat.fetched Dat.blockOf iblk2; rw [hA]; try rfl
  exact (dat.before_in_eq_fetched 0 rfl (fun _ => rfl) (fun _ _ _ => rfl) hkeep t d).trans hfetched

/-- Input window 1: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := by
    intro t; rw [hafter]; unfold Dat.blockOf iblk2; rw [hA]; try rfl
  have hfetched : dat.fetched 1 t d = iblk2 V c 1 t := by
    unfold Dat.fetched Dat.blockOf iblk2; rw [hA]; try rfl
  exact (dat.before_in_eq_fetched 1 rfl (fun _ => rfl) (fun _ _ _ => rfl) hkeep t d).trans hfetched

/-- Input window 2: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := by
    intro t; rw [hafter]; unfold Dat.blockOf iblk2; rw [hA]; try rfl
  have hfetched : dat.fetched 2 t d = iblk2 V c 2 t := by
    unfold Dat.fetched Dat.blockOf iblk2; rw [hA]; try rfl
  exact (dat.before_in_eq_fetched 2 rfl (fun _ => rfl) (fun _ _ _ => rfl) hkeep t d).trans hfetched

/-- Input window 3: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := by
    intro t; rw [hafter]; unfold Dat.blockOf iblk2; rw [hA]; try rfl
  have hfetched : dat.fetched 3 t d = iblk2 V c 3 t := by
    unfold Dat.fetched Dat.blockOf iblk2; rw [hA]; try rfl
  exact (dat.before_in_eq_fetched 3 rfl (fun _ => rfl) (fun _ _ _ => rfl) hkeep t d).trans hfetched

/-- Input window 4: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t := by
  have hkeep : ∀ t, (cfg2.win 4).cut (cfg2.grid.coords t) (dat.after 4 t) = dat.blockOf 4 t := by
    intro t; rw [hafter]; unfold Dat.blockOf iblk2; rw [hA]; try rfl
  have hfetched : dat.fetched 4 t d = iblk2 V c 4 t := by
    unfold Dat.fetched Dat.blockOf iblk2; rw [hA]; try rfl
  exact (dat.before_in_eq_fetched 4 rfl (fun _ => rfl) (fun _ _ _ => rfl) hkeep t d).trans hfetched

/-! ## The rectangles the body reads and writes: each buffer whole -/

/-- The whole [2000,256] block. -/
abbrev r2_blk : Rect S2000x256 := Rect.unit (s := S2000x256) ![0, 0] S2000x256.size inb_S2000x256_S2000x256_0_0
/-- The whole [1,256] row. -/
abbrev r2_row : Rect S1x256 := Rect.unit (s := S1x256) ![0, 0] S1x256.size inb_S1x256_S1x256_0_0

/-! ## What the body leaves in the output window's buffer -/

/-- The output buffer after the body, as a function of the five input blocks: the one whole-buffer
    store of the payload computed from the five whole-buffer loads. -/
def out2_5 (x0 : Vec F S2000x256 .f32) (x1 x2 x3 x4 : Vec F S1x256 .f32) : Vec F S2000x256 .f32 :=
  View.canon [⟨r2_blk, k2_pay1 (View.ld x0 r2_blk) (View.ld x1 r2_row) (View.ld x2 r2_row) (View.ld x3 r2_row) (View.ld x4 r2_row)⟩]

/-- The single store is of the whole buffer, so every index of the buffer lies in it. -/
theorem cover2_5 (p0 : Vec F S2000x256 .f32) (y : S2000x256.Idx) :
    ∃ pc ∈ ([⟨r2_blk, p0⟩] : List (View.Piece (Elt F) S2000x256 .f32)), y ∈ pc.1.set :=
  View.cover_of_tiled [⟨r2_blk, p0⟩] S2000x256.size (by rfl) y

/-! ## The body's triple -/

set_option maxHeartbeats 4000000 in
/-- The kernel body on whole staging memrefs. Given the five input memrefs at read contents `x0 … x4` and the
    output memref at any contents, it runs to the continuation with the inputs unchanged and the output at
    `out2_5` of the inputs: five whole loads, one (dead) whole load of the output, one whole store. -/
theorem sound_kernel2 (c : Dev nD) (E : Set ℕ) (i : grid2.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_norm_kernel i arg1 harg1 arg2 harg2 arg3 harg3 arg4 harg4 arg5 harg5 arg6 harg6) K := by
  simp only [cc2__bn_norm_kernel_eq_skeleton]; unfold cc2__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the region's pipeline on core `c`: the arrays as the region finds them; after the body at
    point `t` every input buffer at its block and the output buffer at `out2_5` of the five input blocks;
    the invariant carries the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, what is owed, and the six current staging
    memrefs, each at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body returns: the same, each memref at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input memrefs hold their blocks, so the kernel's triple applies; the invariant
    and what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The output block at an index, over the extended reals -/

section AtIndex
open Idealize.ShloMosaic.ValueIdx

/-- At the ideal values, the output block read at row `p`, column `q`: the input block's entry there, minus the
    mean of column `q`, times the inverse deviation, times the scale, plus the shift, clamped below at zero. The one
    whole-buffer store leaves its payload; the whole-buffer loads read the blocks; the shape casts are identities;
    each [1,256] row broadcast to [2000,256] reads its one row at the column; the arithmetic is pointwise; the f32
    zero word is the extended real zero. -/
theorem out2_5_apply (x0 : Vec Ideal S2000x256 .f32) (x1 x2 x3 x4 : Vec Ideal S1x256 .f32) (p : Fin 2000) (q : Fin 256) :
    out2_5 (F := Ideal) x0 x1 x2 x3 x4 (ix2 p q)
      = max ((((x0 (ix2 p q) - x1 (ix2 (0 : Fin 1) q)) * x2 (ix2 (0 : Fin 1) q)) * x3 (ix2 (0 : Fin 1) q)) + x4 (ix2 (0 : Fin 1) q)) (0 : EReal) := by
  have hz : (![0, 0] : Fin 2 → ℕ) = fun _ => 0 := by
    funext a; match a with | ⟨0, _⟩ => rfl | ⟨1, _⟩ => rfl
  unfold out2_5
  rw [View.canon_unit_zero hz]
  simp only [View.ld_unit_zero (S := S2000x256) hz, View.ld_unit_zero (S := S1x256) hz]
  unfold k2_pay1
  simp only [shapeCast_self]
  rw [maximumf_apply, addf_apply, mulf_apply, mulf_apply, subf_apply,
    broadcastTo_1b_ab_apply, broadcastTo_1b_ab_apply, broadcastTo_1b_ab_apply, broadcastTo_1b_ab_apply,
    broadcast_apply]
  show max _ (Idealize.ShloMosaic.Ideal.ofBits .f32 0x00000000#32) = _
  rw [Idealize.ShloMosaic.Ideal.ofBits_zero_f32]

end AtIndex

end Cert.Kernel.Hand
-- ==== Proof.K.Linear3.lean ====
import proofs.«166096_j40321152975189_1_alg».proof.Proof.Gen.Kernel.Launch
import proofs.«166096_j40321152975189_1_alg».proof.Proof.Gen.Kernel.Skeleton
import proofs.«166096_j40321152975189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 3: the linear layer `cc3__linear_kernel` — rows of `h[2000,256] · w[256,256] + b[1,256]`

Four windows: 0 the row block of the activations (a new block at every grid point), 1 the weight matrix and
2 the bias row (one block for the whole grid, so the transfer happens at the first point only and the staging
buffer is left alone afterwards), 3 the row block of the result (written back at every point). Everything is
stated at a parameter `V`: the contents of the core's buffers when the region is entered. -/

/-! ## The windows' blocks -/

/-- The block of window `w` at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What an input's staging buffer holds when the body starts

For each of the three inputs: whenever the proof data's array is the entry contents and the body leaves the
buffer at the block, the buffer holds the block at EVERY point. At a point where the window is fetched this is
what the transfer wrote; at a point where it is not (windows 1 and 2 after the first point) the block index has
not moved since the previous point, whose body left that same block there. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl)
    (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl)
    (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl)
    (fun t => by rw [hafter]; unfold Dat.blockOf iblk3; rw [hA]; try rfl) t d).trans
    (by unfold Dat.fetched Dat.blockOf iblk3; rw [hA]; try rfl)

/-! ## The body's accesses: each buffer, whole -/

abbrev r3_0 : Rect S2000x256 := Rect.unit (s := S2000x256) ![0, 0] S2000x256.size inb_S2000x256_S2000x256_0_0
abbrev r3_1 : Rect S256x256 := Rect.unit (s := S256x256) ![0, 0] S256x256.size inb_S256x256_S256x256_0_0
abbrev r3_2 : Rect S1x256 := Rect.unit (s := S1x256) ![0, 0] S1x256.size inb_S1x256_S1x256_0_0
abbrev r3_3 : Rect S2000x256 := Rect.unit (s := S2000x256) ![0, 0] S2000x256.size inb_S2000x256_S2000x256_0_0

/-! ## What the body leaves in the result's buffer -/

/-- The result window's buffer after the body, as a function of the three input blocks: the one store, of the
    payload computed from the three whole loads, laid over the buffer. -/
def out3_3 (x0 : Vec F S2000x256 .f32) (x1 : Vec F S256x256 .f32) (x2 : Vec F S1x256 .f32) : Vec F S2000x256 .f32 :=
  View.canon [⟨r3_3, k3_pay1 (View.ld x0 r3_0) (View.ld x1 r3_1) (View.ld x2 r3_2)⟩]

/-- The one store is of the whole buffer, so every position of the buffer lies in it. -/
theorem cover3_3 (p0 : Vec F S2000x256 .f32) (y : S2000x256.Idx) :
    ∃ pc ∈ ([⟨r3_3, p0⟩] : List (View.Piece (Elt F) S2000x256 .f32)), y ∈ pc.1.set :=
  View.cover_of_tiled [⟨r3_3, p0⟩] S2000x256.size (by rfl) y

/-! ## The body's triple -/

set_option maxHeartbeats 4000000 in
/-- The body on whole staging memrefs — the inputs' at contents `x0`, `x1`, `x2`, the result's at anything — runs
    without a fault to the continuation, which receives the inputs' memrefs as they were and the result's at
    `out3_3 x0 x1 x2`. The function is a straight line of three whole loads of the inputs, one whole load of the
    result's buffer (whose value is not used) and one whole store: the triple follows operation by operation. -/
theorem sound_kernel3 (c : Dev nD) (E : Set ℕ) (i : grid3.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the region's pipeline on core `c`: the arrays as the region finds them; after the body at
    point `t` each input's buffer still at its block and the result's at `out3_3` of the three input blocks; the
    invariant that leaves the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`: the invariant, what the core owes, and each window's current
    staging memref at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.Stats4.lean ====
import proofs.«166096_j40321152975189_1_alg».proof.Proof.Gen.Kernel.Launch
import proofs.«166096_j40321152975189_1_alg».proof.Proof.Gen.Kernel.Skeleton
import proofs.«166096_j40321152975189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The statistics kernel of region 4: column sums and column sums of squares accumulated over the grid

The body runs at 50 grid points over row blocks of 2000 rows. Two scratch rows are carried from point to
point: the running column sums and the running column sums of squares. At the first point both are zeroed
before the block is added; at every point the block's column sums (of squares) are added; at the last point
the mean and the reciprocal standard deviation are formed from the totals and stored in the two output rows. -/

/-! ## The two conditionals of the body -/

/-- The first conditional: the grid coordinate is 0 (the kernel's scalar chain, substituted). -/
abbrev cond4_1 (i : grid4.Coords) : Prop := (Scalar.cmpi .ne (Scalar.extui (Scalar.cmpi .eq (BitVec.ofNat 32 (i 0).val) 0#32)) 0#32) = 1#1
/-- It holds at the first point only. -/
theorem hcond4_1 : ∀ t : Fin cfg4.N, cond4_1 (grid4.coords t) ↔ t.val = 0 :=
  (by decide +kernel : ∀ t : Fin grid4.N, cond4_1 (grid4.coords t) ↔ t.val = 0)

/-- The second conditional: the grid coordinate is 49. -/
abbrev cond4_2 (i : grid4.Coords) : Prop := k4_cond2 i = 1#1
/-- It holds at the last point only. -/
theorem hcond4_2 : ∀ t : Fin cfg4.N, cond4_2 (grid4.coords t) ↔ t.val = 49 :=
  (by decide +kernel : ∀ t : Fin grid4.N, cond4_2 (grid4.coords t) ↔ t.val = 49)

/-! ## Where the windows are idle -/

/-- The input window is never idle. -/
theorem live4_0 : ∀ t : Fin cfg4.N, cfg4.idle 0 (grid4.coords t) = false := by decide +kernel
/-- Off the last point the two output windows are idle and are not written back. -/
theorem idle4_1 : ∀ t : Fin cfg4.N, ¬cond4_2 (grid4.coords t) → cfg4.idle 1 (grid4.coords t) = true := by decide +kernel
theorem noFlush4_1 : ∀ t : Fin cfg4.N, ¬cond4_2 (grid4.coords t) → (cfg4.win 1).flush t = false := by decide +kernel
theorem idle4_2 : ∀ t : Fin cfg4.N, ¬cond4_2 (grid4.coords t) → cfg4.idle 2 (grid4.coords t) = true := by decide +kernel
theorem noFlush4_2 : ∀ t : Fin cfg4.N, ¬cond4_2 (grid4.coords t) → (cfg4.win 2).flush t = false := by decide +kernel
/-- At the last point they are live. -/
theorem live4_1 : ∀ t : Fin cfg4.N, cond4_2 (grid4.coords t) → cfg4.idle 1 (grid4.coords t) = false := by decide +kernel
theorem live4_2 : ∀ t : Fin cfg4.N, cond4_2 (grid4.coords t) → cfg4.idle 2 (grid4.coords t) = false := by decide +kernel

/-! ## Whole-row accesses -/

/-- The zero offsets of a rank-2 access, as the constant function. -/
theorem off2_zero4 : (![0, 0] : Fin 2 → ℕ) = fun _ => 0 := by
  funext a; fin_cases a <;> rfl

/-- One store through the whole row covers the row. -/
theorem cover_row4 (p : Vec F S1x256 .f32) (L : List (View.Piece (Elt F) S1x256 .f32)) (y : S1x256.Idx) :
    ∃ pc ∈ ((⟨Rect.unit (s := S1x256) ![0, 0] S1x256.size inb_S1x256_S1x256_0_0, p⟩ : View.Piece (Elt F) S1x256 .f32) :: L), y ∈ pc.1.set :=
  ⟨_, List.mem_cons_self, View.mem_set_unit_zero off2_zero4 inb_S1x256_S1x256_0_0 y⟩

/-- What a view reads after a last store through the whole row: the stored row. -/
theorem read_row_store4 {sp : Space} (v : View sig .tc sp S1x256 .f32) (f : v.ty.Contents (Elt F)) (p : Vec F S1x256 .f32)
    (L : List (View.Piece (Elt F) S1x256 .f32)) :
    v.read (Elt F) (v.writes (Elt F) f ((⟨Rect.unit (s := S1x256) ![0, 0] S1x256.size inb_S1x256_S1x256_0_0, p⟩ : View.Piece (Elt F) S1x256 .f32) :: L)) = p := by
  rw [View.read_writes_eq_canon _ _ _ (cover_row4 p L), View.canon_cons_unit_zero off2_zero4]

/-! ## The body's runs, one per control case -/

/-- A load through the whole block reads the block. -/
theorem ld_blk4 (X : Vec F S2000x256 .f32) :
    View.ld X (Rect.unit (s := S2000x256) ![0, 0] S2000x256.size inb_S2000x256_S2000x256_0_0) = X :=
  View.ld_unit_zero off2_zero4 _ X
/-- A load through the whole row reads the row. -/
theorem ld_row4 (X : Vec F S1x256 .f32) :
    View.ld X (Rect.unit (s := S1x256) ![0, 0] S1x256.size inb_S1x256_S1x256_0_0) = X :=
  View.ld_unit_zero off2_zero4 _ X

set_option maxHeartbeats 1000000 in
/-- A MIDDLE point (neither conditional taken): on whole memrefs, the block at `x0`, the two output rows at
    any contents `y1`, `y2` (handed back untouched), the running sums at `s0`, `s1`, the body runs to the
    continuation with the block's column sums added to `s0` and its column sums of squares to `s1`. -/
theorem sound_kernel4_B (c : Dev nD) (E : Set ℕ) (i : grid4.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc1 : ¬cond4_1 i) (hc2 : ¬cond4_2 i)
    (x0 : Vec F S2000x256 .f32) (y1 y2 s0 s1 : Vec F S1x256 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k4_pay4 x0 s0) ∗ owns (c : Thread nD τ) arg5 fullShare (k4_pay5 x0 s1)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_row_store4]; exact congrArg₂ _ (ld_blk4 _) (ld_row4 _)
  iexists _; isplitr
  swap; · iexact H4
  ipureintro
  rw [read_row_store4]; exact congrArg₂ _ (ld_blk4 _) (ld_row4 _)

/-- A load through the whole row of what one store through the whole row left reads the stored row. -/
theorem readCov_row4 {sp : Space} (v : View sig .tc sp S1x256 .f32) (p : Vec F S1x256 .f32) :
    v.readCov [(⟨Rect.unit (s := S1x256) ![0, 0] S1x256.size inb_S1x256_S1x256_0_0, p⟩ : View.Piece (Elt F) S1x256 .f32)]
      (Rect.unit (s := S1x256) ![0, 0] S1x256.size inb_S1x256_S1x256_0_0).toLoadRect = p :=
  View.readCov_unit_zero v off2_zero4 _ p

set_option maxHeartbeats 1000000 in
/-- The FIRST point (first conditional taken, second not): the two running sums at anything; the body zeroes
    them, then adds the block's column sums (of squares): they end at the block's sums over zero. The output
    rows are handed back untouched. -/
theorem sound_kernel4_A (c : Dev nD) (E : Set ℕ) (i : grid4.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc1 : cond4_1 i) (hc2 : ¬cond4_2 i)
    (x0 : Vec F S2000x256 .f32) (y1 y2 : Vec F S1x256 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k4_pay4 x0 k4_pay1) ∗ owns (c : Thread nD τ) arg5 fullShare (k4_pay5 x0 k4_pay2)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_row_store4]
    sl_unfold_run_names
    exact congrArg₂ _ (ld_blk4 (View.read (Elt F) arg1.view f0)) (readCov_row4 _ _)
  iexists _; isplitr
  swap; · iexact H4
  ipureintro
  rw [read_row_store4]
  sl_unfold_run_names
  exact congrArg₂ _ (ld_blk4 (View.read (Elt F) arg1.view f0)) (readCov_row4 _ _)

set_option maxHeartbeats 1000000 in
/-- The LAST point (first conditional not taken, second taken): the running sums at `s0`, `s1`, the output rows at
    anything; the body adds the block's sums, then stores the mean and the reciprocal standard deviation of the
    totals in the two output rows. -/
theorem sound_kernel4_C (c : Dev nD) (E : Set ℕ) (i : grid4.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc1 : ¬cond4_1 i) (hc2 : cond4_2 i)
    (x0 : Vec F S2000x256 .f32) (s0 s1 : Vec F S1x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k4_pay6 (k4_pay4 x0 s0)) ∗ owns (c : Thread nD τ) arg3 fullShare (k4_pay7 (k4_pay4 x0 s0) (k4_pay5 x0 s1))
            ∗ owns (c : Thread nD τ) arg4 fullShare (k4_pay4 x0 s0) ∗ owns (c : Thread nD τ) arg5 fullShare (k4_pay5 x0 s1)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0; subst hf3; subst hf4
  sl_exec (disch := first | exact hc1 | exact hc2)
  sl_step
  iapply Hk
  isplitl [H0]
  · iexists f0; isplitr; · ipureintro; rfl
    iexact H0
  isplitl [H1]
  · iexists _; isplitr
    swap; · iexact H1
    ipureintro
    rw [read_row_store4]
    sl_unfold_run_names
    rw [readCov_row4]
    exact congrArg _ (congrArg₂ _ (ld_blk4 (View.read (Elt F) arg1.view f0)) (ld_row4 (View.read (Elt F) arg4.view f3)))
  isplitl [H2]
  · iexists _; isplitr
    swap; · iexact H2
    ipureintro
    rw [read_row_store4]
    sl_unfold_run_names
    rw [readCov_row4, readCov_row4]
    exact congrArg₂ _ (congrArg₂ _ (ld_blk4 (View.read (Elt F) arg1.view f0)) (ld_row4 (View.read (Elt F) arg4.view f3)))
      (congrArg₂ _ (ld_blk4 (View.read (Elt F) arg1.view f0)) (ld_row4 (View.read (Elt F) arg5.view f4)))
  isplitl [H3]
  · iexists _; isplitr
    swap; · iexact H3
    ipureintro
    sl_unfold_run_names
    rw [read_row_store4]
    exact congrArg₂ _ (ld_blk4 (View.read (Elt F) arg1.view f0)) (ld_row4 (View.read (Elt F) arg4.view f3))
  iexists _; isplitr
  swap; · iexact H4
  ipureintro
  sl_unfold_run_names
  rw [read_row_store4]
  exact congrArg₂ _ (ld_blk4 (View.read (Elt F) arg1.view f0)) (ld_row4 (View.read (Elt F) arg5.view f4))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is
    `V`'s and whose body leaves the block in place: the window is uncut, never idle, fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The running sums, point by point -/

/-- The grid is not empty. -/
theorem N4_pos : 0 < cfg4.N := by rw [show cfg4.N = 50 from N_4]; decide

/-- The input block at position `n` of the grid (a position past the grid wraps around: only positions on the
    grid are ever consulted). -/
def xb4 (c : Dev nD) (n : ℕ) : Vec F S2000x256 .f32 :=
  iblk4 V c 0 ⟨n % cfg4.N, Nat.mod_lt _ N4_pos⟩

theorem xb4_val (c : Dev nD) (t : Fin cfg4.N) : xb4 V c t.val = iblk4 V c 0 t := by
  have e : (⟨t.val % cfg4.N, Nat.mod_lt _ N4_pos⟩ : Fin cfg4.N) = t :=
    Fin.ext (Nat.mod_eq_of_lt t.isLt)
  unfold xb4; rw [e]

/-- The running column sums after the body at position `n`: the block's column sums added to zero at the first
    point, to what the point before left afterwards. -/
def accS4 (c : Dev nD) : ℕ → Vec F S1x256 .f32
  | 0 => k4_pay4 (xb4 V c 0) k4_pay1
  | n + 1 => k4_pay4 (xb4 V c (n + 1)) (accS4 c n)

/-- The running column sums of squares after the body at position `n`. -/
def accQ4 (c : Dev nD) : ℕ → Vec F S1x256 .f32
  | 0 => k4_pay5 (xb4 V c 0) k4_pay2
  | n + 1 => k4_pay5 (xb4 V c (n + 1)) (accQ4 c n)

theorem accS4_zero (c : Dev nD) : accS4 V c 0 = k4_pay4 (xb4 V c 0) k4_pay1 := rfl
theorem accS4_succ (c : Dev nD) (n : ℕ) : accS4 V c (n + 1) = k4_pay4 (xb4 V c (n + 1)) (accS4 V c n) := rfl
theorem accQ4_zero (c : Dev nD) : accQ4 V c 0 = k4_pay5 (xb4 V c 0) k4_pay2 := rfl
theorem accQ4_succ (c : Dev nD) (n : ℕ) : accQ4 V c (n + 1) = k4_pay5 (xb4 V c (n + 1)) (accQ4 V c n) := rfl

/-- At the first point: the block's sums over zero. -/
theorem accS4_first (c : Dev nD) (t : Fin cfg4.N) (h0 : t.val = 0) : accS4 V c t.val = k4_pay4 (iblk4 V c 0 t) k4_pay1 := by
  rw [← xb4_val V c t, h0]; rfl
theorem accQ4_first (c : Dev nD) (t : Fin cfg4.N) (h0 : t.val = 0) : accQ4 V c t.val = k4_pay5 (iblk4 V c 0 t) k4_pay2 := by
  rw [← xb4_val V c t, h0]; rfl
/-- At a later point: the block's sums over what the point before left. -/
theorem accS4_next (c : Dev nD) (t : Fin cfg4.N) (n : ℕ) (hn : t.val = n + 1) : accS4 V c t.val = k4_pay4 (iblk4 V c 0 t) (accS4 V c n) := by
  rw [← xb4_val V c t, hn]; rfl
theorem accQ4_next (c : Dev nD) (t : Fin cfg4.N) (n : ℕ) (hn : t.val = n + 1) : accQ4 V c t.val = k4_pay5 (iblk4 V c 0 t) (accQ4 V c n) := by
  rw [← xb4_val V c t, hn]; rfl

/-- The mean row, of the running column sums `s`: `s / 100000`. -/
def out4_1 (s : Vec F S1x256 .f32) : Vec F S1x256 .f32 := k4_pay6 s
/-- The reciprocal standard deviation row, of the running sums `s` and sums of squares `q`:
    `rsqrt (q / 100000 - (s / 100000)² + ε)`. -/
def out4_2 (s q : Vec F S1x256 .f32) : Vec F S1x256 .f32 := k4_pay7 s q

/-! ## The invariant: the two scratch rows at the running sums -/

/-- The scratch operands: whole scoped buffers of the kernel's own. -/
abbrev scM4_0 : Memref sig .tc .vmem S1x256 .f32 := Memref.whole cc4_scratch0
abbrev scM4_1 : Memref sig .tc .vmem S1x256 .f32 := Memref.whole cc4_scratch1

/-- The region invariant before position `n`: before the first point every scoped buffer no window stages at
    anything and the generator register at some state; afterwards the two scratch rows at the running sums the
    point before left, the other scoped buffers at anything, the generator register at some state. -/
def Phi4 (c : Dev nD) : ℕ → sProp 𝕄
  | 0 => iprop(Pipeline.scopedRest (Ix := Unit) (Name := ℕ) (U := UR sig nD τ) (Lvl := ℕ) (Val := Elt F) spec4 c ∗ ∃ r, prngReg c r)
  | n + 1 => iprop(owns (c : Thread nD τ) scM4_0 fullShare (accS4 V c n) ∗ owns (c : Thread nD τ) scM4_1 fullShare (accQ4 V c n)
      ∗ Pipeline.scopedRestBut (Ix := Unit) (Name := ℕ) (U := UR sig nD τ) (Lvl := ℕ) (Val := Elt F) spec4 c [cc4_scratch0, cc4_scratch1] ∗ ∃ r, prngReg c r)

theorem Phi4_zero (c : Dev nD) : Phi4 V c 0 = iprop(Pipeline.scopedRest (Ix := Unit) (Name := ℕ) (U := UR sig nD τ) (Lvl := ℕ) (Val := Elt F) spec4 c ∗ ∃ r, prngReg c r) := rfl
theorem Phi4_succ (c : Dev nD) (n : ℕ) : Phi4 V c (n + 1) = iprop(owns (c : Thread nD τ) scM4_0 fullShare (accS4 V c n) ∗ owns (c : Thread nD τ) scM4_1 fullShare (accQ4 V c n)
      ∗ Pipeline.scopedRestBut (Ix := Unit) (Name := ℕ) (U := UR sig nD τ) (Lvl := ℕ) (Val := Elt F) spec4 c [cc4_scratch0, cc4_scratch1] ∗ ∃ r, prngReg c r) := rfl

/-- Before the first point, opened at the two scratch rows: each whole, at some contents. -/
theorem Phi4_zero_open (c : Dev nD) :
    Phi4 V c 0 = iprop(iprop(iprop((∃ d, owns (c : Thread nD τ) scM4_0 fullShare d) ∗ (∃ d, owns (c : Thread nD τ) scM4_1 fullShare d))
      ∗ Pipeline.scopedRestBut (Ix := Unit) (Name := ℕ) (U := UR sig nD τ) (Lvl := ℕ) (Val := Elt F) spec4 c [cc4_scratch0, cc4_scratch1]) ∗ ∃ r, prngReg c r) := by
  rw [Phi4_zero, scopedRest4_split]; simp only [scM4_0, scM4_1, owns_whole]; try rfl

/-! ## The pipeline's proof data -/

/-- The proof data of the pipeline on core `c`: the arrays as the region finds them (`V`); after the body at
    point `t` the input's buffer at its block, the mean row at the mean of the running sums up to `t`, the third at
    their reciprocal standard deviation (what the body stores at the last point; at the other points the two
    output windows are idle and these are not consulted); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (accS4 V c t.val)
    | ⟨2, _⟩ => out4_2 (accS4 V c t.val) (accQ4 V c t.val)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = out4_1 (accS4 V c t.val) := by dsimp only [dat4]
theorem after4_2 (c : Dev nD) (t : Fin cfg4.N) : (dat4 V c).after 2 t = out4_2 (accS4 V c t.val) (accQ4 V c t.val) := by dsimp only [dat4]

theorem Phi4_at (c : Dev nD) (t : Fin (cfg4.N + 1)) : (dat4 V c).Φ t = Phi4 V c t.val := rfl

theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The input's memref holds its block; the point is the first, a middle one or the last
    (the grid has 50 points); the invariant hands the body the two scratch rows — at anything at the first point, at
    the running sums the point before left afterwards — and takes them back at this point's running sums; off the
    last point the two output rows are idle and go back as they came, at the last point they are left at the mean
    and the reciprocal standard deviation of the totals; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = Phi4 V c (t.val + 1) from rfl, Phi4_succ]
  rw [show (dat4 V c).Φ t.castSucc = Phi4 V c t.val from rfl]
  rw [show (dat4 V c).leavesExact 0 t = owns (c : Thread nD τ) (st4_0 t) fullShare ((dat4 V c).after 0 t) from by
    unfold Dat.leavesExact; rw [live4_0 t], after4_0]
  have hN : t.val < 50 := lt_of_lt_of_eq t.isLt (show cfg4.N = 50 from N_4)
  by_cases h0 : t.val = 0
  · -- the first point
    have hc1 : cond4_1 (grid4.coords t) := (hcond4_1 t).mpr h0
    have hc2 : ¬cond4_2 (grid4.coords t) := fun h => by have := (hcond4_2 t).mp h; omega
    rw [Dat.leavesExact_idle (dat4 V c) 1 t (idle4_1 t hc2) (noFlush4_1 t hc2),
      Dat.leavesExact_idle (dat4 V c) 2 t (idle4_2 t hc2) (noFlush4_2 t hc2)]
    rw [show Phi4 V c t.val = Phi4 V c 0 from by rw [h0], Phi4_zero_open, accS4_first V c t h0, accQ4_first V c t h0]
    iintro ⟨⟨⟨⟨HS0, HS1⟩, Hrest⟩, Hg⟩, Ho, ⟨%d0, H0⟩, ⟨%d1, H1⟩, ⟨%d2, H2⟩⟩
    iapply (sound_kernel4_A c Set.univ (grid4.coords t) _ _ _ _ _ _ _ _ _ _ hc1 hc2 (iblk4 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexists _; iexact H1
    iexists _; iexact H2
  · obtain ⟨n, hn⟩ := Nat.exists_eq_succ_of_ne_zero h0
    have hc1 : ¬cond4_1 (grid4.coords t) := fun h => h0 ((hcond4_1 t).mp h)
    rw [show Phi4 V c t.val = Phi4 V c (n + 1) from by rw [hn], Phi4_succ, accS4_next V c t n hn, accQ4_next V c t n hn]
    by_cases h2 : t.val = 49
    · -- the last point
      have hc2 : cond4_2 (grid4.coords t) := (hcond4_2 t).mpr h2
      rw [show (dat4 V c).leavesExact 1 t = owns (c : Thread nD τ) (st4_1 t) fullShare ((dat4 V c).after 1 t) from by
        unfold Dat.leavesExact; rw [live4_1 t hc2], after4_1]
      rw [show (dat4 V c).leavesExact 2 t = owns (c : Thread nD τ) (st4_2 t) fullShare ((dat4 V c).after 2 t) from by
        unfold Dat.leavesExact; rw [live4_2 t hc2], after4_2]
      rw [accS4_next V c t n hn, accQ4_next V c t n hn]
      unfold out4_1 out4_2
      iintro ⟨⟨HS0, HS1, Hrest, Hg⟩, Ho, ⟨%d0, H0⟩, ⟨%d1, H1⟩, ⟨%d2, H2⟩⟩
      iapply (sound_kernel4_C c Set.univ (grid4.coords t) _ _ _ _ _ _ _ _ _ _ hc1 hc2 (iblk4 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexact H2
    · -- a middle point
      have hc2 : ¬cond4_2 (grid4.coords t) := fun h => h2 ((hcond4_2 t).mp h)
      rw [Dat.leavesExact_idle (dat4 V c) 1 t (idle4_1 t hc2) (noFlush4_1 t hc2),
        Dat.leavesExact_idle (dat4 V c) 2 t (idle4_2 t hc2) (noFlush4_2 t hc2)]
      iintro ⟨⟨HS0, HS1, Hrest, Hg⟩, Ho, ⟨%d0, H0⟩, ⟨%d1, H1⟩, ⟨%d2, H2⟩⟩
      iapply (sound_kernel4_B c Set.univ (grid4.coords t) _ _ _ _ _ _ _ _ _ _ hc1 hc2 (iblk4 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexists _; iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the invariant -/

/-- What the region hands the pipeline — the generator register, anything `P` beside it (the prefetched tables:
    none here) and the scoped buffers no window stages — is the invariant before the first point. -/
theorem hin4 (c : Dev nD) (P : sProp 𝕄) :
    iprop(iprop(∃ r, prngReg c r) ∗ P ∗ Pipeline.scopedRest (Ix := Unit) (Name := ℕ) (U := UR sig nD τ) (Lvl := ℕ) (Val := Elt F) spec4 c) ⊢ (dat4 V c).Φ 0 := by
  rw [show (dat4 V c).Φ 0 = Phi4 V c 0 from rfl, Phi4_zero]
  iintro ⟨Hp, -, Hr⟩
  isplitl [Hr]; · iexact Hr
  iexact Hp

/-- After the last point the invariant gives the generator register and the scoped buffers back: the two scratch
    rows' named contents are forgotten. -/
theorem hout4 (c : Dev nD) :
    (dat4 V c).Φ (Fin.last cfg4.N) ⊢ iprop(iprop(∃ r, prngReg c r)
      ∗ Pipeline.ownSems0 (Ix := Unit) (Name := ℕ) (U := UR sig nD τ) (Lvl := ℕ) (Val := Elt F) (fun k : PEmpty => k.elim) c ∗ Pipeline.scopedRest (Ix := Unit) (Name := ℕ) (U := UR sig nD τ) (Lvl := ℕ) (Val := Elt F) spec4 c) := by
  rw [Pipeline.ownSems0_none, show (dat4 V c).Φ (Fin.last cfg4.N) = Phi4 V c (49 + 1) from by
    rw [Phi4_at, Fin.val_last, show cfg4.N = 50 from N_4], Phi4_succ, scopedRest4_split]
  simp only [scM4_0, scM4_1, owns_whole]
  iintro ⟨HS0, HS1, Hrest, Hg⟩
  isplitl [Hg]; · iexact Hg
  isplitr; · iempintro
  isplitl [HS0 HS1]
  · isplitl [HS0]; · iexists _; iexact HS0
    iexists _; iexact HS1
  iexact Hrest

end Cert.Kernel.Hand
end
-- ==== Proof.K.Norm5.lean ====
import proofs.«166096_j40321152975189_1_alg».proof.Proof.Gen.Kernel.Launch
import proofs.«166096_j40321152975189_1_alg».proof.Proof.Gen.Kernel.Skeleton
import proofs.«166096_j40321152975189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The normalise region 5: y = max(((x − mean) · inv_std) · gamma + beta, 0) on a row block,
    the four row vectors broadcast down the rows. Everything at the entry contents `V`. -/

/-! ## The windows' blocks -/

/-- The block of window `w` at grid point `t`: what the window's view at that point reads of the
    window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: the staging buffer the body is handed at a point holds the window's block there,
    whether the pipeline fetched it at that point or at an earlier one (the row block, fetched at every point).
    Holds for any proof data over `V`'s array (`hA`) whose body leaves the block as it found it (`hafter`);
    the window is uncut and has no idle point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t := by
  have hkeep : ∀ t, (cfg5.win 0).cut (cfg5.grid.coords t) (dat.after 0 t) = dat.blockOf 0 t := by
    intro t; rw [hafter]; unfold Dat.blockOf iblk5; rw [hA]; try rfl
  have hfetched : dat.fetched 0 t d = iblk5 V c 0 t := by
    unfold Dat.fetched Dat.blockOf iblk5; rw [hA]; try rfl
  exact (dat.before_in_eq_fetched 0 rfl (fun _ => rfl) (fun _ _ _ => rfl) hkeep t d).trans hfetched

/-- Input window 1: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t := by
  have hkeep : ∀ t, (cfg5.win 1).cut (cfg5.grid.coords t) (dat.after 1 t) = dat.blockOf 1 t := by
    intro t; rw [hafter]; unfold Dat.blockOf iblk5; rw [hA]; try rfl
  have hfetched : dat.fetched 1 t d = iblk5 V c 1 t := by
    unfold Dat.fetched Dat.blockOf iblk5; rw [hA]; try rfl
  exact (dat.before_in_eq_fetched 1 rfl (fun _ => rfl) (fun _ _ _ => rfl) hkeep t d).trans hfetched

/-- Input window 2: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t := by
  have hkeep : ∀ t, (cfg5.win 2).cut (cfg5.grid.coords t) (dat.after 2 t) = dat.blockOf 2 t := by
    intro t; rw [hafter]; unfold Dat.blockOf iblk5; rw [hA]; try rfl
  have hfetched : dat.fetched 2 t d = iblk5 V c 2 t := by
    unfold Dat.fetched Dat.blockOf iblk5; rw [hA]; try rfl
  exact (dat.before_in_eq_fetched 2 rfl (fun _ => rfl) (fun _ _ _ => rfl) hkeep t d).trans hfetched

/-- Input window 3: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t := by
  have hkeep : ∀ t, (cfg5.win 3).cut (cfg5.grid.coords t) (dat.after 3 t) = dat.blockOf 3 t := by
    intro t; rw [hafter]; unfold Dat.blockOf iblk5; rw [hA]; try rfl
  have hfetched : dat.fetched 3 t d = iblk5 V c 3 t := by
    unfold Dat.fetched Dat.blockOf iblk5; rw [hA]; try rfl
  exact (dat.before_in_eq_fetched 3 rfl (fun _ => rfl) (fun _ _ _ => rfl) hkeep t d).trans hfetched

/-- Input window 4: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t := by
  have hkeep : ∀ t, (cfg5.win 4).cut (cfg5.grid.coords t) (dat.after 4 t) = dat.blockOf 4 t := by
    intro t; rw [hafter]; unfold Dat.blockOf iblk5; rw [hA]; try rfl
  have hfetched : dat.fetched 4 t d = iblk5 V c 4 t := by
    unfold Dat.fetched Dat.blockOf iblk5; rw [hA]; try rfl
  exact (dat.before_in_eq_fetched 4 rfl (fun _ => rfl) (fun _ _ _ => rfl) hkeep t d).trans hfetched

/-! ## The rectangles the body reads and writes: each buffer whole -/

/-- The whole [2000,256] block. -/
abbrev r5_blk : Rect S2000x256 := Rect.unit (s := S2000x256) ![0, 0] S2000x256.size inb_S2000x256_S2000x256_0_0
/-- The whole [1,256] row. -/
abbrev r5_row : Rect S1x256 := Rect.unit (s := S1x256) ![0, 0] S1x256.size inb_S1x256_S1x256_0_0

/-! ## What the body leaves in the output window's buffer -/

/-- The output buffer after the body, as a function of the five input blocks: the one whole-buffer
    store of the payload computed from the five whole-buffer loads. -/
def out5_5 (x0 : Vec F S2000x256 .f32) (x1 x2 x3 x4 : Vec F S1x256 .f32) : Vec F S2000x256 .f32 :=
  View.canon [⟨r5_blk, k5_pay1 (View.ld x0 r5_blk) (View.ld x1 r5_row) (View.ld x2 r5_row) (View.ld x3 r5_row) (View.ld x4 r5_row)⟩]

/-- The single store is of the whole buffer, so every index of the buffer lies in it. -/
theorem cover5_5 (p0 : Vec F S2000x256 .f32) (y : S2000x256.Idx) :
    ∃ pc ∈ ([⟨r5_blk, p0⟩] : List (View.Piece (Elt F) S2000x256 .f32)), y ∈ pc.1.set :=
  View.cover_of_tiled [⟨r5_blk, p0⟩] S2000x256.size (by rfl) y

/-! ## The body's triple -/

set_option maxHeartbeats 4000000 in
/-- The kernel body on whole staging memrefs. Given the five input memrefs at read contents `x0 … x4` and the
    output memref at any contents, it runs to the continuation with the inputs unchanged and the output at
    `out5_5` of the inputs: five whole loads, one (dead) whole load of the output, one whole store. -/
theorem sound_kernel5 (c : Dev nD) (E : Set ℕ) (i : grid5.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_norm_kernel i arg1 harg1 arg2 harg2 arg3 harg3 arg4 harg4 arg5 harg5 arg6 harg6) K := by
  simp only [cc5__bn_norm_kernel_eq_skeleton]; unfold cc5__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the region's pipeline on core `c`: the arrays as the region finds them; after the body at
    point `t` every input buffer at its block and the output buffer at `out5_5` of the five input blocks;
    the invariant carries the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5_5 (iblk5 V c 0 t) (iblk5 V c 1 t) (iblk5 V c 2 t) (iblk5 V c 3 t) (iblk5 V c 4 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, what is owed, and the six current staging
    memrefs, each at what the pipeline left in it. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- What the body returns: the same, each memref at what the proof data says the body leaves. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the input memrefs hold their blocks, so the kernel's triple applies; the invariant
    and what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The output block at an index, over the extended reals -/

section AtIndex
open Idealize.ShloMosaic.ValueIdx

/-- At the ideal values, the output block read at row `p`, column `q`: the input block's entry there, minus the
    mean of column `q`, times the inverse deviation, times the scale, plus the shift, clamped below at zero. The one
    whole-buffer store leaves its payload; the whole-buffer loads read the blocks; the shape casts are identities;
    each [1,256] row broadcast to [2000,256] reads its one row at the column; the arithmetic is pointwise; the f32
    zero word is the extended real zero. -/
theorem out5_5_apply (x0 : Vec Ideal S2000x256 .f32) (x1 x2 x3 x4 : Vec Ideal S1x256 .f32) (p : Fin 2000) (q : Fin 256) :
    out5_5 (F := Ideal) x0 x1 x2 x3 x4 (ix2 p q)
      = max ((((x0 (ix2 p q) - x1 (ix2 (0 : Fin 1) q)) * x2 (ix2 (0 : Fin 1) q)) * x3 (ix2 (0 : Fin 1) q)) + x4 (ix2 (0 : Fin 1) q)) (0 : EReal) := by
  have hz : (![0, 0] : Fin 2 → ℕ) = fun _ => 0 := by
    funext a; match a with | ⟨0, _⟩ => rfl | ⟨1, _⟩ => rfl
  unfold out5_5
  rw [View.canon_unit_zero hz]
  simp only [View.ld_unit_zero (S := S2000x256) hz, View.ld_unit_zero (S := S1x256) hz]
  unfold k5_pay1
  simp only [shapeCast_self]
  rw [maximumf_apply, addf_apply, mulf_apply, mulf_apply, subf_apply,
    broadcastTo_1b_ab_apply, broadcastTo_1b_ab_apply, broadcastTo_1b_ab_apply, broadcastTo_1b_ab_apply,
    broadcast_apply]
  show max _ (Idealize.ShloMosaic.Ideal.ofBits .f32 0x00000000#32) = _
  rw [Idealize.ShloMosaic.Ideal.ofBits_zero_f32]

end AtIndex

end Cert.Kernel.Hand
-- ==== Proof.K.Linear6.lean ====
import proofs.«166096_j40321152975189_1_alg».proof.Proof.Gen.Kernel.Launch
import proofs.«166096_j40321152975189_1_alg».proof.Proof.Gen.Kernel.Skeleton
import proofs.«166096_j40321152975189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 6: the linear layer `cc6__linear_kernel` — rows of `max (h[2000,256] · w[256,256] + b[1,256]) 0`

Four windows: 0 the row block of the activations (a new block at every grid point), 1 the weight matrix and
2 the bias row (one block for the whole grid, so the transfer happens at the first point only and the staging
buffer is left alone afterwards), 3 the row block of the result (written back at every point). Everything is
stated at a parameter `V`: the contents of the core's buffers when the region is entered. -/

/-! ## The windows' blocks -/

/-- The block of window `w` at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## What an input's staging buffer holds when the body starts

For each of the three inputs: whenever the proof data's array is the entry contents and the body leaves the
buffer at the block, the buffer holds the block at EVERY point. At a point where the window is fetched this is
what the transfer wrote; at a point where it is not (windows 1 and 2 after the first point) the block index has
not moved since the previous point, whose body left that same block there. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl)
    (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl)
    (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl)
    (fun t => by rw [hafter]; unfold Dat.blockOf iblk6; rw [hA]; try rfl) t d).trans
    (by unfold Dat.fetched Dat.blockOf iblk6; rw [hA]; try rfl)

/-! ## The body's accesses: each buffer, whole -/

abbrev r6_0 : Rect S2000x256 := Rect.unit (s := S2000x256) ![0, 0] S2000x256.size inb_S2000x256_S2000x256_0_0
abbrev r6_1 : Rect S256x256 := Rect.unit (s := S256x256) ![0, 0] S256x256.size inb_S256x256_S256x256_0_0
abbrev r6_2 : Rect S1x256 := Rect.unit (s := S1x256) ![0, 0] S1x256.size inb_S1x256_S1x256_0_0
abbrev r6_3 : Rect S2000x256 := Rect.unit (s := S2000x256) ![0, 0] S2000x256.size inb_S2000x256_S2000x256_0_0

/-! ## What the body leaves in the result's buffer -/

/-- The result window's buffer after the body, as a function of the three input blocks: the one store, of the
    payload computed from the three whole loads, laid over the buffer. -/
def out6_3 (x0 : Vec F S2000x256 .f32) (x1 : Vec F S256x256 .f32) (x2 : Vec F S1x256 .f32) : Vec F S2000x256 .f32 :=
  View.canon [⟨r6_3, k6_pay1 (View.ld x0 r6_0) (View.ld x1 r6_1) (View.ld x2 r6_2)⟩]

/-- The one store is of the whole buffer, so every position of the buffer lies in it. -/
theorem cover6_3 (p0 : Vec F S2000x256 .f32) (y : S2000x256.Idx) :
    ∃ pc ∈ ([⟨r6_3, p0⟩] : List (View.Piece (Elt F) S2000x256 .f32)), y ∈ pc.1.set :=
  View.cover_of_tiled [⟨r6_3, p0⟩] S2000x256.size (by rfl) y

/-! ## The body's triple -/

set_option maxHeartbeats 4000000 in
/-- The body on whole staging memrefs — the inputs' at contents `x0`, `x1`, `x2`, the result's at anything — runs
    without a fault to the continuation, which receives the inputs' memrefs as they were and the result's at
    `out6_3 x0 x1 x2`. The function is a straight line of three whole loads of the inputs, one whole load of the
    result's buffer (whose value is not used) and one whole store: the triple follows operation by operation. -/
theorem sound_kernel6 (c : Dev nD) (E : Set ℕ) (i : grid6.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of the region's pipeline on core `c`: the arrays as the region finds them; after the body at
    point `t` each input's buffer still at its block and the result's at `out6_3` of the three input blocks; the
    invariant that leaves the scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`: the invariant, what the core owes, and each window's current
    staging memref at what the pipeline left in it, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.Linear7.lean ====
import proofs.«166096_j40321152975189_1_alg».proof.Proof.Gen.Kernel.Launch
import proofs.«166096_j40321152975189_1_alg».proof.Proof.Gen.Kernel.Skeleton
import proofs.«166096_j40321152975189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 7: the linear layer `cc7__linear_kernel` — rows of `h[2000,256] · w[256,64] + b[1,64]`

Four windows: 0 the row block of the activations (a new block at every grid point), 1 the weight matrix and
2 the bias row (one block for the whole grid, so the transfer happens at the first point only and the staging
buffer is left alone afterwards), 3 the row block of the result (written back at every point). Everything is
stated at a parameter `V`: the contents of the core's buffers when the region is entered. -/

/-! ## The windows' blocks -/

/-- The block of window `w` at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## What an input's staging buffer holds when the body starts

For each of the three inputs: whenever the proof data's array is the entry contents and the body leaves the
buffer at the block, the buffer holds the block at EVERY point. At a point where the window is fetched this is
what the transfer wrote; at a point where it is not (windows 1 and 2 after the first point) the block index has
not moved since the previous point, whose body left that same block there. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl)
    (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl)
    (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl)
    (fun t => by rw [hafter]; unfold Dat.blockOf iblk7; rw [hA]; try rfl) t d).trans
    (by unfold Dat.fetched Dat.blockOf iblk7; rw [hA]; try rfl)

/-! ## The body's accesses: each buffer, whole -/

abbrev r7_0 : Rect S2000x256 := Rect.unit (s := S2000x256) ![0, 0] S2000x256.size inb_S2000x256_S2000x256_0_0
abbrev r7_1 : Rect S256x64 := Rect.unit (s := S256x64) ![0, 0] S256x64.size inb_S256x64_S256x64_0_0
abbrev r7_2 : Rect S1x64 := Rect.unit (s := S1x64) ![0, 0] S1x64.size inb_S1x64_S1x64_0_0
abbrev r7_3 : Rect S2000x64 := Rect.unit (s := S2000x64) ![0, 0] S2000x64.size inb_S2000x64_S2000x64_0_0

/-! ## What the body leaves in the result's buffer -/

/-- The result window's buffer after the body, as a function of the three input blocks: the one store, of the
    payload computed from the three whole loads, laid over the buffer. -/
def out7_3 (x0 : Vec F S2000x256 .f32) (x1 : Vec F S256x64 .f32) (x2 : Vec F S1x64 .f32) : Vec F S2000x64 .f32 :=
  View.canon [⟨r7_3, k7_pay1 (View.ld x0 r7_0) (View.ld x1 r7_1) (View.ld x2 r7_2)⟩]

/-- The one store is of the whole buffer, so every position of the buffer lies in it. -/
theorem cover7_3 (p0 : Vec F S2000x64 .f32) (y : S2000x64.Idx) :
    ∃ pc ∈ ([⟨r7_3, p0⟩] : List (View.Piece (Elt F) S2000x64 .f32)), y ∈ pc.1.set :=
  View.cover_of_tiled [⟨r7_3, p0⟩] S2000x64.size (by rfl) y

/-! ## The body's triple -/

set_option maxHeartbeats 4000000 in
/-- The body on whole staging memrefs — the inputs' at contents `x0`, `x1`, `x2`, the result's at anything — runs
    without a fault to the continuation, which receives the inputs' memrefs as they were and the result's at
    `out7_3 x0 x1 x2`. The function is a straight line of three whole loads of the inputs, one whole load of the
    result's buffer (whose value is not used) and one whole store: the triple follows operation by operation. -/
theorem sound_kernel7 (c : Dev nD) (E : Set ℕ) (i : grid7.Coords)
    (arg1 : Memref sig .tc .vmem S2000x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__linear_kernel i arg1 harg1 arg2 harg2 arg3 harg3 arg4 harg4) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of the region's pipeline on core `c`: the arrays as the region finds them; after the body at
    point `t` each input's buffer still at its block and the result's at `out7_3` of the three input blocks; the
    invariant that leaves the scoped rest and the generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`: the invariant, what the core owes, and each window's current
    staging memref at what the pipeline left in it, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K.Packs.lean ====
/-
  The eight regions' records, from each region's proof data and body obligation: for the six one-case regions the
  invariant is the scoped buffers beside the generator register, untouched; for the two statistics regions it also
  holds the two running-sum rows, and its entry and exit are that region's own lemmas.
-/
import proofs.«166096_j40321152975189_1_alg».proof.Proof.K.Assembly
import proofs.«166096_j40321152975189_1_alg».proof.Proof.K.Linear0
import proofs.«166096_j40321152975189_1_alg».proof.Proof.K.Stats1
import proofs.«166096_j40321152975189_1_alg».proof.Proof.K.Norm2
import proofs.«166096_j40321152975189_1_alg».proof.Proof.K.Linear3
import proofs.«166096_j40321152975189_1_alg».proof.Proof.K.Stats4
import proofs.«166096_j40321152975189_1_alg».proof.Proof.K.Norm5
import proofs.«166096_j40321152975189_1_alg».proof.Proof.K.Linear6
import proofs.«166096_j40321152975189_1_alg».proof.Proof.K.Linear7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 0's record: one control case, nothing carried between grid points. -/
def pack0 (V : Contents F) : Pack0 V where
  dat := dat0 V
  A_eq := A_eq0 V
  q_full := fun _ _ => rfl
  owed_zero := fun _ _ => rfl
  body := body_obligation0 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := by
    rw [show (dat0 V c).Φ 0 = Pipeline.ΦA spec0 c from rfl]; unfold Pipeline.ΦA
    iintro ⟨Hp, -, Hr⟩
    isplitl [Hr]; · iexact Hr
    iexact Hp
  hout c := by
    rw [Pipeline.ownSems0_none, show (dat0 V c).Φ (Fin.last _) = Pipeline.ΦA spec0 c from rfl]; unfold Pipeline.ΦA
    iintro ⟨Hr, Hp⟩
    isplitl [Hp]; · iexact Hp
    isplitr; · iempintro
    iexact Hr

/-- Region 2's record: one control case, nothing carried between grid points. -/
def pack2 (V : Contents F) : Pack2 V where
  dat := dat2 V
  A_eq := A_eq2 V
  q_full := fun _ _ => rfl
  owed_zero := fun _ _ => rfl
  body := body_obligation2 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := by
    rw [show (dat2 V c).Φ 0 = Pipeline.ΦA spec2 c from rfl]; unfold Pipeline.ΦA
    iintro ⟨Hp, -, Hr⟩
    isplitl [Hr]; · iexact Hr
    iexact Hp
  hout c := by
    rw [Pipeline.ownSems0_none, show (dat2 V c).Φ (Fin.last _) = Pipeline.ΦA spec2 c from rfl]; unfold Pipeline.ΦA
    iintro ⟨Hr, Hp⟩
    isplitl [Hp]; · iexact Hp
    isplitr; · iempintro
    iexact Hr

/-- Region 3's record: one control case, nothing carried between grid points. -/
def pack3 (V : Contents F) : Pack3 V where
  dat := dat3 V
  A_eq := A_eq3 V
  q_full := fun _ _ => rfl
  owed_zero := fun _ _ => rfl
  body := body_obligation3 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := by
    rw [show (dat3 V c).Φ 0 = Pipeline.ΦA spec3 c from rfl]; unfold Pipeline.ΦA
    iintro ⟨Hp, -, Hr⟩
    isplitl [Hr]; · iexact Hr
    iexact Hp
  hout c := by
    rw [Pipeline.ownSems0_none, show (dat3 V c).Φ (Fin.last _) = Pipeline.ΦA spec3 c from rfl]; unfold Pipeline.ΦA
    iintro ⟨Hr, Hp⟩
    isplitl [Hp]; · iexact Hp
    isplitr; · iempintro
    iexact Hr

/-- Region 5's record: one control case, nothing carried between grid points. -/
def pack5 (V : Contents F) : Pack5 V where
  dat := dat5 V
  A_eq := A_eq5 V
  q_full := fun _ _ => rfl
  owed_zero := fun _ _ => rfl
  body := body_obligation5 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := by
    rw [show (dat5 V c).Φ 0 = Pipeline.ΦA spec5 c from rfl]; unfold Pipeline.ΦA
    iintro ⟨Hp, -, Hr⟩
    isplitl [Hr]; · iexact Hr
    iexact Hp
  hout c := by
    rw [Pipeline.ownSems0_none, show (dat5 V c).Φ (Fin.last _) = Pipeline.ΦA spec5 c from rfl]; unfold Pipeline.ΦA
    iintro ⟨Hr, Hp⟩
    isplitl [Hp]; · iexact Hp
    isplitr; · iempintro
    iexact Hr

/-- Region 6's record: one control case, nothing carried between grid points. -/
def pack6 (V : Contents F) : Pack6 V where
  dat := dat6 V
  A_eq := A_eq6 V
  q_full := fun _ _ => rfl
  owed_zero := fun _ _ => rfl
  body := body_obligation6 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := by
    rw [show (dat6 V c).Φ 0 = Pipeline.ΦA spec6 c from rfl]; unfold Pipeline.ΦA
    iintro ⟨Hp, -, Hr⟩
    isplitl [Hr]; · iexact Hr
    iexact Hp
  hout c := by
    rw [Pipeline.ownSems0_none, show (dat6 V c).Φ (Fin.last _) = Pipeline.ΦA spec6 c from rfl]; unfold Pipeline.ΦA
    iintro ⟨Hr, Hp⟩
    isplitl [Hp]; · iexact Hp
    isplitr; · iempintro
    iexact Hr

/-- Region 7's record: one control case, nothing carried between grid points. -/
def pack7 (V : Contents F) : Pack7 V where
  dat := dat7 V
  A_eq := A_eq7 V
  q_full := fun _ _ => rfl
  owed_zero := fun _ _ => rfl
  body := body_obligation7 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := by
    rw [show (dat7 V c).Φ 0 = Pipeline.ΦA spec7 c from rfl]; unfold Pipeline.ΦA
    iintro ⟨Hp, -, Hr⟩
    isplitl [Hr]; · iexact Hr
    iexact Hp
  hout c := by
    rw [Pipeline.ownSems0_none, show (dat7 V c).Φ (Fin.last _) = Pipeline.ΦA spec7 c from rfl]; unfold Pipeline.ΦA
    iintro ⟨Hr, Hp⟩
    isplitl [Hp]; · iexact Hp
    isplitr; · iempintro
    iexact Hr

/-- Region 1's record: the two running-sum rows live in the invariant. -/
def pack1 (V : Contents F) : Pack1 V where
  dat := dat1 V
  A_eq := A_eq1 V
  q_full := fun _ _ => rfl
  owed_zero := fun _ _ => rfl
  body := body_obligation1 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := hin1 V c _
  hout c := hout1 V c

/-- Region 4's record: the two running-sum rows live in the invariant. -/
def pack4 (V : Contents F) : Pack4 V where
  dat := dat4 V
  A_eq := A_eq4 V
  q_full := fun _ _ => rfl
  owed_zero := fun _ _ => rfl
  body := body_obligation4 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := hin4 V c _
  hout c := hout4 V c

/-- All eight. -/
def packs : Packs F := ⟨pack0, pack1, pack2, pack3, pack4, pack5, pack6, pack7⟩

end Cert.Kernel.Hand

end
-- ==== Proof.KI.Assembly.lean ====
/-
  The run of @main, assembled from the eight regions' proof data.

  Between two items of @main (a stretch of host operations, or a kernel region) core `c` holds every unscoped buffer
  whole at a known valuation: the launch memory, then each host stretch applied, then — across a region — the
  region's arrays at what its fifty write-backs leave and every other buffer as it was. Each region enters the
  pipeline from that state, gives the pipeline its arrays, and takes them back at the end; nothing else changes.
  Read at the end, every argument array is as launched (no stretch and no region writes one), and the result array
  is what the last region leaves. Everything here is generic in the float instance and in the regions' proof data,
  which enter as one record per region (`PackK`): the arrays the region finds, the body's obligation at every grid
  point, and the two entailments that move the scoped buffers into the region's invariant and back.
-/
import proofs.«166096_j40321152975189_1_alg».proof.Proof.Gen.KernelIdeal.Launch
import proofs.«166096_j40321152975189_1_alg».proof.Proof.Gen.KernelIdeal.Skeleton
import proofs.«166096_j40321152975189_1_alg».proof.Proof.Gen.KernelIdeal.Points
import proofs.«166096_j40321152975189_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core: what a region's proof data are stated at. -/
abbrev Contents (F : FTy → Type) [FloatOps F] : Type := (c : Dev nD) → (b : Ref sig .tc) → Buf (Elt F) ((c : Thread nD τ).loc b)

/-- No pallas_call of this program has a prefetched table. -/
abbrev adm' : (p : Fin 8) → (pcfgs (F := F) p).Adm := fun p => (cfgs p).toPCfg_adm

/-! ## One record per region: what the run needs to know of it -/

/-- Region 0 at the entry contents `V`: its proof data on each core (arrays as found, full shares, nothing owed),
    the body's obligation at every grid point, and its invariant entered from / left to the scoped buffers no window
    stages beside the core's generator register. -/
structure Pack0 (V : Contents F) where
  dat : (c : Dev nD) → Dat τ (Elt F) Unit ℕ (UR sig nD τ) ℕ cfg0 c
  A_eq : ∀ (c : Dev nD) (w : Fin cfg0.W), (dat c).A w = V c (Pipeline.arrRef spec0 w)
  q_full : ∀ (c : Dev nD) (w : Fin cfg0.W), (dat c).q w = fullShare
  owed_zero : ∀ (c : Dev nD) (t : Fin (cfg0.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 0).pre c (fun _ => fullShare) (adm' (F := F) 0).1
      ∗ Pipeline.scopedRest spec0 c) : sProp 𝕄) ⊢ (dat c).Φ 0
  hout : ∀ c : Dev nD, (dat c).Φ (Fin.last cfg0.N) ⊢ (iprop((∃ r, prngReg c r) ∗ Pipeline.ownSems0 (fun k : PEmpty => k.elim) c
      ∗ Pipeline.scopedRest spec0 c) : sProp 𝕄)

/-- Region 1 at the entry contents `V`: its proof data on each core (arrays as found, full shares, nothing owed),
    the body's obligation at every grid point, and its invariant entered from / left to the scoped buffers no window
    stages beside the core's generator register. -/
structure Pack1 (V : Contents F) where
  dat : (c : Dev nD) → Dat τ (Elt F) Unit ℕ (UR sig nD τ) ℕ cfg1 c
  A_eq : ∀ (c : Dev nD) (w : Fin cfg1.W), (dat c).A w = V c (Pipeline.arrRef spec1 w)
  q_full : ∀ (c : Dev nD) (w : Fin cfg1.W), (dat c).q w = fullShare
  owed_zero : ∀ (c : Dev nD) (t : Fin (cfg1.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 1).pre c (fun _ => fullShare) (adm' (F := F) 1).1
      ∗ Pipeline.scopedRest spec1 c) : sProp 𝕄) ⊢ (dat c).Φ 0
  hout : ∀ c : Dev nD, (dat c).Φ (Fin.last cfg1.N) ⊢ (iprop((∃ r, prngReg c r) ∗ Pipeline.ownSems0 (fun k : PEmpty => k.elim) c
      ∗ Pipeline.scopedRest spec1 c) : sProp 𝕄)

/-- Region 2 at the entry contents `V`: its proof data on each core (arrays as found, full shares, nothing owed),
    the body's obligation at every grid point, and its invariant entered from / left to the scoped buffers no window
    stages beside the core's generator register. -/
structure Pack2 (V : Contents F) where
  dat : (c : Dev nD) → Dat τ (Elt F) Unit ℕ (UR sig nD τ) ℕ cfg2 c
  A_eq : ∀ (c : Dev nD) (w : Fin cfg2.W), (dat c).A w = V c (Pipeline.arrRef spec2 w)
  q_full : ∀ (c : Dev nD) (w : Fin cfg2.W), (dat c).q w = fullShare
  owed_zero : ∀ (c : Dev nD) (t : Fin (cfg2.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 2).pre c (fun _ => fullShare) (adm' (F := F) 2).1
      ∗ Pipeline.scopedRest spec2 c) : sProp 𝕄) ⊢ (dat c).Φ 0
  hout : ∀ c : Dev nD, (dat c).Φ (Fin.last cfg2.N) ⊢ (iprop((∃ r, prngReg c r) ∗ Pipeline.ownSems0 (fun k : PEmpty => k.elim) c
      ∗ Pipeline.scopedRest spec2 c) : sProp 𝕄)

/-- Region 3 at the entry contents `V`: its proof data on each core (arrays as found, full shares, nothing owed),
    the body's obligation at every grid point, and its invariant entered from / left to the scoped buffers no window
    stages beside the core's generator register. -/
structure Pack3 (V : Contents F) where
  dat : (c : Dev nD) → Dat τ (Elt F) Unit ℕ (UR sig nD τ) ℕ cfg3 c
  A_eq : ∀ (c : Dev nD) (w : Fin cfg3.W), (dat c).A w = V c (Pipeline.arrRef spec3 w)
  q_full : ∀ (c : Dev nD) (w : Fin cfg3.W), (dat c).q w = fullShare
  owed_zero : ∀ (c : Dev nD) (t : Fin (cfg3.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 3).pre c (fun _ => fullShare) (adm' (F := F) 3).1
      ∗ Pipeline.scopedRest spec3 c) : sProp 𝕄) ⊢ (dat c).Φ 0
  hout : ∀ c : Dev nD, (dat c).Φ (Fin.last cfg3.N) ⊢ (iprop((∃ r, prngReg c r) ∗ Pipeline.ownSems0 (fun k : PEmpty => k.elim) c
      ∗ Pipeline.scopedRest spec3 c) : sProp 𝕄)

/-- Region 4 at the entry contents `V`: its proof data on each core (arrays as found, full shares, nothing owed),
    the body's obligation at every grid point, and its invariant entered from / left to the scoped buffers no window
    stages beside the core's generator register. -/
structure Pack4 (V : Contents F) where
  dat : (c : Dev nD) → Dat τ (Elt F) Unit ℕ (UR sig nD τ) ℕ cfg4 c
  A_eq : ∀ (c : Dev nD) (w : Fin cfg4.W), (dat c).A w = V c (Pipeline.arrRef spec4 w)
  q_full : ∀ (c : Dev nD) (w : Fin cfg4.W), (dat c).q w = fullShare
  owed_zero : ∀ (c : Dev nD) (t : Fin (cfg4.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 4).pre c (fun _ => fullShare) (adm' (F := F) 4).1
      ∗ Pipeline.scopedRest spec4 c) : sProp 𝕄) ⊢ (dat c).Φ 0
  hout : ∀ c : Dev nD, (dat c).Φ (Fin.last cfg4.N) ⊢ (iprop((∃ r, prngReg c r) ∗ Pipeline.ownSems0 (fun k : PEmpty => k.elim) c
      ∗ Pipeline.scopedRest spec4 c) : sProp 𝕄)

/-- Region 5 at the entry contents `V`: its proof data on each core (arrays as found, full shares, nothing owed),
    the body's obligation at every grid point, and its invariant entered from / left to the scoped buffers no window
    stages beside the core's generator register. -/
structure Pack5 (V : Contents F) where
  dat : (c : Dev nD) → Dat τ (Elt F) Unit ℕ (UR sig nD τ) ℕ cfg5 c
  A_eq : ∀ (c : Dev nD) (w : Fin cfg5.W), (dat c).A w = V c (Pipeline.arrRef spec5 w)
  q_full : ∀ (c : Dev nD) (w : Fin cfg5.W), (dat c).q w = fullShare
  owed_zero : ∀ (c : Dev nD) (t : Fin (cfg5.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 5).pre c (fun _ => fullShare) (adm' (F := F) 5).1
      ∗ Pipeline.scopedRest spec5 c) : sProp 𝕄) ⊢ (dat c).Φ 0
  hout : ∀ c : Dev nD, (dat c).Φ (Fin.last cfg5.N) ⊢ (iprop((∃ r, prngReg c r) ∗ Pipeline.ownSems0 (fun k : PEmpty => k.elim) c
      ∗ Pipeline.scopedRest spec5 c) : sProp 𝕄)

/-- Region 6 at the entry contents `V`: its proof data on each core (arrays as found, full shares, nothing owed),
    the body's obligation at every grid point, and its invariant entered from / left to the scoped buffers no window
    stages beside the core's generator register. -/
structure Pack6 (V : Contents F) where
  dat : (c : Dev nD) → Dat τ (Elt F) Unit ℕ (UR sig nD τ) ℕ cfg6 c
  A_eq : ∀ (c : Dev nD) (w : Fin cfg6.W), (dat c).A w = V c (Pipeline.arrRef spec6 w)
  q_full : ∀ (c : Dev nD) (w : Fin cfg6.W), (dat c).q w = fullShare
  owed_zero : ∀ (c : Dev nD) (t : Fin (cfg6.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 6).pre c (fun _ => fullShare) (adm' (F := F) 6).1
      ∗ Pipeline.scopedRest spec6 c) : sProp 𝕄) ⊢ (dat c).Φ 0
  hout : ∀ c : Dev nD, (dat c).Φ (Fin.last cfg6.N) ⊢ (iprop((∃ r, prngReg c r) ∗ Pipeline.ownSems0 (fun k : PEmpty => k.elim) c
      ∗ Pipeline.scopedRest spec6 c) : sProp 𝕄)

/-- Region 7 at the entry contents `V`: its proof data on each core (arrays as found, full shares, nothing owed),
    the body's obligation at every grid point, and its invariant entered from / left to the scoped buffers no window
    stages beside the core's generator register. -/
structure Pack7 (V : Contents F) where
  dat : (c : Dev nD) → Dat τ (Elt F) Unit ℕ (UR sig nD τ) ℕ cfg7 c
  A_eq : ∀ (c : Dev nD) (w : Fin cfg7.W), (dat c).A w = V c (Pipeline.arrRef spec7 w)
  q_full : ∀ (c : Dev nD) (w : Fin cfg7.W), (dat c).q w = fullShare
  owed_zero : ∀ (c : Dev nD) (t : Fin (cfg7.N + 1)), (dat c).owed t = 0
  body : ∀ c : Dev nD, BodyObligation (dat c) (defs₀ (F := F)) Variants.none () Set.univ
  owes_in : ∀ c : Dev nD, (iprop(∃ W, owes (c : Thread nD τ) (0 : CellTallies nD τ sig Unit) W) : sProp 𝕄) ⊢ (dat c).owesAt () 0
  owes_out : ∀ c : Dev nD, (dat c).owesAt () (Fin.last _) ⊢ (iprop(∃ W, owes (c : Thread nD τ) (0 : CellTallies nD τ sig Unit) W) : sProp 𝕄)
  hin : ∀ c : Dev nD, (iprop((∃ r, prngReg c r) ∗ Pipeline.prefHeld (pcfgs (F := F) 7).pre c (fun _ => fullShare) (adm' (F := F) 7).1
      ∗ Pipeline.scopedRest spec7 c) : sProp 𝕄) ⊢ (dat c).Φ 0
  hout : ∀ c : Dev nD, (dat c).Φ (Fin.last cfg7.N) ⊢ (iprop((∃ r, prngReg c r) ∗ Pipeline.ownSems0 (fun k : PEmpty => k.elim) c
      ∗ Pipeline.scopedRest spec7 c) : sProp 𝕄)

/-- The eight regions' records, each at any entry contents. -/
structure Packs (F : FTy → Type) [FloatOps F] where
  p0 : (V : Contents F) → Pack0 V
  p1 : (V : Contents F) → Pack1 V
  p2 : (V : Contents F) → Pack2 V
  p3 : (V : Contents F) → Pack3 V
  p4 : (V : Contents F) → Pack4 V
  p5 : (V : Contents F) → Pack5 V
  p6 : (V : Contents F) → Pack6 V
  p7 : (V : Contents F) → Pack7 V

/-- A launch memory. -/
abbrev Mem (F : FTy → Type) [FloatOps F] : Type := (ℓ : Loc nD τ sig) → Buf (Elt F) ℓ

/-! ## The buffer contents at each boundary between two items of @main -/

/-- Core `c`'s buffers at launch. -/
abbrev W0 (m : Mem F) (P : Packs F) : Dev nD → Valuation τ sig (Elt F) := fun c b => m (c, b)
abbrev C0 (m : Mem F) (P : Packs F) : Contents F := fun c b => W0 m P c b

/-- After the host stretch `hostOps0`. -/
abbrev W1 (m : Mem F) (P : Packs F) : Dev nD → Valuation τ sig (Elt F) := fun c => StableHlo.after hostOps0 (W0 m P c)
abbrev C1 (m : Mem F) (P : Packs F) : Contents F := fun c b => W1 m P c b
/-- A buffer the stretch does not write keeps its contents. -/
theorem W1_keep (m : Mem F) (P : Packs F) (c : Dev nD) (b : Ref sig .tc) (h : b ∉ hostOps0_W) : W1 m P c b = W0 m P c b :=
  StableHlo.after_of_writes_sub hostOps0 _ hostOps0_writes h

/-- After the host stretch `hostOps0_1`. -/
abbrev W2 (m : Mem F) (P : Packs F) : Dev nD → Valuation τ sig (Elt F) := fun c => StableHlo.after hostOps0_1 (W1 m P c)
abbrev C2 (m : Mem F) (P : Packs F) : Contents F := fun c b => W2 m P c b
/-- A buffer the stretch does not write keeps its contents. -/
theorem W2_keep (m : Mem F) (P : Packs F) (c : Dev nD) (b : Ref sig .tc) (h : b ∉ hostOps0_1_W) : W2 m P c b = W1 m P c b :=
  StableHlo.after_of_writes_sub hostOps0_1 _ hostOps0_1_writes h

/-- After the host stretch `hostOps0_2`. -/
abbrev W3 (m : Mem F) (P : Packs F) : Dev nD → Valuation τ sig (Elt F) := fun c => StableHlo.after hostOps0_2 (W2 m P c)
abbrev C3 (m : Mem F) (P : Packs F) : Contents F := fun c b => W3 m P c b
/-- A buffer the stretch does not write keeps its contents. -/
theorem W3_keep (m : Mem F) (P : Packs F) (c : Dev nD) (b : Ref sig .tc) (h : b ∉ hostOps0_2_W) : W3 m P c b = W2 m P c b :=
  StableHlo.after_of_writes_sub hostOps0_2 _ hostOps0_2_writes h

/-- After region 0: its arrays at what the pipeline's write-backs leave, every other buffer as it was. -/
def W4 (m : Mem F) (P : Packs F) (c : Dev nD) : Valuation τ sig (Elt F) :=
  Pipeline.withArrays spec0 c (W3 m P c) fun w => ((P.p0 (C3 m P)).dat c).arrAt w cfg0.N
theorem W4_arr (m : Mem F) (P : Packs F) (c : Dev nD) (w : Fin cfg0.W) :
    W4 m P c (Proc.devRef .tc (Pipeline.arrRef spec0 w)) = ((P.p0 (C3 m P)).dat c).arrAt w cfg0.N := by
  unfold W4; exact Pipeline.withArrays_arr spec0 launch0.win.arr_inj c _ _ w
theorem W4_of_ne (m : Mem F) (P : Packs F) (c : Dev nD) (b : Ref sig .tc) (hb : ∀ w, Pipeline.arrRef spec0 w ≠ b) :
    W4 m P c (Proc.devRef .tc b) = W3 m P c (Proc.devRef .tc b) := by
  unfold W4; exact Pipeline.withArrays_of_ne spec0 c _ _ b hb
abbrev C4 (m : Mem F) (P : Packs F) : Contents F := fun c b => W4 m P c b
theorem hF0 (m : Mem F) (P : Packs F) (c : Dev nD) (w : Fin cfg0.W) :
    ((P.p0 (C3 m P)).dat c).arrAt w cfg0.N = C4 m P c (Pipeline.arrRef spec0 w) := (W4_arr m P c w).symm
theorem hrest0 (m : Mem F) (P : Packs F) (c : Dev nD) :
    ∀ b, b ∉ Finset.univ.image (Pipeline.arrRef spec0) → C4 m P c b = C3 m P c b :=
  fun b hb => W4_of_ne m P c b fun w e => hb (Finset.mem_image.mpr ⟨w, Finset.mem_univ _, e⟩)

/-- After the host stretch `hostOps1`. -/
abbrev W5 (m : Mem F) (P : Packs F) : Dev nD → Valuation τ sig (Elt F) := fun c => StableHlo.after hostOps1 (W4 m P c)
abbrev C5 (m : Mem F) (P : Packs F) : Contents F := fun c b => W5 m P c b
/-- A buffer the stretch does not write keeps its contents. -/
theorem W5_keep (m : Mem F) (P : Packs F) (c : Dev nD) (b : Ref sig .tc) (h : b ∉ hostOps1_W) : W5 m P c b = W4 m P c b :=
  StableHlo.after_of_writes_sub hostOps1 _ hostOps1_writes h

/-- After region 1: its arrays at what the pipeline's write-backs leave, every other buffer as it was. -/
def W6 (m : Mem F) (P : Packs F) (c : Dev nD) : Valuation τ sig (Elt F) :=
  Pipeline.withArrays spec1 c (W5 m P c) fun w => ((P.p1 (C5 m P)).dat c).arrAt w cfg1.N
theorem W6_arr (m : Mem F) (P : Packs F) (c : Dev nD) (w : Fin cfg1.W) :
    W6 m P c (Proc.devRef .tc (Pipeline.arrRef spec1 w)) = ((P.p1 (C5 m P)).dat c).arrAt w cfg1.N := by
  unfold W6; exact Pipeline.withArrays_arr spec1 launch1.win.arr_inj c _ _ w
theorem W6_of_ne (m : Mem F) (P : Packs F) (c : Dev nD) (b : Ref sig .tc) (hb : ∀ w, Pipeline.arrRef spec1 w ≠ b) :
    W6 m P c (Proc.devRef .tc b) = W5 m P c (Proc.devRef .tc b) := by
  unfold W6; exact Pipeline.withArrays_of_ne spec1 c _ _ b hb
abbrev C6 (m : Mem F) (P : Packs F) : Contents F := fun c b => W6 m P c b
theorem hF1 (m : Mem F) (P : Packs F) (c : Dev nD) (w : Fin cfg1.W) :
    ((P.p1 (C5 m P)).dat c).arrAt w cfg1.N = C6 m P c (Pipeline.arrRef spec1 w) := (W6_arr m P c w).symm
theorem hrest1 (m : Mem F) (P : Packs F) (c : Dev nD) :
    ∀ b, b ∉ Finset.univ.image (Pipeline.arrRef spec1) → C6 m P c b = C5 m P c b :=
  fun b hb => W6_of_ne m P c b fun w e => hb (Finset.mem_image.mpr ⟨w, Finset.mem_univ _, e⟩)

/-- After region 2: its arrays at what the pipeline's write-backs leave, every other buffer as it was. -/
def W7 (m : Mem F) (P : Packs F) (c : Dev nD) : Valuation τ sig (Elt F) :=
  Pipeline.withArrays spec2 c (W6 m P c) fun w => ((P.p2 (C6 m P)).dat c).arrAt w cfg2.N
theorem W7_arr (m : Mem F) (P : Packs F) (c : Dev nD) (w : Fin cfg2.W) :
    W7 m P c (Proc.devRef .tc (Pipeline.arrRef spec2 w)) = ((P.p2 (C6 m P)).dat c).arrAt w cfg2.N := by
  unfold W7; exact Pipeline.withArrays_arr spec2 launch2.win.arr_inj c _ _ w
theorem W7_of_ne (m : Mem F) (P : Packs F) (c : Dev nD) (b : Ref sig .tc) (hb : ∀ w, Pipeline.arrRef spec2 w ≠ b) :
    W7 m P c (Proc.devRef .tc b) = W6 m P c (Proc.devRef .tc b) := by
  unfold W7; exact Pipeline.withArrays_of_ne spec2 c _ _ b hb
abbrev C7 (m : Mem F) (P : Packs F) : Contents F := fun c b => W7 m P c b
theorem hF2 (m : Mem F) (P : Packs F) (c : Dev nD) (w : Fin cfg2.W) :
    ((P.p2 (C6 m P)).dat c).arrAt w cfg2.N = C7 m P c (Pipeline.arrRef spec2 w) := (W7_arr m P c w).symm
theorem hrest2 (m : Mem F) (P : Packs F) (c : Dev nD) :
    ∀ b, b ∉ Finset.univ.image (Pipeline.arrRef spec2) → C7 m P c b = C6 m P c b :=
  fun b hb => W7_of_ne m P c b fun w e => hb (Finset.mem_image.mpr ⟨w, Finset.mem_univ _, e⟩)

/-- After the host stretch `hostOps3`. -/
abbrev W8 (m : Mem F) (P : Packs F) : Dev nD → Valuation τ sig (Elt F) := fun c => StableHlo.after hostOps3 (W7 m P c)
abbrev C8 (m : Mem F) (P : Packs F) : Contents F := fun c b => W8 m P c b
/-- A buffer the stretch does not write keeps its contents. -/
theorem W8_keep (m : Mem F) (P : Packs F) (c : Dev nD) (b : Ref sig .tc) (h : b ∉ hostOps3_W) : W8 m P c b = W7 m P c b :=
  StableHlo.after_of_writes_sub hostOps3 _ hostOps3_writes h

/-- After region 3: its arrays at what the pipeline's write-backs leave, every other buffer as it was. -/
def W9 (m : Mem F) (P : Packs F) (c : Dev nD) : Valuation τ sig (Elt F) :=
  Pipeline.withArrays spec3 c (W8 m P c) fun w => ((P.p3 (C8 m P)).dat c).arrAt w cfg3.N
theorem W9_arr (m : Mem F) (P : Packs F) (c : Dev nD) (w : Fin cfg3.W) :
    W9 m P c (Proc.devRef .tc (Pipeline.arrRef spec3 w)) = ((P.p3 (C8 m P)).dat c).arrAt w cfg3.N := by
  unfold W9; exact Pipeline.withArrays_arr spec3 launch3.win.arr_inj c _ _ w
theorem W9_of_ne (m : Mem F) (P : Packs F) (c : Dev nD) (b : Ref sig .tc) (hb : ∀ w, Pipeline.arrRef spec3 w ≠ b) :
    W9 m P c (Proc.devRef .tc b) = W8 m P c (Proc.devRef .tc b) := by
  unfold W9; exact Pipeline.withArrays_of_ne spec3 c _ _ b hb
abbrev C9 (m : Mem F) (P : Packs F) : Contents F := fun c b => W9 m P c b
theorem hF3 (m : Mem F) (P : Packs F) (c : Dev nD) (w : Fin cfg3.W) :
    ((P.p3 (C8 m P)).dat c).arrAt w cfg3.N = C9 m P c (Pipeline.arrRef spec3 w) := (W9_arr m P c w).symm
theorem hrest3 (m : Mem F) (P : Packs F) (c : Dev nD) :
    ∀ b, b ∉ Finset.univ.image (Pipeline.arrRef spec3) → C9 m P c b = C8 m P c b :=
  fun b hb => W9_of_ne m P c b fun w e => hb (Finset.mem_image.mpr ⟨w, Finset.mem_univ _, e⟩)

/-- After the host stretch `hostOps4`. -/
abbrev W10 (m : Mem F) (P : Packs F) : Dev nD → Valuation τ sig (Elt F) := fun c => StableHlo.after hostOps4 (W9 m P c)
abbrev C10 (m : Mem F) (P : Packs F) : Contents F := fun c b => W10 m P c b
/-- A buffer the stretch does not write keeps its contents. -/
theorem W10_keep (m : Mem F) (P : Packs F) (c : Dev nD) (b : Ref sig .tc) (h : b ∉ hostOps4_W) : W10 m P c b = W9 m P c b :=
  StableHlo.after_of_writes_sub hostOps4 _ hostOps4_writes h

/-- After region 4: its arrays at what the pipeline's write-backs leave, every other buffer as it was. -/
def W11 (m : Mem F) (P : Packs F) (c : Dev nD) : Valuation τ sig (Elt F) :=
  Pipeline.withArrays spec4 c (W10 m P c) fun w => ((P.p4 (C10 m P)).dat c).arrAt w cfg4.N
theorem W11_arr (m : Mem F) (P : Packs F) (c : Dev nD) (w : Fin cfg4.W) :
    W11 m P c (Proc.devRef .tc (Pipeline.arrRef spec4 w)) = ((P.p4 (C10 m P)).dat c).arrAt w cfg4.N := by
  unfold W11; exact Pipeline.withArrays_arr spec4 launch4.win.arr_inj c _ _ w
theorem W11_of_ne (m : Mem F) (P : Packs F) (c : Dev nD) (b : Ref sig .tc) (hb : ∀ w, Pipeline.arrRef spec4 w ≠ b) :
    W11 m P c (Proc.devRef .tc b) = W10 m P c (Proc.devRef .tc b) := by
  unfold W11; exact Pipeline.withArrays_of_ne spec4 c _ _ b hb
abbrev C11 (m : Mem F) (P : Packs F) : Contents F := fun c b => W11 m P c b
theorem hF4 (m : Mem F) (P : Packs F) (c : Dev nD) (w : Fin cfg4.W) :
    ((P.p4 (C10 m P)).dat c).arrAt w cfg4.N = C11 m P c (Pipeline.arrRef spec4 w) := (W11_arr m P c w).symm
theorem hrest4 (m : Mem F) (P : Packs F) (c : Dev nD) :
    ∀ b, b ∉ Finset.univ.image (Pipeline.arrRef spec4) → C11 m P c b = C10 m P c b :=
  fun b hb => W11_of_ne m P c b fun w e => hb (Finset.mem_image.mpr ⟨w, Finset.mem_univ _, e⟩)

/-- After region 5: its arrays at what the pipeline's write-backs leave, every other buffer as it was. -/
def W12 (m : Mem F) (P : Packs F) (c : Dev nD) : Valuation τ sig (Elt F) :=
  Pipeline.withArrays spec5 c (W11 m P c) fun w => ((P.p5 (C11 m P)).dat c).arrAt w cfg5.N
theorem W12_arr (m : Mem F) (P : Packs F) (c : Dev nD) (w : Fin cfg5.W) :
    W12 m P c (Proc.devRef .tc (Pipeline.arrRef spec5 w)) = ((P.p5 (C11 m P)).dat c).arrAt w cfg5.N := by
  unfold W12; exact Pipeline.withArrays_arr spec5 launch5.win.arr_inj c _ _ w
theorem W12_of_ne (m : Mem F) (P : Packs F) (c : Dev nD) (b : Ref sig .tc) (hb : ∀ w, Pipeline.arrRef spec5 w ≠ b) :
    W12 m P c (Proc.devRef .tc b) = W11 m P c (Proc.devRef .tc b) := by
  unfold W12; exact Pipeline.withArrays_of_ne spec5 c _ _ b hb
abbrev C12 (m : Mem F) (P : Packs F) : Contents F := fun c b => W12 m P c b
theorem hF5 (m : Mem F) (P : Packs F) (c : Dev nD) (w : Fin cfg5.W) :
    ((P.p5 (C11 m P)).dat c).arrAt w cfg5.N = C12 m P c (Pipeline.arrRef spec5 w) := (W12_arr m P c w).symm
theorem hrest5 (m : Mem F) (P : Packs F) (c : Dev nD) :
    ∀ b, b ∉ Finset.univ.image (Pipeline.arrRef spec5) → C12 m P c b = C11 m P c b :=
  fun b hb => W12_of_ne m P c b fun w e => hb (Finset.mem_image.mpr ⟨w, Finset.mem_univ _, e⟩)

/-- After the host stretch `hostOps6`. -/
abbrev W13 (m : Mem F) (P : Packs F) : Dev nD → Valuation τ sig (Elt F) := fun c => StableHlo.after hostOps6 (W12 m P c)
abbrev C13 (m : Mem F) (P : Packs F) : Contents F := fun c b => W13 m P c b
/-- A buffer the stretch does not write keeps its contents. -/
theorem W13_keep (m : Mem F) (P : Packs F) (c : Dev nD) (b : Ref sig .tc) (h : b ∉ hostOps6_W) : W13 m P c b = W12 m P c b :=
  StableHlo.after_of_writes_sub hostOps6 _ hostOps6_writes h

/-- After region 6: its arrays at what the pipeline's write-backs leave, every other buffer as it was. -/
def W14 (m : Mem F) (P : Packs F) (c : Dev nD) : Valuation τ sig (Elt F) :=
  Pipeline.withArrays spec6 c (W13 m P c) fun w => ((P.p6 (C13 m P)).dat c).arrAt w cfg6.N
theorem W14_arr (m : Mem F) (P : Packs F) (c : Dev nD) (w : Fin cfg6.W) :
    W14 m P c (Proc.devRef .tc (Pipeline.arrRef spec6 w)) = ((P.p6 (C13 m P)).dat c).arrAt w cfg6.N := by
  unfold W14; exact Pipeline.withArrays_arr spec6 launch6.win.arr_inj c _ _ w
theorem W14_of_ne (m : Mem F) (P : Packs F) (c : Dev nD) (b : Ref sig .tc) (hb : ∀ w, Pipeline.arrRef spec6 w ≠ b) :
    W14 m P c (Proc.devRef .tc b) = W13 m P c (Proc.devRef .tc b) := by
  unfold W14; exact Pipeline.withArrays_of_ne spec6 c _ _ b hb
abbrev C14 (m : Mem F) (P : Packs F) : Contents F := fun c b => W14 m P c b
theorem hF6 (m : Mem F) (P : Packs F) (c : Dev nD) (w : Fin cfg6.W) :
    ((P.p6 (C13 m P)).dat c).arrAt w cfg6.N = C14 m P c (Pipeline.arrRef spec6 w) := (W14_arr m P c w).symm
theorem hrest6 (m : Mem F) (P : Packs F) (c : Dev nD) :
    ∀ b, b ∉ Finset.univ.image (Pipeline.arrRef spec6) → C14 m P c b = C13 m P c b :=
  fun b hb => W14_of_ne m P c b fun w e => hb (Finset.mem_image.mpr ⟨w, Finset.mem_univ _, e⟩)

/-- After the host stretch `hostOps7`. -/
abbrev W15 (m : Mem F) (P : Packs F) : Dev nD → Valuation τ sig (Elt F) := fun c => StableHlo.after hostOps7 (W14 m P c)
abbrev C15 (m : Mem F) (P : Packs F) : Contents F := fun c b => W15 m P c b
/-- A buffer the stretch does not write keeps its contents. -/
theorem W15_keep (m : Mem F) (P : Packs F) (c : Dev nD) (b : Ref sig .tc) (h : b ∉ hostOps7_W) : W15 m P c b = W14 m P c b :=
  StableHlo.after_of_writes_sub hostOps7 _ hostOps7_writes h

/-- After region 7: its arrays at what the pipeline's write-backs leave, every other buffer as it was. -/
def W16 (m : Mem F) (P : Packs F) (c : Dev nD) : Valuation τ sig (Elt F) :=
  Pipeline.withArrays spec7 c (W15 m P c) fun w => ((P.p7 (C15 m P)).dat c).arrAt w cfg7.N
theorem W16_arr (m : Mem F) (P : Packs F) (c : Dev nD) (w : Fin cfg7.W) :
    W16 m P c (Proc.devRef .tc (Pipeline.arrRef spec7 w)) = ((P.p7 (C15 m P)).dat c).arrAt w cfg7.N := by
  unfold W16; exact Pipeline.withArrays_arr spec7 launch7.win.arr_inj c _ _ w
theorem W16_of_ne (m : Mem F) (P : Packs F) (c : Dev nD) (b : Ref sig .tc) (hb : ∀ w, Pipeline.arrRef spec7 w ≠ b) :
    W16 m P c (Proc.devRef .tc b) = W15 m P c (Proc.devRef .tc b) := by
  unfold W16; exact Pipeline.withArrays_of_ne spec7 c _ _ b hb
abbrev C16 (m : Mem F) (P : Packs F) : Contents F := fun c b => W16 m P c b
theorem hF7 (m : Mem F) (P : Packs F) (c : Dev nD) (w : Fin cfg7.W) :
    ((P.p7 (C15 m P)).dat c).arrAt w cfg7.N = C16 m P c (Pipeline.arrRef spec7 w) := (W16_arr m P c w).symm
theorem hrest7 (m : Mem F) (P : Packs F) (c : Dev nD) :
    ∀ b, b ∉ Finset.univ.image (Pipeline.arrRef spec7) → C16 m P c b = C15 m P c b :=
  fun b hb => W16_of_ne m P c b fun w e => hb (Finset.mem_image.mpr ⟨w, Finset.mem_univ _, e⟩)

/-! ## The arguments end as launched -/

/-- A buffer that no host stretch writes and that is no region's array holds its launch contents at the end. -/
theorem W16_untouched (m : Mem F) (P : Packs F) (c : Dev nD) (b : Ref sig .tc)
    (h0 : b ∉ hostOps0_W) (h1 : b ∉ hostOps0_1_W) (h2 : b ∉ hostOps0_2_W) (h3 : ∀ w, Pipeline.arrRef spec0 w ≠ b) (h4 : b ∉ hostOps1_W) (h5 : ∀ w, Pipeline.arrRef spec1 w ≠ b) (h6 : ∀ w, Pipeline.arrRef spec2 w ≠ b) (h7 : b ∉ hostOps3_W) (h8 : ∀ w, Pipeline.arrRef spec3 w ≠ b) (h9 : b ∉ hostOps4_W) (h10 : ∀ w, Pipeline.arrRef spec4 w ≠ b) (h11 : ∀ w, Pipeline.arrRef spec5 w ≠ b) (h12 : b ∉ hostOps6_W) (h13 : ∀ w, Pipeline.arrRef spec6 w ≠ b) (h14 : b ∉ hostOps7_W) (h15 : ∀ w, Pipeline.arrRef spec7 w ≠ b) :
    W16 m P c (Proc.devRef .tc b) = m ((c : Thread nD τ).loc b) :=
  (W16_of_ne m P c b h15).trans <| (W15_keep m P c b h14).trans <| (W14_of_ne m P c b h13).trans <| (W13_keep m P c b h12).trans <| (W12_of_ne m P c b h11).trans <| (W11_of_ne m P c b h10).trans <| (W10_keep m P c b h9).trans <| (W9_of_ne m P c b h8).trans <| (W8_keep m P c b h7).trans <| (W7_of_ne m P c b h6).trans <| (W6_of_ne m P c b h5).trans <| (W5_keep m P c b h4).trans <| (W4_of_ne m P c b h3).trans <| (W3_keep m P c b h2).trans <| (W2_keep m P c b h1).trans <| (W1_keep m P c b h0).trans <| rfl

/-! ## The proof data family and the thread state -/

/-- Every pipeline's proof data, each at its region's entry contents (a literal match on the pipeline's index). -/
def pdats (m : Mem F) (P : Packs F) : (p : Fin 8) → (c : Dev nD) → Dat τ (Elt F) Unit ℕ (UR sig nD τ) ℕ (Pipeline.pin (pcfgs (F := F)) adm' p) c
  | ⟨0, _⟩ => fun c => (P.p0 (C3 m P)).dat c
  | ⟨1, _⟩ => fun c => (P.p1 (C5 m P)).dat c
  | ⟨2, _⟩ => fun c => (P.p2 (C6 m P)).dat c
  | ⟨3, _⟩ => fun c => (P.p3 (C8 m P)).dat c
  | ⟨4, _⟩ => fun c => (P.p4 (C10 m P)).dat c
  | ⟨5, _⟩ => fun c => (P.p5 (C11 m P)).dat c
  | ⟨6, _⟩ => fun c => (P.p6 (C13 m P)).dat c
  | ⟨7, _⟩ => fun c => (P.p7 (C15 m P)).dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W3`, left with them at `W4`. Its arrays
    are split out of the unscoped buffers and put back at their exit contents; the generator register and the scoped
    buffers go into the region's invariant and come back; nothing is owed; the kernel has no semaphore of its own. -/
def reg0 (m : Mem F) (P : Packs F) : Pipeline.RegionSeg (pcfgs (F := F)) adm' (pdats m P) () defs₀ 𝒱₀ L lv 0 where
  win := launch0.win.to₀
  block_pos := launch0.block_pos
  stage_whole := launch0.stage_whole
  K := PEmpty
  osem k := k.elim
  ho := Pipeline.OwnSemFacts.none _
  hbody c := ((P.p0 (C3 m P)).body c).loose
  hwaits := Pipeline.hwaits_of_owed_zero _ _ _ _ L lv 0 fun c t => (P.p0 (C3 m P)).owed_zero c t
  pre c := iprop(StableHlo.held (c : Thread nD τ) (Pipeline.ucRefs τ sig) (W3 m P c) ∗ R c)
  post c := iprop(StableHlo.held (c : Thread nD τ) (Pipeline.ucRefs τ sig) (W4 m P c) ∗ R c)
  X c := iprop(∃ r, prngReg c r)
  Y c := iprop(∃ r, prngReg c r)
  Z c := Pipeline.unscopedRest (Ix := Unit) (Name := ℕ) (U := UR sig nD τ) (Lvl := ℕ) spec0 c (C3 m P c)
  hentry c := by
    rw [Pipeline.ownSems0_none]
    have hsplit := Pipeline.arrays_of_unscopedBufs (p := 0) (pcfgs (F := F)) adm' (pdats m P) launch0.win launch0.arr_whole c
      ((pdats m P 0 c).share_full fun w => (P.p0 (C3 m P)).q_full c w) (C3 m P c) fun w => (P.p0 (C3 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p0 (C3 m P)).owes_in c); iexact HO
    isplitl [Hp]; · iexact Hp
    iexact Hrest
  hin c := (P.p0 (C3 m P)).hin c
  hout c := (P.p0 (C3 m P)).hout c
  hexit c := by
    have hjoin := Pipeline.unscopedBufs_of_arrays (p := 0) (pcfgs (F := F)) adm' (Ix := Unit) (Name := ℕ) (U := UR sig nD τ) (Lvl := ℕ)
      launch0.win launch0.arr_whole c (pdats m P) ((pdats m P 0 c).share_full fun w => (P.p0 (C3 m P)).q_full c w)
      (C3 m P c) (C4 m P c) ((pdats m P 0 c).arrAt · cfg0.N) (hF0 m P c) (hrest0 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p0 (C3 m P)).owes_out c); iexact HO

set_option backward.isDefEq.respectTransparency.types false in
/-- Region 1 over the thread state: entered with every unscoped buffer at `W5`, left with them at `W6`. Its arrays
    are split out of the unscoped buffers and put back at their exit contents; the generator register and the scoped
    buffers go into the region's invariant and come back; nothing is owed; the kernel has no semaphore of its own. -/
def reg1 (m : Mem F) (P : Packs F) : Pipeline.RegionSeg (pcfgs (F := F)) adm' (pdats m P) () defs₀ 𝒱₀ L lv 1 where
  win := launch1.win.to₀
  block_pos := launch1.block_pos
  stage_whole := launch1.stage_whole
  K := PEmpty
  osem k := k.elim
  ho := Pipeline.OwnSemFacts.none _
  hbody c := ((P.p1 (C5 m P)).body c).loose
  hwaits := Pipeline.hwaits_of_owed_zero _ _ _ _ L lv 1 fun c t => (P.p1 (C5 m P)).owed_zero c t
  pre c := iprop(StableHlo.held (c : Thread nD τ) (Pipeline.ucRefs τ sig) (W5 m P c) ∗ R c)
  post c := iprop(StableHlo.held (c : Thread nD τ) (Pipeline.ucRefs τ sig) (W6 m P c) ∗ R c)
  X c := iprop(∃ r, prngReg c r)
  Y c := iprop(∃ r, prngReg c r)
  Z c := Pipeline.unscopedRest (Ix := Unit) (Name := ℕ) (U := UR sig nD τ) (Lvl := ℕ) spec1 c (C5 m P c)
  hentry c := by
    rw [Pipeline.ownSems0_none]
    have hsplit := Pipeline.arrays_of_unscopedBufs (p := 1) (pcfgs (F := F)) adm' (pdats m P) launch1.win launch1.arr_whole c
      ((pdats m P 1 c).share_full fun w => (P.p1 (C5 m P)).q_full c w) (C5 m P c) fun w => (P.p1 (C5 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p1 (C5 m P)).owes_in c); iexact HO
    isplitl [Hp]; · iexact Hp
    iexact Hrest
  hin c := (P.p1 (C5 m P)).hin c
  hout c := (P.p1 (C5 m P)).hout c
  hexit c := by
    have hjoin := Pipeline.unscopedBufs_of_arrays (p := 1) (pcfgs (F := F)) adm' (Ix := Unit) (Name := ℕ) (U := UR sig nD τ) (Lvl := ℕ)
      launch1.win launch1.arr_whole c (pdats m P) ((pdats m P 1 c).share_full fun w => (P.p1 (C5 m P)).q_full c w)
      (C5 m P c) (C6 m P c) ((pdats m P 1 c).arrAt · cfg1.N) (hF1 m P c) (hrest1 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p1 (C5 m P)).owes_out c); iexact HO

set_option backward.isDefEq.respectTransparency.types false in
/-- Region 2 over the thread state: entered with every unscoped buffer at `W6`, left with them at `W7`. Its arrays
    are split out of the unscoped buffers and put back at their exit contents; the generator register and the scoped
    buffers go into the region's invariant and come back; nothing is owed; the kernel has no semaphore of its own. -/
def reg2 (m : Mem F) (P : Packs F) : Pipeline.RegionSeg (pcfgs (F := F)) adm' (pdats m P) () defs₀ 𝒱₀ L lv 2 where
  win := launch2.win.to₀
  block_pos := launch2.block_pos
  stage_whole := launch2.stage_whole
  K := PEmpty
  osem k := k.elim
  ho := Pipeline.OwnSemFacts.none _
  hbody c := ((P.p2 (C6 m P)).body c).loose
  hwaits := Pipeline.hwaits_of_owed_zero _ _ _ _ L lv 2 fun c t => (P.p2 (C6 m P)).owed_zero c t
  pre c := iprop(StableHlo.held (c : Thread nD τ) (Pipeline.ucRefs τ sig) (W6 m P c) ∗ R c)
  post c := iprop(StableHlo.held (c : Thread nD τ) (Pipeline.ucRefs τ sig) (W7 m P c) ∗ R c)
  X c := iprop(∃ r, prngReg c r)
  Y c := iprop(∃ r, prngReg c r)
  Z c := Pipeline.unscopedRest (Ix := Unit) (Name := ℕ) (U := UR sig nD τ) (Lvl := ℕ) spec2 c (C6 m P c)
  hentry c := by
    rw [Pipeline.ownSems0_none]
    have hsplit := Pipeline.arrays_of_unscopedBufs (p := 2) (pcfgs (F := F)) adm' (pdats m P) launch2.win launch2.arr_whole c
      ((pdats m P 2 c).share_full fun w => (P.p2 (C6 m P)).q_full c w) (C6 m P c) fun w => (P.p2 (C6 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p2 (C6 m P)).owes_in c); iexact HO
    isplitl [Hp]; · iexact Hp
    iexact Hrest
  hin c := (P.p2 (C6 m P)).hin c
  hout c := (P.p2 (C6 m P)).hout c
  hexit c := by
    have hjoin := Pipeline.unscopedBufs_of_arrays (p := 2) (pcfgs (F := F)) adm' (Ix := Unit) (Name := ℕ) (U := UR sig nD τ) (Lvl := ℕ)
      launch2.win launch2.arr_whole c (pdats m P) ((pdats m P 2 c).share_full fun w => (P.p2 (C6 m P)).q_full c w)
      (C6 m P c) (C7 m P c) ((pdats m P 2 c).arrAt · cfg2.N) (hF2 m P c) (hrest2 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p2 (C6 m P)).owes_out c); iexact HO

set_option backward.isDefEq.respectTransparency.types false in
/-- Region 3 over the thread state: entered with every unscoped buffer at `W8`, left with them at `W9`. Its arrays
    are split out of the unscoped buffers and put back at their exit contents; the generator register and the scoped
    buffers go into the region's invariant and come back; nothing is owed; the kernel has no semaphore of its own. -/
def reg3 (m : Mem F) (P : Packs F) : Pipeline.RegionSeg (pcfgs (F := F)) adm' (pdats m P) () defs₀ 𝒱₀ L lv 3 where
  win := launch3.win.to₀
  block_pos := launch3.block_pos
  stage_whole := launch3.stage_whole
  K := PEmpty
  osem k := k.elim
  ho := Pipeline.OwnSemFacts.none _
  hbody c := ((P.p3 (C8 m P)).body c).loose
  hwaits := Pipeline.hwaits_of_owed_zero _ _ _ _ L lv 3 fun c t => (P.p3 (C8 m P)).owed_zero c t
  pre c := iprop(StableHlo.held (c : Thread nD τ) (Pipeline.ucRefs τ sig) (W8 m P c) ∗ R c)
  post c := iprop(StableHlo.held (c : Thread nD τ) (Pipeline.ucRefs τ sig) (W9 m P c) ∗ R c)
  X c := iprop(∃ r, prngReg c r)
  Y c := iprop(∃ r, prngReg c r)
  Z c := Pipeline.unscopedRest (Ix := Unit) (Name := ℕ) (U := UR sig nD τ) (Lvl := ℕ) spec3 c (C8 m P c)
  hentry c := by
    rw [Pipeline.ownSems0_none]
    have hsplit := Pipeline.arrays_of_unscopedBufs (p := 3) (pcfgs (F := F)) adm' (pdats m P) launch3.win launch3.arr_whole c
      ((pdats m P 3 c).share_full fun w => (P.p3 (C8 m P)).q_full c w) (C8 m P c) fun w => (P.p3 (C8 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p3 (C8 m P)).owes_in c); iexact HO
    isplitl [Hp]; · iexact Hp
    iexact Hrest
  hin c := (P.p3 (C8 m P)).hin c
  hout c := (P.p3 (C8 m P)).hout c
  hexit c := by
    have hjoin := Pipeline.unscopedBufs_of_arrays (p := 3) (pcfgs (F := F)) adm' (Ix := Unit) (Name := ℕ) (U := UR sig nD τ) (Lvl := ℕ)
      launch3.win launch3.arr_whole c (pdats m P) ((pdats m P 3 c).share_full fun w => (P.p3 (C8 m P)).q_full c w)
      (C8 m P c) (C9 m P c) ((pdats m P 3 c).arrAt · cfg3.N) (hF3 m P c) (hrest3 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p3 (C8 m P)).owes_out c); iexact HO

set_option backward.isDefEq.respectTransparency.types false in
/-- Region 4 over the thread state: entered with every unscoped buffer at `W10`, left with them at `W11`. Its arrays
    are split out of the unscoped buffers and put back at their exit contents; the generator register and the scoped
    buffers go into the region's invariant and come back; nothing is owed; the kernel has no semaphore of its own. -/
def reg4 (m : Mem F) (P : Packs F) : Pipeline.RegionSeg (pcfgs (F := F)) adm' (pdats m P) () defs₀ 𝒱₀ L lv 4 where
  win := launch4.win.to₀
  block_pos := launch4.block_pos
  stage_whole := launch4.stage_whole
  K := PEmpty
  osem k := k.elim
  ho := Pipeline.OwnSemFacts.none _
  hbody c := ((P.p4 (C10 m P)).body c).loose
  hwaits := Pipeline.hwaits_of_owed_zero _ _ _ _ L lv 4 fun c t => (P.p4 (C10 m P)).owed_zero c t
  pre c := iprop(StableHlo.held (c : Thread nD τ) (Pipeline.ucRefs τ sig) (W10 m P c) ∗ R c)
  post c := iprop(StableHlo.held (c : Thread nD τ) (Pipeline.ucRefs τ sig) (W11 m P c) ∗ R c)
  X c := iprop(∃ r, prngReg c r)
  Y c := iprop(∃ r, prngReg c r)
  Z c := Pipeline.unscopedRest (Ix := Unit) (Name := ℕ) (U := UR sig nD τ) (Lvl := ℕ) spec4 c (C10 m P c)
  hentry c := by
    rw [Pipeline.ownSems0_none]
    have hsplit := Pipeline.arrays_of_unscopedBufs (p := 4) (pcfgs (F := F)) adm' (pdats m P) launch4.win launch4.arr_whole c
      ((pdats m P 4 c).share_full fun w => (P.p4 (C10 m P)).q_full c w) (C10 m P c) fun w => (P.p4 (C10 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p4 (C10 m P)).owes_in c); iexact HO
    isplitl [Hp]; · iexact Hp
    iexact Hrest
  hin c := (P.p4 (C10 m P)).hin c
  hout c := (P.p4 (C10 m P)).hout c
  hexit c := by
    have hjoin := Pipeline.unscopedBufs_of_arrays (p := 4) (pcfgs (F := F)) adm' (Ix := Unit) (Name := ℕ) (U := UR sig nD τ) (Lvl := ℕ)
      launch4.win launch4.arr_whole c (pdats m P) ((pdats m P 4 c).share_full fun w => (P.p4 (C10 m P)).q_full c w)
      (C10 m P c) (C11 m P c) ((pdats m P 4 c).arrAt · cfg4.N) (hF4 m P c) (hrest4 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p4 (C10 m P)).owes_out c); iexact HO

set_option backward.isDefEq.respectTransparency.types false in
/-- Region 5 over the thread state: entered with every unscoped buffer at `W11`, left with them at `W12`. Its arrays
    are split out of the unscoped buffers and put back at their exit contents; the generator register and the scoped
    buffers go into the region's invariant and come back; nothing is owed; the kernel has no semaphore of its own. -/
def reg5 (m : Mem F) (P : Packs F) : Pipeline.RegionSeg (pcfgs (F := F)) adm' (pdats m P) () defs₀ 𝒱₀ L lv 5 where
  win := launch5.win.to₀
  block_pos := launch5.block_pos
  stage_whole := launch5.stage_whole
  K := PEmpty
  osem k := k.elim
  ho := Pipeline.OwnSemFacts.none _
  hbody c := ((P.p5 (C11 m P)).body c).loose
  hwaits := Pipeline.hwaits_of_owed_zero _ _ _ _ L lv 5 fun c t => (P.p5 (C11 m P)).owed_zero c t
  pre c := iprop(StableHlo.held (c : Thread nD τ) (Pipeline.ucRefs τ sig) (W11 m P c) ∗ R c)
  post c := iprop(StableHlo.held (c : Thread nD τ) (Pipeline.ucRefs τ sig) (W12 m P c) ∗ R c)
  X c := iprop(∃ r, prngReg c r)
  Y c := iprop(∃ r, prngReg c r)
  Z c := Pipeline.unscopedRest (Ix := Unit) (Name := ℕ) (U := UR sig nD τ) (Lvl := ℕ) spec5 c (C11 m P c)
  hentry c := by
    rw [Pipeline.ownSems0_none]
    have hsplit := Pipeline.arrays_of_unscopedBufs (p := 5) (pcfgs (F := F)) adm' (pdats m P) launch5.win launch5.arr_whole c
      ((pdats m P 5 c).share_full fun w => (P.p5 (C11 m P)).q_full c w) (C11 m P c) fun w => (P.p5 (C11 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p5 (C11 m P)).owes_in c); iexact HO
    isplitl [Hp]; · iexact Hp
    iexact Hrest
  hin c := (P.p5 (C11 m P)).hin c
  hout c := (P.p5 (C11 m P)).hout c
  hexit c := by
    have hjoin := Pipeline.unscopedBufs_of_arrays (p := 5) (pcfgs (F := F)) adm' (Ix := Unit) (Name := ℕ) (U := UR sig nD τ) (Lvl := ℕ)
      launch5.win launch5.arr_whole c (pdats m P) ((pdats m P 5 c).share_full fun w => (P.p5 (C11 m P)).q_full c w)
      (C11 m P c) (C12 m P c) ((pdats m P 5 c).arrAt · cfg5.N) (hF5 m P c) (hrest5 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p5 (C11 m P)).owes_out c); iexact HO

set_option backward.isDefEq.respectTransparency.types false in
/-- Region 6 over the thread state: entered with every unscoped buffer at `W13`, left with them at `W14`. Its arrays
    are split out of the unscoped buffers and put back at their exit contents; the generator register and the scoped
    buffers go into the region's invariant and come back; nothing is owed; the kernel has no semaphore of its own. -/
def reg6 (m : Mem F) (P : Packs F) : Pipeline.RegionSeg (pcfgs (F := F)) adm' (pdats m P) () defs₀ 𝒱₀ L lv 6 where
  win := launch6.win.to₀
  block_pos := launch6.block_pos
  stage_whole := launch6.stage_whole
  K := PEmpty
  osem k := k.elim
  ho := Pipeline.OwnSemFacts.none _
  hbody c := ((P.p6 (C13 m P)).body c).loose
  hwaits := Pipeline.hwaits_of_owed_zero _ _ _ _ L lv 6 fun c t => (P.p6 (C13 m P)).owed_zero c t
  pre c := iprop(StableHlo.held (c : Thread nD τ) (Pipeline.ucRefs τ sig) (W13 m P c) ∗ R c)
  post c := iprop(StableHlo.held (c : Thread nD τ) (Pipeline.ucRefs τ sig) (W14 m P c) ∗ R c)
  X c := iprop(∃ r, prngReg c r)
  Y c := iprop(∃ r, prngReg c r)
  Z c := Pipeline.unscopedRest (Ix := Unit) (Name := ℕ) (U := UR sig nD τ) (Lvl := ℕ) spec6 c (C13 m P c)
  hentry c := by
    rw [Pipeline.ownSems0_none]
    have hsplit := Pipeline.arrays_of_unscopedBufs (p := 6) (pcfgs (F := F)) adm' (pdats m P) launch6.win launch6.arr_whole c
      ((pdats m P 6 c).share_full fun w => (P.p6 (C13 m P)).q_full c w) (C13 m P c) fun w => (P.p6 (C13 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p6 (C13 m P)).owes_in c); iexact HO
    isplitl [Hp]; · iexact Hp
    iexact Hrest
  hin c := (P.p6 (C13 m P)).hin c
  hout c := (P.p6 (C13 m P)).hout c
  hexit c := by
    have hjoin := Pipeline.unscopedBufs_of_arrays (p := 6) (pcfgs (F := F)) adm' (Ix := Unit) (Name := ℕ) (U := UR sig nD τ) (Lvl := ℕ)
      launch6.win launch6.arr_whole c (pdats m P) ((pdats m P 6 c).share_full fun w => (P.p6 (C13 m P)).q_full c w)
      (C13 m P c) (C14 m P c) ((pdats m P 6 c).arrAt · cfg6.N) (hF6 m P c) (hrest6 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p6 (C13 m P)).owes_out c); iexact HO

set_option backward.isDefEq.respectTransparency.types false in
/-- Region 7 over the thread state: entered with every unscoped buffer at `W15`, left with them at `W16`. Its arrays
    are split out of the unscoped buffers and put back at their exit contents; the generator register and the scoped
    buffers go into the region's invariant and come back; nothing is owed; the kernel has no semaphore of its own. -/
def reg7 (m : Mem F) (P : Packs F) : Pipeline.RegionSeg (pcfgs (F := F)) adm' (pdats m P) () defs₀ 𝒱₀ L lv 7 where
  win := launch7.win.to₀
  block_pos := launch7.block_pos
  stage_whole := launch7.stage_whole
  K := PEmpty
  osem k := k.elim
  ho := Pipeline.OwnSemFacts.none _
  hbody c := ((P.p7 (C15 m P)).body c).loose
  hwaits := Pipeline.hwaits_of_owed_zero _ _ _ _ L lv 7 fun c t => (P.p7 (C15 m P)).owed_zero c t
  pre c := iprop(StableHlo.held (c : Thread nD τ) (Pipeline.ucRefs τ sig) (W15 m P c) ∗ R c)
  post c := iprop(StableHlo.held (c : Thread nD τ) (Pipeline.ucRefs τ sig) (W16 m P c) ∗ R c)
  X c := iprop(∃ r, prngReg c r)
  Y c := iprop(∃ r, prngReg c r)
  Z c := Pipeline.unscopedRest (Ix := Unit) (Name := ℕ) (U := UR sig nD τ) (Lvl := ℕ) spec7 c (C15 m P c)
  hentry c := by
    rw [Pipeline.ownSems0_none]
    have hsplit := Pipeline.arrays_of_unscopedBufs (p := 7) (pcfgs (F := F)) adm' (pdats m P) launch7.win launch7.arr_whole c
      ((pdats m P 7 c).share_full fun w => (P.p7 (C15 m P)).q_full c w) (C15 m P c) fun w => (P.p7 (C15 m P)).A_eq c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ((P.p7 (C15 m P)).owes_in c); iexact HO
    isplitl [Hp]; · iexact Hp
    iexact Hrest
  hin c := (P.p7 (C15 m P)).hin c
  hout c := (P.p7 (C15 m P)).hout c
  hexit c := by
    have hjoin := Pipeline.unscopedBufs_of_arrays (p := 7) (pcfgs (F := F)) adm' (Ix := Unit) (Name := ℕ) (U := UR sig nD τ) (Lvl := ℕ)
      launch7.win launch7.arr_whole c (pdats m P) ((pdats m P 7 c).share_full fun w => (P.p7 (C15 m P)).q_full c w)
      (C15 m P c) (C16 m P c) ((pdats m P 7 c).arrAt · cfg7.N) (hF7 m P c) (hrest7 m P c)
    rw [Pipeline.unscopedBufs_held] at hjoin
    iintro ⟨Ha, HO, HY, Hrest⟩
    imodintro
    isplitl [Ha Hrest]
    · iapply hjoin; isplitl [Ha] <;> iassumption
    isplitl [HY]; · iexact HY
    iapply ((P.p7 (C15 m P)).owes_out c); iexact HO

/-! ## @main as segments, and the launch -/

/-- @main's sixteen items in order. -/
abbrev segs (m : Mem F) (P : Packs F) : List (Pipeline.Seg (pcfgs (F := F)) adm' (pdats m P) () defs₀ 𝒱₀ L lv) :=
  [ .host (hseg hostOps0 hostOps0_sub hostOps0_fresh (W0 m P)),
    .host (hseg hostOps0_1 hostOps0_1_sub hostOps0_1_fresh (W1 m P)),
    .host (hseg hostOps0_2 hostOps0_2_sub hostOps0_2_fresh (W2 m P)),
    .region (reg0 m P),
    .host (hseg hostOps1 hostOps1_sub hostOps1_fresh (W4 m P)),
    .region (reg1 m P),
    .region (reg2 m P),
    .host (hseg hostOps3 hostOps3_sub hostOps3_fresh (W7 m P)),
    .region (reg3 m P),
    .host (hseg hostOps4 hostOps4_sub hostOps4_fresh (W9 m P)),
    .region (reg4 m P),
    .region (reg5 m P),
    .host (hseg hostOps6 hostOps6_sub hostOps6_fresh (W12 m P)),
    .region (reg6 m P),
    .host (hseg hostOps7 hostOps7_sub hostOps7_fresh (W14 m P)),
    .region (reg7 m P) ]
/-- @main is the run of the segments. -/
theorem main_run (m : Mem F) (P : Packs F) (c : Dev nD) : main (F := F) c = Pipeline.Seg.run (segs m P) := (main_chain c).trans (by chain_rfl)

/-- The last thread state without the `owes`: every unscoped buffer at the last boundary's contents, the generator
    register at some state. -/
abbrev Tₙ (m : Mem F) (P : Packs F) (c : Dev nD) : sProp 𝕄 :=
  iprop(StableHlo.held (c : Thread nD τ) (Pipeline.ucRefs τ sig) (W16 m P c) ∗ ∃ r, prngReg c r)

set_option backward.isDefEq.respectTransparency.types false in
/-- THE RUN. From any memory with zero counters every weakly fair execution of @main on the TensorCores terminates,
    nothing faulting, and in every final state each unscoped buffer of each core holds the last boundary's contents
    `W16`: the launch over the sixteen segments, then the last thread state read against the final state. -/
theorem run (m : Mem F) (ρ : Dev nD → PrngReg) (P : Packs F) :
    θ_run defs (onTc (τ := τ) (main (F := F))) ⟨m, fun _ => 0, ρ⟩ (fun r => ∀ c : Dev nD,
      ∀ b ∈ Pipeline.ucRefs τ sig, r.2.mem (((c : Thread nD τ)).1, b) = W16 m P c b) :=
  Pipeline.θ_run_regions_kit (pcfgs (F := F)) adm' (pdats m P) () cellOf_inj emb₁ defs₀ 𝒱₀ L lv m ρ main (segs m P)
    (fun c Q => by rw [main_run m P c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m P c) ∗ R c)) (Tₙ := Tₙ m P)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
        show (iprop(StableHlo.held (c : Thread nD τ) (Pipeline.ucRefs τ sig) (W16 m P c) ∗ R c) : sProp 𝕄)
          ⊢ iprop(Tₙ m P c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m P c)
        from Pipeline.unscopedBufs_held c (W0 m P c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m P c b)
    (hfin := fun c s' => by
      iintro ⟨⟨Hh, -⟩, HSI⟩
      unfold StableHlo.held
      imodintro
      iapply (pointsTo_read_all (Pipeline.ucRefs τ sig) (fun b => (((c : Thread nD τ)).1, b)) (W16 m P c) s')
      isplitl [Hh] <;> iassumption)
    (hQ := fun s h c => h c)

/-! ## The arguments end as launched -/

/-- The first argument is region 0's first (input) window's array: the region hands it back as found. -/
theorem W16_main_arg0 (m : Mem F) (P : Packs F) (c : Dev nD) : W16 m P c (Proc.devRef .tc main_arg0) = m ((c : Thread nD τ).loc main_arg0) :=
  (W16_of_ne m P c main_arg0 (by decide)).trans <| (W15_keep m P c main_arg0 (by decide)).trans <| (W14_of_ne m P c main_arg0 (by decide)).trans <| (W13_keep m P c main_arg0 (by decide)).trans <| (W12_of_ne m P c main_arg0 (by decide)).trans <| (W11_of_ne m P c main_arg0 (by decide)).trans <| (W10_keep m P c main_arg0 (by decide)).trans <| (W9_of_ne m P c main_arg0 (by decide)).trans <| (W8_keep m P c main_arg0 (by decide)).trans <| (W7_of_ne m P c main_arg0 (by decide)).trans <| (W6_of_ne m P c main_arg0 (by decide)).trans <| (W5_keep m P c main_arg0 (by decide)).trans <| ((W4_arr m P c 0).trans ((((P.p0 (C3 m P)).dat c).arrAt_in 0 rfl _).trans ((P.p0 (C3 m P)).A_eq c 0))).trans <| (W3_keep m P c main_arg0 (by decide)).trans <| (W2_keep m P c main_arg0 (by decide)).trans <| (W1_keep m P c main_arg0 (by decide)).trans <| rfl

theorem W16_main_arg1 (m : Mem F) (P : Packs F) (c : Dev nD) : W16 m P c (Proc.devRef .tc main_arg1) = m ((c : Thread nD τ).loc main_arg1) :=
  W16_untouched m P c main_arg1 (by decide) (by decide) (by decide) (by decide) (by decide) (by decide) (by decide) (by decide) (by decide) (by decide) (by decide) (by decide) (by decide) (by decide) (by decide) (by decide)

theorem W16_main_arg2 (m : Mem F) (P : Packs F) (c : Dev nD) : W16 m P c (Proc.devRef .tc main_arg2) = m ((c : Thread nD τ).loc main_arg2) :=
  W16_untouched m P c main_arg2 (by decide) (by decide) (by decide) (by decide) (by decide) (by decide) (by decide) (by decide) (by decide) (by decide) (by decide) (by decide) (by decide) (by decide) (by decide) (by decide)

theorem W16_main_arg3 (m : Mem F) (P : Packs F) (c : Dev nD) : W16 m P c (Proc.devRef .tc main_arg3) = m ((c : Thread nD τ).loc main_arg3) :=
  W16_untouched m P c main_arg3 (by decide) (by decide) (by decide) (by decide) (by decide) (by decide) (by decide) (by decide) (by decide) (by decide) (by decide) (by decide) (by decide) (by decide) (by decide) (by decide)

theorem W16_main_arg4 (m : Mem F) (P : Packs F) (c : Dev nD) : W16 m P c (Proc.devRef .tc main_arg4) = m ((c : Thread nD τ).loc main_arg4) :=
  W16_untouched m P c main_arg4 (by decide) (by decide) (by decide) (by decide) (by decide) (by decide) (by decide) (by decide) (by decide) (by decide) (by decide) (by decide) (by decide) (by decide) (by decide) (by decide)

theorem W16_main_arg5 (m : Mem F) (P : Packs F) (c : Dev nD) : W16 m P c (Proc.devRef .tc main_arg5) = m ((c : Thread nD τ).loc main_arg5) :=
  W16_untouched m P c main_arg5 (by decide) (by decide) (by decide) (by decide) (by decide) (by decide) (by decide) (by decide) (by decide) (by decide) (by decide) (by decide) (by decide) (by decide) (by decide) (by decide)

theorem W16_main_arg6 (m : Mem F) (P : Packs F) (c : Dev nD) : W16 m P c (Proc.devRef .tc main_arg6) = m ((c : Thread nD τ).loc main_arg6) :=
  W16_untouched m P c main_arg6 (by decide) (by decide) (by decide) (by decide) (by decide) (by decide) (by decide) (by decide) (by decide) (by decide) (by decide) (by decide) (by decide) (by decide) (by decide) (by decide)

theorem W16_main_arg7 (m : Mem F) (P : Packs F) (c : Dev nD) : W16 m P c (Proc.devRef .tc main_arg7) = m ((c : Thread nD τ).loc main_arg7) :=
  W16_untouched m P c main_arg7 (by decide) (by decide) (by decide) (by decide) (by decide) (by decide) (by decide) (by decide) (by decide) (by decide) (by decide) (by decide) (by decide) (by decide) (by decide) (by decide)

theorem W16_main_arg8 (m : Mem F) (P : Packs F) (c : Dev nD) : W16 m P c (Proc.devRef .tc main_arg8) = m ((c : Thread nD τ).loc main_arg8) :=
  W16_untouched m P c main_arg8 (by decide) (by decide) (by decide) (by decide) (by decide) (by decide) (by decide) (by decide) (by decide) (by decide) (by decide) (by decide) (by decide) (by decide) (by decide) (by decide)

theorem W16_main_arg9 (m : Mem F) (P : Packs F) (c : Dev nD) : W16 m P c (Proc.devRef .tc main_arg9) = m ((c : Thread nD τ).loc main_arg9) :=
  W16_untouched m P c main_arg9 (by decide) (by decide) (by decide) (by decide) (by decide) (by decide) (by decide) (by decide) (by decide) (by decide) (by decide) (by decide) (by decide) (by decide) (by decide) (by decide)

theorem W16_main_arg10 (m : Mem F) (P : Packs F) (c : Dev nD) : W16 m P c (Proc.devRef .tc main_arg10) = m ((c : Thread nD τ).loc main_arg10) :=
  W16_untouched m P c main_arg10 (by decide) (by decide) (by decide) (by decide) (by decide) (by decide) (by decide) (by decide) (by decide) (by decide) (by decide) (by decide) (by decide) (by decide) (by decide) (by decide)

theorem W16_main_arg11 (m : Mem F) (P : Packs F) (c : Dev nD) : W16 m P c (Proc.devRef .tc main_arg11) = m ((c : Thread nD τ).loc main_arg11) :=
  W16_untouched m P c main_arg11 (by decide) (by decide) (by decide) (by decide) (by decide) (by decide) (by decide) (by decide) (by decide) (by decide) (by decide) (by decide) (by decide) (by decide) (by decide) (by decide)

theorem W16_main_arg12 (m : Mem F) (P : Packs F) (c : Dev nD) : W16 m P c (Proc.devRef .tc main_arg12) = m ((c : Thread nD τ).loc main_arg12) :=
  W16_untouched m P c main_arg12 (by decide) (by decide) (by decide) (by decide) (by decide) (by decide) (by decide) (by decide) (by decide) (by decide) (by decide) (by decide) (by decide) (by decide) (by decide) (by decide)

theorem W16_main_arg13 (m : Mem F) (P : Packs F) (c : Dev nD) : W16 m P c (Proc.devRef .tc main_arg13) = m ((c : Thread nD τ).loc main_arg13) :=
  W16_untouched m P c main_arg13 (by decide) (by decide) (by decide) (by decide) (by decide) (by decide) (by decide) (by decide) (by decide) (by decide) (by decide) (by decide) (by decide) (by decide) (by decide) (by decide)

/-- The frame: every argument array ends as launched. -/
theorem frame (m : Mem F) (ρ : Dev nD → PrngReg) (P : Packs F) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W16_main_arg0 m P c),
    (h c _ (mem_uc main_arg1 (by decide))).trans (W16_main_arg1 m P c),
    (h c _ (mem_uc main_arg2 (by decide))).trans (W16_main_arg2 m P c),
    (h c _ (mem_uc main_arg3 (by decide))).trans (W16_main_arg3 m P c),
    (h c _ (mem_uc main_arg4 (by decide))).trans (W16_main_arg4 m P c),
    (h c _ (mem_uc main_arg5 (by decide))).trans (W16_main_arg5 m P c),
    (h c _ (mem_uc main_arg6 (by decide))).trans (W16_main_arg6 m P c),
    (h c _ (mem_uc main_arg7 (by decide))).trans (W16_main_arg7 m P c),
    (h c _ (mem_uc main_arg8 (by decide))).trans (W16_main_arg8 m P c),
    (h c _ (mem_uc main_arg9 (by decide))).trans (W16_main_arg9 m P c),
    (h c _ (mem_uc main_arg10 (by decide))).trans (W16_main_arg10 m P c),
    (h c _ (mem_uc main_arg11 (by decide))).trans (W16_main_arg11 m P c),
    (h c _ (mem_uc main_arg12 (by decide))).trans (W16_main_arg12 m P c),
    (h c _ (mem_uc main_arg13 (by decide))).trans (W16_main_arg13 m P c)⟩) (run m ρ P)

/-- The run with the result named: the result array ends at the last boundary's contents, the arguments as launched. -/
theorem run_result (m : Mem F) (ρ : Dev nD → PrngReg) (P : Packs F) :
    θ_run defs (onTc (τ := τ) (main (F := F))) ⟨m, fun _ => 0, ρ⟩ (fun r => ∀ c : Dev nD,
      r.2.mem ((c.tc : Thread nD τ).loc main_v83) = W16 m P c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_uc main_v83 (by decide)), (h c _ (mem_uc main_arg0 (by decide))).trans (W16_main_arg0 m P c),
    (h c _ (mem_uc main_arg1 (by decide))).trans (W16_main_arg1 m P c),
    (h c _ (mem_uc main_arg2 (by decide))).trans (W16_main_arg2 m P c),
    (h c _ (mem_uc main_arg3 (by decide))).trans (W16_main_arg3 m P c),
    (h c _ (mem_uc main_arg4 (by decide))).trans (W16_main_arg4 m P c),
    (h c _ (mem_uc main_arg5 (by decide))).trans (W16_main_arg5 m P c),
    (h c _ (mem_uc main_arg6 (by decide))).trans (W16_main_arg6 m P c),
    (h c _ (mem_uc main_arg7 (by decide))).trans (W16_main_arg7 m P c),
    (h c _ (mem_uc main_arg8 (by decide))).trans (W16_main_arg8 m P c),
    (h c _ (mem_uc main_arg9 (by decide))).trans (W16_main_arg9 m P c),
    (h c _ (mem_uc main_arg10 (by decide))).trans (W16_main_arg10 m P c),
    (h c _ (mem_uc main_arg11 (by decide))).trans (W16_main_arg11 m P c),
    (h c _ (mem_uc main_arg12 (by decide))).trans (W16_main_arg12 m P c),
    (h c _ (mem_uc main_arg13 (by decide))).trans (W16_main_arg13 m P c)⟩) (run m ρ P)

end Cert.KernelIdeal.Hand

end
-- ==== Proof.KI.Linear0.lean ====
import proofs.«166096_j40321152975189_1_alg».proof.Proof.Gen.KernelIdeal.Launch
import proofs.«166096_j40321152975189_1_alg».proof.Proof.Gen.KernelIdeal.Skeleton
import proofs.«166096_j40321152975189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 0: the linear layer `cc0__linear_kernel` — rows of `x[2000,128] · w[128,256] + b[1,256]`

Four windows: 0 the row block of the activations (a new block at every grid point), 1 the weight matrix and
2 the bias row (one block for the whole grid, so the transfer happens at the first point only and the staging
buffer is left alone afterwards), 3 the row block of the result (written back at every point). Everything is
stated at a parameter `V`: the contents of the core's buffers when the region is entered. -/

/-! ## The windows' blocks -/

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What an input's staging buffer holds when the body starts

For each of the three inputs: whenever the proof data's array is the entry contents and the body leaves the
buffer at the block, the buffer holds the block at EVERY point. At a point where the window is fetched this is
what the transfer wrote; at a point where it is not (windows 1 and 2 after the first point) the block index has
not moved since the previous point, whose body left that same block there. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
    (fun t => by rw [hafter]; unfold Dat.blockOf iblk0; rw [hA]; try rfl) t d).trans
    (by unfold Dat.fetched Dat.blockOf iblk0; rw [hA]; try rfl)

/-! ## The body's accesses: each buffer, whole -/

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S2000x256 := Rect.unit (s := S2000x256) ![0, 0] S2000x256.size inb_S2000x256_S2000x256_0_0

/-! ## What the body leaves in the result's buffer -/

/-- The result window's buffer after the body, as a function of the three input blocks: the one store, of the
    payload computed from the three whole loads, laid over the buffer. -/
def out0_3 (x0 : Vec F S2000x128 .f32) (x1 : Vec F S128x256 .f32) (x2 : Vec F S1x256 .f32) : Vec F S2000x256 .f32 :=
  View.canon [⟨r0_3, k0_pay1 (View.ld x0 r0_0) (View.ld x1 r0_1) (View.ld x2 r0_2)⟩]

/-- The one store is of the whole buffer, so every position of the buffer lies in it. -/
theorem cover0_3 (p0 : Vec F S2000x256 .f32) (y : S2000x256.Idx) :
    ∃ pc ∈ ([⟨r0_3, p0⟩] : List (View.Piece (Elt F) S2000x256 .f32)), y ∈ pc.1.set :=
  View.cover_of_tiled [⟨r0_3, p0⟩] S2000x256.size (by rfl) y

/-! ## The body's triple -/

set_option maxHeartbeats 4000000 in
/-- The body on whole staging memrefs — the inputs' at contents `x0`, `x1`, `x2`, the result's at anything — runs
    without a fault to the continuation, which receives the inputs' memrefs as they were and the result's at
    `out0_3 x0 x1 x2`. The function is a straight line of three whole loads of the inputs, one whole load of the
    result's buffer (whose value is not used) and one whole store: the triple follows operation by operation. -/
theorem sound_kernel0 (c : Dev nD) (E : Set ℕ) (i : grid0.Coords)
    (arg1 : Memref sig .tc .vmem S2000x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core `c`: the arrays as the region finds them; after the body at
    point `t` each input's buffer still at its block and the result's at `out0_3` of the three input blocks; the
    invariant that leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and each window's current
    staging memref at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Stats1.lean ====
import proofs.«166096_j40321152975189_1_alg».proof.Proof.Gen.KernelIdeal.Launch
import proofs.«166096_j40321152975189_1_alg».proof.Proof.Gen.KernelIdeal.Skeleton
import proofs.«166096_j40321152975189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The statistics kernel of region 1: column sums and column sums of squares accumulated over the grid

The body runs at 50 grid points over row blocks of 2000 rows. Two scratch rows are carried from point to
point: the running column sums and the running column sums of squares. At the first point both are zeroed
before the block is added; at every point the block's column sums (of squares) are added; at the last point
the mean and the reciprocal standard deviation are formed from the totals and stored in the two output rows. -/

/-! ## The two conditionals of the body -/

/-- The first conditional: the grid coordinate is 0 (the kernel's scalar chain, substituted). -/
abbrev cond1_1 (i : grid1.Coords) : Prop := (Scalar.cmpi .ne (Scalar.extui (Scalar.cmpi .eq (BitVec.ofNat 32 (i 0).val) 0#32)) 0#32) = 1#1
/-- It holds at the first point only. -/
theorem hcond1_1 : ∀ t : Fin cfg1.N, cond1_1 (grid1.coords t) ↔ t.val = 0 :=
  (by decide +kernel : ∀ t : Fin grid1.N, cond1_1 (grid1.coords t) ↔ t.val = 0)

/-- The second conditional: the grid coordinate is 49. -/
abbrev cond1_2 (i : grid1.Coords) : Prop := k1_cond2 i = 1#1
/-- It holds at the last point only. -/
theorem hcond1_2 : ∀ t : Fin cfg1.N, cond1_2 (grid1.coords t) ↔ t.val = 49 :=
  (by decide +kernel : ∀ t : Fin grid1.N, cond1_2 (grid1.coords t) ↔ t.val = 49)

/-! ## Where the windows are idle -/

/-- The input window is never idle. -/
theorem live1_0 : ∀ t : Fin cfg1.N, cfg1.idle 0 (grid1.coords t) = false := by decide +kernel
/-- Off the last point the two output windows are idle and are not written back. -/
theorem idle1_1 : ∀ t : Fin cfg1.N, ¬cond1_2 (grid1.coords t) → cfg1.idle 1 (grid1.coords t) = true := by decide +kernel
theorem noFlush1_1 : ∀ t : Fin cfg1.N, ¬cond1_2 (grid1.coords t) → (cfg1.win 1).flush t = false := by decide +kernel
theorem idle1_2 : ∀ t : Fin cfg1.N, ¬cond1_2 (grid1.coords t) → cfg1.idle 2 (grid1.coords t) = true := by decide +kernel
theorem noFlush1_2 : ∀ t : Fin cfg1.N, ¬cond1_2 (grid1.coords t) → (cfg1.win 2).flush t = false := by decide +kernel
/-- At the last point they are live. -/
theorem live1_1 : ∀ t : Fin cfg1.N, cond1_2 (grid1.coords t) → cfg1.idle 1 (grid1.coords t) = false := by decide +kernel
theorem live1_2 : ∀ t : Fin cfg1.N, cond1_2 (grid1.coords t) → cfg1.idle 2 (grid1.coords t) = false := by decide +kernel

/-! ## Whole-row accesses -/

/-- The zero offsets of a rank-2 access, as the constant function. -/
theorem off2_zero : (![0, 0] : Fin 2 → ℕ) = fun _ => 0 := by
  funext a; fin_cases a <;> rfl

/-- One store through the whole row covers the row. -/
theorem cover_row (p : Vec F S1x256 .f32) (L : List (View.Piece (Elt F) S1x256 .f32)) (y : S1x256.Idx) :
    ∃ pc ∈ ((⟨Rect.unit (s := S1x256) ![0, 0] S1x256.size inb_S1x256_S1x256_0_0, p⟩ : View.Piece (Elt F) S1x256 .f32) :: L), y ∈ pc.1.set :=
  ⟨_, List.mem_cons_self, View.mem_set_unit_zero off2_zero inb_S1x256_S1x256_0_0 y⟩

/-- What a view reads after a last store through the whole row: the stored row. -/
theorem read_row_store {sp : Space} (v : View sig .tc sp S1x256 .f32) (f : v.ty.Contents (Elt F)) (p : Vec F S1x256 .f32)
    (L : List (View.Piece (Elt F) S1x256 .f32)) :
    v.read (Elt F) (v.writes (Elt F) f ((⟨Rect.unit (s := S1x256) ![0, 0] S1x256.size inb_S1x256_S1x256_0_0, p⟩ : View.Piece (Elt F) S1x256 .f32) :: L)) = p := by
  rw [View.read_writes_eq_canon _ _ _ (cover_row p L), View.canon_cons_unit_zero off2_zero]

/-! ## The body's runs, one per control case -/

/-- A load through the whole block reads the block. -/
theorem ld_blk (X : Vec F S2000x256 .f32) :
    View.ld X (Rect.unit (s := S2000x256) ![0, 0] S2000x256.size inb_S2000x256_S2000x256_0_0) = X :=
  View.ld_unit_zero off2_zero _ X
/-- A load through the whole row reads the row. -/
theorem ld_row (X : Vec F S1x256 .f32) :
    View.ld X (Rect.unit (s := S1x256) ![0, 0] S1x256.size inb_S1x256_S1x256_0_0) = X :=
  View.ld_unit_zero off2_zero _ X

set_option maxHeartbeats 1000000 in
/-- A MIDDLE point (neither conditional taken): on whole memrefs, the block at `x0`, the two output rows at
    any contents `y1`, `y2` (handed back untouched), the running sums at `s0`, `s1`, the body runs to the
    continuation with the block's column sums added to `s0` and its column sums of squares to `s1`. -/
theorem sound_kernel1_B (c : Dev nD) (E : Set ℕ) (i : grid1.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc1 : ¬cond1_1 i) (hc2 : ¬cond1_2 i)
    (x0 : Vec F S2000x256 .f32) (y1 y2 s0 s1 : Vec F S1x256 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_row_store]; exact congrArg₂ _ (ld_blk _) (ld_row _)
  iexists _; isplitr
  swap; · iexact H4
  ipureintro
  rw [read_row_store]; exact congrArg₂ _ (ld_blk _) (ld_row _)

/-- A load through the whole row of what one store through the whole row left reads the stored row. -/
theorem readCov_row {sp : Space} (v : View sig .tc sp S1x256 .f32) (p : Vec F S1x256 .f32) :
    v.readCov [(⟨Rect.unit (s := S1x256) ![0, 0] S1x256.size inb_S1x256_S1x256_0_0, p⟩ : View.Piece (Elt F) S1x256 .f32)]
      (Rect.unit (s := S1x256) ![0, 0] S1x256.size inb_S1x256_S1x256_0_0).toLoadRect = p :=
  View.readCov_unit_zero v off2_zero _ p

set_option maxHeartbeats 1000000 in
/-- The FIRST point (first conditional taken, second not): the two running sums at anything; the body zeroes
    them, then adds the block's column sums (of squares): they end at the block's sums over zero. The output
    rows are handed back untouched. -/
theorem sound_kernel1_A (c : Dev nD) (E : Set ℕ) (i : grid1.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc1 : cond1_1 i) (hc2 : ¬cond1_2 i)
    (x0 : Vec F S2000x256 .f32) (y1 y2 : Vec F S1x256 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 k1_pay1) ∗ owns (c : Thread nD τ) arg5 fullShare (k1_pay5 x0 k1_pay2)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_row_store]
    sl_unfold_run_names
    exact congrArg₂ _ (ld_blk (View.read (Elt F) arg1.view f0)) (readCov_row _ _)
  iexists _; isplitr
  swap; · iexact H4
  ipureintro
  rw [read_row_store]
  sl_unfold_run_names
  exact congrArg₂ _ (ld_blk (View.read (Elt F) arg1.view f0)) (readCov_row _ _)

set_option maxHeartbeats 1000000 in
/-- The LAST point (first conditional not taken, second taken): the running sums at `s0`, `s1`, the output rows at
    anything; the body adds the block's sums, then stores the mean and the reciprocal standard deviation of the
    totals in the two output rows. -/
theorem sound_kernel1_C (c : Dev nD) (E : Set ℕ) (i : grid1.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc1 : ¬cond1_1 i) (hc2 : cond1_2 i)
    (x0 : Vec F S2000x256 .f32) (s0 s1 : Vec F S1x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k1_pay6 (k1_pay4 x0 s0)) ∗ owns (c : Thread nD τ) arg3 fullShare (k1_pay7 (k1_pay4 x0 s0) (k1_pay5 x0 s1))
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0; subst hf3; subst hf4
  sl_exec (disch := first | exact hc1 | exact hc2)
  sl_step
  iapply Hk
  isplitl [H0]
  · iexists f0; isplitr; · ipureintro; rfl
    iexact H0
  isplitl [H1]
  · iexists _; isplitr
    swap; · iexact H1
    ipureintro
    rw [read_row_store]
    sl_unfold_run_names
    rw [readCov_row]
    exact congrArg _ (congrArg₂ _ (ld_blk (View.read (Elt F) arg1.view f0)) (ld_row (View.read (Elt F) arg4.view f3)))
  isplitl [H2]
  · iexists _; isplitr
    swap; · iexact H2
    ipureintro
    rw [read_row_store]
    sl_unfold_run_names
    rw [readCov_row, readCov_row]
    exact congrArg₂ _ (congrArg₂ _ (ld_blk (View.read (Elt F) arg1.view f0)) (ld_row (View.read (Elt F) arg4.view f3)))
      (congrArg₂ _ (ld_blk (View.read (Elt F) arg1.view f0)) (ld_row (View.read (Elt F) arg5.view f4)))
  isplitl [H3]
  · iexists _; isplitr
    swap; · iexact H3
    ipureintro
    sl_unfold_run_names
    rw [read_row_store]
    exact congrArg₂ _ (ld_blk (View.read (Elt F) arg1.view f0)) (ld_row (View.read (Elt F) arg4.view f3))
  iexists _; isplitr
  swap; · iexact H4
  ipureintro
  sl_unfold_run_names
  rw [read_row_store]
  exact congrArg₂ _ (ld_blk (View.read (Elt F) arg1.view f0)) (ld_row (View.read (Elt F) arg5.view f4))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place: the window is uncut, never idle, fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The running sums, point by point -/

/-- The grid is not empty. -/
theorem N1_pos : 0 < cfg1.N := by rw [show cfg1.N = 50 from N_1]; decide

/-- The input block at position `n` of the grid (a position past the grid wraps around: only positions on the
    grid are ever consulted). -/
def xb1 (c : Dev nD) (n : ℕ) : Vec F S2000x256 .f32 :=
  iblk1 V c 0 ⟨n % cfg1.N, Nat.mod_lt _ N1_pos⟩

theorem xb1_val (c : Dev nD) (t : Fin cfg1.N) : xb1 V c t.val = iblk1 V c 0 t := by
  have e : (⟨t.val % cfg1.N, Nat.mod_lt _ N1_pos⟩ : Fin cfg1.N) = t :=
    Fin.ext (Nat.mod_eq_of_lt t.isLt)
  unfold xb1; rw [e]

/-- The running column sums after the body at position `n`: the block's column sums added to zero at the first
    point, to what the point before left afterwards. -/
def accS1 (c : Dev nD) : ℕ → Vec F S1x256 .f32
  | 0 => k1_pay4 (xb1 V c 0) k1_pay1
  | n + 1 => k1_pay4 (xb1 V c (n + 1)) (accS1 c n)

/-- The running column sums of squares after the body at position `n`. -/
def accQ1 (c : Dev nD) : ℕ → Vec F S1x256 .f32
  | 0 => k1_pay5 (xb1 V c 0) k1_pay2
  | n + 1 => k1_pay5 (xb1 V c (n + 1)) (accQ1 c n)

theorem accS1_zero (c : Dev nD) : accS1 V c 0 = k1_pay4 (xb1 V c 0) k1_pay1 := rfl
theorem accS1_succ (c : Dev nD) (n : ℕ) : accS1 V c (n + 1) = k1_pay4 (xb1 V c (n + 1)) (accS1 V c n) := rfl
theorem accQ1_zero (c : Dev nD) : accQ1 V c 0 = k1_pay5 (xb1 V c 0) k1_pay2 := rfl
theorem accQ1_succ (c : Dev nD) (n : ℕ) : accQ1 V c (n + 1) = k1_pay5 (xb1 V c (n + 1)) (accQ1 V c n) := rfl

/-- At the first point: the block's sums over zero. -/
theorem accS1_first (c : Dev nD) (t : Fin cfg1.N) (h0 : t.val = 0) : accS1 V c t.val = k1_pay4 (iblk1 V c 0 t) k1_pay1 := by
  rw [← xb1_val V c t, h0]; rfl
theorem accQ1_first (c : Dev nD) (t : Fin cfg1.N) (h0 : t.val = 0) : accQ1 V c t.val = k1_pay5 (iblk1 V c 0 t) k1_pay2 := by
  rw [← xb1_val V c t, h0]; rfl
/-- At a later point: the block's sums over what the point before left. -/
theorem accS1_next (c : Dev nD) (t : Fin cfg1.N) (n : ℕ) (hn : t.val = n + 1) : accS1 V c t.val = k1_pay4 (iblk1 V c 0 t) (accS1 V c n) := by
  rw [← xb1_val V c t, hn]; rfl
theorem accQ1_next (c : Dev nD) (t : Fin cfg1.N) (n : ℕ) (hn : t.val = n + 1) : accQ1 V c t.val = k1_pay5 (iblk1 V c 0 t) (accQ1 V c n) := by
  rw [← xb1_val V c t, hn]; rfl

/-- The mean row, of the running column sums `s`: `s / 100000`. -/
def out1_1 (s : Vec F S1x256 .f32) : Vec F S1x256 .f32 := k1_pay6 s
/-- The reciprocal standard deviation row, of the running sums `s` and sums of squares `q`:
    `rsqrt (q / 100000 - (s / 100000)² + ε)`. -/
def out1_2 (s q : Vec F S1x256 .f32) : Vec F S1x256 .f32 := k1_pay7 s q

/-! ## The invariant: the two scratch rows at the running sums -/

/-- The scratch operands: whole scoped buffers of the kernel's own. -/
abbrev scM1_0 : Memref sig .tc .vmem S1x256 .f32 := Memref.whole cc1_scratch0
abbrev scM1_1 : Memref sig .tc .vmem S1x256 .f32 := Memref.whole cc1_scratch1

/-- The region invariant before position `n`: before the first point every scoped buffer no window stages at
    anything and the generator register at some state; afterwards the two scratch rows at the running sums the
    point before left, the other scoped buffers at anything, the generator register at some state. -/
def Phi1 (c : Dev nD) : ℕ → sProp 𝕄
  | 0 => iprop(Pipeline.scopedRest (Ix := Unit) (Name := ℕ) (U := UR sig nD τ) (Lvl := ℕ) (Val := Elt F) spec1 c ∗ ∃ r, prngReg c r)
  | n + 1 => iprop(owns (c : Thread nD τ) scM1_0 fullShare (accS1 V c n) ∗ owns (c : Thread nD τ) scM1_1 fullShare (accQ1 V c n)
      ∗ Pipeline.scopedRestBut (Ix := Unit) (Name := ℕ) (U := UR sig nD τ) (Lvl := ℕ) (Val := Elt F) spec1 c [cc1_scratch0, cc1_scratch1] ∗ ∃ r, prngReg c r)

theorem Phi1_zero (c : Dev nD) : Phi1 V c 0 = iprop(Pipeline.scopedRest (Ix := Unit) (Name := ℕ) (U := UR sig nD τ) (Lvl := ℕ) (Val := Elt F) spec1 c ∗ ∃ r, prngReg c r) := rfl
theorem Phi1_succ (c : Dev nD) (n : ℕ) : Phi1 V c (n + 1) = iprop(owns (c : Thread nD τ) scM1_0 fullShare (accS1 V c n) ∗ owns (c : Thread nD τ) scM1_1 fullShare (accQ1 V c n)
      ∗ Pipeline.scopedRestBut (Ix := Unit) (Name := ℕ) (U := UR sig nD τ) (Lvl := ℕ) (Val := Elt F) spec1 c [cc1_scratch0, cc1_scratch1] ∗ ∃ r, prngReg c r) := rfl

/-- Before the first point, opened at the two scratch rows: each whole, at some contents. -/
theorem Phi1_zero_open (c : Dev nD) :
    Phi1 V c 0 = iprop(iprop(iprop((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]) ∗ ∃ r, prngReg c r) := by
  rw [Phi1_zero, scopedRest1_split]; simp only [scM1_0, scM1_1, owns_whole]; try rfl

/-! ## The pipeline's proof data -/

/-- The proof data of the pipeline on core `c`: the arrays as the region finds them (`V`); after the body at
    point `t` the input's buffer at its block, the mean row at the mean of the running sums up to `t`, the third at
    their reciprocal standard deviation (what the body stores at the last point; at the other points the two
    output windows are idle and these are not consulted); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (accS1 V c t.val)
    | ⟨2, _⟩ => out1_2 (accS1 V c t.val) (accQ1 V c t.val)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (accS1 V c t.val) := by dsimp only [dat1]
theorem after1_2 (c : Dev nD) (t : Fin cfg1.N) : (dat1 V c).after 2 t = out1_2 (accS1 V c t.val) (accQ1 V c t.val) := by dsimp only [dat1]

theorem Phi1_at (c : Dev nD) (t : Fin (cfg1.N + 1)) : (dat1 V c).Φ t = Phi1 V c t.val := rfl

theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input's memref holds its block; the point is the first, a middle one or the last
    (the grid has 50 points); the invariant hands the body the two scratch rows — at anything at the first point, at
    the running sums the point before left afterwards — and takes them back at this point's running sums; off the
    last point the two output rows are idle and go back as they came, at the last point they are left at the mean
    and the reciprocal standard deviation of the totals; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) from rfl, Phi1_succ]
  rw [show (dat1 V c).Φ t.castSucc = Phi1 V c t.val from rfl]
  rw [show (dat1 V c).leavesExact 0 t = owns (c : Thread nD τ) (st1_0 t) fullShare ((dat1 V c).after 0 t) from by
    unfold Dat.leavesExact; rw [live1_0 t], after1_0]
  have hN : t.val < 50 := lt_of_lt_of_eq t.isLt (show cfg1.N = 50 from N_1)
  by_cases h0 : t.val = 0
  · -- the first point
    have hc1 : cond1_1 (grid1.coords t) := (hcond1_1 t).mpr h0
    have hc2 : ¬cond1_2 (grid1.coords t) := fun h => by have := (hcond1_2 t).mp h; omega
    rw [Dat.leavesExact_idle (dat1 V c) 1 t (idle1_1 t hc2) (noFlush1_1 t hc2),
      Dat.leavesExact_idle (dat1 V c) 2 t (idle1_2 t hc2) (noFlush1_2 t hc2)]
    rw [show Phi1 V c t.val = Phi1 V c 0 from by rw [h0], Phi1_zero_open, accS1_first V c t h0, accQ1_first V c t h0]
    iintro ⟨⟨⟨⟨HS0, HS1⟩, Hrest⟩, Hg⟩, Ho, ⟨%d0, H0⟩, ⟨%d1, H1⟩, ⟨%d2, H2⟩⟩
    iapply (sound_kernel1_A c Set.univ (grid1.coords t) _ _ _ _ _ _ _ _ _ _ hc1 hc2 (iblk1 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexists _; iexact H1
    iexists _; iexact H2
  · obtain ⟨n, hn⟩ := Nat.exists_eq_succ_of_ne_zero h0
    have hc1 : ¬cond1_1 (grid1.coords t) := fun h => h0 ((hcond1_1 t).mp h)
    rw [show Phi1 V c t.val = Phi1 V c (n + 1) from by rw [hn], Phi1_succ, accS1_next V c t n hn, accQ1_next V c t n hn]
    by_cases h2 : t.val = 49
    · -- the last point
      have hc2 : cond1_2 (grid1.coords t) := (hcond1_2 t).mpr h2
      rw [show (dat1 V c).leavesExact 1 t = owns (c : Thread nD τ) (st1_1 t) fullShare ((dat1 V c).after 1 t) from by
        unfold Dat.leavesExact; rw [live1_1 t hc2], after1_1]
      rw [show (dat1 V c).leavesExact 2 t = owns (c : Thread nD τ) (st1_2 t) fullShare ((dat1 V c).after 2 t) from by
        unfold Dat.leavesExact; rw [live1_2 t hc2], after1_2]
      rw [accS1_next V c t n hn, accQ1_next V c t n hn]
      unfold out1_1 out1_2
      iintro ⟨⟨HS0, HS1, Hrest, Hg⟩, Ho, ⟨%d0, H0⟩, ⟨%d1, H1⟩, ⟨%d2, H2⟩⟩
      iapply (sound_kernel1_C c Set.univ (grid1.coords t) _ _ _ _ _ _ _ _ _ _ hc1 hc2 (iblk1 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexact H2
    · -- a middle point
      have hc2 : ¬cond1_2 (grid1.coords t) := fun h => h2 ((hcond1_2 t).mp h)
      rw [Dat.leavesExact_idle (dat1 V c) 1 t (idle1_1 t hc2) (noFlush1_1 t hc2),
        Dat.leavesExact_idle (dat1 V c) 2 t (idle1_2 t hc2) (noFlush1_2 t hc2)]
      iintro ⟨⟨HS0, HS1, Hrest, Hg⟩, Ho, ⟨%d0, H0⟩, ⟨%d1, H1⟩, ⟨%d2, H2⟩⟩
      iapply (sound_kernel1_B c Set.univ (grid1.coords t) _ _ _ _ _ _ _ _ _ _ hc1 hc2 (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the invariant -/

/-- What the region hands the pipeline — the generator register, anything `P` beside it (the prefetched tables:
    none here) and the scoped buffers no window stages — is the invariant before the first point. -/
theorem hin1 (c : Dev nD) (P : sProp 𝕄) :
    iprop(iprop(∃ r, prngReg c r) ∗ P ∗ Pipeline.scopedRest (Ix := Unit) (Name := ℕ) (U := UR sig nD τ) (Lvl := ℕ) (Val := Elt F) spec1 c) ⊢ (dat1 V c).Φ 0 := by
  rw [show (dat1 V c).Φ 0 = Phi1 V c 0 from rfl, Phi1_zero]
  iintro ⟨Hp, -, Hr⟩
  isplitl [Hr]; · iexact Hr
  iexact Hp

/-- After the last point the invariant gives the generator register and the scoped buffers back: the two scratch
    rows' named contents are forgotten. -/
theorem hout1 (c : Dev nD) :
    (dat1 V c).Φ (Fin.last cfg1.N) ⊢ iprop(iprop(∃ r, prngReg c r)
      ∗ Pipeline.ownSems0 (Ix := Unit) (Name := ℕ) (U := UR sig nD τ) (Lvl := ℕ) (Val := Elt F) (fun k : PEmpty => k.elim) c ∗ Pipeline.scopedRest (Ix := Unit) (Name := ℕ) (U := UR sig nD τ) (Lvl := ℕ) (Val := Elt F) spec1 c) := by
  rw [Pipeline.ownSems0_none, show (dat1 V c).Φ (Fin.last cfg1.N) = Phi1 V c (49 + 1) from by
    rw [Phi1_at, Fin.val_last, show cfg1.N = 50 from N_1], Phi1_succ, scopedRest1_split]
  simp only [scM1_0, scM1_1, owns_whole]
  iintro ⟨HS0, HS1, Hrest, Hg⟩
  isplitl [Hg]; · iexact Hg
  isplitr; · iempintro
  isplitl [HS0 HS1]
  · isplitl [HS0]; · iexists _; iexact HS0
    iexists _; iexact HS1
  iexact Hrest

end Cert.KernelIdeal.Hand
end
-- ==== Proof.KI.Norm2.lean ====
import proofs.«166096_j40321152975189_1_alg».proof.Proof.Gen.KernelIdeal.Launch
import proofs.«166096_j40321152975189_1_alg».proof.Proof.Gen.KernelIdeal.Skeleton
import proofs.«166096_j40321152975189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The normalise region 2: y = max(((x − mean) · inv_std) · gamma + beta, 0) on a row block,
    the four row vectors broadcast down the rows. Everything at the entry contents `V`. -/

/-! ## The windows' blocks -/

/-- The block of window `w` at grid point `t`: what the window's view at that point reads of the
    window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: the staging buffer the body is handed at a point holds the window's block there,
    whether the pipeline fetched it at that point or at an earlier one (the row block, fetched at every point).
    Holds for any proof data over `V`'s array (`hA`) whose body leaves the block as it found it (`hafter`);
    the window is uncut and has no idle point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := by
    intro t; rw [hafter]; unfold Dat.blockOf iblk2; rw [hA]; try rfl
  have hfetched : dat.fetched 0 t d = iblk2 V c 0 t := by
    unfold Dat.fetched Dat.blockOf iblk2; rw [hA]; try rfl
  exact (dat.before_in_eq_fetched 0 rfl (fun _ => rfl) (fun _ _ _ => rfl) hkeep t d).trans hfetched

/-- Input window 1: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := by
    intro t; rw [hafter]; unfold Dat.blockOf iblk2; rw [hA]; try rfl
  have hfetched : dat.fetched 1 t d = iblk2 V c 1 t := by
    unfold Dat.fetched Dat.blockOf iblk2; rw [hA]; try rfl
  exact (dat.before_in_eq_fetched 1 rfl (fun _ => rfl) (fun _ _ _ => rfl) hkeep t d).trans hfetched

/-- Input window 2: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := by
    intro t; rw [hafter]; unfold Dat.blockOf iblk2; rw [hA]; try rfl
  have hfetched : dat.fetched 2 t d = iblk2 V c 2 t := by
    unfold Dat.fetched Dat.blockOf iblk2; rw [hA]; try rfl
  exact (dat.before_in_eq_fetched 2 rfl (fun _ => rfl) (fun _ _ _ => rfl) hkeep t d).trans hfetched

/-- Input window 3: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := by
    intro t; rw [hafter]; unfold Dat.blockOf iblk2; rw [hA]; try rfl
  have hfetched : dat.fetched 3 t d = iblk2 V c 3 t := by
    unfold Dat.fetched Dat.blockOf iblk2; rw [hA]; try rfl
  exact (dat.before_in_eq_fetched 3 rfl (fun _ => rfl) (fun _ _ _ => rfl) hkeep t d).trans hfetched

/-- Input window 4: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t := by
  have hkeep : ∀ t, (cfg2.win 4).cut (cfg2.grid.coords t) (dat.after 4 t) = dat.blockOf 4 t := by
    intro t; rw [hafter]; unfold Dat.blockOf iblk2; rw [hA]; try rfl
  have hfetched : dat.fetched 4 t d = iblk2 V c 4 t := by
    unfold Dat.fetched Dat.blockOf iblk2; rw [hA]; try rfl
  exact (dat.before_in_eq_fetched 4 rfl (fun _ => rfl) (fun _ _ _ => rfl) hkeep t d).trans hfetched

/-! ## The rectangles the body reads and writes: each buffer whole -/

/-- The whole [2000,256] block. -/
abbrev r2_blk : Rect S2000x256 := Rect.unit (s := S2000x256) ![0, 0] S2000x256.size inb_S2000x256_S2000x256_0_0
/-- The whole [1,256] row. -/
abbrev r2_row : Rect S1x256 := Rect.unit (s := S1x256) ![0, 0] S1x256.size inb_S1x256_S1x256_0_0

/-! ## What the body leaves in the output window's buffer -/

/-- The output buffer after the body, as a function of the five input blocks: the one whole-buffer
    store of the payload computed from the five whole-buffer loads. -/
def out2_5 (x0 : Vec F S2000x256 .f32) (x1 x2 x3 x4 : Vec F S1x256 .f32) : Vec F S2000x256 .f32 :=
  View.canon [⟨r2_blk, k2_pay1 (View.ld x0 r2_blk) (View.ld x1 r2_row) (View.ld x2 r2_row) (View.ld x3 r2_row) (View.ld x4 r2_row)⟩]

/-- The single store is of the whole buffer, so every index of the buffer lies in it. -/
theorem cover2_5 (p0 : Vec F S2000x256 .f32) (y : S2000x256.Idx) :
    ∃ pc ∈ ([⟨r2_blk, p0⟩] : List (View.Piece (Elt F) S2000x256 .f32)), y ∈ pc.1.set :=
  View.cover_of_tiled [⟨r2_blk, p0⟩] S2000x256.size (by rfl) y

/-! ## The body's triple -/

set_option maxHeartbeats 4000000 in
/-- The kernel body on whole staging memrefs. Given the five input memrefs at read contents `x0 … x4` and the
    output memref at any contents, it runs to the continuation with the inputs unchanged and the output at
    `out2_5` of the inputs: five whole loads, one (dead) whole load of the output, one whole store. -/
theorem sound_kernel2 (c : Dev nD) (E : Set ℕ) (i : grid2.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_norm_kernel i arg1 harg1 arg2 harg2 arg3 harg3 arg4 harg4 arg5 harg5 arg6 harg6) K := by
  simp only [cc2__bn_norm_kernel_eq_skeleton]; unfold cc2__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the region's pipeline on core `c`: the arrays as the region finds them; after the body at
    point `t` every input buffer at its block and the output buffer at `out2_5` of the five input blocks;
    the invariant carries the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, what is owed, and the six current staging
    memrefs, each at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body returns: the same, each memref at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input memrefs hold their blocks, so the kernel's triple applies; the invariant
    and what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The output block at an index, over the extended reals -/

section AtIndex
open Idealize.ShloMosaic.ValueIdx

/-- At the ideal values, the output block read at row `p`, column `q`: the input block's entry there, minus the
    mean of column `q`, times the inverse deviation, times the scale, plus the shift, clamped below at zero. The one
    whole-buffer store leaves its payload; the whole-buffer loads read the blocks; the shape casts are identities;
    each [1,256] row broadcast to [2000,256] reads its one row at the column; the arithmetic is pointwise; the f32
    zero word is the extended real zero. -/
theorem out2_5_apply (x0 : Vec Ideal S2000x256 .f32) (x1 x2 x3 x4 : Vec Ideal S1x256 .f32) (p : Fin 2000) (q : Fin 256) :
    out2_5 (F := Ideal) x0 x1 x2 x3 x4 (ix2 p q)
      = max ((((x0 (ix2 p q) - x1 (ix2 (0 : Fin 1) q)) * x2 (ix2 (0 : Fin 1) q)) * x3 (ix2 (0 : Fin 1) q)) + x4 (ix2 (0 : Fin 1) q)) (0 : EReal) := by
  have hz : (![0, 0] : Fin 2 → ℕ) = fun _ => 0 := by
    funext a; match a with | ⟨0, _⟩ => rfl | ⟨1, _⟩ => rfl
  unfold out2_5
  rw [View.canon_unit_zero hz]
  simp only [View.ld_unit_zero (S := S2000x256) hz, View.ld_unit_zero (S := S1x256) hz]
  unfold k2_pay1
  simp only [shapeCast_self]
  rw [maximumf_apply, addf_apply, mulf_apply, mulf_apply, subf_apply,
    broadcastTo_1b_ab_apply, broadcastTo_1b_ab_apply, broadcastTo_1b_ab_apply, broadcastTo_1b_ab_apply,
    broadcast_apply]
  show max _ (Idealize.ShloMosaic.Ideal.ofBits .f32 0x00000000#32) = _
  rw [Idealize.ShloMosaic.Ideal.ofBits_zero_f32]

end AtIndex

end Cert.KernelIdeal.Hand
-- ==== Proof.KI.Linear3.lean ====
import proofs.«166096_j40321152975189_1_alg».proof.Proof.Gen.KernelIdeal.Launch
import proofs.«166096_j40321152975189_1_alg».proof.Proof.Gen.KernelIdeal.Skeleton
import proofs.«166096_j40321152975189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 3: the linear layer `cc3__linear_kernel` — rows of `h[2000,256] · w[256,256] + b[1,256]`

Four windows: 0 the row block of the activations (a new block at every grid point), 1 the weight matrix and
2 the bias row (one block for the whole grid, so the transfer happens at the first point only and the staging
buffer is left alone afterwards), 3 the row block of the result (written back at every point). Everything is
stated at a parameter `V`: the contents of the core's buffers when the region is entered. -/

/-! ## The windows' blocks -/

/-- The block of window `w` at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What an input's staging buffer holds when the body starts

For each of the three inputs: whenever the proof data's array is the entry contents and the body leaves the
buffer at the block, the buffer holds the block at EVERY point. At a point where the window is fetched this is
what the transfer wrote; at a point where it is not (windows 1 and 2 after the first point) the block index has
not moved since the previous point, whose body left that same block there. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl)
    (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl)
    (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl)
    (fun t => by rw [hafter]; unfold Dat.blockOf iblk3; rw [hA]; try rfl) t d).trans
    (by unfold Dat.fetched Dat.blockOf iblk3; rw [hA]; try rfl)

/-! ## The body's accesses: each buffer, whole -/

abbrev r3_0 : Rect S2000x256 := Rect.unit (s := S2000x256) ![0, 0] S2000x256.size inb_S2000x256_S2000x256_0_0
abbrev r3_1 : Rect S256x256 := Rect.unit (s := S256x256) ![0, 0] S256x256.size inb_S256x256_S256x256_0_0
abbrev r3_2 : Rect S1x256 := Rect.unit (s := S1x256) ![0, 0] S1x256.size inb_S1x256_S1x256_0_0
abbrev r3_3 : Rect S2000x256 := Rect.unit (s := S2000x256) ![0, 0] S2000x256.size inb_S2000x256_S2000x256_0_0

/-! ## What the body leaves in the result's buffer -/

/-- The result window's buffer after the body, as a function of the three input blocks: the one store, of the
    payload computed from the three whole loads, laid over the buffer. -/
def out3_3 (x0 : Vec F S2000x256 .f32) (x1 : Vec F S256x256 .f32) (x2 : Vec F S1x256 .f32) : Vec F S2000x256 .f32 :=
  View.canon [⟨r3_3, k3_pay1 (View.ld x0 r3_0) (View.ld x1 r3_1) (View.ld x2 r3_2)⟩]

/-- The one store is of the whole buffer, so every position of the buffer lies in it. -/
theorem cover3_3 (p0 : Vec F S2000x256 .f32) (y : S2000x256.Idx) :
    ∃ pc ∈ ([⟨r3_3, p0⟩] : List (View.Piece (Elt F) S2000x256 .f32)), y ∈ pc.1.set :=
  View.cover_of_tiled [⟨r3_3, p0⟩] S2000x256.size (by rfl) y

/-! ## The body's triple -/

set_option maxHeartbeats 4000000 in
/-- The body on whole staging memrefs — the inputs' at contents `x0`, `x1`, `x2`, the result's at anything — runs
    without a fault to the continuation, which receives the inputs' memrefs as they were and the result's at
    `out3_3 x0 x1 x2`. The function is a straight line of three whole loads of the inputs, one whole load of the
    result's buffer (whose value is not used) and one whole store: the triple follows operation by operation. -/
theorem sound_kernel3 (c : Dev nD) (E : Set ℕ) (i : grid3.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the region's pipeline on core `c`: the arrays as the region finds them; after the body at
    point `t` each input's buffer still at its block and the result's at `out3_3` of the three input blocks; the
    invariant that leaves the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`: the invariant, what the core owes, and each window's current
    staging memref at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Stats4.lean ====
import proofs.«166096_j40321152975189_1_alg».proof.Proof.Gen.KernelIdeal.Launch
import proofs.«166096_j40321152975189_1_alg».proof.Proof.Gen.KernelIdeal.Skeleton
import proofs.«166096_j40321152975189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The statistics kernel of region 4: column sums and column sums of squares accumulated over the grid

The body runs at 50 grid points over row blocks of 2000 rows. Two scratch rows are carried from point to
point: the running column sums and the running column sums of squares. At the first point both are zeroed
before the block is added; at every point the block's column sums (of squares) are added; at the last point
the mean and the reciprocal standard deviation are formed from the totals and stored in the two output rows. -/

/-! ## The two conditionals of the body -/

/-- The first conditional: the grid coordinate is 0 (the kernel's scalar chain, substituted). -/
abbrev cond4_1 (i : grid4.Coords) : Prop := (Scalar.cmpi .ne (Scalar.extui (Scalar.cmpi .eq (BitVec.ofNat 32 (i 0).val) 0#32)) 0#32) = 1#1
/-- It holds at the first point only. -/
theorem hcond4_1 : ∀ t : Fin cfg4.N, cond4_1 (grid4.coords t) ↔ t.val = 0 :=
  (by decide +kernel : ∀ t : Fin grid4.N, cond4_1 (grid4.coords t) ↔ t.val = 0)

/-- The second conditional: the grid coordinate is 49. -/
abbrev cond4_2 (i : grid4.Coords) : Prop := k4_cond2 i = 1#1
/-- It holds at the last point only. -/
theorem hcond4_2 : ∀ t : Fin cfg4.N, cond4_2 (grid4.coords t) ↔ t.val = 49 :=
  (by decide +kernel : ∀ t : Fin grid4.N, cond4_2 (grid4.coords t) ↔ t.val = 49)

/-! ## Where the windows are idle -/

/-- The input window is never idle. -/
theorem live4_0 : ∀ t : Fin cfg4.N, cfg4.idle 0 (grid4.coords t) = false := by decide +kernel
/-- Off the last point the two output windows are idle and are not written back. -/
theorem idle4_1 : ∀ t : Fin cfg4.N, ¬cond4_2 (grid4.coords t) → cfg4.idle 1 (grid4.coords t) = true := by decide +kernel
theorem noFlush4_1 : ∀ t : Fin cfg4.N, ¬cond4_2 (grid4.coords t) → (cfg4.win 1).flush t = false := by decide +kernel
theorem idle4_2 : ∀ t : Fin cfg4.N, ¬cond4_2 (grid4.coords t) → cfg4.idle 2 (grid4.coords t) = true := by decide +kernel
theorem noFlush4_2 : ∀ t : Fin cfg4.N, ¬cond4_2 (grid4.coords t) → (cfg4.win 2).flush t = false := by decide +kernel
/-- At the last point they are live. -/
theorem live4_1 : ∀ t : Fin cfg4.N, cond4_2 (grid4.coords t) → cfg4.idle 1 (grid4.coords t) = false := by decide +kernel
theorem live4_2 : ∀ t : Fin cfg4.N, cond4_2 (grid4.coords t) → cfg4.idle 2 (grid4.coords t) = false := by decide +kernel

/-! ## Whole-row accesses -/

/-- The zero offsets of a rank-2 access, as the constant function. -/
theorem off2_zero4 : (![0, 0] : Fin 2 → ℕ) = fun _ => 0 := by
  funext a; fin_cases a <;> rfl

/-- One store through the whole row covers the row. -/
theorem cover_row4 (p : Vec F S1x256 .f32) (L : List (View.Piece (Elt F) S1x256 .f32)) (y : S1x256.Idx) :
    ∃ pc ∈ ((⟨Rect.unit (s := S1x256) ![0, 0] S1x256.size inb_S1x256_S1x256_0_0, p⟩ : View.Piece (Elt F) S1x256 .f32) :: L), y ∈ pc.1.set :=
  ⟨_, List.mem_cons_self, View.mem_set_unit_zero off2_zero4 inb_S1x256_S1x256_0_0 y⟩

/-- What a view reads after a last store through the whole row: the stored row. -/
theorem read_row_store4 {sp : Space} (v : View sig .tc sp S1x256 .f32) (f : v.ty.Contents (Elt F)) (p : Vec F S1x256 .f32)
    (L : List (View.Piece (Elt F) S1x256 .f32)) :
    v.read (Elt F) (v.writes (Elt F) f ((⟨Rect.unit (s := S1x256) ![0, 0] S1x256.size inb_S1x256_S1x256_0_0, p⟩ : View.Piece (Elt F) S1x256 .f32) :: L)) = p := by
  rw [View.read_writes_eq_canon _ _ _ (cover_row4 p L), View.canon_cons_unit_zero off2_zero4]

/-! ## The body's runs, one per control case -/

/-- A load through the whole block reads the block. -/
theorem ld_blk4 (X : Vec F S2000x256 .f32) :
    View.ld X (Rect.unit (s := S2000x256) ![0, 0] S2000x256.size inb_S2000x256_S2000x256_0_0) = X :=
  View.ld_unit_zero off2_zero4 _ X
/-- A load through the whole row reads the row. -/
theorem ld_row4 (X : Vec F S1x256 .f32) :
    View.ld X (Rect.unit (s := S1x256) ![0, 0] S1x256.size inb_S1x256_S1x256_0_0) = X :=
  View.ld_unit_zero off2_zero4 _ X

set_option maxHeartbeats 1000000 in
/-- A MIDDLE point (neither conditional taken): on whole memrefs, the block at `x0`, the two output rows at
    any contents `y1`, `y2` (handed back untouched), the running sums at `s0`, `s1`, the body runs to the
    continuation with the block's column sums added to `s0` and its column sums of squares to `s1`. -/
theorem sound_kernel4_B (c : Dev nD) (E : Set ℕ) (i : grid4.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc1 : ¬cond4_1 i) (hc2 : ¬cond4_2 i)
    (x0 : Vec F S2000x256 .f32) (y1 y2 s0 s1 : Vec F S1x256 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k4_pay4 x0 s0) ∗ owns (c : Thread nD τ) arg5 fullShare (k4_pay5 x0 s1)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_row_store4]; exact congrArg₂ _ (ld_blk4 _) (ld_row4 _)
  iexists _; isplitr
  swap; · iexact H4
  ipureintro
  rw [read_row_store4]; exact congrArg₂ _ (ld_blk4 _) (ld_row4 _)

/-- A load through the whole row of what one store through the whole row left reads the stored row. -/
theorem readCov_row4 {sp : Space} (v : View sig .tc sp S1x256 .f32) (p : Vec F S1x256 .f32) :
    v.readCov [(⟨Rect.unit (s := S1x256) ![0, 0] S1x256.size inb_S1x256_S1x256_0_0, p⟩ : View.Piece (Elt F) S1x256 .f32)]
      (Rect.unit (s := S1x256) ![0, 0] S1x256.size inb_S1x256_S1x256_0_0).toLoadRect = p :=
  View.readCov_unit_zero v off2_zero4 _ p

set_option maxHeartbeats 1000000 in
/-- The FIRST point (first conditional taken, second not): the two running sums at anything; the body zeroes
    them, then adds the block's column sums (of squares): they end at the block's sums over zero. The output
    rows are handed back untouched. -/
theorem sound_kernel4_A (c : Dev nD) (E : Set ℕ) (i : grid4.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc1 : cond4_1 i) (hc2 : ¬cond4_2 i)
    (x0 : Vec F S2000x256 .f32) (y1 y2 : Vec F S1x256 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k4_pay4 x0 k4_pay1) ∗ owns (c : Thread nD τ) arg5 fullShare (k4_pay5 x0 k4_pay2)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_row_store4]
    sl_unfold_run_names
    exact congrArg₂ _ (ld_blk4 (View.read (Elt F) arg1.view f0)) (readCov_row4 _ _)
  iexists _; isplitr
  swap; · iexact H4
  ipureintro
  rw [read_row_store4]
  sl_unfold_run_names
  exact congrArg₂ _ (ld_blk4 (View.read (Elt F) arg1.view f0)) (readCov_row4 _ _)

set_option maxHeartbeats 1000000 in
/-- The LAST point (first conditional not taken, second taken): the running sums at `s0`, `s1`, the output rows at
    anything; the body adds the block's sums, then stores the mean and the reciprocal standard deviation of the
    totals in the two output rows. -/
theorem sound_kernel4_C (c : Dev nD) (E : Set ℕ) (i : grid4.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc1 : ¬cond4_1 i) (hc2 : cond4_2 i)
    (x0 : Vec F S2000x256 .f32) (s0 s1 : Vec F S1x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k4_pay6 (k4_pay4 x0 s0)) ∗ owns (c : Thread nD τ) arg3 fullShare (k4_pay7 (k4_pay4 x0 s0) (k4_pay5 x0 s1))
            ∗ owns (c : Thread nD τ) arg4 fullShare (k4_pay4 x0 s0) ∗ owns (c : Thread nD τ) arg5 fullShare (k4_pay5 x0 s1)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0; subst hf3; subst hf4
  sl_exec (disch := first | exact hc1 | exact hc2)
  sl_step
  iapply Hk
  isplitl [H0]
  · iexists f0; isplitr; · ipureintro; rfl
    iexact H0
  isplitl [H1]
  · iexists _; isplitr
    swap; · iexact H1
    ipureintro
    rw [read_row_store4]
    sl_unfold_run_names
    rw [readCov_row4]
    exact congrArg _ (congrArg₂ _ (ld_blk4 (View.read (Elt F) arg1.view f0)) (ld_row4 (View.read (Elt F) arg4.view f3)))
  isplitl [H2]
  · iexists _; isplitr
    swap; · iexact H2
    ipureintro
    rw [read_row_store4]
    sl_unfold_run_names
    rw [readCov_row4, readCov_row4]
    exact congrArg₂ _ (congrArg₂ _ (ld_blk4 (View.read (Elt F) arg1.view f0)) (ld_row4 (View.read (Elt F) arg4.view f3)))
      (congrArg₂ _ (ld_blk4 (View.read (Elt F) arg1.view f0)) (ld_row4 (View.read (Elt F) arg5.view f4)))
  isplitl [H3]
  · iexists _; isplitr
    swap; · iexact H3
    ipureintro
    sl_unfold_run_names
    rw [read_row_store4]
    exact congrArg₂ _ (ld_blk4 (View.read (Elt F) arg1.view f0)) (ld_row4 (View.read (Elt F) arg4.view f3))
  iexists _; isplitr
  swap; · iexact H4
  ipureintro
  sl_unfold_run_names
  rw [read_row_store4]
  exact congrArg₂ _ (ld_blk4 (View.read (Elt F) arg1.view f0)) (ld_row4 (View.read (Elt F) arg5.view f4))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is
    `V`'s and whose body leaves the block in place: the window is uncut, never idle, fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The running sums, point by point -/

/-- The grid is not empty. -/
theorem N4_pos : 0 < cfg4.N := by rw [show cfg4.N = 50 from N_4]; decide

/-- The input block at position `n` of the grid (a position past the grid wraps around: only positions on the
    grid are ever consulted). -/
def xb4 (c : Dev nD) (n : ℕ) : Vec F S2000x256 .f32 :=
  iblk4 V c 0 ⟨n % cfg4.N, Nat.mod_lt _ N4_pos⟩

theorem xb4_val (c : Dev nD) (t : Fin cfg4.N) : xb4 V c t.val = iblk4 V c 0 t := by
  have e : (⟨t.val % cfg4.N, Nat.mod_lt _ N4_pos⟩ : Fin cfg4.N) = t :=
    Fin.ext (Nat.mod_eq_of_lt t.isLt)
  unfold xb4; rw [e]

/-- The running column sums after the body at position `n`: the block's column sums added to zero at the first
    point, to what the point before left afterwards. -/
def accS4 (c : Dev nD) : ℕ → Vec F S1x256 .f32
  | 0 => k4_pay4 (xb4 V c 0) k4_pay1
  | n + 1 => k4_pay4 (xb4 V c (n + 1)) (accS4 c n)

/-- The running column sums of squares after the body at position `n`. -/
def accQ4 (c : Dev nD) : ℕ → Vec F S1x256 .f32
  | 0 => k4_pay5 (xb4 V c 0) k4_pay2
  | n + 1 => k4_pay5 (xb4 V c (n + 1)) (accQ4 c n)

theorem accS4_zero (c : Dev nD) : accS4 V c 0 = k4_pay4 (xb4 V c 0) k4_pay1 := rfl
theorem accS4_succ (c : Dev nD) (n : ℕ) : accS4 V c (n + 1) = k4_pay4 (xb4 V c (n + 1)) (accS4 V c n) := rfl
theorem accQ4_zero (c : Dev nD) : accQ4 V c 0 = k4_pay5 (xb4 V c 0) k4_pay2 := rfl
theorem accQ4_succ (c : Dev nD) (n : ℕ) : accQ4 V c (n + 1) = k4_pay5 (xb4 V c (n + 1)) (accQ4 V c n) := rfl

/-- At the first point: the block's sums over zero. -/
theorem accS4_first (c : Dev nD) (t : Fin cfg4.N) (h0 : t.val = 0) : accS4 V c t.val = k4_pay4 (iblk4 V c 0 t) k4_pay1 := by
  rw [← xb4_val V c t, h0]; rfl
theorem accQ4_first (c : Dev nD) (t : Fin cfg4.N) (h0 : t.val = 0) : accQ4 V c t.val = k4_pay5 (iblk4 V c 0 t) k4_pay2 := by
  rw [← xb4_val V c t, h0]; rfl
/-- At a later point: the block's sums over what the point before left. -/
theorem accS4_next (c : Dev nD) (t : Fin cfg4.N) (n : ℕ) (hn : t.val = n + 1) : accS4 V c t.val = k4_pay4 (iblk4 V c 0 t) (accS4 V c n) := by
  rw [← xb4_val V c t, hn]; rfl
theorem accQ4_next (c : Dev nD) (t : Fin cfg4.N) (n : ℕ) (hn : t.val = n + 1) : accQ4 V c t.val = k4_pay5 (iblk4 V c 0 t) (accQ4 V c n) := by
  rw [← xb4_val V c t, hn]; rfl

/-- The mean row, of the running column sums `s`: `s / 100000`. -/
def out4_1 (s : Vec F S1x256 .f32) : Vec F S1x256 .f32 := k4_pay6 s
/-- The reciprocal standard deviation row, of the running sums `s` and sums of squares `q`:
    `rsqrt (q / 100000 - (s / 100000)² + ε)`. -/
def out4_2 (s q : Vec F S1x256 .f32) : Vec F S1x256 .f32 := k4_pay7 s q

/-! ## The invariant: the two scratch rows at the running sums -/

/-- The scratch operands: whole scoped buffers of the kernel's own. -/
abbrev scM4_0 : Memref sig .tc .vmem S1x256 .f32 := Memref.whole cc4_scratch0
abbrev scM4_1 : Memref sig .tc .vmem S1x256 .f32 := Memref.whole cc4_scratch1

/-- The region invariant before position `n`: before the first point every scoped buffer no window stages at
    anything and the generator register at some state; afterwards the two scratch rows at the running sums the
    point before left, the other scoped buffers at anything, the generator register at some state. -/
def Phi4 (c : Dev nD) : ℕ → sProp 𝕄
  | 0 => iprop(Pipeline.scopedRest (Ix := Unit) (Name := ℕ) (U := UR sig nD τ) (Lvl := ℕ) (Val := Elt F) spec4 c ∗ ∃ r, prngReg c r)
  | n + 1 => iprop(owns (c : Thread nD τ) scM4_0 fullShare (accS4 V c n) ∗ owns (c : Thread nD τ) scM4_1 fullShare (accQ4 V c n)
      ∗ Pipeline.scopedRestBut (Ix := Unit) (Name := ℕ) (U := UR sig nD τ) (Lvl := ℕ) (Val := Elt F) spec4 c [cc4_scratch0, cc4_scratch1] ∗ ∃ r, prngReg c r)

theorem Phi4_zero (c : Dev nD) : Phi4 V c 0 = iprop(Pipeline.scopedRest (Ix := Unit) (Name := ℕ) (U := UR sig nD τ) (Lvl := ℕ) (Val := Elt F) spec4 c ∗ ∃ r, prngReg c r) := rfl
theorem Phi4_succ (c : Dev nD) (n : ℕ) : Phi4 V c (n + 1) = iprop(owns (c : Thread nD τ) scM4_0 fullShare (accS4 V c n) ∗ owns (c : Thread nD τ) scM4_1 fullShare (accQ4 V c n)
      ∗ Pipeline.scopedRestBut (Ix := Unit) (Name := ℕ) (U := UR sig nD τ) (Lvl := ℕ) (Val := Elt F) spec4 c [cc4_scratch0, cc4_scratch1] ∗ ∃ r, prngReg c r) := rfl

/-- Before the first point, opened at the two scratch rows: each whole, at some contents. -/
theorem Phi4_zero_open (c : Dev nD) :
    Phi4 V c 0 = iprop(iprop(iprop((∃ d, owns (c : Thread nD τ) scM4_0 fullShare d) ∗ (∃ d, owns (c : Thread nD τ) scM4_1 fullShare d))
      ∗ Pipeline.scopedRestBut (Ix := Unit) (Name := ℕ) (U := UR sig nD τ) (Lvl := ℕ) (Val := Elt F) spec4 c [cc4_scratch0, cc4_scratch1]) ∗ ∃ r, prngReg c r) := by
  rw [Phi4_zero, scopedRest4_split]; simp only [scM4_0, scM4_1, owns_whole]; try rfl

/-! ## The pipeline's proof data -/

/-- The proof data of the pipeline on core `c`: the arrays as the region finds them (`V`); after the body at
    point `t` the input's buffer at its block, the mean row at the mean of the running sums up to `t`, the third at
    their reciprocal standard deviation (what the body stores at the last point; at the other points the two
    output windows are idle and these are not consulted); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (accS4 V c t.val)
    | ⟨2, _⟩ => out4_2 (accS4 V c t.val) (accQ4 V c t.val)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = out4_1 (accS4 V c t.val) := by dsimp only [dat4]
theorem after4_2 (c : Dev nD) (t : Fin cfg4.N) : (dat4 V c).after 2 t = out4_2 (accS4 V c t.val) (accQ4 V c t.val) := by dsimp only [dat4]

theorem Phi4_at (c : Dev nD) (t : Fin (cfg4.N + 1)) : (dat4 V c).Φ t = Phi4 V c t.val := rfl

theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The input's memref holds its block; the point is the first, a middle one or the last
    (the grid has 50 points); the invariant hands the body the two scratch rows — at anything at the first point, at
    the running sums the point before left afterwards — and takes them back at this point's running sums; off the
    last point the two output rows are idle and go back as they came, at the last point they are left at the mean
    and the reciprocal standard deviation of the totals; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = Phi4 V c (t.val + 1) from rfl, Phi4_succ]
  rw [show (dat4 V c).Φ t.castSucc = Phi4 V c t.val from rfl]
  rw [show (dat4 V c).leavesExact 0 t = owns (c : Thread nD τ) (st4_0 t) fullShare ((dat4 V c).after 0 t) from by
    unfold Dat.leavesExact; rw [live4_0 t], after4_0]
  have hN : t.val < 50 := lt_of_lt_of_eq t.isLt (show cfg4.N = 50 from N_4)
  by_cases h0 : t.val = 0
  · -- the first point
    have hc1 : cond4_1 (grid4.coords t) := (hcond4_1 t).mpr h0
    have hc2 : ¬cond4_2 (grid4.coords t) := fun h => by have := (hcond4_2 t).mp h; omega
    rw [Dat.leavesExact_idle (dat4 V c) 1 t (idle4_1 t hc2) (noFlush4_1 t hc2),
      Dat.leavesExact_idle (dat4 V c) 2 t (idle4_2 t hc2) (noFlush4_2 t hc2)]
    rw [show Phi4 V c t.val = Phi4 V c 0 from by rw [h0], Phi4_zero_open, accS4_first V c t h0, accQ4_first V c t h0]
    iintro ⟨⟨⟨⟨HS0, HS1⟩, Hrest⟩, Hg⟩, Ho, ⟨%d0, H0⟩, ⟨%d1, H1⟩, ⟨%d2, H2⟩⟩
    iapply (sound_kernel4_A c Set.univ (grid4.coords t) _ _ _ _ _ _ _ _ _ _ hc1 hc2 (iblk4 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexists _; iexact H1
    iexists _; iexact H2
  · obtain ⟨n, hn⟩ := Nat.exists_eq_succ_of_ne_zero h0
    have hc1 : ¬cond4_1 (grid4.coords t) := fun h => h0 ((hcond4_1 t).mp h)
    rw [show Phi4 V c t.val = Phi4 V c (n + 1) from by rw [hn], Phi4_succ, accS4_next V c t n hn, accQ4_next V c t n hn]
    by_cases h2 : t.val = 49
    · -- the last point
      have hc2 : cond4_2 (grid4.coords t) := (hcond4_2 t).mpr h2
      rw [show (dat4 V c).leavesExact 1 t = owns (c : Thread nD τ) (st4_1 t) fullShare ((dat4 V c).after 1 t) from by
        unfold Dat.leavesExact; rw [live4_1 t hc2], after4_1]
      rw [show (dat4 V c).leavesExact 2 t = owns (c : Thread nD τ) (st4_2 t) fullShare ((dat4 V c).after 2 t) from by
        unfold Dat.leavesExact; rw [live4_2 t hc2], after4_2]
      rw [accS4_next V c t n hn, accQ4_next V c t n hn]
      unfold out4_1 out4_2
      iintro ⟨⟨HS0, HS1, Hrest, Hg⟩, Ho, ⟨%d0, H0⟩, ⟨%d1, H1⟩, ⟨%d2, H2⟩⟩
      iapply (sound_kernel4_C c Set.univ (grid4.coords t) _ _ _ _ _ _ _ _ _ _ hc1 hc2 (iblk4 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexact H2
    · -- a middle point
      have hc2 : ¬cond4_2 (grid4.coords t) := fun h => h2 ((hcond4_2 t).mp h)
      rw [Dat.leavesExact_idle (dat4 V c) 1 t (idle4_1 t hc2) (noFlush4_1 t hc2),
        Dat.leavesExact_idle (dat4 V c) 2 t (idle4_2 t hc2) (noFlush4_2 t hc2)]
      iintro ⟨⟨HS0, HS1, Hrest, Hg⟩, Ho, ⟨%d0, H0⟩, ⟨%d1, H1⟩, ⟨%d2, H2⟩⟩
      iapply (sound_kernel4_B c Set.univ (grid4.coords t) _ _ _ _ _ _ _ _ _ _ hc1 hc2 (iblk4 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexists _; iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the invariant -/

/-- What the region hands the pipeline — the generator register, anything `P` beside it (the prefetched tables:
    none here) and the scoped buffers no window stages — is the invariant before the first point. -/
theorem hin4 (c : Dev nD) (P : sProp 𝕄) :
    iprop(iprop(∃ r, prngReg c r) ∗ P ∗ Pipeline.scopedRest (Ix := Unit) (Name := ℕ) (U := UR sig nD τ) (Lvl := ℕ) (Val := Elt F) spec4 c) ⊢ (dat4 V c).Φ 0 := by
  rw [show (dat4 V c).Φ 0 = Phi4 V c 0 from rfl, Phi4_zero]
  iintro ⟨Hp, -, Hr⟩
  isplitl [Hr]; · iexact Hr
  iexact Hp

/-- After the last point the invariant gives the generator register and the scoped buffers back: the two scratch
    rows' named contents are forgotten. -/
theorem hout4 (c : Dev nD) :
    (dat4 V c).Φ (Fin.last cfg4.N) ⊢ iprop(iprop(∃ r, prngReg c r)
      ∗ Pipeline.ownSems0 (Ix := Unit) (Name := ℕ) (U := UR sig nD τ) (Lvl := ℕ) (Val := Elt F) (fun k : PEmpty => k.elim) c ∗ Pipeline.scopedRest (Ix := Unit) (Name := ℕ) (U := UR sig nD τ) (Lvl := ℕ) (Val := Elt F) spec4 c) := by
  rw [Pipeline.ownSems0_none, show (dat4 V c).Φ (Fin.last cfg4.N) = Phi4 V c (49 + 1) from by
    rw [Phi4_at, Fin.val_last, show cfg4.N = 50 from N_4], Phi4_succ, scopedRest4_split]
  simp only [scM4_0, scM4_1, owns_whole]
  iintro ⟨HS0, HS1, Hrest, Hg⟩
  isplitl [Hg]; · iexact Hg
  isplitr; · iempintro
  isplitl [HS0 HS1]
  · isplitl [HS0]; · iexists _; iexact HS0
    iexists _; iexact HS1
  iexact Hrest

end Cert.KernelIdeal.Hand
end
-- ==== Proof.KI.Norm5.lean ====
import proofs.«166096_j40321152975189_1_alg».proof.Proof.Gen.KernelIdeal.Launch
import proofs.«166096_j40321152975189_1_alg».proof.Proof.Gen.KernelIdeal.Skeleton
import proofs.«166096_j40321152975189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The normalise region 5: y = max(((x − mean) · inv_std) · gamma + beta, 0) on a row block,
    the four row vectors broadcast down the rows. Everything at the entry contents `V`. -/

/-! ## The windows' blocks -/

/-- The block of window `w` at grid point `t`: what the window's view at that point reads of the
    window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: the staging buffer the body is handed at a point holds the window's block there,
    whether the pipeline fetched it at that point or at an earlier one (the row block, fetched at every point).
    Holds for any proof data over `V`'s array (`hA`) whose body leaves the block as it found it (`hafter`);
    the window is uncut and has no idle point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t := by
  have hkeep : ∀ t, (cfg5.win 0).cut (cfg5.grid.coords t) (dat.after 0 t) = dat.blockOf 0 t := by
    intro t; rw [hafter]; unfold Dat.blockOf iblk5; rw [hA]; try rfl
  have hfetched : dat.fetched 0 t d = iblk5 V c 0 t := by
    unfold Dat.fetched Dat.blockOf iblk5; rw [hA]; try rfl
  exact (dat.before_in_eq_fetched 0 rfl (fun _ => rfl) (fun _ _ _ => rfl) hkeep t d).trans hfetched

/-- Input window 1: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t := by
  have hkeep : ∀ t, (cfg5.win 1).cut (cfg5.grid.coords t) (dat.after 1 t) = dat.blockOf 1 t := by
    intro t; rw [hafter]; unfold Dat.blockOf iblk5; rw [hA]; try rfl
  have hfetched : dat.fetched 1 t d = iblk5 V c 1 t := by
    unfold Dat.fetched Dat.blockOf iblk5; rw [hA]; try rfl
  exact (dat.before_in_eq_fetched 1 rfl (fun _ => rfl) (fun _ _ _ => rfl) hkeep t d).trans hfetched

/-- Input window 2: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t := by
  have hkeep : ∀ t, (cfg5.win 2).cut (cfg5.grid.coords t) (dat.after 2 t) = dat.blockOf 2 t := by
    intro t; rw [hafter]; unfold Dat.blockOf iblk5; rw [hA]; try rfl
  have hfetched : dat.fetched 2 t d = iblk5 V c 2 t := by
    unfold Dat.fetched Dat.blockOf iblk5; rw [hA]; try rfl
  exact (dat.before_in_eq_fetched 2 rfl (fun _ => rfl) (fun _ _ _ => rfl) hkeep t d).trans hfetched

/-- Input window 3: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t := by
  have hkeep : ∀ t, (cfg5.win 3).cut (cfg5.grid.coords t) (dat.after 3 t) = dat.blockOf 3 t := by
    intro t; rw [hafter]; unfold Dat.blockOf iblk5; rw [hA]; try rfl
  have hfetched : dat.fetched 3 t d = iblk5 V c 3 t := by
    unfold Dat.fetched Dat.blockOf iblk5; rw [hA]; try rfl
  exact (dat.before_in_eq_fetched 3 rfl (fun _ => rfl) (fun _ _ _ => rfl) hkeep t d).trans hfetched

/-- Input window 4: the staging buffer the body is handed at a point holds the window's block there,
    whether the pipeline fetched it at that point or at an earlier one (a single block for the whole grid, fetched once: its block index never moves).
    Holds for any proof data over `V`'s array (`hA`) whose body leaves the block as it found it (`hafter`);
    the window is uncut and has no idle point. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t := by
  have hkeep : ∀ t, (cfg5.win 4).cut (cfg5.grid.coords t) (dat.after 4 t) = dat.blockOf 4 t := by
    intro t; rw [hafter]; unfold Dat.blockOf iblk5; rw [hA]; try rfl
  have hfetched : dat.fetched 4 t d = iblk5 V c 4 t := by
    unfold Dat.fetched Dat.blockOf iblk5; rw [hA]; try rfl
  exact (dat.before_in_eq_fetched 4 rfl (fun _ => rfl) (fun _ _ _ => rfl) hkeep t d).trans hfetched

/-! ## The rectangles the body reads and writes: each buffer whole -/

/-- The whole [2000,256] block. -/
abbrev r5_blk : Rect S2000x256 := Rect.unit (s := S2000x256) ![0, 0] S2000x256.size inb_S2000x256_S2000x256_0_0
/-- The whole [1,256] row. -/
abbrev r5_row : Rect S1x256 := Rect.unit (s := S1x256) ![0, 0] S1x256.size inb_S1x256_S1x256_0_0

/-! ## What the body leaves in the output window's buffer -/

/-- The output buffer after the body, as a function of the five input blocks: the one whole-buffer
    store of the payload computed from the five whole-buffer loads. -/
def out5_5 (x0 : Vec F S2000x256 .f32) (x1 x2 x3 x4 : Vec F S1x256 .f32) : Vec F S2000x256 .f32 :=
  View.canon [⟨r5_blk, k5_pay1 (View.ld x0 r5_blk) (View.ld x1 r5_row) (View.ld x2 r5_row) (View.ld x3 r5_row) (View.ld x4 r5_row)⟩]

/-- The single store is of the whole buffer, so every index of the buffer lies in it. -/
theorem cover5_5 (p0 : Vec F S2000x256 .f32) (y : S2000x256.Idx) :
    ∃ pc ∈ ([⟨r5_blk, p0⟩] : List (View.Piece (Elt F) S2000x256 .f32)), y ∈ pc.1.set :=
  View.cover_of_tiled [⟨r5_blk, p0⟩] S2000x256.size (by rfl) y

/-! ## The body's triple -/

set_option maxHeartbeats 4000000 in
/-- The kernel body on whole staging memrefs. Given the five input memrefs at read contents `x0 … x4` and the
    output memref at any contents, it runs to the continuation with the inputs unchanged and the output at
    `out5_5` of the inputs: five whole loads, one (dead) whole load of the output, one whole store. -/
theorem sound_kernel5 (c : Dev nD) (E : Set ℕ) (i : grid5.Coords)
    (arg1 : Memref sig .tc .vmem S2000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_norm_kernel i arg1 harg1 arg2 harg2 arg3 harg3 arg4 harg4 arg5 harg5 arg6 harg6) K := by
  simp only [cc5__bn_norm_kernel_eq_skeleton]; unfold cc5__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the region's pipeline on core `c`: the arrays as the region finds them; after the body at
    point `t` every input buffer at its block and the output buffer at `out5_5` of the five input blocks;
    the invariant carries the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5_5 (iblk5 V c 0 t) (iblk5 V c 1 t) (iblk5 V c 2 t) (iblk5 V c 3 t) (iblk5 V c 4 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, what is owed, and the six current staging
    memrefs, each at what the pipeline left in it. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- What the body returns: the same, each memref at what the proof data says the body leaves. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the input memrefs hold their blocks, so the kernel's triple applies; the invariant
    and what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The output block at an index, over the extended reals -/

section AtIndex
open Idealize.ShloMosaic.ValueIdx

/-- At the ideal values, the output block read at row `p`, column `q`: the input block's entry there, minus the
    mean of column `q`, times the inverse deviation, times the scale, plus the shift, clamped below at zero. The one
    whole-buffer store leaves its payload; the whole-buffer loads read the blocks; the shape casts are identities;
    each [1,256] row broadcast to [2000,256] reads its one row at the column; the arithmetic is pointwise; the f32
    zero word is the extended real zero. -/
theorem out5_5_apply (x0 : Vec Ideal S2000x256 .f32) (x1 x2 x3 x4 : Vec Ideal S1x256 .f32) (p : Fin 2000) (q : Fin 256) :
    out5_5 (F := Ideal) x0 x1 x2 x3 x4 (ix2 p q)
      = max ((((x0 (ix2 p q) - x1 (ix2 (0 : Fin 1) q)) * x2 (ix2 (0 : Fin 1) q)) * x3 (ix2 (0 : Fin 1) q)) + x4 (ix2 (0 : Fin 1) q)) (0 : EReal) := by
  have hz : (![0, 0] : Fin 2 → ℕ) = fun _ => 0 := by
    funext a; match a with | ⟨0, _⟩ => rfl | ⟨1, _⟩ => rfl
  unfold out5_5
  rw [View.canon_unit_zero hz]
  simp only [View.ld_unit_zero (S := S2000x256) hz, View.ld_unit_zero (S := S1x256) hz]
  unfold k5_pay1
  simp only [shapeCast_self]
  rw [maximumf_apply, addf_apply, mulf_apply, mulf_apply, subf_apply,
    broadcastTo_1b_ab_apply, broadcastTo_1b_ab_apply, broadcastTo_1b_ab_apply, broadcastTo_1b_ab_apply,
    broadcast_apply]
  show max _ (Idealize.ShloMosaic.Ideal.ofBits .f32 0x00000000#32) = _
  rw [Idealize.ShloMosaic.Ideal.ofBits_zero_f32]

end AtIndex

end Cert.KernelIdeal.Hand
-- ==== Proof.KI.Linear6.lean ====
import proofs.«166096_j40321152975189_1_alg».proof.Proof.Gen.KernelIdeal.Launch
import proofs.«166096_j40321152975189_1_alg».proof.Proof.Gen.KernelIdeal.Skeleton
import proofs.«166096_j40321152975189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 6: the linear layer `cc6__linear_kernel` — rows of `max (h[2000,256] · w[256,256] + b[1,256]) 0`

Four windows: 0 the row block of the activations (a new block at every grid point), 1 the weight matrix and
2 the bias row (one block for the whole grid, so the transfer happens at the first point only and the staging
buffer is left alone afterwards), 3 the row block of the result (written back at every point). Everything is
stated at a parameter `V`: the contents of the core's buffers when the region is entered. -/

/-! ## The windows' blocks -/

/-- The block of window `w` at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## What an input's staging buffer holds when the body starts

For each of the three inputs: whenever the proof data's array is the entry contents and the body leaves the
buffer at the block, the buffer holds the block at EVERY point. At a point where the window is fetched this is
what the transfer wrote; at a point where it is not (windows 1 and 2 after the first point) the block index has
not moved since the previous point, whose body left that same block there. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl)
    (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl)
    (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl)
    (fun t => by rw [hafter]; unfold Dat.blockOf iblk6; rw [hA]; try rfl) t d).trans
    (by unfold Dat.fetched Dat.blockOf iblk6; rw [hA]; try rfl)

/-! ## The body's accesses: each buffer, whole -/

abbrev r6_0 : Rect S2000x256 := Rect.unit (s := S2000x256) ![0, 0] S2000x256.size inb_S2000x256_S2000x256_0_0
abbrev r6_1 : Rect S256x256 := Rect.unit (s := S256x256) ![0, 0] S256x256.size inb_S256x256_S256x256_0_0
abbrev r6_2 : Rect S1x256 := Rect.unit (s := S1x256) ![0, 0] S1x256.size inb_S1x256_S1x256_0_0
abbrev r6_3 : Rect S2000x256 := Rect.unit (s := S2000x256) ![0, 0] S2000x256.size inb_S2000x256_S2000x256_0_0

/-! ## What the body leaves in the result's buffer -/

/-- The result window's buffer after the body, as a function of the three input blocks: the one store, of the
    payload computed from the three whole loads, laid over the buffer. -/
def out6_3 (x0 : Vec F S2000x256 .f32) (x1 : Vec F S256x256 .f32) (x2 : Vec F S1x256 .f32) : Vec F S2000x256 .f32 :=
  View.canon [⟨r6_3, k6_pay1 (View.ld x0 r6_0) (View.ld x1 r6_1) (View.ld x2 r6_2)⟩]

/-- The one store is of the whole buffer, so every position of the buffer lies in it. -/
theorem cover6_3 (p0 : Vec F S2000x256 .f32) (y : S2000x256.Idx) :
    ∃ pc ∈ ([⟨r6_3, p0⟩] : List (View.Piece (Elt F) S2000x256 .f32)), y ∈ pc.1.set :=
  View.cover_of_tiled [⟨r6_3, p0⟩] S2000x256.size (by rfl) y

/-! ## The body's triple -/

set_option maxHeartbeats 4000000 in
/-- The body on whole staging memrefs — the inputs' at contents `x0`, `x1`, `x2`, the result's at anything — runs
    without a fault to the continuation, which receives the inputs' memrefs as they were and the result's at
    `out6_3 x0 x1 x2`. The function is a straight line of three whole loads of the inputs, one whole load of the
    result's buffer (whose value is not used) and one whole store: the triple follows operation by operation. -/
theorem sound_kernel6 (c : Dev nD) (E : Set ℕ) (i : grid6.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of the region's pipeline on core `c`: the arrays as the region finds them; after the body at
    point `t` each input's buffer still at its block and the result's at `out6_3` of the three input blocks; the
    invariant that leaves the scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`: the invariant, what the core owes, and each window's current
    staging memref at what the pipeline left in it, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.Linear7.lean ====
import proofs.«166096_j40321152975189_1_alg».proof.Proof.Gen.KernelIdeal.Launch
import proofs.«166096_j40321152975189_1_alg».proof.Proof.Gen.KernelIdeal.Skeleton
import proofs.«166096_j40321152975189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 7: the linear layer `cc7__linear_kernel` — rows of `h[2000,256] · w[256,64] + b[1,64]`

Four windows: 0 the row block of the activations (a new block at every grid point), 1 the weight matrix and
2 the bias row (one block for the whole grid, so the transfer happens at the first point only and the staging
buffer is left alone afterwards), 3 the row block of the result (written back at every point). Everything is
stated at a parameter `V`: the contents of the core's buffers when the region is entered. -/

/-! ## The windows' blocks -/

/-- The block of window `w` at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## What an input's staging buffer holds when the body starts

For each of the three inputs: whenever the proof data's array is the entry contents and the body leaves the
buffer at the block, the buffer holds the block at EVERY point. At a point where the window is fetched this is
what the transfer wrote; at a point where it is not (windows 1 and 2 after the first point) the block index has
not moved since the previous point, whose body left that same block there. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl)
    (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl)
    (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl)
    (fun t => by rw [hafter]; unfold Dat.blockOf iblk7; rw [hA]; try rfl) t d).trans
    (by unfold Dat.fetched Dat.blockOf iblk7; rw [hA]; try rfl)

/-! ## The body's accesses: each buffer, whole -/

abbrev r7_0 : Rect S2000x256 := Rect.unit (s := S2000x256) ![0, 0] S2000x256.size inb_S2000x256_S2000x256_0_0
abbrev r7_1 : Rect S256x64 := Rect.unit (s := S256x64) ![0, 0] S256x64.size inb_S256x64_S256x64_0_0
abbrev r7_2 : Rect S1x64 := Rect.unit (s := S1x64) ![0, 0] S1x64.size inb_S1x64_S1x64_0_0
abbrev r7_3 : Rect S2000x64 := Rect.unit (s := S2000x64) ![0, 0] S2000x64.size inb_S2000x64_S2000x64_0_0

/-! ## What the body leaves in the result's buffer -/

/-- The result window's buffer after the body, as a function of the three input blocks: the one store, of the
    payload computed from the three whole loads, laid over the buffer. -/
def out7_3 (x0 : Vec F S2000x256 .f32) (x1 : Vec F S256x64 .f32) (x2 : Vec F S1x64 .f32) : Vec F S2000x64 .f32 :=
  View.canon [⟨r7_3, k7_pay1 (View.ld x0 r7_0) (View.ld x1 r7_1) (View.ld x2 r7_2)⟩]

/-- The one store is of the whole buffer, so every position of the buffer lies in it. -/
theorem cover7_3 (p0 : Vec F S2000x64 .f32) (y : S2000x64.Idx) :
    ∃ pc ∈ ([⟨r7_3, p0⟩] : List (View.Piece (Elt F) S2000x64 .f32)), y ∈ pc.1.set :=
  View.cover_of_tiled [⟨r7_3, p0⟩] S2000x64.size (by rfl) y

/-! ## The body's triple -/

set_option maxHeartbeats 4000000 in
/-- The body on whole staging memrefs — the inputs' at contents `x0`, `x1`, `x2`, the result's at anything — runs
    without a fault to the continuation, which receives the inputs' memrefs as they were and the result's at
    `out7_3 x0 x1 x2`. The function is a straight line of three whole loads of the inputs, one whole load of the
    result's buffer (whose value is not used) and one whole store: the triple follows operation by operation. -/
theorem sound_kernel7 (c : Dev nD) (E : Set ℕ) (i : grid7.Coords)
    (arg1 : Memref sig .tc .vmem S2000x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__linear_kernel i arg1 harg1 arg2 harg2 arg3 harg3 arg4 harg4) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of the region's pipeline on core `c`: the arrays as the region finds them; after the body at
    point `t` each input's buffer still at its block and the result's at `out7_3` of the three input blocks; the
    invariant that leaves the scoped rest and the generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`: the invariant, what the core owes, and each window's current
    staging memref at what the pipeline left in it, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.Packs.lean ====
/-
  The eight regions' records, from each region's proof data and body obligation: for the six one-case regions the
  invariant is the scoped buffers beside the generator register, untouched; for the two statistics regions it also
  holds the two running-sum rows, and its entry and exit are that region's own lemmas.
-/
import proofs.«166096_j40321152975189_1_alg».proof.Proof.KI.Assembly
import proofs.«166096_j40321152975189_1_alg».proof.Proof.KI.Linear0
import proofs.«166096_j40321152975189_1_alg».proof.Proof.KI.Stats1
import proofs.«166096_j40321152975189_1_alg».proof.Proof.KI.Norm2
import proofs.«166096_j40321152975189_1_alg».proof.Proof.KI.Linear3
import proofs.«166096_j40321152975189_1_alg».proof.Proof.KI.Stats4
import proofs.«166096_j40321152975189_1_alg».proof.Proof.KI.Norm5
import proofs.«166096_j40321152975189_1_alg».proof.Proof.KI.Linear6
import proofs.«166096_j40321152975189_1_alg».proof.Proof.KI.Linear7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 0's record: one control case, nothing carried between grid points. -/
def pack0 (V : Contents F) : Pack0 V where
  dat := dat0 V
  A_eq := A_eq0 V
  q_full := fun _ _ => rfl
  owed_zero := fun _ _ => rfl
  body := body_obligation0 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := by
    rw [show (dat0 V c).Φ 0 = Pipeline.ΦA spec0 c from rfl]; unfold Pipeline.ΦA
    iintro ⟨Hp, -, Hr⟩
    isplitl [Hr]; · iexact Hr
    iexact Hp
  hout c := by
    rw [Pipeline.ownSems0_none, show (dat0 V c).Φ (Fin.last _) = Pipeline.ΦA spec0 c from rfl]; unfold Pipeline.ΦA
    iintro ⟨Hr, Hp⟩
    isplitl [Hp]; · iexact Hp
    isplitr; · iempintro
    iexact Hr

/-- Region 2's record: one control case, nothing carried between grid points. -/
def pack2 (V : Contents F) : Pack2 V where
  dat := dat2 V
  A_eq := A_eq2 V
  q_full := fun _ _ => rfl
  owed_zero := fun _ _ => rfl
  body := body_obligation2 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := by
    rw [show (dat2 V c).Φ 0 = Pipeline.ΦA spec2 c from rfl]; unfold Pipeline.ΦA
    iintro ⟨Hp, -, Hr⟩
    isplitl [Hr]; · iexact Hr
    iexact Hp
  hout c := by
    rw [Pipeline.ownSems0_none, show (dat2 V c).Φ (Fin.last _) = Pipeline.ΦA spec2 c from rfl]; unfold Pipeline.ΦA
    iintro ⟨Hr, Hp⟩
    isplitl [Hp]; · iexact Hp
    isplitr; · iempintro
    iexact Hr

/-- Region 3's record: one control case, nothing carried between grid points. -/
def pack3 (V : Contents F) : Pack3 V where
  dat := dat3 V
  A_eq := A_eq3 V
  q_full := fun _ _ => rfl
  owed_zero := fun _ _ => rfl
  body := body_obligation3 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := by
    rw [show (dat3 V c).Φ 0 = Pipeline.ΦA spec3 c from rfl]; unfold Pipeline.ΦA
    iintro ⟨Hp, -, Hr⟩
    isplitl [Hr]; · iexact Hr
    iexact Hp
  hout c := by
    rw [Pipeline.ownSems0_none, show (dat3 V c).Φ (Fin.last _) = Pipeline.ΦA spec3 c from rfl]; unfold Pipeline.ΦA
    iintro ⟨Hr, Hp⟩
    isplitl [Hp]; · iexact Hp
    isplitr; · iempintro
    iexact Hr

/-- Region 5's record: one control case, nothing carried between grid points. -/
def pack5 (V : Contents F) : Pack5 V where
  dat := dat5 V
  A_eq := A_eq5 V
  q_full := fun _ _ => rfl
  owed_zero := fun _ _ => rfl
  body := body_obligation5 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := by
    rw [show (dat5 V c).Φ 0 = Pipeline.ΦA spec5 c from rfl]; unfold Pipeline.ΦA
    iintro ⟨Hp, -, Hr⟩
    isplitl [Hr]; · iexact Hr
    iexact Hp
  hout c := by
    rw [Pipeline.ownSems0_none, show (dat5 V c).Φ (Fin.last _) = Pipeline.ΦA spec5 c from rfl]; unfold Pipeline.ΦA
    iintro ⟨Hr, Hp⟩
    isplitl [Hp]; · iexact Hp
    isplitr; · iempintro
    iexact Hr

/-- Region 6's record: one control case, nothing carried between grid points. -/
def pack6 (V : Contents F) : Pack6 V where
  dat := dat6 V
  A_eq := A_eq6 V
  q_full := fun _ _ => rfl
  owed_zero := fun _ _ => rfl
  body := body_obligation6 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := by
    rw [show (dat6 V c).Φ 0 = Pipeline.ΦA spec6 c from rfl]; unfold Pipeline.ΦA
    iintro ⟨Hp, -, Hr⟩
    isplitl [Hr]; · iexact Hr
    iexact Hp
  hout c := by
    rw [Pipeline.ownSems0_none, show (dat6 V c).Φ (Fin.last _) = Pipeline.ΦA spec6 c from rfl]; unfold Pipeline.ΦA
    iintro ⟨Hr, Hp⟩
    isplitl [Hp]; · iexact Hp
    isplitr; · iempintro
    iexact Hr

/-- Region 7's record: one control case, nothing carried between grid points. -/
def pack7 (V : Contents F) : Pack7 V where
  dat := dat7 V
  A_eq := A_eq7 V
  q_full := fun _ _ => rfl
  owed_zero := fun _ _ => rfl
  body := body_obligation7 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := by
    rw [show (dat7 V c).Φ 0 = Pipeline.ΦA spec7 c from rfl]; unfold Pipeline.ΦA
    iintro ⟨Hp, -, Hr⟩
    isplitl [Hr]; · iexact Hr
    iexact Hp
  hout c := by
    rw [Pipeline.ownSems0_none, show (dat7 V c).Φ (Fin.last _) = Pipeline.ΦA spec7 c from rfl]; unfold Pipeline.ΦA
    iintro ⟨Hr, Hp⟩
    isplitl [Hp]; · iexact Hp
    isplitr; · iempintro
    iexact Hr

/-- Region 1's record: the two running-sum rows live in the invariant. -/
def pack1 (V : Contents F) : Pack1 V where
  dat := dat1 V
  A_eq := A_eq1 V
  q_full := fun _ _ => rfl
  owed_zero := fun _ _ => rfl
  body := body_obligation1 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := hin1 V c _
  hout c := hout1 V c

/-- Region 4's record: the two running-sum rows live in the invariant. -/
def pack4 (V : Contents F) : Pack4 V where
  dat := dat4 V
  A_eq := A_eq4 V
  q_full := fun _ _ => rfl
  owed_zero := fun _ _ => rfl
  body := body_obligation4 V
  owes_in c := by
    unfold Pipeline.Dat.owesAt Pipeline.owesWithin
    iintro HO; icases HO with ⟨%W, HO⟩; iexists W; isplitr; · ipureintro; exact fun _ _ => Or.inl trivial
    iexact HO
  owes_out c := by
    unfold Pipeline.Dat.owesAt Pipeline.owesWithin
    iintro HO; icases HO with ⟨%W, -, HO⟩; iexists W; iexact HO
  hin c := hin4 V c _
  hout c := hout4 V c

/-- All eight. -/
def packs : Packs F := ⟨pack0, pack1, pack2, pack3, pack4, pack5, pack6, pack7⟩

end Cert.KernelIdeal.Hand

end
-- ==== Proof.LibSsaRead.lean ====
/-
  Reading a straight line of host operations written in static-single-assignment form.

  `StableHlo.after ops V` is the fold of a line's operations over buffer contents `V`. When every
  operation of the line writes exactly one reference and the list `wr` names those references in
  order (`WritesAt ops wr`), what a reference holds at the end depends only on the prefix of the
  line up to the last operation that writes it:

  * `after_append` — two lines run one after the other: the second folds over what the first leaves;
  * `WritesAt.forall_sub` — the line writes no reference outside `wr` (the form
    `StableHlo.after_of_writes_sub` takes); `WritesAt.take` / `WritesAt.drop` — prefixes and suffixes
    of the line are named by the same prefixes and suffixes of `wr`;
  * `after_eq_take` — a reference that no operation from position `k` on writes holds at the end
    what it holds after the first `k` operations;
  * `after_take_of_not_mem` — a reference the line never writes holds after any prefix what it
    held at the start;
  * `after_take_split` — a prefix that is a shorter prefix followed by a segment folds the segment
    over what the shorter prefix leaves.

  With these a long line is read one segment at a time: the contents of a segment's result are the
  segment's operations applied to contents settled before the segment, and both sides are contents at
  the end of the whole line. Nothing here depends on a particular program.
-/
import Idealize.ShloMosaic.Lib.StableHlo.Run

noncomputable section

namespace Cert.SsaRead

open Idealize.ShloMosaic Idealize.ShloMosaic.StableHlo Idealize.SL.Sem

variable {τ : Topo} {sig : RefSig} {Val : EltTy → Type}

/-- Two lines run one after the other: the second folds over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operation by operation, the line writes exactly the one reference the list names at that position. -/
abbrev WritesAt (ops : List (HloOp τ sig Val)) (wr : List (Ref sig .tc)) : Prop :=
  List.Forall₂ (fun op r => op.writes = {Proc.devRef (τ := τ) .tc r}) ops wr

/-- Every operation of the line has its one written reference in the list. -/
theorem WritesAt.exists_of_mem {ops : List (HloOp τ sig Val)} {wr : List (Ref sig .tc)} (h : WritesAt ops wr)
    {op : HloOp τ sig Val} (hop : op ∈ ops) : ∃ r ∈ wr, op.writes = {Proc.devRef (τ := τ) .tc r} := by
  induction h with
  | nil => cases hop
  | cons hr _ ih =>
    rcases List.mem_cons.mp hop with rfl | hop'
    · exact ⟨_, List.mem_cons_self, hr⟩
    · obtain ⟨r, hr', hw⟩ := ih hop'
      exact ⟨r, List.mem_cons_of_mem _ hr', hw⟩

/-- The line writes no reference outside the list. -/
theorem WritesAt.forall_sub {ops : List (HloOp τ sig Val)} {wr : List (Ref sig .tc)} (h : WritesAt ops wr) :
    ops.Forall fun op => op.writes ⊆ (wr.map (Proc.devRef (τ := τ) .tc)).toFinset := by
  rw [List.forall_iff_forall_mem]
  intro op hop
  obtain ⟨r, hr, hw⟩ := h.exists_of_mem hop
  rw [hw, Finset.singleton_subset_iff, List.mem_toFinset]
  exact List.mem_map_of_mem hr

/-- A suffix of the line is named by the same suffix of the list. -/
theorem WritesAt.drop {ops : List (HloOp τ sig Val)} {wr : List (Ref sig .tc)} (h : WritesAt ops wr) (k : ℕ) :
    WritesAt (ops.drop k) (wr.drop k) := by
  induction h generalizing k with
  | nil => rw [List.drop_nil, List.drop_nil]; exact List.Forall₂.nil
  | cons hr hrest ih =>
    cases k with
    | zero => exact List.Forall₂.cons hr hrest
    | succ k => exact ih k

/-- A prefix of the line is named by the same prefix of the list. -/
theorem WritesAt.take {ops : List (HloOp τ sig Val)} {wr : List (Ref sig .tc)} (h : WritesAt ops wr) (k : ℕ) :
    WritesAt (ops.take k) (wr.take k) := by
  induction h generalizing k with
  | nil => rw [List.take_nil, List.take_nil]; exact List.Forall₂.nil
  | cons hr hrest ih =>
    cases k with
    | zero => exact List.Forall₂.nil
    | succ k => exact List.Forall₂.cons hr (ih k)

/-- A reference no operation from position `k` on writes holds at the end what it holds after the first `k`
    operations. -/
theorem after_eq_take {ops : List (HloOp τ sig Val)} {wr : List (Ref sig .tc)} (h : WritesAt ops wr)
    (V : Valuation τ sig Val) (k : ℕ) {r : Ref sig .tc} (hr : r ∉ wr.drop k) :
    after ops V (Proc.devRef .tc r) = after (ops.take k) V (Proc.devRef .tc r) := by
  conv_lhs => rw [← List.take_append_drop k ops]
  rw [after_append]
  exact after_of_writes_sub (ops.drop k) _ (h.drop k).forall_sub hr

/-- A reference the line never writes holds after any prefix what it held at the start. -/
theorem after_take_of_not_mem {ops : List (HloOp τ sig Val)} {wr : List (Ref sig .tc)} (h : WritesAt ops wr)
    (V : Valuation τ sig Val) (k : ℕ) {r : Ref sig .tc} (hr : r ∉ wr) :
    after (ops.take k) V (Proc.devRef .tc r) = V (Proc.devRef .tc r) :=
  after_of_writes_sub (ops.take k) V (h.take k).forall_sub fun hm => hr (List.mem_of_mem_take hm)

/-- A prefix that is a shorter prefix followed by a segment folds the segment over what the shorter prefix leaves. -/
theorem after_take_split {ops seg : List (HloOp τ sig Val)} {a b : ℕ} (hs : ops.take b = ops.take a ++ seg)
    (V : Valuation τ sig Val) : after (ops.take b) V = after seg (after (ops.take a) V) := by
  rw [hs, after_append]

end Cert.SsaRead
-- ==== Proof.LibPlainMatmul.lean ====
/-
  Two readings at one entry, over the extended reals, for any extents and element formats.

  The product of an `[M, K]` array by a `[K, N]` array, accumulated into a block of zeros, is at entry `(p, q)` the sum
  over the contracted axis `k` of `lhs (p, k) * rhs (k, q)`: at a position `k` of the contracted axis the left operand is
  read at `(p, k)` and the right one at `(k, q)`, and the zero accumulator adds nothing.

  The sum along the second axis of an `[a, b]` array, from the neutral initial value, is at row `p` the sum over the
  columns `k` of the entry `(p, k)`.
-/
import Idealize.ShloMosaic.Lib.ValueIdx
import Idealize.ShloMosaic.PureOps.Ideal.Laws

noncomputable section

namespace LibPlainMatmul

open Idealize.ShloMosaic Idealize.ShloMosaic.ValueIdx
open scoped BigOperators

/-! ## A plain matrix product into a zero accumulator, read at an index -/

section Plain
variable {M K N : Nat}

/-- On its rows the left operand is read at the output's row. -/
theorem plain_lhs_0 (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- On its columns the left operand is read at the position on the contracted axis. -/
theorem plain_lhs_1 (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- On its rows the right operand is read at the position on the contracted axis. -/
theorem plain_rhs_0 (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- On its columns the right operand is read at the output's column. -/
theorem plain_rhs_1 (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` matrix product accumulated into zeros is, at `(p, q)`, the sum over the contracted axis of the
    operands' products. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

end Plain

/-! ## A sum along the rows of a matrix, read at a row -/

/-- The sum over the second axis of an `[a, b]` array is, at row `p`, the sum over the columns `k` of the entry `(p, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c
  refine Fin.ext ?_
  match c with
  | ⟨0, _⟩ => rfl
  | ⟨1, _⟩ => rfl

end LibPlainMatmul
-- ==== Proof.KI.LinearVal0.lean ====
import proofs.«166096_j40321152975189_1_alg».proof.Proof.KI.Linear0
import proofs.«166096_j40321152975189_1_alg».proof.Proof.LibPlainMatmul
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open scoped BigOperators
variable (V : (c : Dev nD) → (b : Ref sig .tc) → Buf (Elt Ideal) ((c : Thread nD τ).loc b))

/-! # Region 0 at the extended reals: what the layer leaves in its result array

At the extended reals the changes of float format are the identity, the product into a block of zeros is the sum
over the contracted axis, and the bias row is repeated along the rows. So the block the body writes at a grid
point is the corresponding block of ONE function of the three arrays the region finds, and the blocks of the fifty
grid points tile the result array: the array ends as that function, entry by entry. -/

/-- The layer at row `p` and column `q`: the row of `a` against the column of `w`, plus the bias at `q`. -/
def lin0At (a : S100000x128.Idx → EReal) (w : S128x256.Idx → EReal) (b : S1x256.Idx → EReal) (p : Fin 100000) (q : Fin 256) : EReal :=
  (∑ k : Fin 128, a (ix2 p k) * w (ix2 k q)) + b (ix2 0 q)

/-- The layer as one function on the result array's indices. -/
def lin0 (a : S100000x128.Idx → EReal) (w : S128x256.Idx → EReal) (b : S1x256.Idx → EReal) : S100000x256.Idx → EReal :=
  fun i => lin0At a w b (i 0 : Fin 100000) (i 1 : Fin 256)

/-! ## The body's payload at an entry -/

/-- Over any three loaded blocks, the payload at `(p, q)`: the casts to the narrower format and the casts of a shape
    to itself change nothing, the product into zeros is read as a sum, the repeated bias row is read at column `q`. -/
theorem pay0_apply (x0 : Vec Ideal S2000x128 .f32) (x1 : Vec Ideal S128x256 .f32) (x2 : Vec Ideal S1x256 .f32) (p : Fin 2000) (q : Fin 256) :
    k0_pay1 x0 x1 x2 (ix2 p q) = (∑ k : Fin 128, x0 (ix2 p k) * x1 (ix2 k q)) + x2 (ix2 0 q) := by
  unfold k0_pay1
  rw [addf_apply, shapeCast_self, shapeCast_self]
  refine congrArg₂ (· + ·) ?_ ?_
  · exact LibPlainMatmul.matmul_plain_zero_apply none _ _ p q
  · exact broadcastTo_apply x2 _ (ix2 p q) (ix2 0 q) (fun a => by match a with | ⟨0, _⟩ => rfl | ⟨1, _⟩ => rfl)

/-! ## From the blocks to the array -/

theorem zero_off0 : (![0, 0] : Fin 2 → Nat) = fun _ => 0 := funext fun a => by fin_cases a <;> rfl

/-- The printed index maps, decided over the grid: at point `t` the activations' and the result's blocks are row
    block `t`, and every other block coordinate is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the layer of the arrays as the region finds them. -/
theorem flushed0_3_eq (c : Dev nD) (t : Fin cfg0.N) :
    (dat0 V c).flushed 3 t = ((cfg0.win 3).blk t).view.read (Elt Ideal) (lin0 (V c main_arg0) (V c main_v30) (V c main_v32)) := by
  show (cfg0.win 3).cut (grid0.coords t) ((dat0 V c).after 3 t) = _
  rw [after0_3]
  unfold out0_3
  rw [View.canon_unit_zero zero_off0]
  simp only [View.ld_unit_zero (S := S2000x128) zero_off0, View.ld_unit_zero (S := S128x256) zero_off0, View.ld_unit_zero (S := S1x256) zero_off0]
  obtain ⟨e00, e01, e10, e11, e20, e21, e30, e31⟩ := idx_facts0 t
  have ht : t.val < 50 := Nat.lt_of_lt_of_eq t.isLt N_0
  funext j
  obtain ⟨p, q, rfl⟩ : ∃ (p : Fin 2000) (q : Fin 256), j = ix2 p q := ⟨j 0, j 1, eq_ix2 j⟩
  have hp : p.val < 2000 := p.isLt
  have hq : q.val < 256 := q.isLt
  -- the row of the array that row `p` of block `t` is
  let r : Fin 100000 := ⟨t.val * 2000 + p.val, by omega⟩
  have e3 : ((cfg0.win 3).blk t).view.emb (ix2 p q) = (ix2 r q : S100000x256.Idx) := by
    funext a; apply Fin.ext
    match a with
    | ⟨0, _⟩ => show win0_3.index t (0 : Fin 2) * 2000 + 1 * p.val = t.val * 2000 + p.val; omega
    | ⟨1, _⟩ => show win0_3.index t (1 : Fin 2) * 256 + 1 * q.val = q.val; omega
  have e0 : ∀ k : Fin 128, ((cfg0.win 0).blk t).view.emb (ix2 p k) = (ix2 r k : S100000x128.Idx) := fun k => by
    have hk : k.val < 128 := k.isLt
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  have e1 : ∀ k : Fin 128, ((cfg0.win 1).blk t).view.emb (ix2 k q) = (ix2 k q : S128x256.Idx) := fun k => by
    have hk : k.val < 128 := k.isLt
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  have e2 : ((cfg0.win 2).blk t).view.emb (ix2 (0 : Fin 1) q) = (ix2 (0 : Fin 1) q : S1x256.Idx) := by
    funext a; apply Fin.ext
    match a with
    | ⟨0, _⟩ => show win0_2.index t (0 : Fin 2) * 1 + 1 * 0 = 0; omega
    | ⟨1, _⟩ => show win0_2.index t (1 : Fin 2) * 256 + 1 * q.val = q.val; omega
  refine (pay0_apply (iblk0 V c 0 t) (iblk0 V c 1 t) (iblk0 V c 2 t) p q).trans ?_
  show _ = lin0 (V c main_arg0) (V c main_v30) (V c main_v32) (((cfg0.win 3).blk t).view.emb (ix2 p q))
  rw [e3]
  show _ = lin0At (V c main_arg0) (V c main_v30) (V c main_v32) r q
  unfold lin0At
  refine congrArg₂ (· + ·) (Finset.sum_congr rfl fun k _ => congrArg₂ (· * ·) ?_ ?_) ?_
  · exact congrArg (V c main_arg0) (e0 k)
  · exact congrArg (V c main_v30) (e1 k)
  · exact congrArg (V c main_v32) e2

/-- An index of the result array is in point `t`'s block iff each coordinate is in the block's range on its axis. -/
theorem mem_blk0_3 (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v33).slice (win0_3.rect t)).set ↔ _
  rw [View.set_slice_whole, Rect.mem_set_unit]
  exact Iff.rfl

/-- Every index of the result array is in the block of some point, which writes it back: row `r` is in row block
    `r / 2000`. -/
theorem blocks_cover0 (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 50 := N_0
  let t : Fin cfg0.N := ⟨(i 0).val / 2000, by rw [hN]; omega⟩
  obtain ⟨-, -, -, -, -, -, e30, e31⟩ := idx_facts0 t
  have e30' : win0_3.index t (0 : Fin 2) = (i 0).val / 2000 := e30
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The result array after the region's run: the layer of the arrays the region found. -/
theorem final0_3 (c : Dev nD) : (dat0 V c).arrAt 3 cfg0.N = lin0 (V c main_arg0) (V c main_v30) (V c main_v32) :=
  (dat0 V c).arrAt_eq_of_cover 3 (lin0 (V c main_arg0) (V c main_v30) (V c main_v32)) (fun t _ => flushed0_3_eq V c t) (blocks_cover0)

/-- Entry by entry. -/
theorem arrAt0 (c : Dev nD) (p : Fin 100000) (q : Fin 256) :
    (dat0 V c).arrAt 3 cfg0.N (ix2 p q) = lin0At (V c main_arg0) (V c main_v30) (V c main_v32) p q := by
  rw [final0_3]
  rfl

end Cert.KernelIdeal.Hand
-- ==== Proof.KI.LinearVal3.lean ====
import proofs.«166096_j40321152975189_1_alg».proof.Proof.KI.Linear3
import proofs.«166096_j40321152975189_1_alg».proof.Proof.LibPlainMatmul
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open scoped BigOperators
variable (V : (c : Dev nD) → (b : Ref sig .tc) → Buf (Elt Ideal) ((c : Thread nD τ).loc b))

/-! # Region 3 at the extended reals: what the layer leaves in its result array

At the extended reals the changes of float format are the identity, the product into a block of zeros is the sum
over the contracted axis, and the bias row is repeated along the rows. So the block the body writes at a grid
point is the corresponding block of ONE function of the three arrays the region finds, and the blocks of the fifty
grid points tile the result array: the array ends as that function, entry by entry. -/

/-- The layer at row `p` and column `q`: the row of `a` against the column of `w`, plus the bias at `q`. -/
def lin3At (a : S100000x256.Idx → EReal) (w : S256x256.Idx → EReal) (b : S1x256.Idx → EReal) (p : Fin 100000) (q : Fin 256) : EReal :=
  (∑ k : Fin 256, a (ix2 p k) * w (ix2 k q)) + b (ix2 0 q)

/-- The layer as one function on the result array's indices. -/
def lin3 (a : S100000x256.Idx → EReal) (w : S256x256.Idx → EReal) (b : S1x256.Idx → EReal) : S100000x256.Idx → EReal :=
  fun i => lin3At a w b (i 0 : Fin 100000) (i 1 : Fin 256)

/-! ## The body's payload at an entry -/

/-- Over any three loaded blocks, the payload at `(p, q)`: the casts to the narrower format and the casts of a shape
    to itself change nothing, the product into zeros is read as a sum, the repeated bias row is read at column `q`. -/
theorem pay3_apply (x0 : Vec Ideal S2000x256 .f32) (x1 : Vec Ideal S256x256 .f32) (x2 : Vec Ideal S1x256 .f32) (p : Fin 2000) (q : Fin 256) :
    k3_pay1 x0 x1 x2 (ix2 p q) = (∑ k : Fin 256, x0 (ix2 p k) * x1 (ix2 k q)) + x2 (ix2 0 q) := by
  unfold k3_pay1
  rw [addf_apply, shapeCast_self, shapeCast_self, shapeCast_self]
  refine congrArg₂ (· + ·) ?_ ?_
  · exact LibPlainMatmul.matmul_plain_zero_apply none _ _ p q
  · exact broadcastTo_apply x2 _ (ix2 p q) (ix2 0 q) (fun a => by match a with | ⟨0, _⟩ => rfl | ⟨1, _⟩ => rfl)

/-! ## From the blocks to the array -/

theorem zero_off3 : (![0, 0] : Fin 2 → Nat) = fun _ => 0 := funext fun a => by fin_cases a <;> rfl

/-- The printed index maps, decided over the grid: at point `t` the activations' and the result's blocks are row
    block `t`, and every other block coordinate is zero. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the layer of the arrays as the region finds them. -/
theorem flushed3_3_eq (c : Dev nD) (t : Fin cfg3.N) :
    (dat3 V c).flushed 3 t = ((cfg3.win 3).blk t).view.read (Elt Ideal) (lin3 (V c main_v53) (V c main_v54) (V c main_v56)) := by
  show (cfg3.win 3).cut (grid3.coords t) ((dat3 V c).after 3 t) = _
  rw [after3_3]
  unfold out3_3
  rw [View.canon_unit_zero zero_off3]
  simp only [View.ld_unit_zero (S := S2000x256) zero_off3, View.ld_unit_zero (S := S256x256) zero_off3, View.ld_unit_zero (S := S1x256) zero_off3]
  obtain ⟨e00, e01, e10, e11, e20, e21, e30, e31⟩ := idx_facts3 t
  have ht : t.val < 50 := Nat.lt_of_lt_of_eq t.isLt N_3
  funext j
  obtain ⟨p, q, rfl⟩ : ∃ (p : Fin 2000) (q : Fin 256), j = ix2 p q := ⟨j 0, j 1, eq_ix2 j⟩
  have hp : p.val < 2000 := p.isLt
  have hq : q.val < 256 := q.isLt
  -- the row of the array that row `p` of block `t` is
  let r : Fin 100000 := ⟨t.val * 2000 + p.val, by omega⟩
  have e3 : ((cfg3.win 3).blk t).view.emb (ix2 p q) = (ix2 r q : S100000x256.Idx) := by
    funext a; apply Fin.ext
    match a with
    | ⟨0, _⟩ => show win3_3.index t (0 : Fin 2) * 2000 + 1 * p.val = t.val * 2000 + p.val; omega
    | ⟨1, _⟩ => show win3_3.index t (1 : Fin 2) * 256 + 1 * q.val = q.val; omega
  have e0 : ∀ k : Fin 256, ((cfg3.win 0).blk t).view.emb (ix2 p k) = (ix2 r k : S100000x256.Idx) := fun k => by
    have hk : k.val < 256 := k.isLt
    funext a; apply Fin.ext
    match a with
    | ⟨0, _⟩ => show win3_0.index t (0 : Fin 2) * 2000 + 1 * p.val = t.val * 2000 + p.val; omega
    | ⟨1, _⟩ => show win3_0.index t (1 : Fin 2) * 256 + 1 * k.val = k.val; omega
  have e1 : ∀ k : Fin 256, ((cfg3.win 1).blk t).view.emb (ix2 k q) = (ix2 k q : S256x256.Idx) := fun k => by
    have hk : k.val < 256 := k.isLt
    funext a; apply Fin.ext
    match a with
    | ⟨0, _⟩ => show win3_1.index t (0 : Fin 2) * 256 + 1 * k.val = k.val; omega
    | ⟨1, _⟩ => show win3_1.index t (1 : Fin 2) * 256 + 1 * q.val = q.val; omega
  have e2 : ((cfg3.win 2).blk t).view.emb (ix2 (0 : Fin 1) q) = (ix2 (0 : Fin 1) q : S1x256.Idx) := by
    funext a; apply Fin.ext
    match a with
    | ⟨0, _⟩ => show win3_2.index t (0 : Fin 2) * 1 + 1 * 0 = 0; omega
    | ⟨1, _⟩ => show win3_2.index t (1 : Fin 2) * 256 + 1 * q.val = q.val; omega
  refine (pay3_apply (iblk3 V c 0 t) (iblk3 V c 1 t) (iblk3 V c 2 t) p q).trans ?_
  show _ = lin3 (V c main_v53) (V c main_v54) (V c main_v56) (((cfg3.win 3).blk t).view.emb (ix2 p q))
  rw [e3]
  show _ = lin3At (V c main_v53) (V c main_v54) (V c main_v56) r q
  unfold lin3At
  refine congrArg₂ (· + ·) (Finset.sum_congr rfl fun k _ => congrArg₂ (· * ·) ?_ ?_) ?_
  · exact congrArg (V c main_v53) (e0 k)
  · exact congrArg (V c main_v54) (e1 k)
  · exact congrArg (V c main_v56) e2

/-- An index of the result array is in point `t`'s block iff each coordinate is in the block's range on its axis. -/
theorem mem_blk3_3 (t : Fin cfg3.N) (i : S100000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v57).slice (win3_3.rect t)).set ↔ _
  rw [View.set_slice_whole, Rect.mem_set_unit]
  exact Iff.rfl

/-- Every index of the result array is in the block of some point, which writes it back: row `r` is in row block
    `r / 2000`. -/
theorem blocks_cover3 (i : S100000x256.Idx) :
    ∃ t : Fin cfg3.N, (cfg3.win 3).flush t = true ∧ i ∈ ((cfg3.win 3).blk t).view.set := by
  have hi0 : (i 0).val < 100000 := (i 0).isLt
  have hi1 : (i 1).val < 256 := (i 1).isLt
  have hN : cfg3.N = 50 := N_3
  let t : Fin cfg3.N := ⟨(i 0).val / 2000, by rw [hN]; omega⟩
  obtain ⟨-, -, -, -, -, -, e30, e31⟩ := idx_facts3 t
  have e30' : win3_3.index t (0 : Fin 2) = (i 0).val / 2000 := e30
  refine ⟨t, flush3_3 t, ?_⟩
  rw [mem_blk3_3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

/-- The result array after the region's run: the layer of the arrays the region found. -/
theorem final3_3 (c : Dev nD) : (dat3 V c).arrAt 3 cfg3.N = lin3 (V c main_v53) (V c main_v54) (V c main_v56) :=
  (dat3 V c).arrAt_eq_of_cover 3 (lin3 (V c main_v53) (V c main_v54) (V c main_v56)) (fun t _ => flushed3_3_eq V c t) (blocks_cover3)

/-- Entry by entry. -/
theorem arrAt3 (c : Dev nD) (p : Fin 100000) (q : Fin 256) :
    (dat3 V c).arrAt 3 cfg3.N (ix2 p q) = lin3At (V c main_v53) (V c main_v54) (V c main_v56) p q := by
  rw [final3_3]
  rfl

end Cert.KernelIdeal.Hand
-- ==== Proof.KI.LinearVal6.lean ====
import proofs.«166096_j40321152975189_1_alg».proof.Proof.KI.Linear6
import proofs.«166096_j40321152975189_1_alg».proof.Proof.LibPlainMatmul
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open scoped BigOperators
variable (V : (c : Dev nD) → (b : Ref sig .tc) → Buf (Elt Ideal) ((c : Thread nD τ).loc b))

/-! # Region 6 at the extended reals: what the layer leaves in its result array

At the extended reals the changes of float format are the identity, the product into a block of zeros is the sum
over the contracted axis, and the bias row is repeated along the rows; the last step is the maximum with zero. So the block the body writes at a grid
point is the corresponding block of ONE function of the three arrays the region finds, and the blocks of the fifty
grid points tile the result array: the array ends as that function, entry by entry. -/

/-- The layer at row `p` and column `q`: the row of `a` against the column of `w`, plus the bias at `q`, cut below at zero. -/
def lin6At (a : S100000x256.Idx → EReal) (w : S256x256.Idx → EReal) (b : S1x256.Idx → EReal) (p : Fin 100000) (q : Fin 256) : EReal :=
  max ((∑ k : Fin 256, a (ix2 p k) * w (ix2 k q)) + b (ix2 0 q)) 0

/-- The layer as one function on the result array's indices. -/
def lin6 (a : S100000x256.Idx → EReal) (w : S256x256.Idx → EReal) (b : S1x256.Idx → EReal) : S100000x256.Idx → EReal :=
  fun i => lin6At a w b (i 0 : Fin 100000) (i 1 : Fin 256)

/-! ## The body's payload at an entry -/

/-- Over any three loaded blocks, the payload at `(p, q)`: the casts to the narrower format and the casts of a shape
    to itself change nothing, the product into zeros is read as a sum, the repeated bias row is read at column `q`. -/
theorem pay6_apply (x0 : Vec Ideal S2000x256 .f32) (x1 : Vec Ideal S256x256 .f32) (x2 : Vec Ideal S1x256 .f32) (p : Fin 2000) (q : Fin 256) :
    k6_pay1 x0 x1 x2 (ix2 p q) = max ((∑ k : Fin 256, x0 (ix2 p k) * x1 (ix2 k q)) + x2 (ix2 0 q)) 0 := by
  unfold k6_pay1
  rw [maximumf_apply, broadcast_apply, addf_apply, shapeCast_self, shapeCast_self, shapeCast_self]
  refine congrArg₂ max (congrArg₂ (· + ·) ?_ ?_) ?_
  · exact LibPlainMatmul.matmul_plain_zero_apply none _ _ p q
  · exact broadcastTo_apply x2 _ (ix2 p q) (ix2 0 q) (fun a => by match a with | ⟨0, _⟩ => rfl | ⟨1, _⟩ => rfl)
  · exact Ideal.ofBits_zero_f32

/-! ## From the blocks to the array -/

theorem zero_off6 : (![0, 0] : Fin 2 → Nat) = fun _ => 0 := funext fun a => by fin_cases a <;> rfl

/-- The printed index maps, decided over the grid: at point `t` the activations' and the result's blocks are row
    block `t`, and every other block coordinate is zero. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of the layer of the arrays as the region finds them. -/
theorem flushed6_3_eq (c : Dev nD) (t : Fin cfg6.N) :
    (dat6 V c).flushed 3 t = ((cfg6.win 3).blk t).view.read (Elt Ideal) (lin6 (V c main_v77) (V c main_v78) (V c main_v79)) := by
  show (cfg6.win 3).cut (grid6.coords t) ((dat6 V c).after 3 t) = _
  rw [after6_3]
  unfold out6_3
  rw [View.canon_unit_zero zero_off6]
  simp only [View.ld_unit_zero (S := S2000x256) zero_off6, View.ld_unit_zero (S := S256x256) zero_off6, View.ld_unit_zero (S := S1x256) zero_off6]
  obtain ⟨e00, e01, e10, e11, e20, e21, e30, e31⟩ := idx_facts6 t
  have ht : t.val < 50 := Nat.lt_of_lt_of_eq t.isLt N_6
  funext j
  obtain ⟨p, q, rfl⟩ : ∃ (p : Fin 2000) (q : Fin 256), j = ix2 p q := ⟨j 0, j 1, eq_ix2 j⟩
  have hp : p.val < 2000 := p.isLt
  have hq : q.val < 256 := q.isLt
  -- the row of the array that row `p` of block `t` is
  let r : Fin 100000 := ⟨t.val * 2000 + p.val, by omega⟩
  have e3 : ((cfg6.win 3).blk t).view.emb (ix2 p q) = (ix2 r q : S100000x256.Idx) := by
    funext a; apply Fin.ext
    match a with
    | ⟨0, _⟩ => show win6_3.index t (0 : Fin 2) * 2000 + 1 * p.val = t.val * 2000 + p.val; omega
    | ⟨1, _⟩ => show win6_3.index t (1 : Fin 2) * 256 + 1 * q.val = q.val; omega
  have e0 : ∀ k : Fin 256, ((cfg6.win 0).blk t).view.emb (ix2 p k) = (ix2 r k : S100000x256.Idx) := fun k => by
    have hk : k.val < 256 := k.isLt
    funext a; apply Fin.ext
    match a with
    | ⟨0, _⟩ => show win6_0.index t (0 : Fin 2) * 2000 + 1 * p.val = t.val * 2000 + p.val; omega
    | ⟨1, _⟩ => show win6_0.index t (1 : Fin 2) * 256 + 1 * k.val = k.val; omega
  have e1 : ∀ k : Fin 256, ((cfg6.win 1).blk t).view.emb (ix2 k q) = (ix2 k q : S256x256.Idx) := fun k => by
    have hk : k.val < 256 := k.isLt
    funext a; apply Fin.ext
    match a with
    | ⟨0, _⟩ => show win6_1.index t (0 : Fin 2) * 256 + 1 * k.val = k.val; omega
    | ⟨1, _⟩ => show win6_1.index t (1 : Fin 2) * 256 + 1 * q.val = q.val; omega
  have e2 : ((cfg6.win 2).blk t).view.emb (ix2 (0 : Fin 1) q) = (ix2 (0 : Fin 1) q : S1x256.Idx) := by
    funext a; apply Fin.ext
    match a with
    | ⟨0, _⟩ => show win6_2.index t (0 : Fin 2) * 1 + 1 * 0 = 0; omega
    | ⟨1, _⟩ => show win6_2.index t (1 : Fin 2) * 256 + 1 * q.val = q.val; omega
  refine (pay6_apply (iblk6 V c 0 t) (iblk6 V c 1 t) (iblk6 V c 2 t) p q).trans ?_
  show _ = lin6 (V c main_v77) (V c main_v78) (V c main_v79) (((cfg6.win 3).blk t).view.emb (ix2 p q))
  rw [e3]
  show _ = lin6At (V c main_v77) (V c main_v78) (V c main_v79) r q
  unfold lin6At
  refine congrArg₂ max (congrArg₂ (· + ·) (Finset.sum_congr rfl fun k _ => congrArg₂ (· * ·) ?_ ?_) ?_) rfl
  · exact congrArg (V c main_v77) (e0 k)
  · exact congrArg (V c main_v78) (e1 k)
  · exact congrArg (V c main_v79) e2

/-- An index of the result array is in point `t`'s block iff each coordinate is in the block's range on its axis. -/
theorem mem_blk6_3 (t : Fin cfg6.N) (i : S100000x256.Idx) :
    i ∈ ((cfg6.win 3).blk t).view.set ↔ ∀ a : Fin 2, win6_3.index t a * S2000x256.size a ≤ (i a).val ∧ (i a).val < win6_3.index t a * S2000x256.size a + S2000x256.size a := by
  show i ∈ ((View.whole main_v80).slice (win6_3.rect t)).set ↔ _
  rw [View.set_slice_whole, Rect.mem_set_unit]
  exact Iff.rfl

/-- Every index of the result array is in the block of some point, which writes it back: row `r` is in row block
    `r / 2000`. -/
theorem blocks_cover6 (i : S100000x256.Idx) :
    ∃ t : Fin cfg6.N, (cfg6.win 3).flush t = true ∧ i ∈ ((cfg6.win 3).blk t).view.set := by
  have hi0 : (i 0).val < 100000 := (i 0).isLt
  have hi1 : (i 1).val < 256 := (i 1).isLt
  have hN : cfg6.N = 50 := N_6
  let t : Fin cfg6.N := ⟨(i 0).val / 2000, by rw [hN]; omega⟩
  obtain ⟨-, -, -, -, -, -, e30, e31⟩ := idx_facts6 t
  have e30' : win6_3.index t (0 : Fin 2) = (i 0).val / 2000 := e30
  refine ⟨t, flush6_3 t, ?_⟩
  rw [mem_blk6_3]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 256 ≤ (i 1).val ∧ (i 1).val < win6_3.index t (1 : Fin 2) * 256 + 256; omega

/-- The result array after the region's run: the layer of the arrays the region found. -/
theorem final6_3 (c : Dev nD) : (dat6 V c).arrAt 3 cfg6.N = lin6 (V c main_v77) (V c main_v78) (V c main_v79) :=
  (dat6 V c).arrAt_eq_of_cover 3 (lin6 (V c main_v77) (V c main_v78) (V c main_v79)) (fun t _ => flushed6_3_eq V c t) (blocks_cover6)

/-- Entry by entry. -/
theorem arrAt6 (c : Dev nD) (p : Fin 100000) (q : Fin 256) :
    (dat6 V c).arrAt 3 cfg6.N (ix2 p q) = lin6At (V c main_v77) (V c main_v78) (V c main_v79) p q := by
  rw [final6_3]
  rfl

end Cert.KernelIdeal.Hand
-- ==== Proof.KI.LinearVal7.lean ====
import proofs.«166096_j40321152975189_1_alg».proof.Proof.KI.Linear7
import proofs.«166096_j40321152975189_1_alg».proof.Proof.LibPlainMatmul
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open scoped BigOperators
variable (V : (c : Dev nD) → (b : Ref sig .tc) → Buf (Elt Ideal) ((c : Thread nD τ).loc b))

/-! # Region 7 at the extended reals: what the layer leaves in its result array

At the extended reals the changes of float format are the identity, the product into a block of zeros is the sum
over the contracted axis, and the bias row is repeated along the rows. So the block the body writes at a grid
point is the corresponding block of ONE function of the three arrays the region finds, and the blocks of the fifty
grid points tile the result array: the array ends as that function, entry by entry. -/

/-- The layer at row `p` and column `q`: the row of `a` against the column of `w`, plus the bias at `q`. -/
def lin7At (a : S100000x256.Idx → EReal) (w : S256x64.Idx → EReal) (b : S1x64.Idx → EReal) (p : Fin 100000) (q : Fin 64) : EReal :=
  (∑ k : Fin 256, a (ix2 p k) * w (ix2 k q)) + b (ix2 0 q)

/-- The layer as one function on the result array's indices. -/
def lin7 (a : S100000x256.Idx → EReal) (w : S256x64.Idx → EReal) (b : S1x64.Idx → EReal) : S100000x64.Idx → EReal :=
  fun i => lin7At a w b (i 0 : Fin 100000) (i 1 : Fin 64)

/-! ## The body's payload at an entry -/

/-- Over any three loaded blocks, the payload at `(p, q)`: the casts to the narrower format and the casts of a shape
    to itself change nothing, the product into zeros is read as a sum, the repeated bias row is read at column `q`. -/
theorem pay7_apply (x0 : Vec Ideal S2000x256 .f32) (x1 : Vec Ideal S256x64 .f32) (x2 : Vec Ideal S1x64 .f32) (p : Fin 2000) (q : Fin 64) :
    k7_pay1 x0 x1 x2 (ix2 p q) = (∑ k : Fin 256, x0 (ix2 p k) * x1 (ix2 k q)) + x2 (ix2 0 q) := by
  unfold k7_pay1
  rw [addf_apply, shapeCast_self, shapeCast_self, shapeCast_self]
  refine congrArg₂ (· + ·) ?_ ?_
  · exact LibPlainMatmul.matmul_plain_zero_apply none _ _ p q
  · exact broadcastTo_apply x2 _ (ix2 p q) (ix2 0 q) (fun a => by match a with | ⟨0, _⟩ => rfl | ⟨1, _⟩ => rfl)

/-! ## From the blocks to the array -/

theorem zero_off7 : (![0, 0] : Fin 2 → Nat) = fun _ => 0 := funext fun a => by fin_cases a <;> rfl

/-- The printed index maps, decided over the grid: at point `t` the activations' and the result's blocks are row
    block `t`, and every other block coordinate is zero. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point `t` writes back is block `t` of the layer of the arrays as the region finds them. -/
theorem flushed7_3_eq (c : Dev nD) (t : Fin cfg7.N) :
    (dat7 V c).flushed 3 t = ((cfg7.win 3).blk t).view.read (Elt Ideal) (lin7 (V c main_v80) (V c main_v81) (V c main_v82)) := by
  show (cfg7.win 3).cut (grid7.coords t) ((dat7 V c).after 3 t) = _
  rw [after7_3]
  unfold out7_3
  rw [View.canon_unit_zero zero_off7]
  simp only [View.ld_unit_zero (S := S2000x256) zero_off7, View.ld_unit_zero (S := S256x64) zero_off7, View.ld_unit_zero (S := S1x64) zero_off7]
  obtain ⟨e00, e01, e10, e11, e20, e21, e30, e31⟩ := idx_facts7 t
  have ht : t.val < 50 := Nat.lt_of_lt_of_eq t.isLt N_7
  funext j
  obtain ⟨p, q, rfl⟩ : ∃ (p : Fin 2000) (q : Fin 64), j = ix2 p q := ⟨j 0, j 1, eq_ix2 j⟩
  have hp : p.val < 2000 := p.isLt
  have hq : q.val < 64 := q.isLt
  -- the row of the array that row `p` of block `t` is
  let r : Fin 100000 := ⟨t.val * 2000 + p.val, by omega⟩
  have e3 : ((cfg7.win 3).blk t).view.emb (ix2 p q) = (ix2 r q : S100000x64.Idx) := by
    funext a; apply Fin.ext
    match a with
    | ⟨0, _⟩ => show win7_3.index t (0 : Fin 2) * 2000 + 1 * p.val = t.val * 2000 + p.val; omega
    | ⟨1, _⟩ => show win7_3.index t (1 : Fin 2) * 64 + 1 * q.val = q.val; omega
  have e0 : ∀ k : Fin 256, ((cfg7.win 0).blk t).view.emb (ix2 p k) = (ix2 r k : S100000x256.Idx) := fun k => by
    have hk : k.val < 256 := k.isLt
    funext a; apply Fin.ext
    match a with
    | ⟨0, _⟩ => show win7_0.index t (0 : Fin 2) * 2000 + 1 * p.val = t.val * 2000 + p.val; omega
    | ⟨1, _⟩ => show win7_0.index t (1 : Fin 2) * 256 + 1 * k.val = k.val; omega
  have e1 : ∀ k : Fin 256, ((cfg7.win 1).blk t).view.emb (ix2 k q) = (ix2 k q : S256x64.Idx) := fun k => by
    have hk : k.val < 256 := k.isLt
    funext a; apply Fin.ext
    match a with
    | ⟨0, _⟩ => show win7_1.index t (0 : Fin 2) * 256 + 1 * k.val = k.val; omega
    | ⟨1, _⟩ => show win7_1.index t (1 : Fin 2) * 64 + 1 * q.val = q.val; omega
  have e2 : ((cfg7.win 2).blk t).view.emb (ix2 (0 : Fin 1) q) = (ix2 (0 : Fin 1) q : S1x64.Idx) := by
    funext a; apply Fin.ext
    match a with
    | ⟨0, _⟩ => show win7_2.index t (0 : Fin 2) * 1 + 1 * 0 = 0; omega
    | ⟨1, _⟩ => show win7_2.index t (1 : Fin 2) * 64 + 1 * q.val = q.val; omega
  refine (pay7_apply (iblk7 V c 0 t) (iblk7 V c 1 t) (iblk7 V c 2 t) p q).trans ?_
  show _ = lin7 (V c main_v80) (V c main_v81) (V c main_v82) (((cfg7.win 3).blk t).view.emb (ix2 p q))
  rw [e3]
  show _ = lin7At (V c main_v80) (V c main_v81) (V c main_v82) r q
  unfold lin7At
  refine congrArg₂ (· + ·) (Finset.sum_congr rfl fun k _ => congrArg₂ (· * ·) ?_ ?_) ?_
  · exact congrArg (V c main_v80) (e0 k)
  · exact congrArg (V c main_v81) (e1 k)
  · exact congrArg (V c main_v82) e2

/-- An index of the result array is in point `t`'s block iff each coordinate is in the block's range on its axis. -/
theorem mem_blk7_3 (t : Fin cfg7.N) (i : S100000x64.Idx) :
    i ∈ ((cfg7.win 3).blk t).view.set ↔ ∀ a : Fin 2, win7_3.index t a * S2000x64.size a ≤ (i a).val ∧ (i a).val < win7_3.index t a * S2000x64.size a + S2000x64.size a := by
  show i ∈ ((View.whole main_v83).slice (win7_3.rect t)).set ↔ _
  rw [View.set_slice_whole, Rect.mem_set_unit]
  exact Iff.rfl

/-- Every index of the result array is in the block of some point, which writes it back: row `r` is in row block
    `r / 2000`. -/
theorem blocks_cover7 (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  have hN : cfg7.N = 50 := N_7
  let t : Fin cfg7.N := ⟨(i 0).val / 2000, by rw [hN]; omega⟩
  obtain ⟨-, -, -, -, -, -, e30, e31⟩ := idx_facts7 t
  have e30' : win7_3.index t (0 : Fin 2) = (i 0).val / 2000 := e30
  refine ⟨t, flush7_3 t, ?_⟩
  rw [mem_blk7_3]
  intro a
  match a with
  | ⟨0, _⟩ => show win7_3.index t (0 : Fin 2) * 2000 ≤ (i 0).val ∧ (i 0).val < win7_3.index t (0 : Fin 2) * 2000 + 2000; omega
  | ⟨1, _⟩ => show win7_3.index t (1 : Fin 2) * 64 ≤ (i 1).val ∧ (i 1).val < win7_3.index t (1 : Fin 2) * 64 + 64; omega

/-- The result array after the region's run: the layer of the arrays the region found. -/
theorem final7_3 (c : Dev nD) : (dat7 V c).arrAt 3 cfg7.N = lin7 (V c main_v80) (V c main_v81) (V c main_v82) :=
  (dat7 V c).arrAt_eq_of_cover 3 (lin7 (V c main_v80) (V c main_v81) (V c main_v82)) (fun t _ => flushed7_3_eq V c t) (blocks_cover7)

/-- Entry by entry. -/
theorem arrAt7 (c : Dev nD) (p : Fin 100000) (q : Fin 64) :
    (dat7 V c).arrAt 3 cfg7.N (ix2 p q) = lin7At (V c main_v80) (V c main_v81) (V c main_v82) p q := by
  rw [final7_3]
  rfl

end Cert.KernelIdeal.Hand
-- ==== Proof.LibStats.lean ====
/-
  Sums over blocks of rows, the two formulas for a population variance, and which extended reals are finite.

  A batch statistic over `m * n` rows may be accumulated block by block (`m` blocks of `n` rows) or in one pass:
  in a commutative monoid the two sums agree.  The population variance of finitely many REAL numbers is
  both the mean of the squared deviations and the mean of the squares minus the squared mean, and it is never
  negative, so clamping the second form at zero changes nothing.  On the extended reals these identities need the
  numbers to be finite (a product distributes over a sum only away from the infinities), so the last part collects
  the closure properties of "finite" under the arithmetic the two programs use.
-/
import Idealize.ShloMosaic.PureOps.Ideal

noncomputable section

namespace Cert.LibStats

open Idealize.ShloMosaic

/-! ## Sums block by block -/

/-- A sum over `m * n` consecutive indices, taken as `m` blocks of `n`: row `n * b + r` is row `r` of block `b`. -/
theorem sum_blocks {M : Type*} [AddCommMonoid M] (m n : ℕ) (g : Fin (m * n) → M)
    (h : ∀ (b : Fin m) (r : Fin n), n * (b : ℕ) + (r : ℕ) < m * n) :
    ∑ b : Fin m, ∑ r : Fin n, g ⟨n * (b : ℕ) + (r : ℕ), h b r⟩ = ∑ i, g i := by
  rw [← Fintype.sum_prod_type' (f := fun (b : Fin m) (r : Fin n) => g ⟨n * (b : ℕ) + (r : ℕ), h b r⟩)]
  refine Fintype.sum_equiv finProdFinEquiv _ _ (fun p => ?_)
  refine congrArg g (Fin.ext ?_)
  simp [finProdFinEquiv, Nat.add_comm]

/-! ## Coercions -/

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two variance formulas, over the reals -/

/-- Mean of squares minus squared mean is the mean of squared deviations. -/
theorem var_forms {ι : Type*} [Fintype ι] (p : ι → ℝ) (N : ℝ) (hN : (Fintype.card ι : ℝ) = N) (hN0 : N ≠ 0) :
    (∑ i, p i * p i) / N - (∑ i, p i) / N * ((∑ i, p i) / N)
      = (∑ i, (p i - (∑ i, p i) / N) * (p i - (∑ i, p i) / N)) / N := by
  have h1 : ∑ i, (p i - (∑ i, p i) / N) * (p i - (∑ i, p i) / N)
      = (∑ i, p i * p i) - 2 * ((∑ i, p i) / N) * (∑ i, p i) + N * (((∑ i, p i) / N) * ((∑ i, p i) / N)) := by
    have : ∀ i, (p i - (∑ i, p i) / N) * (p i - (∑ i, p i) / N)
        = p i * p i - 2 * ((∑ i, p i) / N) * p i + ((∑ i, p i) / N) * ((∑ i, p i) / N) := fun i => by ring
    simp only [this, Finset.sum_add_distrib, Finset.sum_sub_distrib, ← Finset.mul_sum, Finset.sum_const, Finset.card_univ,
      nsmul_eq_mul, hN]
    ring
  rw [h1]
  field_simp
  ring

/-- The mean of squared deviations is not negative. -/
theorem var_nonneg {ι : Type*} [Fintype ι] (p : ι → ℝ) (μ N : ℝ) (hN : 0 < N) :
    0 ≤ (∑ i, (p i - μ) * (p i - μ)) / N :=
  div_nonneg (Finset.sum_nonneg fun i _ => mul_self_nonneg _) hN.le

/-- Clamping "mean of squares minus squared mean" at zero leaves the mean of squared deviations. -/
theorem var_clamped {ι : Type*} [Fintype ι] (p : ι → ℝ) (N : ℝ) (hN : (Fintype.card ι : ℝ) = N) (hN0 : 0 < N) :
    max ((∑ i, p i * p i) / N - (∑ i, p i) / N * ((∑ i, p i) / N)) 0
      = (∑ i, (p i - (∑ i, p i) / N) * (p i - (∑ i, p i) / N)) / N := by
  rw [var_forms p N hN hN0.ne']
  exact max_eq_left (var_nonneg p _ N hN0)

/-! ## Finite extended reals -/

/-- An extended real that is a real number. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} : IsFin x → IsFin y → IsFin (x + y)
  | ⟨a, ha⟩, ⟨b, hb⟩ => ⟨a + b, by rw [ha, hb, EReal.coe_add]⟩
theorem IsFin.sub {x y : EReal} : IsFin x → IsFin y → IsFin (x - y)
  | ⟨a, ha⟩, ⟨b, hb⟩ => ⟨a - b, by rw [ha, hb, EReal.coe_sub]⟩
theorem IsFin.mul {x y : EReal} : IsFin x → IsFin y → IsFin (x * y)
  | ⟨a, ha⟩, ⟨b, hb⟩ => ⟨a * b, by rw [ha, hb, EReal.coe_mul]⟩
theorem IsFin.max {x y : EReal} : IsFin x → IsFin y → IsFin (max x y)
  | ⟨a, ha⟩, ⟨b, hb⟩ => ⟨Max.max a b, by rw [ha, hb]; exact (EReal.coe_strictMono.monotone.map_max).symm⟩
theorem IsFin.sum {ι : Type*} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))

/-- A quotient by a nonzero real is the real quotient. -/
theorem div_coe_coe (a b : ℝ) (hb : b ≠ 0) : Ideal.div (a : EReal) (b : EReal) = ((a / b : ℝ) : EReal) := by
  rw [Ideal.div_coe hb, ← EReal.coe_mul, mul_one_div]

theorem IsFin.div {x y : EReal} : IsFin x → IsFin y → y ≠ 0 → IsFin (Ideal.div x y)
  | ⟨a, ha⟩, ⟨b, hb⟩, h0 => ⟨a / b, by
      subst ha hb
      exact div_coe_coe a b (by rintro rfl; exact h0 rfl)⟩

/-- The square root of a nonnegative real. -/
theorem sqrt_coe (r : ℝ) (hr : 0 ≤ r) : Ideal.sqrt (r : EReal) = ((Real.sqrt r : ℝ) : EReal) := by
  show (if r < 0 then (⊥ : EReal) else (Real.sqrt r : EReal)) = _
  rw [if_neg (not_lt.mpr hr)]

/-- The reciprocal square root of a positive real. -/
theorem rsqrt_coe (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-! ## The variance formulas on finite extended reals -/

theorem coe_max (a b : ℝ) : ((Max.max a b : ℝ) : EReal) = Max.max (a : EReal) (b : EReal) :=
  EReal.coe_strictMono.monotone.map_max

/-- Finitely many finite extended reals are the coercions of reals. -/
theorem exists_real {ι : Type*} (x : ι → EReal) (hx : ∀ i, IsFin (x i)) : ∃ p : ι → ℝ, x = fun i => (p i : EReal) :=
  ⟨fun i => (hx i).choose, funext fun i => (hx i).choose_spec⟩

/-- For finite entries, "mean of squares minus squared mean, clamped at zero" is the mean of squared deviations. -/
theorem var_clamped_ereal {ι : Type*} [Fintype ι] (x : ι → EReal) (hx : ∀ i, IsFin (x i)) (N : ℝ)
    (hN : (Fintype.card ι : ℝ) = N) (hN0 : 0 < N) :
    Max.max (Ideal.div (∑ i, x i * x i) (N : EReal)
        - Ideal.div (∑ i, x i) (N : EReal) * Ideal.div (∑ i, x i) (N : EReal)) 0
      = Ideal.div (∑ i, (x i - Ideal.div (∑ i, x i) (N : EReal)) * (x i - Ideal.div (∑ i, x i) (N : EReal))) (N : EReal) := by
  obtain ⟨p, rfl⟩ := exists_real x hx
  simp only [← EReal.coe_mul, ← coe_sum, div_coe_coe _ _ hN0.ne', ← EReal.coe_sub]
  rw [← EReal.coe_zero, ← coe_max, var_clamped p N hN hN0]

/-! ## Signs -/

/-- A nonnegative real, as an extended real. -/
def IsNonneg (x : EReal) : Prop := ∃ r : ℝ, 0 ≤ r ∧ x = (r : EReal)
/-- A positive real, as an extended real. -/
def IsPos (x : EReal) : Prop := ∃ r : ℝ, 0 < r ∧ x = (r : EReal)

theorem IsNonneg.isFin {x : EReal} : IsNonneg x → IsFin x | ⟨r, _, h⟩ => ⟨r, h⟩
theorem IsPos.isFin {x : EReal} : IsPos x → IsFin x | ⟨r, _, h⟩ => ⟨r, h⟩
theorem IsPos.isNonneg {x : EReal} : IsPos x → IsNonneg x | ⟨r, h0, h⟩ => ⟨r, h0.le, h⟩
theorem IsPos.ne_zero {x : EReal} : IsPos x → x ≠ 0
  | ⟨r, h0, h⟩ => by rw [h]; exact_mod_cast h0.ne'
theorem IsNonneg.zero : IsNonneg 0 := ⟨0, le_rfl, rfl⟩
theorem IsFin.mul_self_nonneg {x : EReal} : IsFin x → IsNonneg (x * x)
  | ⟨a, ha⟩ => ⟨a * a, _root_.mul_self_nonneg a, by rw [ha, EReal.coe_mul]⟩
theorem IsNonneg.add {x y : EReal} : IsNonneg x → IsNonneg y → IsNonneg (x + y)
  | ⟨a, ha0, ha⟩, ⟨b, hb0, hb⟩ => ⟨a + b, add_nonneg ha0 hb0, by rw [ha, hb, EReal.coe_add]⟩
theorem IsNonneg.add_pos {x y : EReal} : IsNonneg x → IsPos y → IsPos (x + y)
  | ⟨a, ha0, ha⟩, ⟨b, hb0, hb⟩ => ⟨a + b, add_pos_of_nonneg_of_pos ha0 hb0, by rw [ha, hb, EReal.coe_add]⟩
theorem IsNonneg.sum {ι : Type*} (s : Finset ι) (f : ι → EReal) (h : ∀ i ∈ s, IsNonneg (f i)) : IsNonneg (∑ i ∈ s, f i) := by
  classical
  induction s using Finset.induction_on with
  | empty => simpa using IsNonneg.zero
  | insert a s ha ih =>
    rw [Finset.sum_insert ha]
    exact (h a (Finset.mem_insert_self a s)).add (ih fun i hi => h i (Finset.mem_insert_of_mem hi))
theorem IsNonneg.sqrt {x : EReal} : IsNonneg x → IsNonneg (Ideal.sqrt x)
  | ⟨a, ha0, ha⟩ => ⟨Real.sqrt a, Real.sqrt_nonneg a, by rw [ha, sqrt_coe a ha0]⟩
theorem IsNonneg.max_pos {x y : EReal} : IsNonneg x → IsPos y → IsPos (Max.max x y)
  | ⟨a, _, ha⟩, ⟨b, hb0, hb⟩ => ⟨Max.max a b, lt_max_of_lt_right hb0, by rw [ha, hb, coe_max]⟩
theorem IsFin.max_zero_nonneg {x : EReal} : IsFin x → IsNonneg (Max.max x 0)
  | ⟨a, ha⟩ => ⟨Max.max a 0, le_max_right a 0, by rw [ha, ← EReal.coe_zero, coe_max]⟩
theorem IsPos.rsqrt {x : EReal} : IsPos x → IsFin (Ideal.rsqrt x)
  | ⟨a, ha0, ha⟩ => ⟨(Real.sqrt a)⁻¹, by rw [ha, rsqrt_coe a ha0]⟩
theorem IsNonneg.div_pos {x y : EReal} : IsNonneg x → IsPos y → IsNonneg (Ideal.div x y)
  | ⟨a, ha0, ha⟩, ⟨b, hb0, hb⟩ => ⟨a / b, div_nonneg ha0 hb0.le, by rw [ha, hb, div_coe_coe a b hb0.ne']⟩
theorem IsFin.div_pos {x y : EReal} (hx : IsFin x) (hy : IsPos y) : IsFin (Ideal.div x y) :=
  hx.div hy.isFin hy.ne_zero

/-- Multiplying by the reciprocal of a nonzero divisor is dividing by it. -/
theorem mul_one_div (x y : EReal) (hy : y ≠ 0) : x * Ideal.div 1 y = Ideal.div x y := by
  rw [Ideal.div, Ideal.div, if_neg hy, if_neg hy, one_mul]

end Cert.LibStats

end
-- ==== Proof.LibBatchVar.lean ====
/-
  The two arrangements of a batch variance, on finite extended reals.

  One program takes the population variance of a column as the mean of the squares minus the squared mean, the other
  as the mean of the squared deviations from the mean.  Over the reals the two are one number: expand the square and
  use that the deviations from the mean sum to zero.  Over the extended reals the expansion needs a product to
  distribute over a sum, which fails at the infinities, so the statement is for finite entries.  Both forms are spelt
  with the division the programs use (by the row count, a nonzero real), and the common value is a nonnegative real:
  adding a positive real to it gives a positive real, whose reciprocal square root is finite.
-/
import proofs.«166096_j40321152975189_1_alg».proof.Proof.LibStats

noncomputable section

namespace LibBatchVar

open Idealize.ShloMosaic Cert.LibStats

/-- An extended real is the coercion of a real exactly when it is neither infinity. -/
theorem isFin_iff (x : EReal) : IsFin x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- The mean of finitely many finite entries, their sum divided by a nonzero real, is finite. -/
theorem mean_isFin {ι : Type*} [Fintype ι] (x : ι → EReal) (hx : ∀ i, IsFin (x i)) (N : ℝ) (hN0 : N ≠ 0) :
    IsFin (Ideal.div (∑ i, x i) (N : EReal)) :=
  (IsFin.sum _ _ fun i _ => hx i).div (IsFin.coe N) (by exact_mod_cast hN0)

/-- For finite entries, the mean of the squares minus the squared mean is the mean of the squared deviations from
    the mean, each mean being the sum divided by the number of entries as a real. -/
theorem var_forms_ereal {ι : Type*} [Fintype ι] (x : ι → EReal) (hx : ∀ i, IsFin (x i)) (N : ℝ)
    (hN : (Fintype.card ι : ℝ) = N) (hN0 : N ≠ 0) :
    Ideal.div (∑ i, x i * x i) (N : EReal)
        - Ideal.div (∑ i, x i) (N : EReal) * Ideal.div (∑ i, x i) (N : EReal)
      = Ideal.div (∑ i, (x i - Ideal.div (∑ i, x i) (N : EReal)) * (x i - Ideal.div (∑ i, x i) (N : EReal)))
          (N : EReal) := by
  obtain ⟨p, rfl⟩ := exists_real x hx
  simp only [← EReal.coe_mul, ← coe_sum, div_coe_coe _ _ hN0, ← EReal.coe_sub]
  rw [var_forms p N hN hN0]

/-- The same for entries indexed by `Fin n`, the count given as a real equal to `n`. -/
theorem var_forms_fin {n : ℕ} (x : Fin n → EReal) (hx : ∀ i, IsFin (x i)) (N : ℝ) (hN : (n : ℝ) = N) (hN0 : N ≠ 0) :
    Ideal.div (∑ i, x i * x i) (N : EReal)
        - Ideal.div (∑ i, x i) (N : EReal) * Ideal.div (∑ i, x i) (N : EReal)
      = Ideal.div (∑ i, (x i - Ideal.div (∑ i, x i) (N : EReal)) * (x i - Ideal.div (∑ i, x i) (N : EReal)))
          (N : EReal) :=
  var_forms_ereal x hx N (by rw [Fintype.card_fin]; exact hN) hN0

/-- The mean of the squared deviations of finite entries from any finite centre, taken with a positive count, is a
    nonnegative real. -/
theorem var_isNonneg {ι : Type*} [Fintype ι] (x : ι → EReal) (hx : ∀ i, IsFin (x i)) (μ : EReal) (hμ : IsFin μ)
    (N : ℝ) (hN0 : 0 < N) : IsNonneg (Ideal.div (∑ i, (x i - μ) * (x i - μ)) (N : EReal)) :=
  (IsNonneg.sum _ _ fun i _ => ((hx i).sub hμ).mul_self_nonneg).div_pos ⟨N, hN0, rfl⟩

/-- So is the other arrangement, the mean of the squares minus the squared mean: it is the same number. -/
theorem var_ker_isNonneg {ι : Type*} [Fintype ι] (x : ι → EReal) (hx : ∀ i, IsFin (x i)) (N : ℝ)
    (hN : (Fintype.card ι : ℝ) = N) (hN0 : 0 < N) :
    IsNonneg (Ideal.div (∑ i, x i * x i) (N : EReal)
        - Ideal.div (∑ i, x i) (N : EReal) * Ideal.div (∑ i, x i) (N : EReal)) := by
  rw [var_forms_ereal x hx N hN hN0.ne']
  exact var_isNonneg x hx _ (mean_isFin x hx N hN0.ne') N hN0

/-- A nonnegative real plus a positive real is a positive real, and the reciprocal square root of a positive real is
    finite: the scale a normalisation multiplies by, `rsqrt (variance + ε)`, is finite. -/
theorem rsqrt_add_isFin {v e : EReal} (hv : IsNonneg v) (he : IsPos e) : IsFin (Ideal.rsqrt (v + e)) :=
  (hv.add_pos he).rsqrt

/-- The scale of the arrangement by deviations is finite. -/
theorem rsqrt_var_isFin {ι : Type*} [Fintype ι] (x : ι → EReal) (hx : ∀ i, IsFin (x i)) (N : ℝ) (hN0 : 0 < N)
    {e : EReal} (he : IsPos e) :
    IsFin (Ideal.rsqrt (Ideal.div (∑ i, (x i - Ideal.div (∑ i, x i) (N : EReal))
        * (x i - Ideal.div (∑ i, x i) (N : EReal))) (N : EReal) + e)) :=
  rsqrt_add_isFin (var_isNonneg x hx _ (mean_isFin x hx N hN0.ne') N hN0) he

end LibBatchVar

end
-- ==== Proof.LibFinite.lean ====
/-
  Which extended reals are finite, and the operations that keep them so.

  Distributivity, and with it every rearrangement of a sum of products, holds on the extended reals only away from the
  infinities, so an algebraic law between two programs is a law about FINITE values.  The inputs are finite (neither
  infinity: their absolute value is below `⊤`), and finiteness passes through each operation of a network of linear
  layers, neighbourhood sums and normalisations: sums, differences, products, maxima, a choice between two finite
  values, the quotient by a nonzero real, the reciprocal square root of a positive real, a finite sum of finite terms
  onto a finite start (a row of a matrix product, a reduction along an axis, a scatter that adds), and a count.
-/
import proofs.«166096_j40321152975189_1_alg».proof.Proof.LibStats

noncomputable section

open Idealize.ShloMosaic Cert.LibStats

namespace LibFinite

/-! ## Finite, stated three ways -/

/-- Finite is: neither infinity. -/
theorem isFin_iff_ne (x : EReal) : IsFin x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real whose absolute value `max x (-x)` is below `⊤` is finite. -/
theorem isFin_of_abs_lt_top {x : EReal} (h : max x (-x) < ⊤) : IsFin x := by
  induction x using EReal.rec with
  | bot => simp at h
  | coe r => exact IsFin.coe r
  | top => simp at h

/-- A finite extended real has its absolute value below `⊤`. -/
theorem abs_lt_top_of_isFin {x : EReal} : IsFin x → max x (-x) < ⊤
  | ⟨r, hr⟩ => by
    subst hr
    exact max_lt (EReal.coe_lt_top r) (by rw [← EReal.coe_neg]; exact EReal.coe_lt_top (-r))

end LibFinite

/-! ## Closure under the pointwise operations

These extend the namespace of the predicates themselves, so that they chain by dot notation (`hx.neg.max_zero`). -/

namespace Cert.LibStats

/-- The negative of a finite value is finite. -/
theorem IsFin.neg {x : EReal} : IsFin x → IsFin (-x)
  | ⟨a, ha⟩ => ⟨-a, by rw [ha, EReal.coe_neg]⟩

/-- Clamping a finite value below at zero keeps it finite. -/
theorem IsFin.max_zero {x : EReal} (hx : IsFin x) : IsFin (Max.max x 0) := hx.max IsFin.zero

/-- A choice between two finite values is finite. -/
theorem IsFin.ite {c : Prop} [Decidable c] {x y : EReal} (hx : IsFin x) (hy : IsFin y) : IsFin (if c then x else y) := by
  split
  · exact hx
  · exact hy

/-- A natural number, as a real, is finite. -/
theorem IsFin.natCast (n : ℕ) : IsFin (((n : ℝ) : EReal)) := IsFin.coe _

/-- The quotient of a finite value by a nonzero real is finite. -/
theorem IsFin.div_real {x : EReal} (hx : IsFin x) {N : ℝ} (hN : N ≠ 0) : IsFin (Ideal.div x (N : EReal)) :=
  hx.div (IsFin.coe N) (by exact_mod_cast hN)

/-- A finite value above zero is a positive real. -/
theorem IsFin.isPos {x : EReal} : IsFin x → 0 < x → IsPos x
  | ⟨a, ha⟩, h => ⟨a, by rw [ha] at h; exact_mod_cast h, ha⟩

/-- A finite value not below zero is a nonnegative real. -/
theorem IsFin.isNonneg {x : EReal} : IsFin x → 0 ≤ x → IsNonneg x
  | ⟨a, ha⟩, h => ⟨a, by rw [ha] at h; exact_mod_cast h, ha⟩

/-- The reciprocal square root of a finite value above zero is finite. -/
theorem IsFin.rsqrt_of_pos {x : EReal} (hx : IsFin x) (h : 0 < x) : IsFin (Ideal.rsqrt x) := (hx.isPos h).rsqrt

/-- The guarded reciprocal square root — `rsqrt x` above zero, else `0` — of a finite value is finite. -/
theorem IsFin.rsqrt_or_zero {x : EReal} (hx : IsFin x) : IsFin (if 0 < x then Ideal.rsqrt x else 0) := by
  split
  · next h => exact hx.rsqrt_of_pos h
  · exact IsFin.zero

/-- A nonnegative real is not below zero, and a positive real is above it. -/
theorem IsNonneg.zero_le {x : EReal} : IsNonneg x → 0 ≤ x
  | ⟨a, h0, ha⟩ => by rw [ha]; exact_mod_cast h0
theorem IsPos.zero_lt {x : EReal} : IsPos x → 0 < x
  | ⟨a, h0, ha⟩ => by rw [ha]; exact_mod_cast h0

/-! ## Closure under finite sums -/

/-- A sum over a whole finite index type of finite terms is finite. -/
theorem IsFin.sum_univ {ι : Type*} [Fintype ι] (f : ι → EReal) (h : ∀ i, IsFin (f i)) : IsFin (∑ i, f i) :=
  IsFin.sum _ _ fun i _ => h i

/-- A sum over `Fin n` of finite terms is finite. -/
theorem IsFin.sum_fin {n : ℕ} (f : Fin n → EReal) (h : ∀ i, IsFin (f i)) : IsFin (∑ i, f i) :=
  IsFin.sum_univ f h

/-- A finite start plus a finite sum of finite terms is finite. -/
theorem IsFin.add_sum {ι : Type*} {a : EReal} (ha : IsFin a) (s : Finset ι) (f : ι → EReal) (h : ∀ i ∈ s, IsFin (f i)) :
    IsFin (a + ∑ i ∈ s, f i) :=
  ha.add (IsFin.sum s f h)

/-- A sum of products of finite factors is finite. -/
theorem IsFin.sum_mul {ι : Type*} (s : Finset ι) (f g : ι → EReal) (hf : ∀ i ∈ s, IsFin (f i)) (hg : ∀ i ∈ s, IsFin (g i)) :
    IsFin (∑ i ∈ s, f i * g i) :=
  IsFin.sum s _ fun i hi => (hf i hi).mul (hg i hi)

/-- A count — a sum of ones — is a nonnegative real. -/
theorem IsNonneg.one : IsNonneg 1 := ⟨1, zero_le_one, by norm_num⟩
theorem IsNonneg.count {ι : Type*} (s : Finset ι) : IsNonneg (∑ _i ∈ s, (1 : EReal)) :=
  IsNonneg.sum s _ fun _ _ => IsNonneg.one

end Cert.LibStats

namespace LibFinite

/-! ## The array operations with a sum inside -/

/-- A matrix product of finite factors onto a finite accumulator is finite at every index. -/
theorem matmul_isFin {sl sr so : Shape} (d : DotDims sl sr so) (lhs : sl.Idx → EReal) (rhs : sr.Idx → EReal)
    (acc : so.Idx → EReal) (hl : ∀ i, IsFin (lhs i)) (hr : ∀ i, IsFin (rhs i)) (ha : ∀ j, IsFin (acc j)) (j : so.Idx) :
    IsFin (Ideal.matmul d lhs rhs acc j) :=
  (ha j).add (IsFin.sum _ _ fun k _ => (hl _).mul (hr _))

/-- A sum along axes of finite entries onto a finite initial value is finite at every index. -/
theorem hostReduceAdd_isFin {s : Shape} {axes : List (Fin s.rank)} {t : Shape} (h : s.ReducesTo axes t)
    (x : s.Idx → EReal) (init : EReal) (hx : ∀ i, IsFin (x i)) (hi : IsFin init) (j : t.Idx) :
    IsFin (Ideal.hostReduceAdd h x init j) :=
  hi.add (IsFin.sum _ _ fun i _ => hx i)

/-- The same without an initial value. -/
theorem reduceAdd_isFin {s : Shape} {axes : List (Fin s.rank)} {t : Shape} (h : s.Reduces axes t)
    (x : s.Idx → EReal) (hx : ∀ i, IsFin (x i)) (j : t.Idx) : IsFin (Ideal.reduceAdd h x j) :=
  IsFin.sum _ _ fun i _ => hx i

/-- A scatter that adds finite updates onto finite operand entries is finite at every index, wherever the updates
    land. -/
theorem hostScatterAdd_isFin {s si su : Shape} (d : ScatterDims s si su) {w : Nat} (x : s.Idx → EReal) (idx : IVec si w)
    (upd : su.Idx → EReal) (hx : ∀ i, IsFin (x i)) (hu : ∀ j, IsFin (upd j)) (i : s.Idx) :
    IsFin (Ideal.hostScatterAdd d x idx upd i) :=
  (hx i).add (IsFin.sum _ _ fun j _ => hu j)

/-- A scatter that adds nonnegative updates onto nonnegative operand entries is nonnegative: a degree count. -/
theorem hostScatterAdd_isNonneg {s si su : Shape} (d : ScatterDims s si su) {w : Nat} (x : s.Idx → EReal) (idx : IVec si w)
    (upd : su.Idx → EReal) (hx : ∀ i, IsNonneg (x i)) (hu : ∀ j, IsNonneg (upd j)) (i : s.Idx) :
    IsNonneg (Ideal.hostScatterAdd d x idx upd i) :=
  (hx i).add (IsNonneg.sum _ _ fun j _ => hu j)

end LibFinite

end
-- ==== Proof.Spec.lean ====
/-
  The layers of the network as functions on arrays of extended reals, and the one law between the two programs.

  Both programs compute a two-layer graph network on 100000 nodes: a linear map, a normalised neighbourhood sum and a
  bias, batch normalisation over the 100000 rows with a clamp at zero, twice, then two more linear layers.  They spell
  every step alike except the variance inside the batch normalisation of a `[100000, 256]` array: one takes, for each
  of the 256 columns, the mean of the squares minus the squared mean, the other the mean of the squared deviations from
  the mean.  For finite entries the two variances are one number, so the two normalisations are one array.

  An array is a function on its index set; an entry is named by its coordinates (`ix2 r q`: row `r`, column `q`).  The
  two float constants stay as the programs spell them: the row count, whose pattern denotes the real `100000`, and
  the `ε` added to the variance, whose pattern denotes a positive real.
-/
import proofs.«166096_j40321152975189_1_alg».proof.Proof.LibBatchVar
import proofs.«166096_j40321152975189_1_alg».proof.Proof.LibFinite
import Idealize.ShloMosaic.Lib.ValueIdx

noncomputable section

open Idealize.ShloMosaic Idealize.ShloMosaic.ValueIdx Cert.LibStats

namespace Cert.Spec

/-! ## Shapes and arrays -/

abbrev S100000x128 : Shape := ⟨2, ![100000, 128]⟩
abbrev S100000x256 : Shape := ⟨2, ![100000, 256]⟩
abbrev S100000x64 : Shape := ⟨2, ![100000, 64]⟩
abbrev S256x128 : Shape := ⟨2, ![256, 128]⟩
abbrev S256x256 : Shape := ⟨2, ![256, 256]⟩
abbrev S64x256 : Shape := ⟨2, ![64, 256]⟩
abbrev S256 : Shape := ⟨1, ![256]⟩
abbrev S64 : Shape := ⟨1, ![64]⟩

/-- An array of extended reals of a given shape. -/
abbrev Arr (s : Shape) : Type := s.Idx → EReal

/-- Every entry finite. -/
def AllFin {s : Shape} (x : Arr s) : Prop := ∀ j, IsFin (x j)

/-! ## The two constants -/

/-- The pattern the programs divide by denotes the row count, the real `100000`. -/
theorem nRows_eq : Ideal.ofBits .f32 0x47C35000#32 = ((100000 : ℝ) : EReal) := by
  simp [Ideal.ofBits, Ideal.ieee, -EReal.coe_mul]; norm_num

/-- The pattern the programs add to a variance denotes a positive real. -/
theorem eps_isPos : IsPos (Ideal.ofBits .f32 0x3727C5AC#32) := by
  show ∃ r : ℝ, 0 < r ∧ Ideal.ofBits .f32 0x3727C5AC#32 = (r : EReal)
  simp [Ideal.ofBits, Ideal.ieee, -EReal.coe_mul]

/-! ## Linear layers -/

/-- `x · Wᵀ` for `x : [100000, 128]` and `W : [256, 128]`: entry `(p, q)` is `∑ₖ x(p,k) · W(q,k)`. -/
def mm128 (x : Arr S100000x128) (w : Arr S256x128) : Arr S100000x256 :=
  fun j => ∑ k : Fin 128, x (ix2 (j 0) k) * w (ix2 (j 1) k)

/-- `x · Wᵀ` for `x : [100000, 256]` and `W : [256, 256]`. -/
def mm256 (x : Arr S100000x256) (w : Arr S256x256) : Arr S100000x256 :=
  fun j => ∑ k : Fin 256, x (ix2 (j 0) k) * w (ix2 (j 1) k)

/-- `x · Wᵀ` for `x : [100000, 256]` and `W : [64, 256]`. -/
def mm64 (x : Arr S100000x256) (w : Arr S64x256) : Arr S100000x64 :=
  fun j => ∑ k : Fin 256, x (ix2 (j 0) k) * w (ix2 (j 1) k)

/-- A bias added along the rows of a `[100000, 256]` array. -/
def addBias256 (x : Arr S100000x256) (b : Arr S256) : Arr S100000x256 := fun j => x j + b (ix1 (j 1))

/-- A bias added along the rows of a `[100000, 64]` array. -/
def addBias64 (x : Arr S100000x64) (b : Arr S64) : Arr S100000x64 := fun j => x j + b (ix1 (j 1))

/-- The linear layer `[100000, 128] → [100000, 256]`: entry `(p, q)` is `∑ₖ x(p,k) · W(q,k) + b(q)`. -/
def lin128 (x : Arr S100000x128) (w : Arr S256x128) (b : Arr S256) : Arr S100000x256 := addBias256 (mm128 x w) b

/-- The linear layer `[100000, 256] → [100000, 256]`. -/
def lin256 (x : Arr S100000x256) (w : Arr S256x256) (b : Arr S256) : Arr S100000x256 := addBias256 (mm256 x w) b

/-- The linear layer `[100000, 256] → [100000, 64]`. -/
def lin64 (x : Arr S100000x256) (w : Arr S64x256) (b : Arr S64) : Arr S100000x64 := addBias64 (mm64 x w) b

/-- The clamp at zero, entry by entry. -/
def relu {s : Shape} (x : Arr s) : Arr s := fun j => max (x j) 0

theorem mm128_apply (x : Arr S100000x128) (w : Arr S256x128) (p : Fin 100000) (q : Fin 256) :
    mm128 x w (ix2 p q) = ∑ k : Fin 128, x (ix2 p k) * w (ix2 q k) := rfl
theorem mm256_apply (x : Arr S100000x256) (w : Arr S256x256) (p : Fin 100000) (q : Fin 256) :
    mm256 x w (ix2 p q) = ∑ k : Fin 256, x (ix2 p k) * w (ix2 q k) := rfl
theorem mm64_apply (x : Arr S100000x256) (w : Arr S64x256) (p : Fin 100000) (q : Fin 64) :
    mm64 x w (ix2 p q) = ∑ k : Fin 256, x (ix2 p k) * w (ix2 q k) := rfl
theorem lin128_apply (x : Arr S100000x128) (w : Arr S256x128) (b : Arr S256) (p : Fin 100000) (q : Fin 256) :
    lin128 x w b (ix2 p q) = (∑ k : Fin 128, x (ix2 p k) * w (ix2 q k)) + b (ix1 q) := rfl
theorem lin256_apply (x : Arr S100000x256) (w : Arr S256x256) (b : Arr S256) (p : Fin 100000) (q : Fin 256) :
    lin256 x w b (ix2 p q) = (∑ k : Fin 256, x (ix2 p k) * w (ix2 q k)) + b (ix1 q) := rfl
theorem lin64_apply (x : Arr S100000x256) (w : Arr S64x256) (b : Arr S64) (p : Fin 100000) (q : Fin 64) :
    lin64 x w b (ix2 p q) = (∑ k : Fin 256, x (ix2 p k) * w (ix2 q k)) + b (ix1 q) := rfl

/-- The layers keep every entry finite. -/
theorem mm128_allFin {x : Arr S100000x128} {w : Arr S256x128} (hx : AllFin x) (hw : AllFin w) : AllFin (mm128 x w) :=
  fun _ => IsFin.sum _ _ fun _ _ => (hx _).mul (hw _)
theorem mm256_allFin {x : Arr S100000x256} {w : Arr S256x256} (hx : AllFin x) (hw : AllFin w) : AllFin (mm256 x w) :=
  fun _ => IsFin.sum _ _ fun _ _ => (hx _).mul (hw _)
theorem mm64_allFin {x : Arr S100000x256} {w : Arr S64x256} (hx : AllFin x) (hw : AllFin w) : AllFin (mm64 x w) :=
  fun _ => IsFin.sum _ _ fun _ _ => (hx _).mul (hw _)
theorem addBias256_allFin {x : Arr S100000x256} {b : Arr S256} (hx : AllFin x) (hb : AllFin b) : AllFin (addBias256 x b) :=
  fun _ => (hx _).add (hb _)
theorem addBias64_allFin {x : Arr S100000x64} {b : Arr S64} (hx : AllFin x) (hb : AllFin b) : AllFin (addBias64 x b) :=
  fun _ => (hx _).add (hb _)
theorem lin128_allFin {x : Arr S100000x128} {w : Arr S256x128} {b : Arr S256} (hx : AllFin x) (hw : AllFin w)
    (hb : AllFin b) : AllFin (lin128 x w b) := addBias256_allFin (mm128_allFin hx hw) hb
theorem lin256_allFin {x : Arr S100000x256} {w : Arr S256x256} {b : Arr S256} (hx : AllFin x) (hw : AllFin w)
    (hb : AllFin b) : AllFin (lin256 x w b) := addBias256_allFin (mm256_allFin hx hw) hb
theorem lin64_allFin {x : Arr S100000x256} {w : Arr S64x256} {b : Arr S64} (hx : AllFin x) (hw : AllFin w)
    (hb : AllFin b) : AllFin (lin64 x w b) := addBias64_allFin (mm64_allFin hx hw) hb
theorem relu_allFin {s : Shape} {x : Arr s} (hx : AllFin x) : AllFin (relu x) := fun _ => (hx _).max_zero

/-! ## Batch normalisation over the rows of a `[100000, 256]` array -/

/-- Column `q`'s sum over the 100000 rows. -/
def colSum (x : Arr S100000x256) (q : Fin 256) : EReal := ∑ r : Fin 100000, x (ix2 r q)

/-- Column `q`'s sum of squares. -/
def colSumSq (x : Arr S100000x256) (q : Fin 256) : EReal := ∑ r : Fin 100000, x (ix2 r q) * x (ix2 r q)

/-- Column `q`'s mean: its sum divided by the row count. -/
def mean (x : Arr S100000x256) (q : Fin 256) : EReal := Ideal.div (colSum x q) (Ideal.ofBits .f32 0x47C35000#32)

/-- Column `q`'s variance as the mean of the squares minus the squared mean. -/
def varKer (x : Arr S100000x256) (q : Fin 256) : EReal :=
  Ideal.div (colSumSq x q) (Ideal.ofBits .f32 0x47C35000#32) - mean x q * mean x q

/-- Column `q`'s variance as the mean of the squared deviations from the mean. -/
def varRef (x : Arr S100000x256) (q : Fin 256) : EReal :=
  Ideal.div (∑ r : Fin 100000, (x (ix2 r q) - mean x q) * (x (ix2 r q) - mean x q)) (Ideal.ofBits .f32 0x47C35000#32)

/-- Normalise with a given variance per column, scale by `γ`, shift by `β`, clamp at zero:
    `max (((x − mean) · rsqrt (var + ε)) · γ + β) 0`. -/
def bnWith (var : Fin 256 → EReal) (x : Arr S100000x256) (γ β : Arr S256) : Arr S100000x256 :=
  fun j => max (((x j - mean x (j 1)) * Ideal.rsqrt (var (j 1) + Ideal.ofBits .f32 0x3727C5AC#32)) * γ (ix1 (j 1))
    + β (ix1 (j 1))) 0

/-- Batch normalisation and clamp with the variance as mean of squares minus squared mean. -/
def bnKer (x : Arr S100000x256) (γ β : Arr S256) : Arr S100000x256 := bnWith (varKer x) x γ β

/-- Batch normalisation and clamp with the variance as mean of squared deviations. -/
def bnRef (x : Arr S100000x256) (γ β : Arr S256) : Arr S100000x256 := bnWith (varRef x) x γ β

theorem bnKer_apply (x : Arr S100000x256) (γ β : Arr S256) (r : Fin 100000) (q : Fin 256) :
    bnKer x γ β (ix2 r q) = max (((x (ix2 r q) - mean x q)
      * Ideal.rsqrt (varKer x q + Ideal.ofBits .f32 0x3727C5AC#32)) * γ (ix1 q) + β (ix1 q)) 0 := rfl
theorem bnRef_apply (x : Arr S100000x256) (γ β : Arr S256) (r : Fin 100000) (q : Fin 256) :
    bnRef x γ β (ix2 r q) = max (((x (ix2 r q) - mean x q)
      * Ideal.rsqrt (varRef x q + Ideal.ofBits .f32 0x3727C5AC#32)) * γ (ix1 q) + β (ix1 q)) 0 := rfl

/-- The mean of a column of finite entries is finite. -/
theorem mean_isFin {x : Arr S100000x256} (hx : AllFin x) (q : Fin 256) : IsFin (mean x q) := by
  unfold mean colSum
  rw [nRows_eq]
  exact LibBatchVar.mean_isFin (fun r : Fin 100000 => x (ix2 r q)) (fun r => hx _) 100000 (by norm_num)

/-- For finite entries the two variances of a column are one number. -/
theorem varKer_eq_varRef {x : Arr S100000x256} (hx : AllFin x) (q : Fin 256) : varKer x q = varRef x q := by
  unfold varKer varRef mean colSum colSumSq
  rw [nRows_eq]
  exact LibBatchVar.var_forms_fin (fun r : Fin 100000 => x (ix2 r q)) (fun r => hx _) 100000 (by norm_num) (by norm_num)

/-- That number is a nonnegative real. -/
theorem varRef_isNonneg {x : Arr S100000x256} (hx : AllFin x) (q : Fin 256) : IsNonneg (varRef x q) := by
  have hμ := mean_isFin hx q
  unfold varRef
  rw [nRows_eq]
  exact LibBatchVar.var_isNonneg (fun r : Fin 100000 => x (ix2 r q)) (fun r => hx _) _ hμ 100000 (by norm_num)

theorem varKer_isNonneg {x : Arr S100000x256} (hx : AllFin x) (q : Fin 256) : IsNonneg (varKer x q) := by
  rw [varKer_eq_varRef hx q]; exact varRef_isNonneg hx q

/-- So the scale `rsqrt (var + ε)` is finite. -/
theorem scaleRef_isFin {x : Arr S100000x256} (hx : AllFin x) (q : Fin 256) :
    IsFin (Ideal.rsqrt (varRef x q + Ideal.ofBits .f32 0x3727C5AC#32)) :=
  LibBatchVar.rsqrt_add_isFin (varRef_isNonneg hx q) eps_isPos

theorem scaleKer_isFin {x : Arr S100000x256} (hx : AllFin x) (q : Fin 256) :
    IsFin (Ideal.rsqrt (varKer x q + Ideal.ofBits .f32 0x3727C5AC#32)) :=
  LibBatchVar.rsqrt_add_isFin (varKer_isNonneg hx q) eps_isPos

/-- THE LAW: on an array of finite entries the two batch normalisations are one array. -/
theorem bnKer_eq_bnRef {x : Arr S100000x256} (hx : AllFin x) (γ β : Arr S256) : bnKer x γ β = bnRef x γ β := by
  have h : varKer x = varRef x := funext fun q => varKer_eq_varRef hx q
  unfold bnKer bnRef
  rw [h]

/-- Batch normalisation of finite entries with finite scale and shift has finite entries. -/
theorem bnRef_allFin {x : Arr S100000x256} {γ β : Arr S256} (hx : AllFin x) (hγ : AllFin γ) (hβ : AllFin β) :
    AllFin (bnRef x γ β) :=
  fun j => (((((hx j).sub (mean_isFin hx _)).mul (scaleRef_isFin hx _)).mul (hγ _)).add (hβ _)).max_zero

theorem bnKer_allFin {x : Arr S100000x256} {γ β : Arr S256} (hx : AllFin x) (hγ : AllFin γ) (hβ : AllFin β) :
    AllFin (bnKer x γ β) := by
  rw [bnKer_eq_bnRef hx]; exact bnRef_allFin hx hγ hβ

end Cert.Spec

end
-- ==== Proof.KI.LinGlue.lean ====
import proofs.«166096_j40321152975189_1_alg».proof.Proof.KI.LinearVal0
import proofs.«166096_j40321152975189_1_alg».proof.Proof.KI.LinearVal3
import proofs.«166096_j40321152975189_1_alg».proof.Proof.KI.LinearVal6
import proofs.«166096_j40321152975189_1_alg».proof.Proof.KI.LinearVal7
import proofs.«166096_j40321152975189_1_alg».proof.Proof.Spec
import proofs.«166096_j40321152975189_1_alg».proof.Proof.Gen.KernelIdeal.Regions
import Idealize.ShloMosaic.Lib.StableHlo.Run
import Idealize.ShloMosaic.Lib.ValueLayout
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.Sem
open Idealize.ShloMosaic.ValueIdx
open scoped BigOperators

/-! # The four linear regions as the layers of the specification

Each linear region runs right after a short stretch of host operations which transposes the layer's weight and lays
the bias out as a `[1, n]` row (for the first two layers the bias is a row of zeros). Reading those operations at an
index — a transpose at `(k, q)` is the operand at `(q, k)`, the row at `(0, q)` is the vector at `q` — turns the
region's value into the specification's layer of the arrays as they were BEFORE the stretch. -/

/-- A `[256]` vector of the zero word laid out as a `[1, 256]` row reads zero. -/
theorem zeroRow256_apply (q : Fin 256) :
    shapeCast S1x256 (broadcastInDim S256 ![] bcast_S_S256 (constant (F := Ideal) S_ .f32 0x00000000#32)) shapeCasts_S256_S1x256
      (ix2 (0 : Fin 1) q) = 0 :=
  (shapeCast_a_1a_apply _ _ 0 q).trans Ideal.ofBits_zero_f32

/-- Region 0 is entered after a stretch of host operations that leaves the activations alone and writes the weight transposed and a bias row of zeros: the layer is the product with the untransposed weight read across, `x · Wᵀ`, and the zero bias adds nothing. For any contents `W` at the start of the stretch. -/
theorem region0_spec (W : Valuation τ sig (Elt Ideal)) :
    lin0 (StableHlo.after hostOps0_2 W (Proc.devRef .tc main_arg0)) (StableHlo.after hostOps0_2 W (Proc.devRef .tc main_v30)) (StableHlo.after hostOps0_2 W (Proc.devRef .tc main_v32))
      = Cert.Spec.mm128 (W (Proc.devRef .tc main_arg0)) (W (Proc.devRef .tc main_arg2)) := by
  have hx : StableHlo.after hostOps0_2 W (Proc.devRef .tc main_arg0) = W (Proc.devRef .tc main_arg0) :=
    StableHlo.after_of_writes_sub hostOps0_2 W hostOps0_2_writes (by decide)
  have hw : StableHlo.after hostOps0_2 W (Proc.devRef .tc main_v30)
      = transpose S128x256 [1, 0] (W (Proc.devRef .tc main_arg2)) transposes_S256x128_S128x256_1_0 := by
    after_results
  have hb : StableHlo.after hostOps0_2 W (Proc.devRef .tc main_v32)
      = shapeCast S1x256 (broadcastInDim S256 ![] bcast_S_S256 (constant (F := Ideal) S_ .f32 0x00000000#32)) shapeCasts_S256_S1x256 := by
    after_results; rfl
  rw [hx, hw, hb]
  funext j
  obtain ⟨p, q, rfl⟩ : ∃ (p : Fin 100000) (q : Fin 256), j = ix2 p q := ⟨j 0, j 1, eq_ix2 j⟩
  show lin0At _ _ _ p q = Cert.Spec.mm128 _ _ (ix2 p q)
  rw [Cert.Spec.mm128_apply]
  unfold lin0At
  refine (congrArg₂ (· + ·) ?_ (zeroRow256_apply q)).trans (add_zero _)
  exact Finset.sum_congr rfl fun k _ => congrArg₂ (· * ·) rfl (transpose_ix2_apply _ _ k q)

/-- Region 3 is entered after a stretch of host operations that leaves the activations alone and writes the weight transposed and a bias row of zeros: the layer is the product with the untransposed weight read across, `x · Wᵀ`, and the zero bias adds nothing. For any contents `W` at the start of the stretch. -/
theorem region3_spec (W : Valuation τ sig (Elt Ideal)) :
    lin3 (StableHlo.after hostOps3 W (Proc.devRef .tc main_v53)) (StableHlo.after hostOps3 W (Proc.devRef .tc main_v54)) (StableHlo.after hostOps3 W (Proc.devRef .tc main_v56))
      = Cert.Spec.mm256 (W (Proc.devRef .tc main_v53)) (W (Proc.devRef .tc main_arg4)) := by
  have hx : StableHlo.after hostOps3 W (Proc.devRef .tc main_v53) = W (Proc.devRef .tc main_v53) :=
    StableHlo.after_of_writes_sub hostOps3 W hostOps3_writes (by decide)
  have hw : StableHlo.after hostOps3 W (Proc.devRef .tc main_v54)
      = transpose S256x256 [1, 0] (W (Proc.devRef .tc main_arg4)) transposes_S256x256_S256x256_1_0 := by
    after_results
  have hb : StableHlo.after hostOps3 W (Proc.devRef .tc main_v56)
      = shapeCast S1x256 (broadcastInDim S256 ![] bcast_S_S256 (constant (F := Ideal) S_ .f32 0x00000000#32)) shapeCasts_S256_S1x256 := by
    after_results; rfl
  rw [hx, hw, hb]
  funext j
  obtain ⟨p, q, rfl⟩ : ∃ (p : Fin 100000) (q : Fin 256), j = ix2 p q := ⟨j 0, j 1, eq_ix2 j⟩
  show lin3At _ _ _ p q = Cert.Spec.mm256 _ _ (ix2 p q)
  rw [Cert.Spec.mm256_apply]
  unfold lin3At
  refine (congrArg₂ (· + ·) ?_ (zeroRow256_apply q)).trans (add_zero _)
  exact Finset.sum_congr rfl fun k _ => congrArg₂ (· * ·) rfl (transpose_ix2_apply _ _ k q)

/-- Region 6 is entered after a stretch of host operations that leaves the activations alone and writes the weight transposed and the bias laid out as a row: the layer is `max (x · Wᵀ + b) 0`. For any contents `W` at the start of the stretch. -/
theorem region6_spec (W : Valuation τ sig (Elt Ideal)) :
    lin6 (StableHlo.after hostOps6 W (Proc.devRef .tc main_v77)) (StableHlo.after hostOps6 W (Proc.devRef .tc main_v78)) (StableHlo.after hostOps6 W (Proc.devRef .tc main_v79))
      = Cert.Spec.relu (Cert.Spec.lin256 (W (Proc.devRef .tc main_v77)) (W (Proc.devRef .tc main_arg10)) (W (Proc.devRef .tc main_arg11))) := by
  have hx : StableHlo.after hostOps6 W (Proc.devRef .tc main_v77) = W (Proc.devRef .tc main_v77) :=
    StableHlo.after_of_writes_sub hostOps6 W hostOps6_writes (by decide)
  have hw : StableHlo.after hostOps6 W (Proc.devRef .tc main_v78)
      = transpose S256x256 [1, 0] (W (Proc.devRef .tc main_arg10)) transposes_S256x256_S256x256_1_0 := by
    after_results
  have hb : StableHlo.after hostOps6 W (Proc.devRef .tc main_v79)
      = shapeCast S1x256 (W (Proc.devRef .tc main_arg11)) shapeCasts_S256_S1x256 := by
    after_results; rfl
  rw [hx, hw, hb]
  funext j
  obtain ⟨p, q, rfl⟩ : ∃ (p : Fin 100000) (q : Fin 256), j = ix2 p q := ⟨j 0, j 1, eq_ix2 j⟩
  show lin6At _ _ _ p q = max (Cert.Spec.lin256 _ _ _ (ix2 p q)) 0
  rw [Cert.Spec.lin256_apply]
  unfold lin6At
  exact congrArg₂ max (congrArg₂ (· + ·) (Finset.sum_congr rfl fun k _ => congrArg₂ (· * ·) rfl (transpose_ix2_apply _ _ k q))
    (shapeCast_a_1a_apply _ _ 0 q)) rfl

/-- Region 7 is entered after a stretch of host operations that leaves the activations alone and writes the weight transposed and the bias laid out as a row: the layer is `x · Wᵀ + b`. For any contents `W` at the start of the stretch. -/
theorem region7_spec (W : Valuation τ sig (Elt Ideal)) :
    lin7 (StableHlo.after hostOps7 W (Proc.devRef .tc main_v80)) (StableHlo.after hostOps7 W (Proc.devRef .tc main_v81)) (StableHlo.after hostOps7 W (Proc.devRef .tc main_v82))
      = Cert.Spec.lin64 (W (Proc.devRef .tc main_v80)) (W (Proc.devRef .tc main_arg12)) (W (Proc.devRef .tc main_arg13)) := by
  have hx : StableHlo.after hostOps7 W (Proc.devRef .tc main_v80) = W (Proc.devRef .tc main_v80) :=
    StableHlo.after_of_writes_sub hostOps7 W hostOps7_writes (by decide)
  have hw : StableHlo.after hostOps7 W (Proc.devRef .tc main_v81)
      = transpose S256x64 [1, 0] (W (Proc.devRef .tc main_arg12)) transposes_S64x256_S256x64_1_0 := by
    after_results
  have hb : StableHlo.after hostOps7 W (Proc.devRef .tc main_v82)
      = shapeCast S1x64 (W (Proc.devRef .tc main_arg13)) shapeCasts_S64_S1x64 := by
    after_results; rfl
  rw [hx, hw, hb]
  funext j
  obtain ⟨p, q, rfl⟩ : ∃ (p : Fin 100000) (q : Fin 64), j = ix2 p q := ⟨j 0, j 1, eq_ix2 j⟩
  show lin7At _ _ _ p q = Cert.Spec.lin64 _ _ _ (ix2 p q)
  rw [Cert.Spec.lin64_apply]
  unfold lin7At
  exact congrArg₂ (· + ·) (Finset.sum_congr rfl fun k _ => congrArg₂ (· * ·) rfl (transpose_ix2_apply _ _ k q))
    (shapeCast_a_1a_apply _ _ 0 q)

end Cert.KernelIdeal.Hand
-- ==== Proof.Agg.lean ====
/-
  The neighbourhood aggregation between the dense layers, carried as named functions.

  Both programs turn the edge list into the same symmetric normalisation and apply the same aggregation to each
  layer's features.  From the `[2, 800000]` edge list: the source and destination endpoints, each followed by the
  100000 self-loops (`srcR`, `dstR`); the degree of a node, the number of edges arriving at it, as a scatter that adds
  ones onto zeros (`degR`); its inverse square root where the degree is positive and zero elsewhere (`dinvR`); and the
  weight of an edge, the product of that quantity at its two endpoints (`normR`).  The aggregation of a feature array
  `h` (`aggR`): gather the source rows, scale each by its edge weight, add the rows arriving at each destination onto
  zeros, and add the bias along the rows.

  Every entry these produce is finite when the features, weights and bias are: a degree is a count, a nonnegative
  real; the guarded inverse square root of a nonnegative real is finite (the guard keeps the value at degree zero,
  `+∞`, out); an entry of a gather is an entry of its operand; a scatter that adds gives each operand entry plus a
  finite sum of updates.

  The second program spells the same chains with dimension-number records of its own, equal to the first's field by
  field, so its chains are the same functions.
-/
import proofs.«166096_j40321152975189_1_alg».proof.ReferenceIdeal
import proofs.«166096_j40321152975189_1_alg».proof.KernelIdeal
import proofs.«166096_j40321152975189_1_alg».proof.Proof.Spec

noncomputable section

open Idealize.ShloMosaic Cert.LibStats

namespace Cert.Agg

/-! ## Two constants and two readings -/

/-- The pattern of `1.0` denotes `1`. -/
theorem ofBits_one : Ideal.ofBits .f32 0x3F800000#32 = 1 := by
  simp [Ideal.ofBits, Ideal.ieee, -EReal.coe_mul]; norm_num

/-- The pattern of `+0.0` denotes `0`. -/
theorem ofBits_zero : Ideal.ofBits .f32 0x00000000#32 = 0 := by
  simp [Ideal.ofBits, Ideal.ieee]

/-- A comparison "greater than" that answers `1` holds. -/
theorem lt_of_cmp_ogt {x y : EReal} (h : Ideal.cmp .ogt x y = 1#1) : y < x := by
  unfold Ideal.cmp at h
  by_contra hn
  simp [hn] at h

/-! ## The array operations read at an index, for arbitrary operands

Stated for arbitrary arrays, these hold by unfolding the operations' definitions; the chains below are rewritten
with them, so that no constant's pattern is ever unfolded into a real number by a definitional check. -/

section Generic

variable {s t : Shape} {φ : FTy}

/-- A broadcast scalar constant reads, everywhere, as the extended real its pattern denotes. -/
theorem bcast_const_apply (h : Cert.ReferenceIdeal.S_.BroadcastsInDim t (![] : Fin 0 → Fin t.rank)) (b : BitVec 32) (j : t.Idx) :
    broadcastInDim t ![] h (constant (F := Ideal) Cert.ReferenceIdeal.S_ .f32 b) j = Ideal.ofBits .f32 b := rfl

/-- Every entry of a broadcast array is an entry of its operand. -/
theorem bcast_all {α : Type} {P : α → Prop} {dims : Fin s.rank → Fin t.rank} (h : s.BroadcastsInDim t dims) {x : s.Idx → α}
    (hx : ∀ i, P (x i)) (j : t.Idx) : P (broadcastInDim t dims h x j) := hx _

/-- Every entry of a gather is an entry of its operand. -/
theorem gather_all {α : Type} {P : α → Prop} {si : Shape} {w : Nat} (d : GatherDims s si t) {x : s.Idx → α}
    (hx : ∀ i, P (x i)) (idx : IVec si w) (j : t.Idx) : P (Host.gather d x idx j) := hx _

/-- A product of arrays with finite entries has finite entries. -/
theorem mulf_isFin {a b : FVec Ideal s φ} (ha : ∀ i, IsFin (a i)) (hb : ∀ i, IsFin (b i)) (i : s.Idx) :
    IsFin (mulf a b i) := (ha i).mul (hb i)

/-- A sum of arrays with finite entries has finite entries. -/
theorem addf_isFin {a b : FVec Ideal s φ} (ha : ∀ i, IsFin (a i)) (hb : ∀ i, IsFin (b i)) (i : s.Idx) :
    IsFin (addf a b i) := (ha i).add (hb i)

/-- A scatter that adds nonnegative updates onto nonnegative entries has nonnegative entries. -/
theorem scatterAdd_isNonneg {si u : Shape} {w : Nat} (d : ScatterDims s si u) {x : FVec Ideal s φ} (idx : IVec si w)
    {upd : FVec Ideal u φ} (hx : ∀ i, IsNonneg (x i)) (hu : ∀ j, IsNonneg (upd j)) (i : s.Idx) :
    IsNonneg (Host.scatterAdd (F := Ideal) d x idx upd i) :=
  LibFinite.hostScatterAdd_isNonneg d x idx upd hx hu i

/-- A scatter that adds finite updates onto finite entries has finite entries. -/
theorem scatterAdd_isFin {si u : Shape} {w : Nat} (d : ScatterDims s si u) {x : FVec Ideal s φ} (idx : IVec si w)
    {upd : FVec Ideal u φ} (hx : ∀ i, IsFin (x i)) (hu : ∀ j, IsFin (upd j)) (i : s.Idx) :
    IsFin (Host.scatterAdd (F := Ideal) d x idx upd i) :=
  LibFinite.hostScatterAdd_isFin d x idx upd hx hu i

/-- The guarded inverse square root — `rsqrt` where the entry exceeds the zero it is compared with, that zero
    elsewhere — of nonnegative reals is finite: the guard keeps `rsqrt 0 = +∞` out. -/
theorem guarded_rsqrt_isFin {deg z : FVec Ideal s φ} (hdeg : ∀ i, IsNonneg (deg i)) (hz : ∀ i, z i = 0) (i : s.Idx) :
    IsFin (select (cmpf .ogt deg z) (Host.rsqrt (F := Ideal) deg) z i) := by
  show IsFin (if Ideal.cmp .ogt (deg i) (z i) = 1#1 then Ideal.rsqrt (deg i) else z i)
  rw [hz i]
  split
  · next hc => exact (hdeg i).isFin.rsqrt_of_pos (lt_of_cmp_ogt hc)
  · exact IsFin.zero

end Generic

section Reference

open Cert.ReferenceIdeal Cert.ReferenceIdeal.Facts₀

variable [Cert.ReferenceIdeal.Facts₀]

/-! ## The chains, with the first program's records -/

/-- The source endpoint of every edge, then the self-loops `0, 1, …, 99999`. -/
def srcR (ei : IVec S2x800000 32) : IVec S900000 32 :=
  concatenate S900000 0
    [⟨S800000, shapeCast S800000 (extractStridedSlice S1x800000 ![0, 0] ei slices_S2x800000_S1x800000_0_0)
        shapeCasts_S1x800000_S800000⟩,
      ⟨S100000, iotaInDim S100000 32 0⟩] concatenates_S800000_S100000_S900000_d0

/-- The destination endpoint of every edge, then the self-loops. -/
def dstR (ei : IVec S2x800000 32) : IVec S900000 32 :=
  concatenate S900000 0
    [⟨S800000, shapeCast S800000 (extractStridedSlice S1x800000 ![1, 0] ei slices_S2x800000_S1x800000_1_0)
        shapeCasts_S1x800000_S800000⟩,
      ⟨S100000, iotaInDim S100000 32 0⟩] concatenates_S800000_S100000_S900000_d0

/-- An index list as a column of start indices. -/
def colR (v : IVec S900000 32) : IVec S900000x1 32 := broadcastInDim S900000x1 ![0] bcast_S900000_S900000x1_0 v

/-- A negative index counted from the end: `v + 100000` where `v < 0`, else `v`. -/
def wrapR (v : IVec S900000 32) : IVec S900000 32 :=
  select (cmpi .slt v (broadcastInDim S900000 ![] bcast_S_S900000 (constantI S_ 32 0#32)))
    (addi v (broadcastInDim S900000 ![] bcast_S_S900000 (constantI S_ 32 100000#32))) v

/-- The degree of each node: ones added, at the destinations, onto zeros. -/
def degR (ei : IVec S2x800000 32) : FVec Ideal S100000 .f32 :=
  Host.scatterAdd (F := Ideal) scatter_S100000_S900000x1_S900000_n_0_0_1
    (broadcastInDim S100000 ![] bcast_S_S100000 (constant (F := Ideal) S_ .f32 0x00000000#32))
    (colR (dstR ei))
    (broadcastInDim S900000 ![] bcast_S_S900000 (constant (F := Ideal) S_ .f32 0x3F800000#32))

/-- The inverse square root of the degree where it is positive, zero elsewhere. -/
def dinvR (ei : IVec S2x800000 32) : FVec Ideal S100000 .f32 :=
  select
    (cmpf .ogt (degR ei) (broadcastInDim S100000 ![] bcast_S_S100000 (constant (F := Ideal) S_ .f32 0x00000000#32)))
    (Host.rsqrt (F := Ideal) (degR ei))
    (broadcastInDim S100000 ![] bcast_S_S100000 (constant (F := Ideal) S_ .f32 0x00000000#32))

/-- The weight of each edge: the guarded inverse square root of the degree at its source times that at its
    destination. -/
def normR (ei : IVec S2x800000 32) : FVec Ideal S900000 .f32 :=
  mulf (F := Ideal)
    (Host.gather gather_S100000_S900000x1_S900000_n_0_n_n_0_1_1 (dinvR ei) (colR (wrapR (srcR ei))))
    (Host.gather gather_S100000_S900000x1_S900000_n_0_n_n_0_1_1 (dinvR ei) (colR (wrapR (dstR ei))))

/-- The aggregation of a feature array: the source rows, each scaled by its edge weight, added at the destinations
    onto zeros, plus the bias along the rows. -/
def aggR (h : FVec Ideal S100000x256 .f32) (ei : IVec S2x800000 32) (nrm : FVec Ideal S900000 .f32)
    (b : FVec Ideal S256 .f32) : FVec Ideal S100000x256 .f32 :=
  addf (F := Ideal)
    (Host.scatterAdd (F := Ideal) scatter_S100000x256_S900000x1_S900000x256_1_0_0_1
      (broadcastInDim S100000x256 ![] bcast_S_S100000x256 (constant (F := Ideal) S_ .f32 0x00000000#32))
      (colR (dstR ei))
      (mulf (F := Ideal)
        (Host.gather gather_S100000x256_S900000x1_S900000x256_1_0_n_n_0_1_1256 h (colR (wrapR (srcR ei))))
        (broadcastInDim S900000x256 ![0, 1] bcast_S900000x1_S900000x256_0_1
          (broadcastInDim S900000x1 ![0] bcast_S900000_S900000x1_0 nrm))))
    (broadcastInDim S100000x256 ![0, 1] bcast_S1x256_S100000x256_0_1 (broadcastInDim S1x256 ![1] bcast_S256_S1x256_1 b))

/-! ## Finiteness -/

/-- The zeros and ones the chains start from. -/
theorem zeros_apply {t : Shape} (h : S_.BroadcastsInDim t (![] : Fin 0 → Fin t.rank)) (j : t.Idx) :
    broadcastInDim t ![] h (constant (F := Ideal) S_ .f32 0x00000000#32) j = 0 := by
  rw [bcast_const_apply, ofBits_zero]

theorem ones_apply {t : Shape} (h : S_.BroadcastsInDim t (![] : Fin 0 → Fin t.rank)) (j : t.Idx) :
    broadcastInDim t ![] h (constant (F := Ideal) S_ .f32 0x3F800000#32) j = 1 := by
  rw [bcast_const_apply, ofBits_one]

/-- A degree is a nonnegative real: a count of ones onto zero. -/
theorem degR_isNonneg (ei : IVec S2x800000 32) (i : S100000.Idx) : IsNonneg (degR ei i) := by
  unfold degR
  refine scatterAdd_isNonneg _ _ (fun j => ?_) (fun j => ?_) i
  · rw [zeros_apply]; exact IsNonneg.zero
  · rw [ones_apply]; exact IsNonneg.one

/-- The guarded inverse square root of a degree is finite. -/
theorem dinvR_isFin (ei : IVec S2x800000 32) (i : S100000.Idx) : IsFin (dinvR ei i) := by
  unfold dinvR
  exact guarded_rsqrt_isFin (degR_isNonneg ei) (fun j => zeros_apply _ j) i

/-- Every edge weight is finite. -/
theorem normR_allFin (ei : IVec S2x800000 32) : ∀ e, IsFin (normR ei e) := by
  intro e
  unfold normR
  exact mulf_isFin (gather_all _ (dinvR_isFin ei) _) (gather_all _ (dinvR_isFin ei) _) e

/-- The aggregation of finite features with finite edge weights and a finite bias is finite. -/
theorem aggR_allFin {h : FVec Ideal S100000x256 .f32} (ei : IVec S2x800000 32) {nrm : FVec Ideal S900000 .f32}
    {b : FVec Ideal S256 .f32} (hh : ∀ j, IsFin (h j)) (hn : ∀ e, IsFin (nrm e)) (hb : ∀ q, IsFin (b q)) :
    ∀ j, IsFin (aggR h ei nrm b j) := by
  intro j
  unfold aggR
  refine addf_isFin (scatterAdd_isFin _ _ (fun i => ?_) ?_) (bcast_all _ (bcast_all _ hb)) j
  · rw [zeros_apply]; exact IsFin.zero
  · exact mulf_isFin (gather_all _ hh _) (bcast_all _ (bcast_all _ hn))

end Reference

section Kernel

open Cert.KernelIdeal Cert.KernelIdeal.Facts₀

variable [Cert.KernelIdeal.Facts₀]

/-! ## The same chains, with the second program's records -/

/-- The source endpoint of every edge, then the self-loops `0, 1, …, 99999`. -/
def srcK (ei : IVec S2x800000 32) : IVec S900000 32 :=
  concatenate S900000 0
    [⟨S800000, shapeCast S800000 (extractStridedSlice S1x800000 ![0, 0] ei slices_S2x800000_S1x800000_0_0)
        shapeCasts_S1x800000_S800000⟩,
      ⟨S100000, iotaInDim S100000 32 0⟩] concatenates_S800000_S100000_S900000_d0

/-- The destination endpoint of every edge, then the self-loops. -/
def dstK (ei : IVec S2x800000 32) : IVec S900000 32 :=
  concatenate S900000 0
    [⟨S800000, shapeCast S800000 (extractStridedSlice S1x800000 ![1, 0] ei slices_S2x800000_S1x800000_1_0)
        shapeCasts_S1x800000_S800000⟩,
      ⟨S100000, iotaInDim S100000 32 0⟩] concatenates_S800000_S100000_S900000_d0

/-- An index list as a column of start indices. -/
def colK (v : IVec S900000 32) : IVec S900000x1 32 := broadcastInDim S900000x1 ![0] bcast_S900000_S900000x1_0 v

/-- A negative index counted from the end: `v + 100000` where `v < 0`, else `v`. -/
def wrapK (v : IVec S900000 32) : IVec S900000 32 :=
  select (cmpi .slt v (broadcastInDim S900000 ![] bcast_S_S900000 (constantI S_ 32 0#32)))
    (addi v (broadcastInDim S900000 ![] bcast_S_S900000 (constantI S_ 32 100000#32))) v

/-- The degree of each node: ones added, at the destinations, onto zeros. -/
def degK (ei : IVec S2x800000 32) : FVec Ideal S100000 .f32 :=
  Host.scatterAdd (F := Ideal) scatter_S100000_S900000x1_S900000_n_0_0_1
    (broadcastInDim S100000 ![] bcast_S_S100000 (constant (F := Ideal) S_ .f32 0x00000000#32))
    (colK (dstK ei))
    (broadcastInDim S900000 ![] bcast_S_S900000 (constant (F := Ideal) S_ .f32 0x3F800000#32))

/-- The inverse square root of the degree where it is positive, zero elsewhere. -/
def dinvK (ei : IVec S2x800000 32) : FVec Ideal S100000 .f32 :=
  select
    (cmpf .ogt (degK ei) (broadcastInDim S100000 ![] bcast_S_S100000 (constant (F := Ideal) S_ .f32 0x00000000#32)))
    (Host.rsqrt (F := Ideal) (degK ei))
    (broadcastInDim S100000 ![] bcast_S_S100000 (constant (F := Ideal) S_ .f32 0x00000000#32))

/-- The weight of each edge: the guarded inverse square root of the degree at its source times that at its
    destination. -/
def normK (ei : IVec S2x800000 32) : FVec Ideal S900000 .f32 :=
  mulf (F := Ideal)
    (Host.gather gather_S100000_S900000x1_S900000_n_0_n_n_0_1_1 (dinvK ei) (colK (wrapK (srcK ei))))
    (Host.gather gather_S100000_S900000x1_S900000_n_0_n_n_0_1_1 (dinvK ei) (colK (wrapK (dstK ei))))

/-- The aggregation of a feature array: the source rows, each scaled by its edge weight, added at the destinations
    onto zeros, plus the bias along the rows. -/
def aggK (h : FVec Ideal S100000x256 .f32) (ei : IVec S2x800000 32) (nrm : FVec Ideal S900000 .f32)
    (b : FVec Ideal S256 .f32) : FVec Ideal S100000x256 .f32 :=
  addf (F := Ideal)
    (Host.scatterAdd (F := Ideal) scatter_S100000x256_S900000x1_S900000x256_1_0_0_1
      (broadcastInDim S100000x256 ![] bcast_S_S100000x256 (constant (F := Ideal) S_ .f32 0x00000000#32))
      (colK (dstK ei))
      (mulf (F := Ideal)
        (Host.gather gather_S100000x256_S900000x1_S900000x256_1_0_n_n_0_1_1256 h (colK (wrapK (srcK ei))))
        (broadcastInDim S900000x256 ![0, 1] bcast_S900000x1_S900000x256_0_1
          (broadcastInDim S900000x1 ![0] bcast_S900000_S900000x1_0 nrm))))
    (broadcastInDim S100000x256 ![0, 1] bcast_S1x256_S100000x256_0_1 (broadcastInDim S1x256 ![1] bcast_S256_S1x256_1 b))

end Kernel

/-! ## The two spellings are the same functions

The dimension-number records of the two programs have the same fields (their well-formedness proofs are proofs of
the same propositions), and the shape facts the layout operations cite are propositions: the chains agree by
unfolding. -/

section Same

variable [Cert.KernelIdeal.Facts₀] [Cert.ReferenceIdeal.Facts₀]

theorem scatter_deg_eq : Cert.KernelIdeal.scatter_S100000_S900000x1_S900000_n_0_0_1
    = Cert.ReferenceIdeal.scatter_S100000_S900000x1_S900000_n_0_0_1 := rfl

theorem gather_vec_eq : Cert.KernelIdeal.gather_S100000_S900000x1_S900000_n_0_n_n_0_1_1
    = Cert.ReferenceIdeal.gather_S100000_S900000x1_S900000_n_0_n_n_0_1_1 := rfl

theorem gather_rows_eq : Cert.KernelIdeal.gather_S100000x256_S900000x1_S900000x256_1_0_n_n_0_1_1256
    = Cert.ReferenceIdeal.gather_S100000x256_S900000x1_S900000x256_1_0_n_n_0_1_1256 := rfl

theorem scatter_rows_eq : Cert.KernelIdeal.scatter_S100000x256_S900000x1_S900000x256_1_0_0_1
    = Cert.ReferenceIdeal.scatter_S100000x256_S900000x1_S900000x256_1_0_0_1 := rfl

theorem srcK_eq (ei : IVec Cert.ReferenceIdeal.S2x800000 32) : srcK ei = srcR ei := rfl
theorem dstK_eq (ei : IVec Cert.ReferenceIdeal.S2x800000 32) : dstK ei = dstR ei := rfl
theorem colK_eq (v : IVec Cert.ReferenceIdeal.S900000 32) : colK v = colR v := rfl
theorem wrapK_eq (v : IVec Cert.ReferenceIdeal.S900000 32) : wrapK v = wrapR v := rfl

theorem degK_eq (ei : IVec Cert.ReferenceIdeal.S2x800000 32) : degK ei = degR ei := by
  unfold degK degR
  rw [scatter_deg_eq, dstK_eq] <;> rfl

theorem dinvK_eq (ei : IVec Cert.ReferenceIdeal.S2x800000 32) : dinvK ei = dinvR ei := by
  unfold dinvK dinvR
  rw [degK_eq] <;> rfl

theorem normK_eq (ei : IVec Cert.ReferenceIdeal.S2x800000 32) : normK ei = normR ei := by
  unfold normK normR
  rw [gather_vec_eq, dinvK_eq, srcK_eq, dstK_eq] <;> rfl

theorem aggK_eq (h : FVec Ideal Cert.ReferenceIdeal.S100000x256 .f32) (ei : IVec Cert.ReferenceIdeal.S2x800000 32)
    (nrm : FVec Ideal Cert.ReferenceIdeal.S900000 .f32) (b : FVec Ideal Cert.ReferenceIdeal.S256 .f32) :
    aggK h ei nrm b = aggR h ei nrm b := by
  unfold aggK aggR
  rw [scatter_rows_eq, gather_rows_eq, srcK_eq, dstK_eq] <;> rfl

end Same

end Cert.Agg

end
-- ==== Proof.KI.HostChain.lean ====
/-
  The host operations between the kernel regions, read at a generic starting valuation.

  The first three stretches of @main turn the edge list into the endpoints with self-loops, the degrees, their
  guarded inverse square roots and the edge weights; the stretch after each graph layer's dense region gathers the
  source rows of the region's output, scales them by the edge weights, adds the rows arriving at each node onto
  zeros and adds the bias; and it lays the two batch-norm parameter vectors out as rows. Each buffer a stretch writes
  is the named chain of the buffers the stretch starts from; a buffer it does not write is unchanged.
-/
import proofs.«166096_j40321152975189_1_alg».proof.Proof.Gen.KernelIdeal.Launch
import proofs.«166096_j40321152975189_1_alg».proof.Proof.Gen.KernelIdeal.Regions
import proofs.«166096_j40321152975189_1_alg».proof.Proof.Agg
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.ShloMosaic.StableHlo
open Cert.Agg

variable (W : Valuation τ sig (Elt Ideal))

/-! ## The first stretch: endpoints, degrees -/

set_option maxHeartbeats 4000000 in
theorem s0_src : StableHlo.after hostOps0 W (Proc.devRef .tc main_v3) = srcK (W (Proc.devRef .tc main_arg1)) := by
  after_results_simp <;> rfl
set_option maxHeartbeats 4000000 in
theorem s0_dst : StableHlo.after hostOps0 W (Proc.devRef .tc main_v6) = dstK (W (Proc.devRef .tc main_arg1)) := by
  after_results_simp <;> rfl

set_option maxHeartbeats 4000000 in
theorem s0_mask : StableHlo.after hostOps0 W (Proc.devRef .tc main_v12)
    = cmpf .ogt (degK (W (Proc.devRef .tc main_arg1))) (broadcastInDim S100000 ![] bcast_S_S100000 (constant (F := Ideal) S_ .f32 0x00000000#32)) := by
  after_results_simp <;> rfl
set_option maxHeartbeats 4000000 in
theorem s0_rsq : StableHlo.after hostOps0 W (Proc.devRef .tc main_v13) = Host.rsqrt (F := Ideal) (degK (W (Proc.devRef .tc main_arg1))) := by
  after_results_simp <;> rfl
set_option maxHeartbeats 4000000 in
theorem s0_zero : StableHlo.after hostOps0 W (Proc.devRef .tc main_cst_2) = constant (F := Ideal) S_ .f32 0x00000000#32 := by
  after_results_simp <;> rfl

/-! ## The second stretch: the guarded inverse square root -/

set_option maxHeartbeats 4000000 in
theorem s1_dinv : StableHlo.after hostOps0_1 W (Proc.devRef .tc main_v14)
    = select (W (Proc.devRef .tc main_v12)) (W (Proc.devRef .tc main_v13)) (broadcastInDim S100000 ![] bcast_S_S100000 (W (Proc.devRef .tc main_cst_2))) := by
  after_results_simp <;> rfl

/-! ## The third stretch: the edge weights -/

set_option maxHeartbeats 4000000 in
theorem s2_norm : StableHlo.after hostOps0_2 W (Proc.devRef .tc main_v29)
    = mulf (F := Ideal) (φ := .f32) (Host.gather gather_S100000_S900000x1_S900000_n_0_n_n_0_1_1 (W (Proc.devRef .tc main_v14) : FVec Ideal S100000 .f32) (colK (wrapK (W (Proc.devRef .tc main_v3)))))
        (Host.gather gather_S100000_S900000x1_S900000_n_0_n_n_0_1_1 (W (Proc.devRef .tc main_v14) : FVec Ideal S100000 .f32) (colK (wrapK (W (Proc.devRef .tc main_v6))))) := by
  after_results_simp <;> rfl

/-- From the launch contents through the first three stretches: the endpoints and the edge weights are the named
    chains of the edge list. -/
theorem norm_chain :
    StableHlo.after hostOps0_2 (StableHlo.after hostOps0_1 (StableHlo.after hostOps0 W)) (Proc.devRef .tc main_v29) = normK (W (Proc.devRef .tc main_arg1))
    ∧ StableHlo.after hostOps0_2 (StableHlo.after hostOps0_1 (StableHlo.after hostOps0 W)) (Proc.devRef .tc main_v3) = srcK (W (Proc.devRef .tc main_arg1))
    ∧ StableHlo.after hostOps0_2 (StableHlo.after hostOps0_1 (StableHlo.after hostOps0 W)) (Proc.devRef .tc main_v6) = dstK (W (Proc.devRef .tc main_arg1)) := by
  have k3 : ∀ V : Valuation τ sig (Elt Ideal), StableHlo.after hostOps0_2 (StableHlo.after hostOps0_1 V) (Proc.devRef .tc main_v3) = V (Proc.devRef .tc main_v3) := fun V =>
    (StableHlo.after_of_writes_sub hostOps0_2 _ hostOps0_2_writes (by decide)).trans (StableHlo.after_of_writes_sub hostOps0_1 _ hostOps0_1_writes (by decide))
  have k6 : ∀ V : Valuation τ sig (Elt Ideal), StableHlo.after hostOps0_2 (StableHlo.after hostOps0_1 V) (Proc.devRef .tc main_v6) = V (Proc.devRef .tc main_v6) := fun V =>
    (StableHlo.after_of_writes_sub hostOps0_2 _ hostOps0_2_writes (by decide)).trans (StableHlo.after_of_writes_sub hostOps0_1 _ hostOps0_1_writes (by decide))
  refine ⟨?_, (k3 _).trans (s0_src W), (k6 _).trans (s0_dst W)⟩
  rw [s2_norm, s1_dinv,
    show StableHlo.after hostOps0_1 (StableHlo.after hostOps0 W) (Proc.devRef .tc main_v3) = StableHlo.after hostOps0 W (Proc.devRef .tc main_v3)
      from StableHlo.after_of_writes_sub hostOps0_1 _ hostOps0_1_writes (by decide),
    show StableHlo.after hostOps0_1 (StableHlo.after hostOps0 W) (Proc.devRef .tc main_v6) = StableHlo.after hostOps0 W (Proc.devRef .tc main_v6)
      from StableHlo.after_of_writes_sub hostOps0_1 _ hostOps0_1_writes (by decide),
    s0_mask, s0_rsq, s0_zero, s0_src, s0_dst]
  rfl

/-! ## After a graph layer's dense region: gather, scale, add up, add the bias -/

/-- The aggregation with the endpoints given. -/
def aggK' (h : FVec Ideal S100000x256 .f32) (src dst : IVec S900000 32) (nrm : FVec Ideal S900000 .f32) (b : FVec Ideal S256 .f32) : FVec Ideal S100000x256 .f32 :=
  addf (F := Ideal) (Host.scatterAdd (F := Ideal) scatter_S100000x256_S900000x1_S900000x256_1_0_0_1
      (broadcastInDim S100000x256 ![] bcast_S_S100000x256 (constant (F := Ideal) S_ .f32 0x00000000#32)) (colK dst)
      (mulf (F := Ideal) (Host.gather gather_S100000x256_S900000x1_S900000x256_1_0_n_n_0_1_1256 h (colK (wrapK src)))
        (broadcastInDim S900000x256 ![0, 1] bcast_S900000x1_S900000x256_0_1 (broadcastInDim S900000x1 ![0] bcast_S900000_S900000x1_0 nrm))))
    (broadcastInDim S100000x256 ![0, 1] bcast_S1x256_S100000x256_0_1 (broadcastInDim S1x256 ![1] bcast_S256_S1x256_1 b))

theorem aggK'_eq (h) (ei : IVec S2x800000 32) (nrm) (b) : aggK' h (srcK ei) (dstK ei) nrm b = aggK h ei nrm b := rfl

set_option maxHeartbeats 4000000 in
theorem s4_agg : StableHlo.after hostOps1 W (Proc.devRef .tc main_v49)
    = aggK' (W (Proc.devRef .tc main_v33)) (W (Proc.devRef .tc main_v3)) (W (Proc.devRef .tc main_v6)) (W (Proc.devRef .tc main_v29)) (W (Proc.devRef .tc main_arg3)) := by
  after_results_simp <;> rfl
set_option maxHeartbeats 4000000 in
theorem s9_agg : StableHlo.after hostOps4 W (Proc.devRef .tc main_v73)
    = aggK' (W (Proc.devRef .tc main_v57)) (W (Proc.devRef .tc main_v3)) (W (Proc.devRef .tc main_v6)) (W (Proc.devRef .tc main_v29)) (W (Proc.devRef .tc main_arg5)) := by
  after_results_simp <;> rfl

end Cert.KernelIdeal.HostChain

end
-- ==== Proof.KI.NormVal2.lean ====
import proofs.«166096_j40321152975189_1_alg».proof.Proof.KI.Norm2
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open scoped BigOperators
variable (V : (c : Dev nD) → (b : Ref sig .tc) → Buf (Elt Ideal) ((c : Thread nD τ).loc b))

/-! # Region 2 at the extended reals: what the normalisation leaves in its result array

The block the body writes at a grid point is, entry by entry, the input block's entry minus the mean row's entry at
the column, times the scale row's, times the weight row's, plus the shift row's, clamped below at zero. The input's
and the result's blocks at point `t` are row block `t` of their arrays and the four rows' block never moves, so each
written block is the corresponding block of ONE function of the five arrays the region finds; the blocks of the fifty
grid points tile the result array, which therefore ends as that function, entry by entry. -/

/-- The normalisation at row `p` and column `q`. -/
def norm2At (x : S100000x256.Idx → EReal) (m s g b : S1x256.Idx → EReal) (p : Fin 100000) (q : Fin 256) : EReal :=
  max ((((x (ix2 p q) - m (ix2 (0 : Fin 1) q)) * s (ix2 (0 : Fin 1) q)) * g (ix2 (0 : Fin 1) q)) + b (ix2 (0 : Fin 1) q)) 0

/-- The normalisation as one function on the result array's indices. -/
def norm2 (x : S100000x256.Idx → EReal) (m s g b : S1x256.Idx → EReal) : S100000x256.Idx → EReal :=
  fun i => norm2At x m s g b (i 0 : Fin 100000) (i 1 : Fin 256)

/-! ## From the blocks to the array -/

/-- The printed index maps, decided over the grid: at point `t` the input's and the result's blocks are row block
    `t`, and every other block coordinate is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the normalisation of the arrays as the region finds them. -/
theorem flushed2_5_eq (c : Dev nD) (t : Fin cfg2.N) :
    (dat2 V c).flushed 5 t = ((cfg2.win 5).blk t).view.read (Elt Ideal)
      (norm2 (V c main_v49) (V c main_v52_0) (V c main_v52_1) (V c main_v50) (V c main_v51)) := by
  show (cfg2.win 5).cut (grid2.coords t) ((dat2 V c).after 5 t) = _
  rw [after2_5]
  obtain ⟨e00, e01, e10, e11, e20, e21, e30, e31, e40, e41, e50, e51⟩ := idx_facts2 t
  have ht : t.val < 50 := Nat.lt_of_lt_of_eq t.isLt N_2
  funext j
  obtain ⟨p, q, rfl⟩ : ∃ (p : Fin 2000) (q : Fin 256), j = ix2 p q := ⟨j 0, j 1, eq_ix2 j⟩
  have hp : p.val < 2000 := p.isLt
  have hq : q.val < 256 := q.isLt
  -- the row of the array that row `p` of block `t` is
  let r : Fin 100000 := ⟨t.val * 2000 + p.val, by omega⟩
  have e5 : ((cfg2.win 5).blk t).view.emb (ix2 p q) = (ix2 r q : S100000x256.Idx) := by
    funext a; apply Fin.ext
    match a with
    | ⟨0, _⟩ => show win2_5.index t (0 : Fin 2) * 2000 + 1 * p.val = t.val * 2000 + p.val; omega
    | ⟨1, _⟩ => show win2_5.index t (1 : Fin 2) * 256 + 1 * q.val = q.val; omega
  have e0 : ((cfg2.win 0).blk t).view.emb (ix2 p q) = (ix2 r q : S100000x256.Idx) := by
    funext a; apply Fin.ext
    match a with
    | ⟨0, _⟩ => show win2_0.index t (0 : Fin 2) * 2000 + 1 * p.val = t.val * 2000 + p.val; omega
    | ⟨1, _⟩ => show win2_0.index t (1 : Fin 2) * 256 + 1 * q.val = q.val; omega
  have e1 : ((cfg2.win 1).blk t).view.emb (ix2 (0 : Fin 1) q) = (ix2 (0 : Fin 1) q : S1x256.Idx) := by
    funext a; apply Fin.ext
    match a with
    | ⟨0, _⟩ => show win2_1.index t (0 : Fin 2) * 1 + 1 * 0 = 0; omega
    | ⟨1, _⟩ => show win2_1.index t (1 : Fin 2) * 256 + 1 * q.val = q.val; omega
  have e2 : ((cfg2.win 2).blk t).view.emb (ix2 (0 : Fin 1) q) = (ix2 (0 : Fin 1) q : S1x256.Idx) := by
    funext a; apply Fin.ext
    match a with
    | ⟨0, _⟩ => show win2_2.index t (0 : Fin 2) * 1 + 1 * 0 = 0; omega
    | ⟨1, _⟩ => show win2_2.index t (1 : Fin 2) * 256 + 1 * q.val = q.val; omega
  have e3 : ((cfg2.win 3).blk t).view.emb (ix2 (0 : Fin 1) q) = (ix2 (0 : Fin 1) q : S1x256.Idx) := by
    funext a; apply Fin.ext
    match a with
    | ⟨0, _⟩ => show win2_3.index t (0 : Fin 2) * 1 + 1 * 0 = 0; omega
    | ⟨1, _⟩ => show win2_3.index t (1 : Fin 2) * 256 + 1 * q.val = q.val; omega
  have e4 : ((cfg2.win 4).blk t).view.emb (ix2 (0 : Fin 1) q) = (ix2 (0 : Fin 1) q : S1x256.Idx) := by
    funext a; apply Fin.ext
    match a with
    | ⟨0, _⟩ => show win2_4.index t (0 : Fin 2) * 1 + 1 * 0 = 0; omega
    | ⟨1, _⟩ => show win2_4.index t (1 : Fin 2) * 256 + 1 * q.val = q.val; omega
  refine (out2_5_apply (iblk2 V c 0 t) (iblk2 V c 1 t) (iblk2 V c 2 t) (iblk2 V c 3 t) (iblk2 V c 4 t) p q).trans ?_
  show _ = norm2 (V c main_v49) (V c main_v52_0) (V c main_v52_1) (V c main_v50) (V c main_v51) (((cfg2.win 5).blk t).view.emb (ix2 p q))
  rw [e5]
  show _ = norm2At (V c main_v49) (V c main_v52_0) (V c main_v52_1) (V c main_v50) (V c main_v51) r q
  unfold norm2At
  refine congrArg₂ max (congrArg₂ (· + ·) (congrArg₂ (· * ·) (congrArg₂ (· * ·) (congrArg₂ (· - ·) ?_ ?_) ?_) ?_) ?_) rfl
  · exact congrArg (V c main_v49) e0
  · exact congrArg (V c main_v52_0) e1
  · exact congrArg (V c main_v52_1) e2
  · exact congrArg (V c main_v50) e3
  · exact congrArg (V c main_v51) e4

/-- An index of the result array is in point `t`'s block iff each coordinate is in the block's range on its axis. -/
theorem mem_blk2_5 (t : Fin cfg2.N) (i : S100000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v53).slice (win2_5.rect t)).set ↔ _
  rw [View.set_slice_whole, Rect.mem_set_unit]
  exact Iff.rfl

/-- Every index of the result array is in the block of some point, which writes it back: row `r` is in row block
    `r / 2000`. -/
theorem blocks_cover2 (i : S100000x256.Idx) :
    ∃ t : Fin cfg2.N, (cfg2.win 5).flush t = true ∧ i ∈ ((cfg2.win 5).blk t).view.set := by
  have hi0 : (i 0).val < 100000 := (i 0).isLt
  have hi1 : (i 1).val < 256 := (i 1).isLt
  have hN : cfg2.N = 50 := N_2
  let t : Fin cfg2.N := ⟨(i 0).val / 2000, by rw [hN]; omega⟩
  obtain ⟨-, -, -, -, -, -, -, -, -, -, e50, e51⟩ := idx_facts2 t
  have e50' : win2_5.index t (0 : Fin 2) = (i 0).val / 2000 := e50
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- The result array after the region's run: the normalisation of the arrays the region found. -/
theorem final2_5 (c : Dev nD) : (dat2 V c).arrAt 5 cfg2.N
    = norm2 (V c main_v49) (V c main_v52_0) (V c main_v52_1) (V c main_v50) (V c main_v51) :=
  (dat2 V c).arrAt_eq_of_cover 5 (norm2 (V c main_v49) (V c main_v52_0) (V c main_v52_1) (V c main_v50) (V c main_v51))
    (fun t _ => flushed2_5_eq V c t) (blocks_cover2)

/-- Entry by entry. -/
theorem arrAt2 (c : Dev nD) (p : Fin 100000) (q : Fin 256) :
    (dat2 V c).arrAt 5 cfg2.N (ix2 p q)
      = norm2At (V c main_v49) (V c main_v52_0) (V c main_v52_1) (V c main_v50) (V c main_v51) p q := by
  rw [final2_5]
  rfl

/-- The normalisation at an entry, written out. -/
theorem norm2At_eq (x : S100000x256.Idx → EReal) (m s g b : S1x256.Idx → EReal) (p : Fin 100000) (q : Fin 256) :
    norm2At x m s g b p q
      = max ((((x (ix2 p q) - m (ix2 (0 : Fin 1) q)) * s (ix2 (0 : Fin 1) q)) * g (ix2 (0 : Fin 1) q)) + b (ix2 (0 : Fin 1) q)) 0 := rfl

end Cert.KernelIdeal.Hand
end
-- ==== Proof.KI.NormVal5.lean ====
import proofs.«166096_j40321152975189_1_alg».proof.Proof.KI.Norm5
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open scoped BigOperators
variable (V : (c : Dev nD) → (b : Ref sig .tc) → Buf (Elt Ideal) ((c : Thread nD τ).loc b))

/-! # Region 5 at the extended reals: what the normalisation leaves in its result array

The block the body writes at a grid point is, entry by entry, the input block's entry minus the mean row's entry at
the column, times the scale row's, times the weight row's, plus the shift row's, clamped below at zero. The input's
and the result's blocks at point `t` are row block `t` of their arrays and the four rows' block never moves, so each
written block is the corresponding block of ONE function of the five arrays the region finds; the blocks of the fifty
grid points tile the result array, which therefore ends as that function, entry by entry. -/

/-- The normalisation at row `p` and column `q`. -/
def norm5At (x : S100000x256.Idx → EReal) (m s g b : S1x256.Idx → EReal) (p : Fin 100000) (q : Fin 256) : EReal :=
  max ((((x (ix2 p q) - m (ix2 (0 : Fin 1) q)) * s (ix2 (0 : Fin 1) q)) * g (ix2 (0 : Fin 1) q)) + b (ix2 (0 : Fin 1) q)) 0

/-- The normalisation as one function on the result array's indices. -/
def norm5 (x : S100000x256.Idx → EReal) (m s g b : S1x256.Idx → EReal) : S100000x256.Idx → EReal :=
  fun i => norm5At x m s g b (i 0 : Fin 100000) (i 1 : Fin 256)

/-! ## From the blocks to the array -/

/-- The printed index maps, decided over the grid: at point `t` the input's and the result's blocks are row block
    `t`, and every other block coordinate is zero. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of the normalisation of the arrays as the region finds them. -/
theorem flushed5_5_eq (c : Dev nD) (t : Fin cfg5.N) :
    (dat5 V c).flushed 5 t = ((cfg5.win 5).blk t).view.read (Elt Ideal)
      (norm5 (V c main_v73) (V c main_v76_0) (V c main_v76_1) (V c main_v74) (V c main_v75)) := by
  show (cfg5.win 5).cut (grid5.coords t) ((dat5 V c).after 5 t) = _
  rw [after5_5]
  obtain ⟨e00, e01, e10, e11, e20, e21, e30, e31, e40, e41, e50, e51⟩ := idx_facts5 t
  have ht : t.val < 50 := Nat.lt_of_lt_of_eq t.isLt N_5
  funext j
  obtain ⟨p, q, rfl⟩ : ∃ (p : Fin 2000) (q : Fin 256), j = ix2 p q := ⟨j 0, j 1, eq_ix2 j⟩
  have hp : p.val < 2000 := p.isLt
  have hq : q.val < 256 := q.isLt
  -- the row of the array that row `p` of block `t` is
  let r : Fin 100000 := ⟨t.val * 2000 + p.val, by omega⟩
  have e5 : ((cfg5.win 5).blk t).view.emb (ix2 p q) = (ix2 r q : S100000x256.Idx) := by
    funext a; apply Fin.ext
    match a with
    | ⟨0, _⟩ => show win5_5.index t (0 : Fin 2) * 2000 + 1 * p.val = t.val * 2000 + p.val; omega
    | ⟨1, _⟩ => show win5_5.index t (1 : Fin 2) * 256 + 1 * q.val = q.val; omega
  have e0 : ((cfg5.win 0).blk t).view.emb (ix2 p q) = (ix2 r q : S100000x256.Idx) := by
    funext a; apply Fin.ext
    match a with
    | ⟨0, _⟩ => show win5_0.index t (0 : Fin 2) * 2000 + 1 * p.val = t.val * 2000 + p.val; omega
    | ⟨1, _⟩ => show win5_0.index t (1 : Fin 2) * 256 + 1 * q.val = q.val; omega
  have e1 : ((cfg5.win 1).blk t).view.emb (ix2 (0 : Fin 1) q) = (ix2 (0 : Fin 1) q : S1x256.Idx) := by
    funext a; apply Fin.ext
    match a with
    | ⟨0, _⟩ => show win5_1.index t (0 : Fin 2) * 1 + 1 * 0 = 0; omega
    | ⟨1, _⟩ => show win5_1.index t (1 : Fin 2) * 256 + 1 * q.val = q.val; omega
  have e2 : ((cfg5.win 2).blk t).view.emb (ix2 (0 : Fin 1) q) = (ix2 (0 : Fin 1) q : S1x256.Idx) := by
    funext a; apply Fin.ext
    match a with
    | ⟨0, _⟩ => show win5_2.index t (0 : Fin 2) * 1 + 1 * 0 = 0; omega
    | ⟨1, _⟩ => show win5_2.index t (1 : Fin 2) * 256 + 1 * q.val = q.val; omega
  have e3 : ((cfg5.win 3).blk t).view.emb (ix2 (0 : Fin 1) q) = (ix2 (0 : Fin 1) q : S1x256.Idx) := by
    funext a; apply Fin.ext
    match a with
    | ⟨0, _⟩ => show win5_3.index t (0 : Fin 2) * 1 + 1 * 0 = 0; omega
    | ⟨1, _⟩ => show win5_3.index t (1 : Fin 2) * 256 + 1 * q.val = q.val; omega
  have e4 : ((cfg5.win 4).blk t).view.emb (ix2 (0 : Fin 1) q) = (ix2 (0 : Fin 1) q : S1x256.Idx) := by
    funext a; apply Fin.ext
    match a with
    | ⟨0, _⟩ => show win5_4.index t (0 : Fin 2) * 1 + 1 * 0 = 0; omega
    | ⟨1, _⟩ => show win5_4.index t (1 : Fin 2) * 256 + 1 * q.val = q.val; omega
  refine (out5_5_apply (iblk5 V c 0 t) (iblk5 V c 1 t) (iblk5 V c 2 t) (iblk5 V c 3 t) (iblk5 V c 4 t) p q).trans ?_
  show _ = norm5 (V c main_v73) (V c main_v76_0) (V c main_v76_1) (V c main_v74) (V c main_v75) (((cfg5.win 5).blk t).view.emb (ix2 p q))
  rw [e5]
  show _ = norm5At (V c main_v73) (V c main_v76_0) (V c main_v76_1) (V c main_v74) (V c main_v75) r q
  unfold norm5At
  refine congrArg₂ max (congrArg₂ (· + ·) (congrArg₂ (· * ·) (congrArg₂ (· * ·) (congrArg₂ (· - ·) ?_ ?_) ?_) ?_) ?_) rfl
  · exact congrArg (V c main_v73) e0
  · exact congrArg (V c main_v76_0) e1
  · exact congrArg (V c main_v76_1) e2
  · exact congrArg (V c main_v74) e3
  · exact congrArg (V c main_v75) e4

/-- An index of the result array is in point `t`'s block iff each coordinate is in the block's range on its axis. -/
theorem mem_blk5_5 (t : Fin cfg5.N) (i : S100000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v77).slice (win5_5.rect t)).set ↔ _
  rw [View.set_slice_whole, Rect.mem_set_unit]
  exact Iff.rfl

/-- Every index of the result array is in the block of some point, which writes it back: row `r` is in row block
    `r / 2000`. -/
theorem blocks_cover5 (i : S100000x256.Idx) :
    ∃ t : Fin cfg5.N, (cfg5.win 5).flush t = true ∧ i ∈ ((cfg5.win 5).blk t).view.set := by
  have hi0 : (i 0).val < 100000 := (i 0).isLt
  have hi1 : (i 1).val < 256 := (i 1).isLt
  have hN : cfg5.N = 50 := N_5
  let t : Fin cfg5.N := ⟨(i 0).val / 2000, by rw [hN]; omega⟩
  obtain ⟨-, -, -, -, -, -, -, -, -, -, e50, e51⟩ := idx_facts5 t
  have e50' : win5_5.index t (0 : Fin 2) = (i 0).val / 2000 := e50
  refine ⟨t, flush5_5 t, ?_⟩
  rw [mem_blk5_5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 256 ≤ (i 1).val ∧ (i 1).val < win5_5.index t (1 : Fin 2) * 256 + 256; omega

/-- The result array after the region's run: the normalisation of the arrays the region found. -/
theorem final5_5 (c : Dev nD) : (dat5 V c).arrAt 5 cfg5.N
    = norm5 (V c main_v73) (V c main_v76_0) (V c main_v76_1) (V c main_v74) (V c main_v75) :=
  (dat5 V c).arrAt_eq_of_cover 5 (norm5 (V c main_v73) (V c main_v76_0) (V c main_v76_1) (V c main_v74) (V c main_v75))
    (fun t _ => flushed5_5_eq V c t) (blocks_cover5)

/-- Entry by entry. -/
theorem arrAt5 (c : Dev nD) (p : Fin 100000) (q : Fin 256) :
    (dat5 V c).arrAt 5 cfg5.N (ix2 p q)
      = norm5At (V c main_v73) (V c main_v76_0) (V c main_v76_1) (V c main_v74) (V c main_v75) p q := by
  rw [final5_5]
  rfl

/-- The normalisation at an entry, written out. -/
theorem norm5At_eq (x : S100000x256.Idx → EReal) (m s g b : S1x256.Idx → EReal) (p : Fin 100000) (q : Fin 256) :
    norm5At x m s g b p q
      = max ((((x (ix2 p q) - m (ix2 (0 : Fin 1) q)) * s (ix2 (0 : Fin 1) q)) * g (ix2 (0 : Fin 1) q)) + b (ix2 (0 : Fin 1) q)) 0 := rfl

end Cert.KernelIdeal.Hand
end
-- ==== Proof.KI.BnGlue.lean ====
import proofs.«166096_j40321152975189_1_alg».proof.Proof.KI.NormVal2
import proofs.«166096_j40321152975189_1_alg».proof.Proof.KI.NormVal5
import proofs.«166096_j40321152975189_1_alg».proof.Proof.Spec
import proofs.«166096_j40321152975189_1_alg».proof.Proof.Gen.KernelIdeal.Regions
import Idealize.ShloMosaic.Lib.StableHlo.Run
import Idealize.ShloMosaic.Lib.ValueIdx
import Idealize.ShloMosaic.Lib.ValueLayout
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.ValueIdx
open scoped BigOperators

/-! # The two batch normalisations, from the kernels' result arrays to the specification

A normalise region leaves, at row `p` and column `q`, the input's entry minus the mean row's entry at `q`, times the
scale row's, times the weight row's, plus the shift row's, clamped at zero. When the mean row holds the column means,
the scale row the reciprocal standard deviations, and the weight and shift rows are the parameter vectors laid out as
one row, this is the specification's batch normalisation, entry by entry. The parameter rows are laid out by the host
operations just before the region: a vector of 256 entries cast to one row of 256 reads, at column `q`, the vector's
entry `q`. -/

/-! ## The glue, over plain arrays -/

/-- Region 2's result is the batch normalisation of its input. -/
theorem bnKer_glue2 (x : S100000x256.Idx → EReal) (mr sr gr br : S1x256.Idx → EReal) (g b : Cert.Spec.Arr Cert.Spec.S256)
    (hm : ∀ q : Fin 256, mr (ix2 (0 : Fin 1) q) = Cert.Spec.mean x q)
    (hs : ∀ q : Fin 256, sr (ix2 (0 : Fin 1) q) = Ideal.rsqrt (Cert.Spec.varKer x q + Ideal.ofBits .f32 0x3727C5AC#32))
    (hg : ∀ q : Fin 256, gr (ix2 (0 : Fin 1) q) = g (ix1 q))
    (hb : ∀ q : Fin 256, br (ix2 (0 : Fin 1) q) = b (ix1 q)) :
    norm2 x mr sr gr br = Cert.Spec.bnKer x g b := by
  funext j
  obtain ⟨p, q, rfl⟩ : ∃ (p : Fin 100000) (q : Fin 256), j = ix2 p q := ⟨j 0, j 1, eq_ix2 j⟩
  rw [Cert.Spec.bnKer_apply]
  show norm2At x mr sr gr br p q = _
  rw [norm2At_eq, hm, hs, hg, hb]

/-- Region 5's result is the batch normalisation of its input. -/
theorem bnKer_glue5 (x : S100000x256.Idx → EReal) (mr sr gr br : S1x256.Idx → EReal) (g b : Cert.Spec.Arr Cert.Spec.S256)
    (hm : ∀ q : Fin 256, mr (ix2 (0 : Fin 1) q) = Cert.Spec.mean x q)
    (hs : ∀ q : Fin 256, sr (ix2 (0 : Fin 1) q) = Ideal.rsqrt (Cert.Spec.varKer x q + Ideal.ofBits .f32 0x3727C5AC#32))
    (hg : ∀ q : Fin 256, gr (ix2 (0 : Fin 1) q) = g (ix1 q))
    (hb : ∀ q : Fin 256, br (ix2 (0 : Fin 1) q) = b (ix1 q)) :
    norm5 x mr sr gr br = Cert.Spec.bnKer x g b := by
  funext j
  obtain ⟨p, q, rfl⟩ : ∃ (p : Fin 100000) (q : Fin 256), j = ix2 p q := ⟨j 0, j 1, eq_ix2 j⟩
  rw [Cert.Spec.bnKer_apply]
  show norm5At x mr sr gr br p q = _
  rw [norm5At_eq, hm, hs, hg, hb]

/-! ## The parameter rows the host lays out -/

set_option maxHeartbeats 4000000 in
/-- The first batch normalisation's weight row: the vector `%arg6` cast to one row. -/
theorem row_v50 (W : Valuation τ sig (Elt Ideal)) :
    StableHlo.after (hostOps1 (F := Ideal)) W (Proc.devRef .tc main_v50)
      = shapeCast S1x256 (W (Proc.devRef .tc main_arg6)) shapeCasts_S256_S1x256 := by
  after_results_simp <;> rfl

/-- At column `q` it holds the vector's entry `q`. -/
theorem s_gamma1 (W : Valuation τ sig (Elt Ideal)) (q : Fin 256) :
    StableHlo.after (hostOps1 (F := Ideal)) W (Proc.devRef .tc main_v50) (ix2 (0 : Fin 1) q) = W (Proc.devRef .tc main_arg6) (ix1 q) := by
  rw [row_v50]
  exact shapeCast_a_1a_apply _ _ (0 : Fin 1) q

set_option maxHeartbeats 4000000 in
/-- The first batch normalisation's shift row: the vector `%arg7` cast to one row. -/
theorem row_v51 (W : Valuation τ sig (Elt Ideal)) :
    StableHlo.after (hostOps1 (F := Ideal)) W (Proc.devRef .tc main_v51)
      = shapeCast S1x256 (W (Proc.devRef .tc main_arg7)) shapeCasts_S256_S1x256 := by
  after_results_simp <;> rfl

/-- At column `q` it holds the vector's entry `q`. -/
theorem s_beta1 (W : Valuation τ sig (Elt Ideal)) (q : Fin 256) :
    StableHlo.after (hostOps1 (F := Ideal)) W (Proc.devRef .tc main_v51) (ix2 (0 : Fin 1) q) = W (Proc.devRef .tc main_arg7) (ix1 q) := by
  rw [row_v51]
  exact shapeCast_a_1a_apply _ _ (0 : Fin 1) q

set_option maxHeartbeats 4000000 in
/-- The second batch normalisation's weight row: the vector `%arg8` cast to one row. -/
theorem row_v74 (W : Valuation τ sig (Elt Ideal)) :
    StableHlo.after (hostOps4 (F := Ideal)) W (Proc.devRef .tc main_v74)
      = shapeCast S1x256 (W (Proc.devRef .tc main_arg8)) shapeCasts_S256_S1x256 := by
  after_results_simp <;> rfl

/-- At column `q` it holds the vector's entry `q`. -/
theorem s_gamma2 (W : Valuation τ sig (Elt Ideal)) (q : Fin 256) :
    StableHlo.after (hostOps4 (F := Ideal)) W (Proc.devRef .tc main_v74) (ix2 (0 : Fin 1) q) = W (Proc.devRef .tc main_arg8) (ix1 q) := by
  rw [row_v74]
  exact shapeCast_a_1a_apply _ _ (0 : Fin 1) q

set_option maxHeartbeats 4000000 in
/-- The second batch normalisation's shift row: the vector `%arg9` cast to one row. -/
theorem row_v75 (W : Valuation τ sig (Elt Ideal)) :
    StableHlo.after (hostOps4 (F := Ideal)) W (Proc.devRef .tc main_v75)
      = shapeCast S1x256 (W (Proc.devRef .tc main_arg9)) shapeCasts_S256_S1x256 := by
  after_results_simp <;> rfl

/-- At column `q` it holds the vector's entry `q`. -/
theorem s_beta2 (W : Valuation τ sig (Elt Ideal)) (q : Fin 256) :
    StableHlo.after (hostOps4 (F := Ideal)) W (Proc.devRef .tc main_v75) (ix2 (0 : Fin 1) q) = W (Proc.devRef .tc main_arg9) (ix1 q) := by
  rw [row_v75]
  exact shapeCast_a_1a_apply _ _ (0 : Fin 1) q

end Cert.KernelIdeal.Hand
end
-- ==== Proof.SpecBlocks.lean ====
/-
  The column sums of a `[100000, 256]` array taken block by block.

  A pass over the rows in 50 blocks of 2000 keeps a running sum: it starts at zero and adds, at block `b`, the sum of
  that block's rows.  After `i` blocks the running sum is the sum of the first `i` block sums, and after all 50 it is
  the sum over all 100000 rows, because addition of extended reals is associative and commutative: row
  `2000 · b + r` is row `r` of block `b`, and every row is exactly one of these.
-/
import proofs.«166096_j40321152975189_1_alg».proof.Proof.Spec

noncomputable section

open Idealize.ShloMosaic Idealize.ShloMosaic.ValueIdx Cert.LibStats

namespace Cert.Spec

/-! ## Running sums -/

/-- The sum of the first `i` of `n` terms. -/
def partSum {n : ℕ} (f : Fin n → EReal) (i : ℕ) : EReal := ∑ b : Fin n, if (b : ℕ) < i then f b else 0

/-- No terms sum to zero. -/
theorem partSum_zero {n : ℕ} (f : Fin n → EReal) : partSum f 0 = 0 := by
  simp [partSum]

/-- One more term: the running sum after `i + 1` terms is the running sum after `i` plus term `i`. -/
theorem partSum_succ {n : ℕ} (f : Fin n → EReal) (i : Fin n) : partSum f ((i : ℕ) + 1) = partSum f (i : ℕ) + f i := by
  unfold partSum
  have h : ∀ b : Fin n, (if (b : ℕ) < (i : ℕ) + 1 then f b else 0)
      = (if (b : ℕ) < (i : ℕ) then f b else 0) + (if b = i then f b else 0) := by
    intro b
    by_cases h1 : (b : ℕ) < (i : ℕ)
    · have h2 : b ≠ i := fun h => by subst h; exact lt_irrefl _ h1
      have h3 : (b : ℕ) < (i : ℕ) + 1 := Nat.lt_succ_of_lt h1
      rw [if_pos h1, if_neg h2, if_pos h3, add_zero]
    · by_cases h2 : b = i
      · subst h2
        rw [if_neg h1, if_pos rfl, if_pos (Nat.lt_succ_self _), zero_add]
      · have h3 : ¬ (b : ℕ) < (i : ℕ) + 1 := fun h => h2 (Fin.ext (by omega))
        rw [if_neg h1, if_neg h2, if_neg h3, add_zero]
  rw [Finset.sum_congr rfl fun b _ => h b, Finset.sum_add_distrib, Finset.sum_ite_eq' Finset.univ i f,
    if_pos (Finset.mem_univ i)]

/-- All the terms: the running sum after `n` terms is the whole sum. -/
theorem partSum_all {n : ℕ} (f : Fin n → EReal) : partSum f n = ∑ b, f b :=
  Finset.sum_congr rfl fun b _ => if_pos b.isLt

/-- A running sum of finite terms is finite. -/
theorem partSum_isFin {n : ℕ} (f : Fin n → EReal) (hf : ∀ b, IsFin (f b)) (i : ℕ) : IsFin (partSum f i) :=
  IsFin.sum _ _ fun b _ => by
    split
    · exact hf b
    · exact IsFin.zero

/-! ## The 50 blocks of 2000 rows -/

/-- Row `r` of block `b`: row `2000 · b + r` of the array. -/
def blockRow (b : Fin 50) (r : Fin 2000) : Fin 100000 :=
  ⟨2000 * (b : ℕ) + (r : ℕ), by have := b.isLt; have := r.isLt; omega⟩

theorem blockRow_val (b : Fin 50) (r : Fin 2000) : (blockRow b r : ℕ) = 2000 * (b : ℕ) + (r : ℕ) := rfl

/-- Column `q`'s sum over the rows of block `b`. -/
def blockSum (x : Arr S100000x256) (q : Fin 256) (b : Fin 50) : EReal := ∑ r : Fin 2000, x (ix2 (blockRow b r) q)

/-- Column `q`'s sum of squares over the rows of block `b`. -/
def blockSumSq (x : Arr S100000x256) (q : Fin 256) (b : Fin 50) : EReal :=
  ∑ r : Fin 2000, x (ix2 (blockRow b r) q) * x (ix2 (blockRow b r) q)

/-- A column's sum is the sum of its 50 block sums. -/
theorem colSum_eq_blocks (x : Arr S100000x256) (q : Fin 256) : colSum x q = ∑ b : Fin 50, blockSum x q b :=
  (sum_blocks 50 2000 (fun i : Fin (50 * 2000) => x (ix2 (n0 := 100000) i q))
    (fun b r => by have := b.isLt; have := r.isLt; omega)).symm

/-- A column's sum of squares is the sum of its 50 block sums of squares. -/
theorem colSumSq_eq_blocks (x : Arr S100000x256) (q : Fin 256) : colSumSq x q = ∑ b : Fin 50, blockSumSq x q b :=
  (sum_blocks 50 2000 (fun i : Fin (50 * 2000) => x (ix2 (n0 := 100000) i q) * x (ix2 (n0 := 100000) i q))
    (fun b r => by have := b.isLt; have := r.isLt; omega)).symm

/-- The running sum over all 50 blocks is the column's sum. -/
theorem partSum_blockSum (x : Arr S100000x256) (q : Fin 256) : partSum (blockSum x q) 50 = colSum x q := by
  rw [partSum_all, colSum_eq_blocks]

/-- The running sum of squares over all 50 blocks is the column's sum of squares. -/
theorem partSum_blockSumSq (x : Arr S100000x256) (q : Fin 256) : partSum (blockSumSq x q) 50 = colSumSq x q := by
  rw [partSum_all, colSumSq_eq_blocks]

end Cert.Spec

end
-- ==== Proof.KI.StatsVal1.lean ====
import proofs.«166096_j40321152975189_1_alg».proof.Proof.KI.Stats1
import proofs.«166096_j40321152975189_1_alg».proof.Proof.SpecBlocks
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open scoped BigOperators
variable (V : (c : Dev nD) → (b : Ref sig .tc) → Buf (Elt Ideal) ((c : Thread nD τ).loc b))

/-! # Region 1 at the extended reals: the mean row and the reciprocal standard deviation row

At the extended reals a cast of a shape to itself changes nothing, a reduction over the rows of a block is the sum
over its 2000 rows, and a row of shape [256] read as [1, 256] is the same row. So after the body at grid point `n`
the first scratch row holds, at column `q`, the sum of the first `n + 1` block sums of column `q` of the array the
region finds, the second the same for the squares; after the last point these are the column's sum and sum of squares
over all 100000 rows, and the two rows the body stores then are the column means and the reciprocal standard
deviations, which the one write-back at the last point puts in the two result arrays. -/

/-! ## The payloads at an entry -/

/-- The index a reduction over the rows inserts: row `r` put before column `q`. -/
theorem lift_row (r : Fin 2000) (q : Fin 256) :
    reduces_S2000x256_S256.lift (ix1 q) r = (ix2 r q : S2000x256.Idx) := by
  funext a; apply Fin.ext
  match a with
  | ⟨0, _⟩ => rfl
  | ⟨1, _⟩ => rfl

/-- The zero row. -/
theorem stat1_pay1_apply (q : Fin 256) : k1_pay1 (F := Ideal) (ix2 (0 : Fin 1) q) = 0 := by
  unfold k1_pay1
  rw [shapeCast_self]
  exact Ideal.ofBits_zero_f32
theorem stat1_pay2_apply (q : Fin 256) : k1_pay2 (F := Ideal) (ix2 (0 : Fin 1) q) = 0 := by
  unfold k1_pay2
  rw [shapeCast_self]
  exact Ideal.ofBits_zero_f32

/-- The running sums row after a block: at column `q`, what it held plus the block's column sum. -/
theorem stat1_pay4_apply (x : Vec Ideal S2000x256 .f32) (s : Vec Ideal S1x256 .f32) (q : Fin 256) :
    k1_pay4 x s (ix2 (0 : Fin 1) q) = s (ix2 (0 : Fin 1) q) + ∑ r : Fin 2000, x (ix2 r q) := by
  unfold k1_pay4 k1_pay3
  rw [shapeCast_self, shapeCast_self, addf_apply, shapeCast_a_1a_apply]
  refine congrArg (s (ix2 (0 : Fin 1) q) + ·) ?_
  refine (Ideal.multiReduction_add_single _ _ reduces_S2000x256_S256 _ _ (ix1 q)).trans ?_
  exact Finset.sum_congr rfl fun r _ => congrArg x (lift_row r q)

/-- The running sums of squares row after a block: what it held plus the block's column sum of squares. -/
theorem stat1_pay5_apply (x : Vec Ideal S2000x256 .f32) (s : Vec Ideal S1x256 .f32) (q : Fin 256) :
    k1_pay5 x s (ix2 (0 : Fin 1) q) = s (ix2 (0 : Fin 1) q) + ∑ r : Fin 2000, x (ix2 r q) * x (ix2 r q) := by
  unfold k1_pay5 k1_pay3
  rw [shapeCast_self, shapeCast_self, addf_apply, shapeCast_a_1a_apply]
  refine congrArg (s (ix2 (0 : Fin 1) q) + ·) ?_
  refine (Ideal.multiReduction_add_single _ _ reduces_S2000x256_S256 _ _ (ix1 q)).trans ?_
  exact Finset.sum_congr rfl fun r _ => by rw [lift_row r q]; rfl

/-- The mean row: the sums row divided by the row count. -/
theorem stat1_pay6_apply (s : Vec Ideal S1x256 .f32) (q : Fin 256) :
    k1_pay6 s (ix2 (0 : Fin 1) q) = Ideal.div (s (ix2 (0 : Fin 1) q)) (Ideal.ofBits .f32 0x47C35000#32) := rfl

/-- The reciprocal standard deviation row. -/
theorem stat1_pay7_apply (s t : Vec Ideal S1x256 .f32) (q : Fin 256) :
    k1_pay7 s t (ix2 (0 : Fin 1) q) = Ideal.rsqrt ((Ideal.div (t (ix2 (0 : Fin 1) q)) (Ideal.ofBits .f32 0x47C35000#32)
      - Ideal.div (s (ix2 (0 : Fin 1) q)) (Ideal.ofBits .f32 0x47C35000#32) * Ideal.div (s (ix2 (0 : Fin 1) q)) (Ideal.ofBits .f32 0x47C35000#32))
      + Ideal.ofBits .f32 0x3727C5AC#32) := rfl

/-! ## The blocks of the input array -/

/-- The printed index maps, decided over the grid: at point `t` the input's block is row block `t`; the two result
    rows' block never moves. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Row `r` of the block at point `t` is row `2000 · t + r` of the array. -/
theorem iblk1_apply (c : Dev nD) (t : Fin cfg1.N) (r : Fin 2000) (q : Fin 256) (R : Fin 100000)
    (hR : R.val = 2000 * t.val + r.val) :
    (iblk1 V c 0 t : Vec Ideal S2000x256 .f32) (ix2 r q) = V c main_v49 (ix2 R q) := by
  obtain ⟨e00, e01, -⟩ := idx_facts1 t
  have e : ((cfg1.win 0).blk t).view.emb (ix2 r q) = (ix2 R q : S100000x256.Idx) := by
    funext a; apply Fin.ext
    match a with
    | ⟨0, _⟩ => show win1_0.index t (0 : Fin 2) * 2000 + 1 * r.val = R.val; omega
    | ⟨1, _⟩ => show win1_0.index t (1 : Fin 2) * 256 + 1 * q.val = q.val; omega
  exact congrArg (V c main_v49) e

/-- The column sum of the block at position `n` is the array's block sum. -/
theorem xb1_sum (c : Dev nD) (n : ℕ) (h : n < 50) (q : Fin 256) :
    ∑ r : Fin 2000, xb1 V c n (ix2 r q) = Cert.Spec.blockSum (V c main_v49) q ⟨n, h⟩ := by
  have hN : n < cfg1.N := lt_of_lt_of_eq h N_1.symm
  have e : xb1 V c n = iblk1 V c 0 ⟨n, hN⟩ := xb1_val V c ⟨n, hN⟩
  unfold Cert.Spec.blockSum
  refine Finset.sum_congr rfl fun r _ => ?_
  rw [e]
  exact iblk1_apply V c ⟨n, hN⟩ r q (Cert.Spec.blockRow ⟨n, h⟩ r) rfl

theorem xb1_sumSq (c : Dev nD) (n : ℕ) (h : n < 50) (q : Fin 256) :
    ∑ r : Fin 2000, xb1 V c n (ix2 r q) * xb1 V c n (ix2 r q) = Cert.Spec.blockSumSq (V c main_v49) q ⟨n, h⟩ := by
  have hN : n < cfg1.N := lt_of_lt_of_eq h N_1.symm
  have e : xb1 V c n = iblk1 V c 0 ⟨n, hN⟩ := xb1_val V c ⟨n, hN⟩
  unfold Cert.Spec.blockSumSq
  refine Finset.sum_congr rfl fun r _ => ?_
  rw [e, iblk1_apply V c ⟨n, hN⟩ r q (Cert.Spec.blockRow ⟨n, h⟩ r) rfl]

/-! ## The running sums are the partial sums of the block sums -/

/-- After the body at position `n` the sums row holds, at column `q`, the first `n + 1` block sums. -/
theorem accS1_apply (c : Dev nD) (q : Fin 256) : ∀ (n : ℕ), n < 50 →
    accS1 V c n (ix2 (0 : Fin 1) q) = Cert.Spec.partSum (Cert.Spec.blockSum (V c main_v49) q) (n + 1)
  | 0, h => by
    rw [accS1_zero, stat1_pay4_apply (xb1 V c 0) (k1_pay1 (F := Ideal)) q, stat1_pay1_apply, xb1_sum V c 0 h q]
    have e := Cert.Spec.partSum_succ (Cert.Spec.blockSum (V c main_v49) q) (⟨0, h⟩ : Fin 50)
    rw [Cert.Spec.partSum_zero] at e
    exact e.symm
  | n + 1, h => by
    rw [accS1_succ, stat1_pay4_apply (xb1 V c (n + 1)) (accS1 V c n) q, accS1_apply c q n (Nat.lt_of_succ_lt h), xb1_sum V c (n + 1) h q]
    exact (Cert.Spec.partSum_succ (Cert.Spec.blockSum (V c main_v49) q) (⟨n + 1, h⟩ : Fin 50)).symm

/-- The same for the squares. -/
theorem accQ1_apply (c : Dev nD) (q : Fin 256) : ∀ (n : ℕ), n < 50 →
    accQ1 V c n (ix2 (0 : Fin 1) q) = Cert.Spec.partSum (Cert.Spec.blockSumSq (V c main_v49) q) (n + 1)
  | 0, h => by
    rw [accQ1_zero, stat1_pay5_apply (xb1 V c 0) (k1_pay2 (F := Ideal)) q, stat1_pay2_apply, xb1_sumSq V c 0 h q]
    have e := Cert.Spec.partSum_succ (Cert.Spec.blockSumSq (V c main_v49) q) (⟨0, h⟩ : Fin 50)
    rw [Cert.Spec.partSum_zero] at e
    exact e.symm
  | n + 1, h => by
    rw [accQ1_succ, stat1_pay5_apply (xb1 V c (n + 1)) (accQ1 V c n) q, accQ1_apply c q n (Nat.lt_of_succ_lt h), xb1_sumSq V c (n + 1) h q]
    exact (Cert.Spec.partSum_succ (Cert.Spec.blockSumSq (V c main_v49) q) (⟨n + 1, h⟩ : Fin 50)).symm

/-- After the last point: the column's sum and sum of squares over all the rows. -/
theorem accS1_last (c : Dev nD) (q : Fin 256) : accS1 V c 49 (ix2 (0 : Fin 1) q) = Cert.Spec.colSum (V c main_v49) q := by
  rw [accS1_apply V c q 49 (by decide)]; exact Cert.Spec.partSum_blockSum (V c main_v49) q
theorem accQ1_last (c : Dev nD) (q : Fin 256) : accQ1 V c 49 (ix2 (0 : Fin 1) q) = Cert.Spec.colSumSq (V c main_v49) q := by
  rw [accQ1_apply V c q 49 (by decide)]; exact Cert.Spec.partSum_blockSumSq (V c main_v49) q

/-! ## From the one write-back to the result arrays -/

/-- The mean row and the reciprocal standard deviation row the body stores at the last point. -/
def res1_1 (c : Dev nD) : S1x256.Idx → EReal := out1_1 (accS1 V c 49)
def res1_2 (c : Dev nD) : S1x256.Idx → EReal := out1_2 (accS1 V c 49) (accQ1 V c 49)

/-- The one write-back of the mean row, at the last point, writes it: the row's block is the whole array. -/
theorem flushed1_1_eq (c : Dev nD) (t : Fin cfg1.N) (hf : (cfg1.win 1).flush t = true) :
    (dat1 V c).flushed 1 t = ((cfg1.win 1).blk t).view.read (Elt Ideal) (res1_1 V c) := by
  have h49 : t.val = 49 := by
    have := (flush1_1 t).mp hf; have := lt_of_lt_of_eq t.isLt (show cfg1.N = 50 from N_1); omega
  show (cfg1.win 1).cut (grid1.coords t) ((dat1 V c).after 1 t) = _
  rw [after1_1, h49]
  obtain ⟨-, -, e10, e11, -, -⟩ := idx_facts1 t
  funext j
  obtain ⟨u, q, rfl⟩ : ∃ (u : Fin 1) (q : Fin 256), j = ix2 u q := ⟨j 0, j 1, eq_ix2 j⟩
  have e : ((cfg1.win 1).blk t).view.emb (ix2 u q) = (ix2 u q : S1x256.Idx) := by
    funext a; apply Fin.ext
    match a with
    | ⟨0, _⟩ => show win1_1.index t (0 : Fin 2) * 1 + 1 * u.val = u.val; omega
    | ⟨1, _⟩ => show win1_1.index t (1 : Fin 2) * 256 + 1 * q.val = q.val; omega
  show out1_1 (accS1 V c 49) (ix2 u q) = res1_1 V c (((cfg1.win 1).blk t).view.emb (ix2 u q))
  rw [e]; rfl

theorem flushed1_2_eq (c : Dev nD) (t : Fin cfg1.N) (hf : (cfg1.win 2).flush t = true) :
    (dat1 V c).flushed 2 t = ((cfg1.win 2).blk t).view.read (Elt Ideal) (res1_2 V c) := by
  have h49 : t.val = 49 := by
    have := (flush1_2 t).mp hf; have := lt_of_lt_of_eq t.isLt (show cfg1.N = 50 from N_1); omega
  show (cfg1.win 2).cut (grid1.coords t) ((dat1 V c).after 2 t) = _
  rw [after1_2, h49]
  obtain ⟨-, -, -, -, e20, e21⟩ := idx_facts1 t
  funext j
  obtain ⟨u, q, rfl⟩ : ∃ (u : Fin 1) (q : Fin 256), j = ix2 u q := ⟨j 0, j 1, eq_ix2 j⟩
  have e : ((cfg1.win 2).blk t).view.emb (ix2 u q) = (ix2 u q : S1x256.Idx) := by
    funext a; apply Fin.ext
    match a with
    | ⟨0, _⟩ => show win1_2.index t (0 : Fin 2) * 1 + 1 * u.val = u.val; omega
    | ⟨1, _⟩ => show win1_2.index t (1 : Fin 2) * 256 + 1 * q.val = q.val; omega
  show out1_2 (accS1 V c 49) (accQ1 V c 49) (ix2 u q) = res1_2 V c (((cfg1.win 2).blk t).view.emb (ix2 u q))
  rw [e]; rfl

/-- The last point, which writes both rows back. -/
abbrev tLast1 : Fin cfg1.N := ⟨49, by rw [show cfg1.N = 50 from N_1]; decide⟩

/-- Every index of a result row is in the last point's block. -/
theorem cover1_1 (i : S1x256.Idx) : ∃ t : Fin cfg1.N, (cfg1.win 1).flush t = true ∧ i ∈ ((cfg1.win 1).blk t).view.set := by
  have hi0 : (i 0).val < 1 := (i 0).isLt
  have hi1 : (i 1).val < 256 := (i 1).isLt
  obtain ⟨-, -, e10, e11, -, -⟩ := idx_facts1 tLast1
  refine ⟨tLast1, (flush1_1 tLast1).mpr rfl, ?_⟩
  show i ∈ ((View.whole main_v52_0).slice (win1_1.rect tLast1)).set
  rw [View.set_slice_whole, Rect.mem_set_unit]
  intro a
  match a with
  | ⟨0, _⟩ => show win1_1.index tLast1 (0 : Fin 2) * 1 ≤ (i 0).val ∧ (i 0).val < win1_1.index tLast1 (0 : Fin 2) * 1 + 1; omega
  | ⟨1, _⟩ => show win1_1.index tLast1 (1 : Fin 2) * 256 ≤ (i 1).val ∧ (i 1).val < win1_1.index tLast1 (1 : Fin 2) * 256 + 256; omega

theorem cover1_2 (i : S1x256.Idx) : ∃ t : Fin cfg1.N, (cfg1.win 2).flush t = true ∧ i ∈ ((cfg1.win 2).blk t).view.set := by
  have hi0 : (i 0).val < 1 := (i 0).isLt
  have hi1 : (i 1).val < 256 := (i 1).isLt
  obtain ⟨-, -, -, -, e20, e21⟩ := idx_facts1 tLast1
  refine ⟨tLast1, (flush1_2 tLast1).mpr rfl, ?_⟩
  show i ∈ ((View.whole main_v52_1).slice (win1_2.rect tLast1)).set
  rw [View.set_slice_whole, Rect.mem_set_unit]
  intro a
  match a with
  | ⟨0, _⟩ => show win1_2.index tLast1 (0 : Fin 2) * 1 ≤ (i 0).val ∧ (i 0).val < win1_2.index tLast1 (0 : Fin 2) * 1 + 1; omega
  | ⟨1, _⟩ => show win1_2.index tLast1 (1 : Fin 2) * 256 ≤ (i 1).val ∧ (i 1).val < win1_2.index tLast1 (1 : Fin 2) * 256 + 256; omega

/-- The two result arrays after the region's run. -/
theorem final1_1 (c : Dev nD) : (dat1 V c).arrAt 1 cfg1.N = res1_1 V c :=
  (dat1 V c).arrAt_eq_of_cover 1 (res1_1 V c) (flushed1_1_eq V c) cover1_1
theorem final1_2 (c : Dev nD) : (dat1 V c).arrAt 2 cfg1.N = res1_2 V c :=
  (dat1 V c).arrAt_eq_of_cover 2 (res1_2 V c) (flushed1_2_eq V c) cover1_2

/-- THE MEAN ROW: the first result array ends, at column `q`, at the mean of column `q` of the array the region
    finds. -/
theorem arrAt1_mean (c : Dev nD) (q : Fin 256) :
    (dat1 V c).arrAt 1 cfg1.N (ix2 (0 : Fin 1) q) = Cert.Spec.mean (V c main_v49) q := by
  rw [final1_1]
  show k1_pay6 (accS1 V c 49) (ix2 (0 : Fin 1) q) = _
  rw [stat1_pay6_apply, accS1_last]
  rfl

/-- THE SCALE ROW: the second ends at the reciprocal square root of the column's variance plus `ε`. -/
theorem arrAt1_scale (c : Dev nD) (q : Fin 256) :
    (dat1 V c).arrAt 2 cfg1.N (ix2 (0 : Fin 1) q)
      = Ideal.rsqrt (Cert.Spec.varKer (V c main_v49) q + Ideal.ofBits .f32 0x3727C5AC#32) := by
  rw [final1_2]
  show k1_pay7 (accS1 V c 49) (accQ1 V c 49) (ix2 (0 : Fin 1) q) = _
  rw [stat1_pay7_apply, accS1_last, accQ1_last]
  rfl

end Cert.KernelIdeal.Hand
end
-- ==== Proof.KI.StatsVal4.lean ====
import proofs.«166096_j40321152975189_1_alg».proof.Proof.KI.Stats4
import proofs.«166096_j40321152975189_1_alg».proof.Proof.SpecBlocks
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open scoped BigOperators
variable (V : (c : Dev nD) → (b : Ref sig .tc) → Buf (Elt Ideal) ((c : Thread nD τ).loc b))

/-! # Region 4 at the extended reals: the mean row and the reciprocal standard deviation row

At the extended reals a cast of a shape to itself changes nothing, a reduction over the rows of a block is the sum
over its 2000 rows, and a row of shape [256] read as [1, 256] is the same row. So after the body at grid point `n`
the first scratch row holds, at column `q`, the sum of the first `n + 1` block sums of column `q` of the array the
region finds, the second the same for the squares; after the last point these are the column's sum and sum of squares
over all 100000 rows, and the two rows the body stores then are the column means and the reciprocal standard
deviations, which the one write-back at the last point puts in the two result arrays. -/

/-! ## The payloads at an entry -/

/-- The index a reduction over the rows inserts: row `r` put before column `q`. -/
theorem lift_row4 (r : Fin 2000) (q : Fin 256) :
    reduces_S2000x256_S256.lift (ix1 q) r = (ix2 r q : S2000x256.Idx) := by
  funext a; apply Fin.ext
  match a with
  | ⟨0, _⟩ => rfl
  | ⟨1, _⟩ => rfl

/-- The zero row. -/
theorem pay1_apply4 (q : Fin 256) : k4_pay1 (F := Ideal) (ix2 (0 : Fin 1) q) = 0 := by
  unfold k4_pay1
  rw [shapeCast_self]
  exact Ideal.ofBits_zero_f32
theorem pay2_apply4 (q : Fin 256) : k4_pay2 (F := Ideal) (ix2 (0 : Fin 1) q) = 0 := by
  unfold k4_pay2
  rw [shapeCast_self]
  exact Ideal.ofBits_zero_f32

/-- The running sums row after a block: at column `q`, what it held plus the block's column sum. -/
theorem pay4_apply4 (x : Vec Ideal S2000x256 .f32) (s : Vec Ideal S1x256 .f32) (q : Fin 256) :
    k4_pay4 x s (ix2 (0 : Fin 1) q) = s (ix2 (0 : Fin 1) q) + ∑ r : Fin 2000, x (ix2 r q) := by
  unfold k4_pay4 k4_pay3
  rw [shapeCast_self, shapeCast_self, addf_apply, shapeCast_a_1a_apply]
  refine congrArg (s (ix2 (0 : Fin 1) q) + ·) ?_
  refine (Ideal.multiReduction_add_single _ _ reduces_S2000x256_S256 _ _ (ix1 q)).trans ?_
  exact Finset.sum_congr rfl fun r _ => congrArg x (lift_row4 r q)

/-- The running sums of squares row after a block: what it held plus the block's column sum of squares. -/
theorem pay5_apply4 (x : Vec Ideal S2000x256 .f32) (s : Vec Ideal S1x256 .f32) (q : Fin 256) :
    k4_pay5 x s (ix2 (0 : Fin 1) q) = s (ix2 (0 : Fin 1) q) + ∑ r : Fin 2000, x (ix2 r q) * x (ix2 r q) := by
  unfold k4_pay5 k4_pay3
  rw [shapeCast_self, shapeCast_self, addf_apply, shapeCast_a_1a_apply]
  refine congrArg (s (ix2 (0 : Fin 1) q) + ·) ?_
  refine (Ideal.multiReduction_add_single _ _ reduces_S2000x256_S256 _ _ (ix1 q)).trans ?_
  exact Finset.sum_congr rfl fun r _ => by rw [lift_row4 r q]; rfl

/-- The mean row: the sums row divided by the row count. -/
theorem pay6_apply4 (s : Vec Ideal S1x256 .f32) (q : Fin 256) :
    k4_pay6 s (ix2 (0 : Fin 1) q) = Ideal.div (s (ix2 (0 : Fin 1) q)) (Ideal.ofBits .f32 0x47C35000#32) := rfl

/-- The reciprocal standard deviation row. -/
theorem pay7_apply4 (s t : Vec Ideal S1x256 .f32) (q : Fin 256) :
    k4_pay7 s t (ix2 (0 : Fin 1) q) = Ideal.rsqrt ((Ideal.div (t (ix2 (0 : Fin 1) q)) (Ideal.ofBits .f32 0x47C35000#32)
      - Ideal.div (s (ix2 (0 : Fin 1) q)) (Ideal.ofBits .f32 0x47C35000#32) * Ideal.div (s (ix2 (0 : Fin 1) q)) (Ideal.ofBits .f32 0x47C35000#32))
      + Ideal.ofBits .f32 0x3727C5AC#32) := rfl

/-! ## The blocks of the input array -/

/-- The printed index maps, decided over the grid: at point `t` the input's block is row block `t`; the two result
    rows' block never moves. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- Row `r` of the block at point `t` is row `2000 · t + r` of the array. -/
theorem iblk4_apply (c : Dev nD) (t : Fin cfg4.N) (r : Fin 2000) (q : Fin 256) (R : Fin 100000)
    (hR : R.val = 2000 * t.val + r.val) :
    (iblk4 V c 0 t : Vec Ideal S2000x256 .f32) (ix2 r q) = V c main_v73 (ix2 R q) := by
  obtain ⟨e00, e01, -⟩ := idx_facts4 t
  have e : ((cfg4.win 0).blk t).view.emb (ix2 r q) = (ix2 R q : S100000x256.Idx) := by
    funext a; apply Fin.ext
    match a with
    | ⟨0, _⟩ => show win4_0.index t (0 : Fin 2) * 2000 + 1 * r.val = R.val; omega
    | ⟨1, _⟩ => show win4_0.index t (1 : Fin 2) * 256 + 1 * q.val = q.val; omega
  exact congrArg (V c main_v73) e

/-- The column sum of the block at position `n` is the array's block sum. -/
theorem xb4_sum (c : Dev nD) (n : ℕ) (h : n < 50) (q : Fin 256) :
    ∑ r : Fin 2000, xb4 V c n (ix2 r q) = Cert.Spec.blockSum (V c main_v73) q ⟨n, h⟩ := by
  have hN : n < cfg4.N := lt_of_lt_of_eq h N_4.symm
  have e : xb4 V c n = iblk4 V c 0 ⟨n, hN⟩ := xb4_val V c ⟨n, hN⟩
  unfold Cert.Spec.blockSum
  refine Finset.sum_congr rfl fun r _ => ?_
  rw [e]
  exact iblk4_apply V c ⟨n, hN⟩ r q (Cert.Spec.blockRow ⟨n, h⟩ r) rfl

theorem xb4_sumSq (c : Dev nD) (n : ℕ) (h : n < 50) (q : Fin 256) :
    ∑ r : Fin 2000, xb4 V c n (ix2 r q) * xb4 V c n (ix2 r q) = Cert.Spec.blockSumSq (V c main_v73) q ⟨n, h⟩ := by
  have hN : n < cfg4.N := lt_of_lt_of_eq h N_4.symm
  have e : xb4 V c n = iblk4 V c 0 ⟨n, hN⟩ := xb4_val V c ⟨n, hN⟩
  unfold Cert.Spec.blockSumSq
  refine Finset.sum_congr rfl fun r _ => ?_
  rw [e, iblk4_apply V c ⟨n, hN⟩ r q (Cert.Spec.blockRow ⟨n, h⟩ r) rfl]

/-! ## The running sums are the partial sums of the block sums -/

/-- After the body at position `n` the sums row holds, at column `q`, the first `n + 1` block sums. -/
theorem accS4_apply (c : Dev nD) (q : Fin 256) : ∀ (n : ℕ), n < 50 →
    accS4 V c n (ix2 (0 : Fin 1) q) = Cert.Spec.partSum (Cert.Spec.blockSum (V c main_v73) q) (n + 1)
  | 0, h => by
    rw [accS4_zero, pay4_apply4 (xb4 V c 0) (k4_pay1 (F := Ideal)) q, pay1_apply4, xb4_sum V c 0 h q]
    have e := Cert.Spec.partSum_succ (Cert.Spec.blockSum (V c main_v73) q) (⟨0, h⟩ : Fin 50)
    rw [Cert.Spec.partSum_zero] at e
    exact e.symm
  | n + 1, h => by
    rw [accS4_succ, pay4_apply4 (xb4 V c (n + 1)) (accS4 V c n) q, accS4_apply c q n (Nat.lt_of_succ_lt h), xb4_sum V c (n + 1) h q]
    exact (Cert.Spec.partSum_succ (Cert.Spec.blockSum (V c main_v73) q) (⟨n + 1, h⟩ : Fin 50)).symm

/-- The same for the squares. -/
theorem accQ4_apply (c : Dev nD) (q : Fin 256) : ∀ (n : ℕ), n < 50 →
    accQ4 V c n (ix2 (0 : Fin 1) q) = Cert.Spec.partSum (Cert.Spec.blockSumSq (V c main_v73) q) (n + 1)
  | 0, h => by
    rw [accQ4_zero, pay5_apply4 (xb4 V c 0) (k4_pay2 (F := Ideal)) q, pay2_apply4, xb4_sumSq V c 0 h q]
    have e := Cert.Spec.partSum_succ (Cert.Spec.blockSumSq (V c main_v73) q) (⟨0, h⟩ : Fin 50)
    rw [Cert.Spec.partSum_zero] at e
    exact e.symm
  | n + 1, h => by
    rw [accQ4_succ, pay5_apply4 (xb4 V c (n + 1)) (accQ4 V c n) q, accQ4_apply c q n (Nat.lt_of_succ_lt h), xb4_sumSq V c (n + 1) h q]
    exact (Cert.Spec.partSum_succ (Cert.Spec.blockSumSq (V c main_v73) q) (⟨n + 1, h⟩ : Fin 50)).symm

/-- After the last point: the column's sum and sum of squares over all the rows. -/
theorem accS4_last (c : Dev nD) (q : Fin 256) : accS4 V c 49 (ix2 (0 : Fin 1) q) = Cert.Spec.colSum (V c main_v73) q := by
  rw [accS4_apply V c q 49 (by decide)]; exact Cert.Spec.partSum_blockSum (V c main_v73) q
theorem accQ4_last (c : Dev nD) (q : Fin 256) : accQ4 V c 49 (ix2 (0 : Fin 1) q) = Cert.Spec.colSumSq (V c main_v73) q := by
  rw [accQ4_apply V c q 49 (by decide)]; exact Cert.Spec.partSum_blockSumSq (V c main_v73) q

/-! ## From the one write-back to the result arrays -/

/-- The mean row and the reciprocal standard deviation row the body stores at the last point. -/
def res4_1 (c : Dev nD) : S1x256.Idx → EReal := out4_1 (accS4 V c 49)
def res4_2 (c : Dev nD) : S1x256.Idx → EReal := out4_2 (accS4 V c 49) (accQ4 V c 49)

/-- The one write-back of the mean row, at the last point, writes it: the row's block is the whole array. -/
theorem flushed4_1_eq (c : Dev nD) (t : Fin cfg4.N) (hf : (cfg4.win 1).flush t = true) :
    (dat4 V c).flushed 1 t = ((cfg4.win 1).blk t).view.read (Elt Ideal) (res4_1 V c) := by
  have h49 : t.val = 49 := by
    have := (flush4_1 t).mp hf; have := lt_of_lt_of_eq t.isLt (show cfg4.N = 50 from N_4); omega
  show (cfg4.win 1).cut (grid4.coords t) ((dat4 V c).after 1 t) = _
  rw [after4_1, h49]
  obtain ⟨-, -, e10, e11, -, -⟩ := idx_facts4 t
  funext j
  obtain ⟨u, q, rfl⟩ : ∃ (u : Fin 1) (q : Fin 256), j = ix2 u q := ⟨j 0, j 1, eq_ix2 j⟩
  have e : ((cfg4.win 1).blk t).view.emb (ix2 u q) = (ix2 u q : S1x256.Idx) := by
    funext a; apply Fin.ext
    match a with
    | ⟨0, _⟩ => show win4_1.index t (0 : Fin 2) * 1 + 1 * u.val = u.val; omega
    | ⟨1, _⟩ => show win4_1.index t (1 : Fin 2) * 256 + 1 * q.val = q.val; omega
  show out4_1 (accS4 V c 49) (ix2 u q) = res4_1 V c (((cfg4.win 1).blk t).view.emb (ix2 u q))
  rw [e]; rfl

theorem flushed4_2_eq (c : Dev nD) (t : Fin cfg4.N) (hf : (cfg4.win 2).flush t = true) :
    (dat4 V c).flushed 2 t = ((cfg4.win 2).blk t).view.read (Elt Ideal) (res4_2 V c) := by
  have h49 : t.val = 49 := by
    have := (flush4_2 t).mp hf; have := lt_of_lt_of_eq t.isLt (show cfg4.N = 50 from N_4); omega
  show (cfg4.win 2).cut (grid4.coords t) ((dat4 V c).after 2 t) = _
  rw [after4_2, h49]
  obtain ⟨-, -, -, -, e20, e21⟩ := idx_facts4 t
  funext j
  obtain ⟨u, q, rfl⟩ : ∃ (u : Fin 1) (q : Fin 256), j = ix2 u q := ⟨j 0, j 1, eq_ix2 j⟩
  have e : ((cfg4.win 2).blk t).view.emb (ix2 u q) = (ix2 u q : S1x256.Idx) := by
    funext a; apply Fin.ext
    match a with
    | ⟨0, _⟩ => show win4_2.index t (0 : Fin 2) * 1 + 1 * u.val = u.val; omega
    | ⟨1, _⟩ => show win4_2.index t (1 : Fin 2) * 256 + 1 * q.val = q.val; omega
  show out4_2 (accS4 V c 49) (accQ4 V c 49) (ix2 u q) = res4_2 V c (((cfg4.win 2).blk t).view.emb (ix2 u q))
  rw [e]; rfl

/-- The last point, which writes both rows back. -/
abbrev tLast4 : Fin cfg4.N := ⟨49, by rw [show cfg4.N = 50 from N_4]; decide⟩

/-- Every index of a result row is in the last point's block. -/
theorem cover4_1 (i : S1x256.Idx) : ∃ t : Fin cfg4.N, (cfg4.win 1).flush t = true ∧ i ∈ ((cfg4.win 1).blk t).view.set := by
  have hi0 : (i 0).val < 1 := (i 0).isLt
  have hi1 : (i 1).val < 256 := (i 1).isLt
  obtain ⟨-, -, e10, e11, -, -⟩ := idx_facts4 tLast4
  refine ⟨tLast4, (flush4_1 tLast4).mpr rfl, ?_⟩
  show i ∈ ((View.whole main_v76_0).slice (win4_1.rect tLast4)).set
  rw [View.set_slice_whole, Rect.mem_set_unit]
  intro a
  match a with
  | ⟨0, _⟩ => show win4_1.index tLast4 (0 : Fin 2) * 1 ≤ (i 0).val ∧ (i 0).val < win4_1.index tLast4 (0 : Fin 2) * 1 + 1; omega
  | ⟨1, _⟩ => show win4_1.index tLast4 (1 : Fin 2) * 256 ≤ (i 1).val ∧ (i 1).val < win4_1.index tLast4 (1 : Fin 2) * 256 + 256; omega

theorem cover4_2 (i : S1x256.Idx) : ∃ t : Fin cfg4.N, (cfg4.win 2).flush t = true ∧ i ∈ ((cfg4.win 2).blk t).view.set := by
  have hi0 : (i 0).val < 1 := (i 0).isLt
  have hi1 : (i 1).val < 256 := (i 1).isLt
  obtain ⟨-, -, -, -, e20, e21⟩ := idx_facts4 tLast4
  refine ⟨tLast4, (flush4_2 tLast4).mpr rfl, ?_⟩
  show i ∈ ((View.whole main_v76_1).slice (win4_2.rect tLast4)).set
  rw [View.set_slice_whole, Rect.mem_set_unit]
  intro a
  match a with
  | ⟨0, _⟩ => show win4_2.index tLast4 (0 : Fin 2) * 1 ≤ (i 0).val ∧ (i 0).val < win4_2.index tLast4 (0 : Fin 2) * 1 + 1; omega
  | ⟨1, _⟩ => show win4_2.index tLast4 (1 : Fin 2) * 256 ≤ (i 1).val ∧ (i 1).val < win4_2.index tLast4 (1 : Fin 2) * 256 + 256; omega

/-- The two result arrays after the region's run. -/
theorem final4_1 (c : Dev nD) : (dat4 V c).arrAt 1 cfg4.N = res4_1 V c :=
  (dat4 V c).arrAt_eq_of_cover 1 (res4_1 V c) (flushed4_1_eq V c) cover4_1
theorem final4_2 (c : Dev nD) : (dat4 V c).arrAt 2 cfg4.N = res4_2 V c :=
  (dat4 V c).arrAt_eq_of_cover 2 (res4_2 V c) (flushed4_2_eq V c) cover4_2

/-- THE MEAN ROW: the first result array ends, at column `q`, at the mean of column `q` of the array the region
    finds. -/
theorem arrAt4_mean (c : Dev nD) (q : Fin 256) :
    (dat4 V c).arrAt 1 cfg4.N (ix2 (0 : Fin 1) q) = Cert.Spec.mean (V c main_v73) q := by
  rw [final4_1]
  show k4_pay6 (accS4 V c 49) (ix2 (0 : Fin 1) q) = _
  rw [pay6_apply4, accS4_last]
  rfl

/-- THE SCALE ROW: the second ends at the reciprocal square root of the column's variance plus `ε`. -/
theorem arrAt4_scale (c : Dev nD) (q : Fin 256) :
    (dat4 V c).arrAt 2 cfg4.N (ix2 (0 : Fin 1) q)
      = Ideal.rsqrt (Cert.Spec.varKer (V c main_v73) q + Ideal.ofBits .f32 0x3727C5AC#32) := by
  rw [final4_2]
  show k4_pay7 (accS4 V c 49) (accQ4 V c 49) (ix2 (0 : Fin 1) q) = _
  rw [pay7_apply4, accS4_last, accQ4_last]
  rfl

end Cert.KernelIdeal.Hand
end
-- ==== Proof.Net.lean ====
/-
  The whole network as one function of its fourteen arguments, in the two arrangements.

  A linear map of the node features, the neighbourhood aggregation with its bias, batch normalisation over the rows
  with a clamp at zero; the same three steps once more; then a linear layer with a clamp and a last linear layer.
  The two arrangements differ only in how the two batch normalisations take their variance.  For finite arguments
  every array up to the second normalisation is finite, so both normalisations agree and the two networks are one
  function.
-/
import proofs.«166096_j40321152975189_1_alg».proof.Proof.Agg
import proofs.«166096_j40321152975189_1_alg».proof.Proof.Spec

noncomputable section

open Idealize.ShloMosaic Cert.LibStats Cert.Spec Cert.Agg

namespace Cert.Net

variable [Cert.ReferenceIdeal.Facts₀]

/-- The network with each batch variance taken as the mean of the squared deviations. -/
def netRef (x : Arr S100000x128) (ei : IVec Cert.ReferenceIdeal.S2x800000 32) (W0 : Arr S256x128) (b0 : Arr S256)
    (W1 : Arr S256x256) (b1 g0 be0 g1 be1 : Arr S256) (Wl1 : Arr S256x256) (bl1 : Arr S256) (Wl2 : Arr S64x256)
    (bl2 : Arr S64) : Arr S100000x64 :=
  lin64 (relu (lin256 (bnRef (aggR (mm256 (bnRef (aggR (mm128 x W0) ei (normR ei) b0) g0 be0) W1) ei (normR ei) b1)
    g1 be1) Wl1 bl1)) Wl2 bl2

/-- The network with each batch variance taken as the mean of the squares minus the squared mean. -/
def netKer (x : Arr S100000x128) (ei : IVec Cert.ReferenceIdeal.S2x800000 32) (W0 : Arr S256x128) (b0 : Arr S256)
    (W1 : Arr S256x256) (b1 g0 be0 g1 be1 : Arr S256) (Wl1 : Arr S256x256) (bl1 : Arr S256) (Wl2 : Arr S64x256)
    (bl2 : Arr S64) : Arr S100000x64 :=
  lin64 (relu (lin256 (bnKer (aggR (mm256 (bnKer (aggR (mm128 x W0) ei (normR ei) b0) g0 be0) W1) ei (normR ei) b1)
    g1 be1) Wl1 bl1)) Wl2 bl2

/-- The input of the first normalisation is finite. -/
theorem agg1_allFin {x : Arr S100000x128} (ei : IVec Cert.ReferenceIdeal.S2x800000 32) {W0 : Arr S256x128}
    {b0 : Arr S256} (hx : AllFin x) (hW0 : AllFin W0) (hb0 : AllFin b0) :
    AllFin (aggR (mm128 x W0) ei (normR ei) b0) :=
  aggR_allFin ei (mm128_allFin hx hW0) (normR_allFin ei) hb0

/-- The input of the second normalisation is finite. -/
theorem agg2_allFin {x : Arr S100000x128} (ei : IVec Cert.ReferenceIdeal.S2x800000 32) {W0 : Arr S256x128}
    {b0 : Arr S256} {W1 : Arr S256x256} {b1 g0 be0 : Arr S256} (hx : AllFin x) (hW0 : AllFin W0) (hb0 : AllFin b0)
    (hW1 : AllFin W1) (hb1 : AllFin b1) (hg0 : AllFin g0) (hbe0 : AllFin be0) :
    AllFin (aggR (mm256 (bnRef (aggR (mm128 x W0) ei (normR ei) b0) g0 be0) W1) ei (normR ei) b1) :=
  aggR_allFin ei (mm256_allFin (bnRef_allFin (agg1_allFin ei hx hW0 hb0) hg0 hbe0) hW1) (normR_allFin ei) hb1

/-- For finite features, weights, biases, scale and shift of the first two blocks, the two arrangements of the network
    are one function (the later arguments may be anything). -/
theorem net_eq {x : Arr S100000x128} (ei : IVec Cert.ReferenceIdeal.S2x800000 32) {W0 : Arr S256x128} {b0 : Arr S256}
    {W1 : Arr S256x256} {b1 g0 be0 : Arr S256} (g1 be1 : Arr S256) (Wl1 : Arr S256x256) (bl1 : Arr S256)
    (Wl2 : Arr S64x256) (bl2 : Arr S64) (hx : AllFin x) (hW0 : AllFin W0) (hb0 : AllFin b0) (hW1 : AllFin W1)
    (hb1 : AllFin b1) (hg0 : AllFin g0) (hbe0 : AllFin be0) :
    netKer x ei W0 b0 W1 b1 g0 be0 g1 be1 Wl1 bl1 Wl2 bl2 = netRef x ei W0 b0 W1 b1 g0 be0 g1 be1 Wl1 bl1 Wl2 bl2 := by
  unfold netKer netRef
  rw [bnKer_eq_bnRef (agg1_allFin ei hx hW0 hb0) g0 be0,
    bnKer_eq_bnRef (agg2_allFin ei hx hW0 hb0 hW1 hb1 hg0 hbe0) g1 be1]

end Cert.Net

end
-- ==== Proof.KI.KernelValue.lean ====
/-
  What the idealized kernel program leaves in its result array, as the network of the argument arrays.

  Walking @main's sixteen items: each dense region leaves its input rows times the transposed weight plus the bias
  (the first two with a zero bias, the third followed by a maximum with zero); each host stretch after a graph
  layer's dense region applies the neighbourhood aggregation with the edge weights computed once from the edge
  list; each statistics region leaves the column means and the inverse standard deviations in the
  mean-of-squares arrangement, which the following region uses to normalise, scale, shift and clip.
-/
import proofs.«166096_j40321152975189_1_alg».proof.Proof.KI.Packs
import proofs.«166096_j40321152975189_1_alg».proof.Proof.KI.LinGlue
import proofs.«166096_j40321152975189_1_alg».proof.Proof.KI.HostChain
import proofs.«166096_j40321152975189_1_alg».proof.Proof.KI.BnGlue
import proofs.«166096_j40321152975189_1_alg».proof.Proof.KI.StatsVal1
import proofs.«166096_j40321152975189_1_alg».proof.Proof.KI.StatsVal4
import proofs.«166096_j40321152975189_1_alg».proof.Proof.Net
import proofs.«166096_j40321152975189_1_alg».proof.Proof.Gen.ReferenceIdeal

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.ShloMosaic.Pipeline (Dat)

section Keep
variable {F : FTy → Type} [FloatOps F]

/-! ## Buffers that a run of items leaves alone -/

theorem W2_from_W0 (m : Mem F) (P : Packs F) (c : Dev nD) (b : Ref sig .tc) (h0 : b ∉ hostOps0_W) (h1 : b ∉ hostOps0_1_W) :
    W2 m P c (Proc.devRef .tc b) = W0 m P c (Proc.devRef .tc b) :=
  (W2_keep m P c b h1).trans <| (W1_keep m P c b h0)

theorem W4_from_W0 (m : Mem F) (P : Packs F) (c : Dev nD) (b : Ref sig .tc) (h0 : b ∉ hostOps0_W) (h1 : b ∉ hostOps0_1_W) (h2 : b ∉ hostOps0_2_W) (h3 : ∀ w, Pipeline.arrRef spec0 w ≠ b) :
    W4 m P c (Proc.devRef .tc b) = W0 m P c (Proc.devRef .tc b) :=
  (W4_of_ne m P c b h3).trans <| (W3_keep m P c b h2).trans <| (W2_keep m P c b h1).trans <| (W1_keep m P c b h0)

theorem W4_from_W3 (m : Mem F) (P : Packs F) (c : Dev nD) (b : Ref sig .tc) (h3 : ∀ w, Pipeline.arrRef spec0 w ≠ b) :
    W4 m P c (Proc.devRef .tc b) = W3 m P c (Proc.devRef .tc b) :=
  (W4_of_ne m P c b h3)

theorem W7_from_W0 (m : Mem F) (P : Packs F) (c : Dev nD) (b : Ref sig .tc) (h0 : b ∉ hostOps0_W) (h1 : b ∉ hostOps0_1_W) (h2 : b ∉ hostOps0_2_W) (h3 : ∀ w, Pipeline.arrRef spec0 w ≠ b) (h4 : b ∉ hostOps1_W) (h5 : ∀ w, Pipeline.arrRef spec1 w ≠ b) (h6 : ∀ w, Pipeline.arrRef spec2 w ≠ b) :
    W7 m P c (Proc.devRef .tc b) = W0 m P c (Proc.devRef .tc b) :=
  (W7_of_ne m P c b h6).trans <| (W6_of_ne m P c b h5).trans <| (W5_keep m P c b h4).trans <| (W4_of_ne m P c b h3).trans <| (W3_keep m P c b h2).trans <| (W2_keep m P c b h1).trans <| (W1_keep m P c b h0)

theorem W9_from_W3 (m : Mem F) (P : Packs F) (c : Dev nD) (b : Ref sig .tc) (h3 : ∀ w, Pipeline.arrRef spec0 w ≠ b) (h4 : b ∉ hostOps1_W) (h5 : ∀ w, Pipeline.arrRef spec1 w ≠ b) (h6 : ∀ w, Pipeline.arrRef spec2 w ≠ b) (h7 : b ∉ hostOps3_W) (h8 : ∀ w, Pipeline.arrRef spec3 w ≠ b) :
    W9 m P c (Proc.devRef .tc b) = W3 m P c (Proc.devRef .tc b) :=
  (W9_of_ne m P c b h8).trans <| (W8_keep m P c b h7).trans <| (W7_of_ne m P c b h6).trans <| (W6_of_ne m P c b h5).trans <| (W5_keep m P c b h4).trans <| (W4_of_ne m P c b h3)

theorem W9_from_W0 (m : Mem F) (P : Packs F) (c : Dev nD) (b : Ref sig .tc) (h0 : b ∉ hostOps0_W) (h1 : b ∉ hostOps0_1_W) (h2 : b ∉ hostOps0_2_W) (h3 : ∀ w, Pipeline.arrRef spec0 w ≠ b) (h4 : b ∉ hostOps1_W) (h5 : ∀ w, Pipeline.arrRef spec1 w ≠ b) (h6 : ∀ w, Pipeline.arrRef spec2 w ≠ b) (h7 : b ∉ hostOps3_W) (h8 : ∀ w, Pipeline.arrRef spec3 w ≠ b) :
    W9 m P c (Proc.devRef .tc b) = W0 m P c (Proc.devRef .tc b) :=
  (W9_of_ne m P c b h8).trans <| (W8_keep m P c b h7).trans <| (W7_of_ne m P c b h6).trans <| (W6_of_ne m P c b h5).trans <| (W5_keep m P c b h4).trans <| (W4_of_ne m P c b h3).trans <| (W3_keep m P c b h2).trans <| (W2_keep m P c b h1).trans <| (W1_keep m P c b h0)

theorem W12_from_W0 (m : Mem F) (P : Packs F) (c : Dev nD) (b : Ref sig .tc) (h0 : b ∉ hostOps0_W) (h1 : b ∉ hostOps0_1_W) (h2 : b ∉ hostOps0_2_W) (h3 : ∀ w, Pipeline.arrRef spec0 w ≠ b) (h4 : b ∉ hostOps1_W) (h5 : ∀ w, Pipeline.arrRef spec1 w ≠ b) (h6 : ∀ w, Pipeline.arrRef spec2 w ≠ b) (h7 : b ∉ hostOps3_W) (h8 : ∀ w, Pipeline.arrRef spec3 w ≠ b) (h9 : b ∉ hostOps4_W) (h10 : ∀ w, Pipeline.arrRef spec4 w ≠ b) (h11 : ∀ w, Pipeline.arrRef spec5 w ≠ b) :
    W12 m P c (Proc.devRef .tc b) = W0 m P c (Proc.devRef .tc b) :=
  (W12_of_ne m P c b h11).trans <| (W11_of_ne m P c b h10).trans <| (W10_keep m P c b h9).trans <| (W9_of_ne m P c b h8).trans <| (W8_keep m P c b h7).trans <| (W7_of_ne m P c b h6).trans <| (W6_of_ne m P c b h5).trans <| (W5_keep m P c b h4).trans <| (W4_of_ne m P c b h3).trans <| (W3_keep m P c b h2).trans <| (W2_keep m P c b h1).trans <| (W1_keep m P c b h0)

theorem W14_from_W0 (m : Mem F) (P : Packs F) (c : Dev nD) (b : Ref sig .tc) (h0 : b ∉ hostOps0_W) (h1 : b ∉ hostOps0_1_W) (h2 : b ∉ hostOps0_2_W) (h3 : ∀ w, Pipeline.arrRef spec0 w ≠ b) (h4 : b ∉ hostOps1_W) (h5 : ∀ w, Pipeline.arrRef spec1 w ≠ b) (h6 : ∀ w, Pipeline.arrRef spec2 w ≠ b) (h7 : b ∉ hostOps3_W) (h8 : ∀ w, Pipeline.arrRef spec3 w ≠ b) (h9 : b ∉ hostOps4_W) (h10 : ∀ w, Pipeline.arrRef spec4 w ≠ b) (h11 : ∀ w, Pipeline.arrRef spec5 w ≠ b) (h12 : b ∉ hostOps6_W) (h13 : ∀ w, Pipeline.arrRef spec6 w ≠ b) :
    W14 m P c (Proc.devRef .tc b) = W0 m P c (Proc.devRef .tc b) :=
  (W14_of_ne m P c b h13).trans <| (W13_keep m P c b h12).trans <| (W12_of_ne m P c b h11).trans <| (W11_of_ne m P c b h10).trans <| (W10_keep m P c b h9).trans <| (W9_of_ne m P c b h8).trans <| (W8_keep m P c b h7).trans <| (W7_of_ne m P c b h6).trans <| (W6_of_ne m P c b h5).trans <| (W5_keep m P c b h4).trans <| (W4_of_ne m P c b h3).trans <| (W3_keep m P c b h2).trans <| (W2_keep m P c b h1).trans <| (W1_keep m P c b h0)

theorem W6_from_W5 (m : Mem F) (P : Packs F) (c : Dev nD) (b : Ref sig .tc) (h5 : ∀ w, Pipeline.arrRef spec1 w ≠ b) :
    W6 m P c (Proc.devRef .tc b) = W5 m P c (Proc.devRef .tc b) :=
  (W6_of_ne m P c b h5)

theorem W11_from_W10 (m : Mem F) (P : Packs F) (c : Dev nD) (b : Ref sig .tc) (h10 : ∀ w, Pipeline.arrRef spec4 w ≠ b) :
    W11 m P c (Proc.devRef .tc b) = W10 m P c (Proc.devRef .tc b) :=
  (W11_of_ne m P c b h10)

end Keep

/-! ## The value, stage by stage -/

section Value

open Cert.Spec Cert.Agg Cert.KernelIdeal.HostChain Idealize.ShloMosaic.ValueIdx

variable (m : Mem Ideal) (c : Dev nD)

/-- The eight regions' records at the extended reals. -/
abbrev PI : Packs Ideal := packs

/-- An argument array as launched. -/
abbrev argA (b : Ref sig .tc) : Buf (Elt Ideal) ((c : Thread nD τ).loc b) := m (c, Proc.devRef .tc b)

theorem W2_arg0 : W2 m PI c (Proc.devRef .tc main_arg0) = argA m c main_arg0 := W2_from_W0 m PI c main_arg0 (by decide) (by decide)
theorem W2_arg2 : W2 m PI c (Proc.devRef .tc main_arg2) = argA m c main_arg2 := W2_from_W0 m PI c main_arg2 (by decide) (by decide)

/-- The first dense region: the node features times the transposed first weight (its bias is zero). -/
theorem h0_eq : W4 m PI c (Proc.devRef .tc main_v33) = Cert.Spec.mm128 (argA m c main_arg0) (argA m c main_arg2) := by
  refine (W4_arr m PI c 3).trans ?_
  refine (final0_3 (C3 m PI) c).trans ?_
  refine (region0_spec (W2 m PI c)).trans ?_
  rw [W2_arg0, W2_arg2]

/-- The endpoints and the edge weights, computed once from the edge list, as every later item finds them. -/
theorem W3_norm : W3 m PI c (Proc.devRef .tc main_v29) = normK (argA m c main_arg1) := (norm_chain (W0 m PI c)).1
theorem W3_src : W3 m PI c (Proc.devRef .tc main_v3) = srcK (argA m c main_arg1) := (norm_chain (W0 m PI c)).2.1
theorem W3_dst : W3 m PI c (Proc.devRef .tc main_v6) = dstK (argA m c main_arg1) := (norm_chain (W0 m PI c)).2.2

/-- The first aggregation. -/
theorem a1_eq : W5 m PI c (Proc.devRef .tc main_v49)
    = aggK (Cert.Spec.mm128 (argA m c main_arg0) (argA m c main_arg2)) (argA m c main_arg1) (normK (argA m c main_arg1)) (argA m c main_arg3) := by
  refine (s4_agg (W4 m PI c)).trans ?_
  rw [h0_eq, W4_from_W3 m PI c main_v3 (by decide), W4_from_W3 m PI c main_v6 (by decide), W4_from_W3 m PI c main_v29 (by decide),
    W4_from_W0 m PI c main_arg3 (by decide) (by decide) (by decide) (by decide), W3_norm, W3_src, W3_dst]
  exact aggK'_eq _ _ _ _

/-- Region 1 hands its input array back. -/
theorem W6_v49 : W6 m PI c (Proc.devRef .tc main_v49) = W5 m PI c (Proc.devRef .tc main_v49) :=
  (W6_arr m PI c 0).trans ((((PI.p1 (C5 m PI)).dat c).arrAt_in 0 rfl _).trans ((PI.p1 (C5 m PI)).A_eq c 0))

/-- The first batch normalisation, in the kernel's arrangement. -/
theorem y1_eq : W7 m PI c (Proc.devRef .tc main_v53)
    = Cert.Spec.bnKer (W5 m PI c (Proc.devRef .tc main_v49)) (argA m c main_arg6) (argA m c main_arg7) := by
  refine (W7_arr m PI c 5).trans ?_
  refine (final2_5 (C6 m PI) c).trans ?_
  rw [show C6 m PI c main_v49 = W5 m PI c (Proc.devRef .tc main_v49) from W6_v49 m c]
  refine bnKer_glue2 _ _ _ _ _ _ _ (fun q => ?_) (fun q => ?_) (fun q => ?_) (fun q => ?_)
  · exact (congrFun (W6_arr m PI c 1) (ix2 (0 : Fin 1) q)).trans (arrAt1_mean (C5 m PI) c q)
  · exact (congrFun (W6_arr m PI c 2) (ix2 (0 : Fin 1) q)).trans (arrAt1_scale (C5 m PI) c q)
  · refine (congrFun (W6_from_W5 m PI c main_v50 (by decide)) (ix2 (0 : Fin 1) q)).trans ?_
    refine (s_gamma1 (W4 m PI c) q).trans ?_
    exact congrFun (W4_from_W0 m PI c main_arg6 (by decide) (by decide) (by decide) (by decide)) (ix1 q)
  · refine (congrFun (W6_from_W5 m PI c main_v51 (by decide)) (ix2 (0 : Fin 1) q)).trans ?_
    refine (s_beta1 (W4 m PI c) q).trans ?_
    exact congrFun (W4_from_W0 m PI c main_arg7 (by decide) (by decide) (by decide) (by decide)) (ix1 q)

/-- The second dense region: the normalised features times the transposed second weight (zero bias). -/
theorem h1_eq : W9 m PI c (Proc.devRef .tc main_v57) = Cert.Spec.mm256 (W7 m PI c (Proc.devRef .tc main_v53)) (argA m c main_arg4) := by
  refine (W9_arr m PI c 3).trans ?_
  refine (final3_3 (C8 m PI) c).trans ?_
  refine (region3_spec (W7 m PI c)).trans ?_
  rw [W7_from_W0 m PI c main_arg4 (by decide) (by decide) (by decide) (by decide) (by decide) (by decide) (by decide)]

/-- The second aggregation, with the same endpoints and edge weights. -/
theorem a2_eq : W10 m PI c (Proc.devRef .tc main_v73)
    = aggK (W9 m PI c (Proc.devRef .tc main_v57)) (argA m c main_arg1) (normK (argA m c main_arg1)) (argA m c main_arg5) := by
  refine (s9_agg (W9 m PI c)).trans ?_
  rw [W9_from_W3 m PI c main_v3 (by decide) (by decide) (by decide) (by decide) (by decide) (by decide), W9_from_W3 m PI c main_v6 (by decide) (by decide) (by decide) (by decide) (by decide) (by decide), W9_from_W3 m PI c main_v29 (by decide) (by decide) (by decide) (by decide) (by decide) (by decide),
    W9_from_W0 m PI c main_arg5 (by decide) (by decide) (by decide) (by decide) (by decide) (by decide) (by decide) (by decide) (by decide), W3_norm, W3_src, W3_dst]
  exact aggK'_eq _ _ _ _

/-- Region 4 hands its input array back. -/
theorem W11_v73 : W11 m PI c (Proc.devRef .tc main_v73) = W10 m PI c (Proc.devRef .tc main_v73) :=
  (W11_arr m PI c 0).trans ((((PI.p4 (C10 m PI)).dat c).arrAt_in 0 rfl _).trans ((PI.p4 (C10 m PI)).A_eq c 0))

/-- The second batch normalisation, in the kernel's arrangement. -/
theorem y2_eq : W12 m PI c (Proc.devRef .tc main_v77)
    = Cert.Spec.bnKer (W10 m PI c (Proc.devRef .tc main_v73)) (argA m c main_arg8) (argA m c main_arg9) := by
  refine (W12_arr m PI c 5).trans ?_
  refine (final5_5 (C11 m PI) c).trans ?_
  rw [show C11 m PI c main_v73 = W10 m PI c (Proc.devRef .tc main_v73) from W11_v73 m c]
  refine bnKer_glue5 _ _ _ _ _ _ _ (fun q => ?_) (fun q => ?_) (fun q => ?_) (fun q => ?_)
  · exact (congrFun (W11_arr m PI c 1) (ix2 (0 : Fin 1) q)).trans (arrAt4_mean (C10 m PI) c q)
  · exact (congrFun (W11_arr m PI c 2) (ix2 (0 : Fin 1) q)).trans (arrAt4_scale (C10 m PI) c q)
  · refine (congrFun (W11_from_W10 m PI c main_v74 (by decide)) (ix2 (0 : Fin 1) q)).trans ?_
    refine (s_gamma2 (W9 m PI c) q).trans ?_
    exact congrFun (W9_from_W0 m PI c main_arg8 (by decide) (by decide) (by decide) (by decide) (by decide) (by decide) (by decide) (by decide) (by decide)) (ix1 q)
  · refine (congrFun (W11_from_W10 m PI c main_v75 (by decide)) (ix2 (0 : Fin 1) q)).trans ?_
    refine (s_beta2 (W9 m PI c) q).trans ?_
    exact congrFun (W9_from_W0 m PI c main_arg9 (by decide) (by decide) (by decide) (by decide) (by decide) (by decide) (by decide) (by decide) (by decide)) (ix1 q)

/-- The third dense region, with its bias and the maximum with zero. -/
theorem z_eq : W14 m PI c (Proc.devRef .tc main_v80)
    = Cert.Spec.relu (Cert.Spec.lin256 (W12 m PI c (Proc.devRef .tc main_v77)) (argA m c main_arg10) (argA m c main_arg11)) := by
  refine (W14_arr m PI c 3).trans ?_
  refine (final6_3 (C13 m PI) c).trans ?_
  refine (region6_spec (W12 m PI c)).trans ?_
  rw [W12_from_W0 m PI c main_arg10 (by decide) (by decide) (by decide) (by decide) (by decide) (by decide) (by decide) (by decide) (by decide) (by decide) (by decide) (by decide), W12_from_W0 m PI c main_arg11 (by decide) (by decide) (by decide) (by decide) (by decide) (by decide) (by decide) (by decide) (by decide) (by decide) (by decide) (by decide)]

/-- The last dense region. -/
theorem out_eq : W16 m PI c (Proc.devRef .tc main_v83)
    = Cert.Spec.lin64 (W14 m PI c (Proc.devRef .tc main_v80)) (argA m c main_arg12) (argA m c main_arg13) := by
  refine (W16_arr m PI c 3).trans ?_
  refine (final7_3 (C15 m PI) c).trans ?_
  refine (region7_spec (W14 m PI c)).trans ?_
  rw [W14_from_W0 m PI c main_arg12 (by decide) (by decide) (by decide) (by decide) (by decide) (by decide) (by decide) (by decide) (by decide) (by decide) (by decide) (by decide) (by decide) (by decide), W14_from_W0 m PI c main_arg13 (by decide) (by decide) (by decide) (by decide) (by decide) (by decide) (by decide) (by decide) (by decide) (by decide) (by decide) (by decide) (by decide) (by decide)]

/-- THE KERNEL'S VALUE: the result array holds the network of the argument arrays, in the kernel's arrangement. -/
theorem kernel_value : W16 m PI c (Proc.devRef .tc main_v83)
    = Cert.Net.netKer (argA m c main_arg0) (argA m c main_arg1) (argA m c main_arg2) (argA m c main_arg3) (argA m c main_arg4)
        (argA m c main_arg5) (argA m c main_arg6) (argA m c main_arg7) (argA m c main_arg8) (argA m c main_arg9)
        (argA m c main_arg10) (argA m c main_arg11) (argA m c main_arg12) (argA m c main_arg13) := by
  rw [out_eq, z_eq, y2_eq, a2_eq, h1_eq, y1_eq, a1_eq]
  simp only [aggK_eq, normK_eq]
  rfl

end Value

end Cert.KernelIdeal.Hand

end
-- ==== Proof.RefRead.lean ====
/-
  The reference's result read stage by stage. `RefRun.run` leaves the result buffer at the fold of all 194 host
  operations over the launch contents. The operations are in static-single-assignment form (each writes one reference
  of its own), so what a reference holds at the end of the line is what the segment that writes it computes from
  references settled before the segment (LibSsaRead.lean). One equation per layer boundary: the boundary buffer at the
  end of the line as the segment's host operations applied to the earlier boundary buffers at the end of the line and
  to the arguments at the start (which no operation writes). `main_v3` and `main_v6`, the two index rows with the
  self loops appended, are read by several later segments and get equations of their own.

  In every proof: the arguments and the earlier boundaries are moved to the contents after the operations before the
  segment (`after_take_of_not_mem`, `after_eq_take`), the boundary itself to the contents after the segment
  (`after_eq_take`), the prefix is split at the segment (`after_take_split`), the contents before the segment are
  abstracted, and the segment's at most 33 operations are read in one pass.
-/
import proofs.«166096_j40321152975189_1_alg».proof.Proof.RefRun

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- `main_v3` at the end of the line, from `main_arg1`: operations 0 to 3. -/
theorem v3_eq (V : Valuation τ sig (Elt F)) :
    after ops V (Proc.devRef .tc main_v3)
      = concatenate S900000 0 [⟨S800000, (shapeCast _ (extractStridedSlice S1x800000 ![0, 0] (V (Proc.devRef .tc main_arg1)) slices_S2x800000_S1x800000_0_0) shapeCasts_S1x800000_S800000)⟩, ⟨S100000, (iotaInDim S100000 32 0)⟩] concatenates_S800000_S100000_S900000_d0 := by
  rw [← Cert.SsaRead.after_take_of_not_mem ops_wr V 0 (r := main_arg1) (by decide)]
  rw [Cert.SsaRead.after_eq_take ops_wr V 9 (r := main_v3) (by decide)]
  rw [Cert.SsaRead.after_take_split take_9 V]
  generalize after ((ops (F := F)).take 0) V = V'
  after_results_simp <;> rfl

/-- `main_v6` at the end of the line, from `main_arg1`: operations 0 to 6. -/
theorem v6_eq (V : Valuation τ sig (Elt F)) :
    after ops V (Proc.devRef .tc main_v6)
      = concatenate S900000 0 [⟨S800000, (shapeCast _ (extractStridedSlice S1x800000 ![1, 0] (V (Proc.devRef .tc main_arg1)) slices_S2x800000_S1x800000_1_0) shapeCasts_S1x800000_S800000)⟩, ⟨S100000, (iotaInDim S100000 32 0)⟩] concatenates_S800000_S100000_S900000_d0 := by
  rw [← Cert.SsaRead.after_take_of_not_mem ops_wr V 0 (r := main_arg1) (by decide)]
  rw [Cert.SsaRead.after_eq_take ops_wr V 9 (r := main_v6) (by decide)]
  rw [Cert.SsaRead.after_take_split take_9 V]
  generalize after ((ops (F := F)).take 0) V = V'
  after_results_simp <;> rfl

/-- `main_v8` at the end of the line, from `main_arg0`, `main_arg2`: operations 0 to 8. -/
theorem v8_eq (V : Valuation τ sig (Elt F)) :
    after ops V (Proc.devRef .tc main_v8)
      = Host.dotGeneral dot_S100000x128_S128x256_S100000x256_1_0_0_1_n_n none (V (Proc.devRef .tc main_arg0)) (transpose S128x256 [1, 0] (V (Proc.devRef .tc main_arg2)) transposes_S256x128_S128x256_1_0) := by
  rw [← Cert.SsaRead.after_take_of_not_mem ops_wr V 0 (r := main_arg0) (by decide),
    ← Cert.SsaRead.after_take_of_not_mem ops_wr V 0 (r := main_arg2) (by decide)]
  rw [Cert.SsaRead.after_eq_take ops_wr V 9 (r := main_v8) (by decide)]
  rw [Cert.SsaRead.after_take_split take_9 V]
  generalize after ((ops (F := F)).take 0) V = V'
  after_results_simp <;> rfl

/-- `main_v31` at the end of the line, from `main_v6`, `main_v3` (each at the end of the line): operations 9 to 41. -/
theorem v31_eq (V : Valuation τ sig (Elt F)) :
    after ops V (Proc.devRef .tc main_v31)
      = mulf (Host.gather gather_S100000_S900000x1_S900000_n_0_n_n_0_1_1 (select (cmpf (F := F) .ogt (Host.scatterAdd scatter_S100000_S900000x1_S900000_n_0_0_1 (broadcastInDim S100000 ![] bcast_S_S100000 (constant S_ .f32 0x00000000#32)) (broadcastInDim S900000x1 ![0] bcast_S900000_S900000x1_0 (after ops V (Proc.devRef .tc main_v6))) (broadcastInDim S900000 ![] bcast_S_S900000 (constant S_ .f32 0x3F800000#32))) (broadcastInDim S100000 ![] bcast_S_S100000 (constant S_ .f32 0x00000000#32))) (Host.rsqrt (Host.scatterAdd scatter_S100000_S900000x1_S900000_n_0_0_1 (broadcastInDim S100000 ![] bcast_S_S100000 (constant S_ .f32 0x00000000#32)) (broadcastInDim S900000x1 ![0] bcast_S900000_S900000x1_0 (after ops V (Proc.devRef .tc main_v6))) (broadcastInDim S900000 ![] bcast_S_S900000 (constant S_ .f32 0x3F800000#32)))) (broadcastInDim S100000 ![] bcast_S_S100000 (constant S_ .f32 0x00000000#32))) (broadcastInDim S900000x1 ![0] bcast_S900000_S900000x1_0 (select (cmpi .slt (after ops V (Proc.devRef .tc main_v3)) (broadcastInDim S900000 ![] bcast_S_S900000 (constantI S_ 32 0#32))) (addi (after ops V (Proc.devRef .tc main_v3)) (broadcastInDim S900000 ![] bcast_S_S900000 (constantI S_ 32 100000#32))) (after ops V (Proc.devRef .tc main_v3))))) (Host.gather gather_S100000_S900000x1_S900000_n_0_n_n_0_1_1 (select (cmpf (F := F) .ogt (Host.scatterAdd scatter_S100000_S900000x1_S900000_n_0_0_1 (broadcastInDim S100000 ![] bcast_S_S100000 (constant S_ .f32 0x00000000#32)) (broadcastInDim S900000x1 ![0] bcast_S900000_S900000x1_0 (after ops V (Proc.devRef .tc main_v6))) (broadcastInDim S900000 ![] bcast_S_S900000 (constant S_ .f32 0x3F800000#32))) (broadcastInDim S100000 ![] bcast_S_S100000 (constant S_ .f32 0x00000000#32))) (Host.rsqrt (Host.scatterAdd scatter_S100000_S900000x1_S900000_n_0_0_1 (broadcastInDim S100000 ![] bcast_S_S100000 (constant S_ .f32 0x00000000#32)) (broadcastInDim S900000x1 ![0] bcast_S900000_S900000x1_0 (after ops V (Proc.devRef .tc main_v6))) (broadcastInDim S900000 ![] bcast_S_S900000 (constant S_ .f32 0x3F800000#32)))) (broadcastInDim S100000 ![] bcast_S_S100000 (constant S_ .f32 0x00000000#32))) (broadcastInDim S900000x1 ![0] bcast_S900000_S900000x1_0 (select (cmpi .slt (after ops V (Proc.devRef .tc main_v6)) (broadcastInDim S900000 ![] bcast_S_S900000 (constantI S_ 32 0#32))) (addi (after ops V (Proc.devRef .tc main_v6)) (broadcastInDim S900000 ![] bcast_S_S900000 (constantI S_ 32 100000#32))) (after ops V (Proc.devRef .tc main_v6))))) := by
  rw [Cert.SsaRead.after_eq_take ops_wr V 42 (r := main_v31) (by decide),
    Cert.SsaRead.after_eq_take ops_wr V 9 (r := main_v6) (by decide),
    Cert.SsaRead.after_eq_take ops_wr V 9 (r := main_v3) (by decide)]
  rw [Cert.SsaRead.after_take_split take_42 V]
  generalize after ((ops (F := F)).take 9) V = V'
  after_results_simp <;> rfl

/-- `main_v47` at the end of the line, from `main_v6`, `main_v8`, `main_v3`, `main_v31`, `main_arg3` (each at the end of the line): operations 42 to 60. -/
theorem v47_eq (V : Valuation τ sig (Elt F)) :
    after ops V (Proc.devRef .tc main_v47)
      = addf (Host.scatterAdd scatter_S100000x256_S900000x1_S900000x256_1_0_0_1 (broadcastInDim S100000x256 ![] bcast_S_S100000x256 (constant S_ .f32 0x00000000#32)) (broadcastInDim S900000x1 ![0] bcast_S900000_S900000x1_0 (after ops V (Proc.devRef .tc main_v6))) (mulf (Host.gather gather_S100000x256_S900000x1_S900000x256_1_0_n_n_0_1_1256 (after ops V (Proc.devRef .tc main_v8)) (broadcastInDim S900000x1 ![0] bcast_S900000_S900000x1_0 (select (cmpi .slt (after ops V (Proc.devRef .tc main_v3)) (broadcastInDim S900000 ![] bcast_S_S900000 (constantI S_ 32 0#32))) (addi (after ops V (Proc.devRef .tc main_v3)) (broadcastInDim S900000 ![] bcast_S_S900000 (constantI S_ 32 100000#32))) (after ops V (Proc.devRef .tc main_v3))))) (broadcastInDim S900000x256 ![0, 1] bcast_S900000x1_S900000x256_0_1 (broadcastInDim S900000x1 ![0] bcast_S900000_S900000x1_0 (after ops V (Proc.devRef .tc main_v31)))))) (broadcastInDim S100000x256 ![0, 1] bcast_S1x256_S100000x256_0_1 (broadcastInDim S1x256 ![1] bcast_S256_S1x256_1 (V (Proc.devRef .tc main_arg3)))) := by
  rw [← Cert.SsaRead.after_take_of_not_mem ops_wr V 42 (r := main_arg3) (by decide)]
  rw [Cert.SsaRead.after_eq_take ops_wr V 61 (r := main_v47) (by decide),
    Cert.SsaRead.after_eq_take ops_wr V 42 (r := main_v6) (by decide),
    Cert.SsaRead.after_eq_take ops_wr V 42 (r := main_v8) (by decide),
    Cert.SsaRead.after_eq_take ops_wr V 42 (r := main_v3) (by decide),
    Cert.SsaRead.after_eq_take ops_wr V 42 (r := main_v31) (by decide)]
  rw [Cert.SsaRead.after_take_split take_61 V]
  generalize after ((ops (F := F)).take 42) V = V'
  after_results_simp <;> rfl

/-- `main_v73` at the end of the line, from `main_v47`, `main_arg6`, `main_arg7` (each at the end of the line): operations 61 to 93. -/
theorem v73_eq (V : Valuation τ sig (Elt F)) :
    after ops V (Proc.devRef .tc main_v73)
      = maximumf (addf (mulf (mulf (subf (after ops V (Proc.devRef .tc main_v47)) (broadcastInDim S100000x256 ![0, 1] bcast_S1x256_S100000x256_0_1 (broadcastInDim S1x256 ![1] bcast_S256_S1x256_1 (Host.divf (Host.reduceAdd (after ops V (Proc.devRef .tc main_v47)) (constant S_ .f32 0x00000000#32) reducesTo_S100000x256_S256_d0 h_S_) (broadcastInDim S256 ![] bcast_S_S256 (constant S_ .f32 0x47C35000#32)))))) (broadcastInDim S100000x256 ![0, 1] bcast_S1x256_S100000x256_0_1 (broadcastInDim S1x256 ![1] bcast_S256_S1x256_1 (Host.rsqrt (addf (Host.divf (Host.reduceAdd (mulf (subf (after ops V (Proc.devRef .tc main_v47)) (broadcastInDim S100000x256 ![0, 1] bcast_S1x256_S100000x256_0_1 (broadcastInDim S1x256 ![1] bcast_S256_S1x256_1 (Host.divf (Host.reduceAdd (after ops V (Proc.devRef .tc main_v47)) (constant S_ .f32 0x00000000#32) reducesTo_S100000x256_S256_d0 h_S_) (broadcastInDim S256 ![] bcast_S_S256 (constant S_ .f32 0x47C35000#32)))))) (subf (after ops V (Proc.devRef .tc main_v47)) (broadcastInDim S100000x256 ![0, 1] bcast_S1x256_S100000x256_0_1 (broadcastInDim S1x256 ![1] bcast_S256_S1x256_1 (Host.divf (Host.reduceAdd (after ops V (Proc.devRef .tc main_v47)) (constant S_ .f32 0x00000000#32) reducesTo_S100000x256_S256_d0 h_S_) (broadcastInDim S256 ![] bcast_S_S256 (constant S_ .f32 0x47C35000#32))))))) (constant S_ .f32 0x00000000#32) reducesTo_S100000x256_S256_d0 h_S_) (broadcastInDim S256 ![] bcast_S_S256 (constant S_ .f32 0x47C35000#32))) (broadcastInDim S256 ![] bcast_S_S256 (constant S_ .f32 0x3727C5AC#32))))))) (broadcastInDim S100000x256 ![0, 1] bcast_S1x256_S100000x256_0_1 (broadcastInDim S1x256 ![1] bcast_S256_S1x256_1 (V (Proc.devRef .tc main_arg6))))) (broadcastInDim S100000x256 ![0, 1] bcast_S1x256_S100000x256_0_1 (broadcastInDim S1x256 ![1] bcast_S256_S1x256_1 (V (Proc.devRef .tc main_arg7))))) (broadcastInDim S100000x256 ![] bcast_S_S100000x256 (constant S_ .f32 0x00000000#32)) := by
  rw [← Cert.SsaRead.after_take_of_not_mem ops_wr V 61 (r := main_arg6) (by decide),
    ← Cert.SsaRead.after_take_of_not_mem ops_wr V 61 (r := main_arg7) (by decide)]
  rw [Cert.SsaRead.after_eq_take ops_wr V 94 (r := main_v73) (by decide),
    Cert.SsaRead.after_eq_take ops_wr V 61 (r := main_v47) (by decide)]
  rw [Cert.SsaRead.after_take_split take_94 V]
  generalize after ((ops (F := F)).take 61) V = V'
  after_results_simp <;> rfl

/-- `main_v75` at the end of the line, from `main_v73`, `main_arg4` (each at the end of the line): operations 94 to 95. -/
theorem v75_eq (V : Valuation τ sig (Elt F)) :
    after ops V (Proc.devRef .tc main_v75)
      = Host.dotGeneral dot_S100000x256_S256x256_S100000x256_1_0_0_1_n_n none (after ops V (Proc.devRef .tc main_v73)) (transpose S256x256 [1, 0] (V (Proc.devRef .tc main_arg4)) transposes_S256x256_S256x256_1_0) := by
  rw [← Cert.SsaRead.after_take_of_not_mem ops_wr V 94 (r := main_arg4) (by decide)]
  rw [Cert.SsaRead.after_eq_take ops_wr V 96 (r := main_v75) (by decide),
    Cert.SsaRead.after_eq_take ops_wr V 94 (r := main_v73) (by decide)]
  rw [Cert.SsaRead.after_take_split take_96 V]
  generalize after ((ops (F := F)).take 94) V = V'
  after_results_simp <;> rfl

/-- `main_v98` at the end of the line, from `main_v6`, `main_v3` (each at the end of the line): operations 96 to 128. -/
theorem v98_eq (V : Valuation τ sig (Elt F)) :
    after ops V (Proc.devRef .tc main_v98)
      = mulf (Host.gather gather_S100000_S900000x1_S900000_n_0_n_n_0_1_1 (select (cmpf (F := F) .ogt (Host.scatterAdd scatter_S100000_S900000x1_S900000_n_0_0_1 (broadcastInDim S100000 ![] bcast_S_S100000 (constant S_ .f32 0x00000000#32)) (broadcastInDim S900000x1 ![0] bcast_S900000_S900000x1_0 (after ops V (Proc.devRef .tc main_v6))) (broadcastInDim S900000 ![] bcast_S_S900000 (constant S_ .f32 0x3F800000#32))) (broadcastInDim S100000 ![] bcast_S_S100000 (constant S_ .f32 0x00000000#32))) (Host.rsqrt (Host.scatterAdd scatter_S100000_S900000x1_S900000_n_0_0_1 (broadcastInDim S100000 ![] bcast_S_S100000 (constant S_ .f32 0x00000000#32)) (broadcastInDim S900000x1 ![0] bcast_S900000_S900000x1_0 (after ops V (Proc.devRef .tc main_v6))) (broadcastInDim S900000 ![] bcast_S_S900000 (constant S_ .f32 0x3F800000#32)))) (broadcastInDim S100000 ![] bcast_S_S100000 (constant S_ .f32 0x00000000#32))) (broadcastInDim S900000x1 ![0] bcast_S900000_S900000x1_0 (select (cmpi .slt (after ops V (Proc.devRef .tc main_v3)) (broadcastInDim S900000 ![] bcast_S_S900000 (constantI S_ 32 0#32))) (addi (after ops V (Proc.devRef .tc main_v3)) (broadcastInDim S900000 ![] bcast_S_S900000 (constantI S_ 32 100000#32))) (after ops V (Proc.devRef .tc main_v3))))) (Host.gather gather_S100000_S900000x1_S900000_n_0_n_n_0_1_1 (select (cmpf (F := F) .ogt (Host.scatterAdd scatter_S100000_S900000x1_S900000_n_0_0_1 (broadcastInDim S100000 ![] bcast_S_S100000 (constant S_ .f32 0x00000000#32)) (broadcastInDim S900000x1 ![0] bcast_S900000_S900000x1_0 (after ops V (Proc.devRef .tc main_v6))) (broadcastInDim S900000 ![] bcast_S_S900000 (constant S_ .f32 0x3F800000#32))) (broadcastInDim S100000 ![] bcast_S_S100000 (constant S_ .f32 0x00000000#32))) (Host.rsqrt (Host.scatterAdd scatter_S100000_S900000x1_S900000_n_0_0_1 (broadcastInDim S100000 ![] bcast_S_S100000 (constant S_ .f32 0x00000000#32)) (broadcastInDim S900000x1 ![0] bcast_S900000_S900000x1_0 (after ops V (Proc.devRef .tc main_v6))) (broadcastInDim S900000 ![] bcast_S_S900000 (constant S_ .f32 0x3F800000#32)))) (broadcastInDim S100000 ![] bcast_S_S100000 (constant S_ .f32 0x00000000#32))) (broadcastInDim S900000x1 ![0] bcast_S900000_S900000x1_0 (select (cmpi .slt (after ops V (Proc.devRef .tc main_v6)) (broadcastInDim S900000 ![] bcast_S_S900000 (constantI S_ 32 0#32))) (addi (after ops V (Proc.devRef .tc main_v6)) (broadcastInDim S900000 ![] bcast_S_S900000 (constantI S_ 32 100000#32))) (after ops V (Proc.devRef .tc main_v6))))) := by
  rw [Cert.SsaRead.after_eq_take ops_wr V 129 (r := main_v98) (by decide),
    Cert.SsaRead.after_eq_take ops_wr V 96 (r := main_v6) (by decide),
    Cert.SsaRead.after_eq_take ops_wr V 96 (r := main_v3) (by decide)]
  rw [Cert.SsaRead.after_take_split take_129 V]
  generalize after ((ops (F := F)).take 96) V = V'
  after_results_simp <;> rfl

/-- `main_v114` at the end of the line, from `main_v6`, `main_v75`, `main_v3`, `main_v98`, `main_arg5` (each at the end of the line): operations 129 to 147. -/
theorem v114_eq (V : Valuation τ sig (Elt F)) :
    after ops V (Proc.devRef .tc main_v114)
      = addf (Host.scatterAdd scatter_S100000x256_S900000x1_S900000x256_1_0_0_1 (broadcastInDim S100000x256 ![] bcast_S_S100000x256 (constant S_ .f32 0x00000000#32)) (broadcastInDim S900000x1 ![0] bcast_S900000_S900000x1_0 (after ops V (Proc.devRef .tc main_v6))) (mulf (Host.gather gather_S100000x256_S900000x1_S900000x256_1_0_n_n_0_1_1256 (after ops V (Proc.devRef .tc main_v75)) (broadcastInDim S900000x1 ![0] bcast_S900000_S900000x1_0 (select (cmpi .slt (after ops V (Proc.devRef .tc main_v3)) (broadcastInDim S900000 ![] bcast_S_S900000 (constantI S_ 32 0#32))) (addi (after ops V (Proc.devRef .tc main_v3)) (broadcastInDim S900000 ![] bcast_S_S900000 (constantI S_ 32 100000#32))) (after ops V (Proc.devRef .tc main_v3))))) (broadcastInDim S900000x256 ![0, 1] bcast_S900000x1_S900000x256_0_1 (broadcastInDim S900000x1 ![0] bcast_S900000_S900000x1_0 (after ops V (Proc.devRef .tc main_v98)))))) (broadcastInDim S100000x256 ![0, 1] bcast_S1x256_S100000x256_0_1 (broadcastInDim S1x256 ![1] bcast_S256_S1x256_1 (V (Proc.devRef .tc main_arg5)))) := by
  rw [← Cert.SsaRead.after_take_of_not_mem ops_wr V 129 (r := main_arg5) (by decide)]
  rw [Cert.SsaRead.after_eq_take ops_wr V 148 (r := main_v114) (by decide),
    Cert.SsaRead.after_eq_take ops_wr V 129 (r := main_v6) (by decide),
    Cert.SsaRead.after_eq_take ops_wr V 129 (r := main_v75) (by decide),
    Cert.SsaRead.after_eq_take ops_wr V 129 (r := main_v3) (by decide),
    Cert.SsaRead.after_eq_take ops_wr V 129 (r := main_v98) (by decide)]
  rw [Cert.SsaRead.after_take_split take_148 V]
  generalize after ((ops (F := F)).take 129) V = V'
  after_results_simp <;> rfl

/-- `main_v140` at the end of the line, from `main_v114`, `main_arg8`, `main_arg9` (each at the end of the line): operations 148 to 180. -/
theorem v140_eq (V : Valuation τ sig (Elt F)) :
    after ops V (Proc.devRef .tc main_v140)
      = maximumf (addf (mulf (mulf (subf (after ops V (Proc.devRef .tc main_v114)) (broadcastInDim S100000x256 ![0, 1] bcast_S1x256_S100000x256_0_1 (broadcastInDim S1x256 ![1] bcast_S256_S1x256_1 (Host.divf (Host.reduceAdd (after ops V (Proc.devRef .tc main_v114)) (constant S_ .f32 0x00000000#32) reducesTo_S100000x256_S256_d0 h_S_) (broadcastInDim S256 ![] bcast_S_S256 (constant S_ .f32 0x47C35000#32)))))) (broadcastInDim S100000x256 ![0, 1] bcast_S1x256_S100000x256_0_1 (broadcastInDim S1x256 ![1] bcast_S256_S1x256_1 (Host.rsqrt (addf (Host.divf (Host.reduceAdd (mulf (subf (after ops V (Proc.devRef .tc main_v114)) (broadcastInDim S100000x256 ![0, 1] bcast_S1x256_S100000x256_0_1 (broadcastInDim S1x256 ![1] bcast_S256_S1x256_1 (Host.divf (Host.reduceAdd (after ops V (Proc.devRef .tc main_v114)) (constant S_ .f32 0x00000000#32) reducesTo_S100000x256_S256_d0 h_S_) (broadcastInDim S256 ![] bcast_S_S256 (constant S_ .f32 0x47C35000#32)))))) (subf (after ops V (Proc.devRef .tc main_v114)) (broadcastInDim S100000x256 ![0, 1] bcast_S1x256_S100000x256_0_1 (broadcastInDim S1x256 ![1] bcast_S256_S1x256_1 (Host.divf (Host.reduceAdd (after ops V (Proc.devRef .tc main_v114)) (constant S_ .f32 0x00000000#32) reducesTo_S100000x256_S256_d0 h_S_) (broadcastInDim S256 ![] bcast_S_S256 (constant S_ .f32 0x47C35000#32))))))) (constant S_ .f32 0x00000000#32) reducesTo_S100000x256_S256_d0 h_S_) (broadcastInDim S256 ![] bcast_S_S256 (constant S_ .f32 0x47C35000#32))) (broadcastInDim S256 ![] bcast_S_S256 (constant S_ .f32 0x3727C5AC#32))))))) (broadcastInDim S100000x256 ![0, 1] bcast_S1x256_S100000x256_0_1 (broadcastInDim S1x256 ![1] bcast_S256_S1x256_1 (V (Proc.devRef .tc main_arg8))))) (broadcastInDim S100000x256 ![0, 1] bcast_S1x256_S100000x256_0_1 (broadcastInDim S1x256 ![1] bcast_S256_S1x256_1 (V (Proc.devRef .tc main_arg9))))) (broadcastInDim S100000x256 ![] bcast_S_S100000x256 (constant S_ .f32 0x00000000#32)) := by
  rw [← Cert.SsaRead.after_take_of_not_mem ops_wr V 148 (r := main_arg8) (by decide),
    ← Cert.SsaRead.after_take_of_not_mem ops_wr V 148 (r := main_arg9) (by decide)]
  rw [Cert.SsaRead.after_eq_take ops_wr V 181 (r := main_v140) (by decide),
    Cert.SsaRead.after_eq_take ops_wr V 148 (r := main_v114) (by decide)]
  rw [Cert.SsaRead.after_take_split take_181 V]
  generalize after ((ops (F := F)).take 148) V = V'
  after_results_simp <;> rfl

/-- `main_v146` at the end of the line, from `main_v140`, `main_arg10`, `main_arg11` (each at the end of the line): operations 181 to 188. -/
theorem v146_eq (V : Valuation τ sig (Elt F)) :
    after ops V (Proc.devRef .tc main_v146)
      = maximumf (addf (Host.dotGeneral dot_S100000x256_S256x256_S100000x256_1_0_0_1_n_n none (after ops V (Proc.devRef .tc main_v140)) (transpose S256x256 [1, 0] (V (Proc.devRef .tc main_arg10)) transposes_S256x256_S256x256_1_0)) (broadcastInDim S100000x256 ![0, 1] bcast_S1x256_S100000x256_0_1 (broadcastInDim S1x256 ![1] bcast_S256_S1x256_1 (V (Proc.devRef .tc main_arg11))))) (broadcastInDim S100000x256 ![] bcast_S_S100000x256 (constant S_ .f32 0x00000000#32)) := by
  rw [← Cert.SsaRead.after_take_of_not_mem ops_wr V 181 (r := main_arg10) (by decide),
    ← Cert.SsaRead.after_take_of_not_mem ops_wr V 181 (r := main_arg11) (by decide)]
  rw [Cert.SsaRead.after_eq_take ops_wr V 189 (r := main_v146) (by decide),
    Cert.SsaRead.after_eq_take ops_wr V 181 (r := main_v140) (by decide)]
  rw [Cert.SsaRead.after_take_split take_189 V]
  generalize after ((ops (F := F)).take 181) V = V'
  after_results_simp <;> rfl

/-- `main_v151` at the end of the line, from `main_v146`, `main_arg12`, `main_arg13` (each at the end of the line): operations 189 to 193. -/
theorem v151_eq (V : Valuation τ sig (Elt F)) :
    after ops V (Proc.devRef .tc main_v151)
      = addf (Host.dotGeneral dot_S100000x256_S256x64_S100000x64_1_0_0_1_n_n none (after ops V (Proc.devRef .tc main_v146)) (transpose S256x64 [1, 0] (V (Proc.devRef .tc main_arg12)) transposes_S64x256_S256x64_1_0)) (broadcastInDim S100000x64 ![0, 1] bcast_S1x64_S100000x64_0_1 (broadcastInDim S1x64 ![1] bcast_S64_S1x64_1 (V (Proc.devRef .tc main_arg13)))) := by
  rw [← Cert.SsaRead.after_take_of_not_mem ops_wr V 189 (r := main_arg12) (by decide),
    ← Cert.SsaRead.after_take_of_not_mem ops_wr V 189 (r := main_arg13) (by decide)]
  rw [Cert.SsaRead.after_eq_take ops_wr V 194 (r := main_v151) (by decide),
    Cert.SsaRead.after_eq_take ops_wr V 189 (r := main_v146) (by decide)]
  rw [Cert.SsaRead.after_take_split take_194 V]
  generalize after ((ops (F := F)).take 189) V = V'
  after_results_simp <;> rfl

end Cert.ReferenceIdeal.RefRead
-- ==== Proof.RefBnGlue.lean ====
/-
  The first program's batch normalisation, line by line, is the specification's.

  The program normalises a `[100000, 256]` array `y` with whole-array operations: it sums the columns onto zero and
  divides by the row count (the mean), spreads the mean back over the rows and subtracts, squares, sums and divides
  again (the variance), adds `ε`, takes the reciprocal square root, spreads it over the rows, multiplies the centred
  entries by it, by the scale and adds the shift, and clamps at zero.  Read at row `r` and column `q` each of these
  is the corresponding scalar operation on the entries of column `q`: a spread `[256] → [1, 256] → [100000, 256]` reads
  its operand at `q`, a column sum onto the constant zero is `0 + ∑ᵣ y(r,q)`, and the clamp's other operand is the
  constant zero.  So the chain is `bnRef y γ β`.
-/
import proofs.«166096_j40321152975189_1_alg».proof.ReferenceIdeal
import proofs.«166096_j40321152975189_1_alg».proof.Proof.Spec
import Idealize.ShloMosaic.Lib.ValueIdx
import Idealize.ShloMosaic.PureOps.Ideal.Laws

noncomputable section

open Idealize.ShloMosaic Idealize.ShloMosaic.ValueIdx Cert.LibStats

namespace Cert.RefGlue2

open Cert.ReferenceIdeal Cert.ReferenceIdeal.Facts₀

/-! ## Operations read at an index, for arbitrary operands -/

section Generic

variable {s t u : Shape} {φ : FTy}

/-- The host's quotient of two arrays, read at an index. -/
theorem hostDivf_apply (a b : FVec Ideal s φ) (i : s.Idx) : Host.divf (F := Ideal) a b i = Ideal.div (a i) (b i) := rfl

/-- The host's reciprocal square root of an array, read at an index. -/
theorem hostRsqrt_apply (a : FVec Ideal s φ) (i : s.Idx) : Host.rsqrt (F := Ideal) a i = Ideal.rsqrt (a i) := rfl

/-- A scalar constant spread over any shape reads, everywhere, as the extended real its pattern denotes. -/
theorem bcast_const_apply (h : S_.BroadcastsInDim t (![] : Fin 0 → Fin t.rank)) (b : BitVec 32) (j : t.Idx) :
    broadcastInDim t ![] h (constant (F := Ideal) S_ .f32 b) j = Ideal.ofBits .f32 b := rfl

/-- The host's sum along axes onto an initial scalar is the ideal sum onto that scalar's one element. -/
theorem reduceAdd_apply {axes : List (Fin s.rank)} (x : FVec Ideal s φ) (init : u.Idx → Ideal φ)
    (h : s.ReducesTo axes t) (hu : 0 < u.numel) (j : t.Idx) :
    Host.reduceAdd (F := Ideal) x init h hu j = Ideal.hostReduceAdd h x (init (Shape.Idx.first hu)) j := rfl

/-- A scalar constant reads as its pattern's value at its one index. -/
theorem const_apply (b : BitVec 32) (i : S_.Idx) : constant (F := Ideal) S_ .f32 b i = Ideal.ofBits .f32 b := rfl

end Generic

variable [Cert.ReferenceIdeal.Facts₀]

/-- A `[256]` array spread over the rows of a `[100000, 256]` array reads, at `(r, q)`, its entry `q`. -/
theorem spread_apply {α : Type} (v : S256.Idx → α) (r : Fin 100000) (q : Fin 256) :
    broadcastInDim S100000x256 ![0, 1] bcast_S1x256_S100000x256_0_1 (broadcastInDim S1x256 ![1] bcast_S256_S1x256_1 v)
      (ix2 r q) = v (ix1 q) := by
  unfold broadcastInDim
  congr 1
  funext a
  match a with
  | ⟨0, _⟩ => rfl

/-- The pattern of `+0.0` denotes `0`. -/
theorem ofBits_zero : Ideal.ofBits .f32 0x00000000#32 = 0 := by
  simp [Ideal.ofBits, Ideal.ieee]

/-- The shape fact that names the rows of a column. -/
theorem reduces_cols : S100000x256.Reduces [0] S256 := by decide

/-- A column sum onto the constant zero, read at column `q`: the sum over the 100000 rows. -/
theorem colsum_apply (x : FVec Ideal S100000x256 .f32) (q : Fin 256) :
    Host.reduceAdd (F := Ideal) x (constant (F := Ideal) S_ .f32 0x00000000#32) reducesTo_S100000x256_S256_d0 h_S_ (ix1 q)
      = ∑ r : Fin 100000, x (ix2 r q) := by
  rw [reduceAdd_apply, const_apply, ofBits_zero, Ideal.hostReduceAdd_single reducesTo_S100000x256_S256_d0 reduces_cols,
    zero_add]
  refine Finset.sum_congr rfl fun k _ => congrArg x ?_
  funext a
  match a with
  | ⟨0, _⟩ => rfl
  | ⟨1, _⟩ => rfl

/-! ## The chain -/

/-- The row count spread over the columns. -/
def nRowsR : FVec Ideal S256 .f32 := broadcastInDim S256 ![] bcast_S_S256 (constant (F := Ideal) S_ .f32 0x47C35000#32)

/-- The column means, as the program computes them. -/
def meanChainR (y : FVec Ideal S100000x256 .f32) : FVec Ideal S256 .f32 :=
  Host.divf (F := Ideal)
    (Host.reduceAdd (F := Ideal) y (constant (F := Ideal) S_ .f32 0x00000000#32) reducesTo_S100000x256_S256_d0 h_S_)
    (broadcastInDim S256 ![] bcast_S_S256 (constant (F := Ideal) S_ .f32 0x47C35000#32))

/-- The entries centred at their column means. -/
def centredR (y : FVec Ideal S100000x256 .f32) : FVec Ideal S100000x256 .f32 :=
  subf (F := Ideal) y
    (broadcastInDim S100000x256 ![0, 1] bcast_S1x256_S100000x256_0_1
      (broadcastInDim S1x256 ![1] bcast_S256_S1x256_1 (meanChainR y)))

/-- The column variances, as the program computes them. -/
def varChainR (y : FVec Ideal S100000x256 .f32) : FVec Ideal S256 .f32 :=
  Host.divf (F := Ideal)
    (Host.reduceAdd (F := Ideal) (mulf (F := Ideal) (centredR y) (centredR y))
      (constant (F := Ideal) S_ .f32 0x00000000#32) reducesTo_S100000x256_S256_d0 h_S_)
    (broadcastInDim S256 ![] bcast_S_S256 (constant (F := Ideal) S_ .f32 0x47C35000#32))

/-- The program's batch normalisation and clamp of `y` with scale `g` and shift `b`. -/
def bnChainR (y : FVec Ideal S100000x256 .f32) (g b : FVec Ideal S256 .f32) : FVec Ideal S100000x256 .f32 :=
  maximumf (F := Ideal)
    (addf (F := Ideal)
      (mulf (F := Ideal)
        (mulf (F := Ideal) (centredR y)
          (broadcastInDim S100000x256 ![0, 1] bcast_S1x256_S100000x256_0_1
            (broadcastInDim S1x256 ![1] bcast_S256_S1x256_1
              (Host.rsqrt (F := Ideal)
                (addf (F := Ideal) (varChainR y)
                  (broadcastInDim S256 ![] bcast_S_S256 (constant (F := Ideal) S_ .f32 0x3727C5AC#32)))))))
        (broadcastInDim S100000x256 ![0, 1] bcast_S1x256_S100000x256_0_1
          (broadcastInDim S1x256 ![1] bcast_S256_S1x256_1 g)))
      (broadcastInDim S100000x256 ![0, 1] bcast_S1x256_S100000x256_0_1
        (broadcastInDim S1x256 ![1] bcast_S256_S1x256_1 b)))
    (broadcastInDim S100000x256 ![] bcast_S_S100000x256 (constant (F := Ideal) S_ .f32 0x00000000#32))

/-! ## The chain read at an index -/

theorem meanChainR_apply (y : FVec Ideal S100000x256 .f32) (q : Fin 256) :
    meanChainR y (ix1 q) = Cert.Spec.mean y q := by
  unfold meanChainR Cert.Spec.mean Cert.Spec.colSum
  rw [hostDivf_apply, colsum_apply, bcast_const_apply]

theorem centredR_apply (y : FVec Ideal S100000x256 .f32) (r : Fin 100000) (q : Fin 256) :
    centredR y (ix2 r q) = y (ix2 r q) - Cert.Spec.mean y q := by
  unfold centredR
  rw [subf_apply, spread_apply, meanChainR_apply]

theorem varChainR_apply (y : FVec Ideal S100000x256 .f32) (q : Fin 256) :
    varChainR y (ix1 q) = Cert.Spec.varRef y q := by
  unfold varChainR Cert.Spec.varRef
  have hs : ∑ r : Fin 100000, mulf (F := Ideal) (centredR y) (centredR y) (ix2 r q)
      = ∑ r : Fin 100000, (y (ix2 r q) - Cert.Spec.mean y q) * (y (ix2 r q) - Cert.Spec.mean y q) :=
    Finset.sum_congr rfl fun r _ => by rw [mulf_apply, centredR_apply]
  rw [hostDivf_apply, colsum_apply, bcast_const_apply, hs]

/-- THE GLUE: the program's chain is the specification's batch normalisation. -/
theorem bnChainR_eq (y : FVec Ideal S100000x256 .f32) (g b : FVec Ideal S256 .f32) :
    bnChainR y g b = Cert.Spec.bnRef y g b := by
  funext j
  obtain ⟨r, q, rfl⟩ : ∃ r q, j = ix2 r q := ⟨j 0, j 1, eq_ix2 j⟩
  rw [Cert.Spec.bnRef_apply]
  unfold bnChainR
  rw [maximumf_apply, addf_apply, mulf_apply, mulf_apply, centredR_apply, spread_apply, spread_apply, spread_apply,
    hostRsqrt_apply, addf_apply, varChainR_apply, bcast_const_apply, bcast_const_apply, ofBits_zero]

end Cert.RefGlue2

end
-- ==== Proof.RefGlue.lean ====
import proofs.«166096_j40321152975189_1_alg».proof.ReferenceIdeal
import proofs.«166096_j40321152975189_1_alg».proof.Proof.Spec
import proofs.«166096_j40321152975189_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value
set_option maxRecDepth 16384
noncomputable section
namespace Cert.RefGlue
open Cert.ReferenceIdeal
open Idealize.ShloMosaic Idealize.ShloMosaic.ValueIdx
open scoped BigOperators

/-! # The reference's linear layers as the layers of the specification

The reference spells a linear layer as a transpose of the weight, a general dot product contracting the
activations' columns against the transposed weight's rows, and a bias vector laid out as a row and repeated along
the rows. Read at an entry `(p, q)`: the dot product is the sum over `k` of `x (p, k)` times the transposed
weight at `(k, q)`, which is the weight at `(q, k)`; the repeated bias is the vector at `q`. -/

/-! ## A plain dot product on the host, read at an entry -/

/-- A plain `[M, K] × [K, N]` dot product is, at `(p, q)`, the sum over the contracted axis of the operands'
    products: at a position `k` of the contracted axis the left operand is read at `(p, k)`, the right at `(k, q)`. -/
theorem dotGeneral_plain_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q) = ∑ k : Fin K, lhs (ix2 p k) * rhs (ix2 k q) := by
  refine (Ideal.dotGeneral_apply (DotDims.plain M K N) prec .single lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact LibPlainMatmul.plain_lhs_0 _ _
      | ⟨1, _⟩ => exact (LibPlainMatmul.plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (LibPlainMatmul.plain_rhs_0 _ _).trans hk
      | ⟨1, _⟩ => exact LibPlainMatmul.plain_rhs_1 _ _)
  rw [el, er]

section Layers
variable [Facts₀]
open Facts₀

/-! ## The three products against a transposed weight -/

theorem ref_mm128 (x : Cert.Spec.Arr Cert.Spec.S100000x128) (w : Cert.Spec.Arr Cert.Spec.S256x128) :
    Host.dotGeneral (F := Ideal) (φ₁ := .f32) (φ₂ := .f32) dot_S100000x128_S128x256_S100000x256_1_0_0_1_n_n none x
        (transpose (α := EReal) S128x256 [1, 0] w transposes_S256x128_S128x256_1_0)
      = Cert.Spec.mm128 x w := by
  funext j
  obtain ⟨p, q, rfl⟩ : ∃ (p : Fin 100000) (q : Fin 256), j = ix2 p q := ⟨j 0, j 1, eq_ix2 j⟩
  rw [Cert.Spec.mm128_apply]
  refine (dotGeneral_plain_apply (M := 100000) (K := 128) (N := 256) (φ₁ := .f32) (φ₂ := .f32) none x _ p q).trans ?_
  exact Finset.sum_congr rfl fun k _ => congrArg₂ (· * ·) rfl (transpose_ix2_apply _ _ k q)

theorem ref_mm256 (x : Cert.Spec.Arr Cert.Spec.S100000x256) (w : Cert.Spec.Arr Cert.Spec.S256x256) :
    Host.dotGeneral (F := Ideal) (φ₁ := .f32) (φ₂ := .f32) dot_S100000x256_S256x256_S100000x256_1_0_0_1_n_n none x
        (transpose (α := EReal) S256x256 [1, 0] w transposes_S256x256_S256x256_1_0)
      = Cert.Spec.mm256 x w := by
  funext j
  obtain ⟨p, q, rfl⟩ : ∃ (p : Fin 100000) (q : Fin 256), j = ix2 p q := ⟨j 0, j 1, eq_ix2 j⟩
  rw [Cert.Spec.mm256_apply]
  refine (dotGeneral_plain_apply (M := 100000) (K := 256) (N := 256) (φ₁ := .f32) (φ₂ := .f32) none x _ p q).trans ?_
  exact Finset.sum_congr rfl fun k _ => congrArg₂ (· * ·) rfl (transpose_ix2_apply _ _ k q)

theorem ref_mm64 (x : Cert.Spec.Arr Cert.Spec.S100000x256) (w : Cert.Spec.Arr Cert.Spec.S64x256) :
    Host.dotGeneral (F := Ideal) (φ₁ := .f32) (φ₂ := .f32) dot_S100000x256_S256x64_S100000x64_1_0_0_1_n_n none x
        (transpose (α := EReal) S256x64 [1, 0] w transposes_S64x256_S256x64_1_0)
      = Cert.Spec.mm64 x w := by
  funext j
  obtain ⟨p, q, rfl⟩ : ∃ (p : Fin 100000) (q : Fin 64), j = ix2 p q := ⟨j 0, j 1, eq_ix2 j⟩
  rw [Cert.Spec.mm64_apply]
  refine (dotGeneral_plain_apply (M := 100000) (K := 256) (N := 64) (φ₁ := .f32) (φ₂ := .f32) none x _ p q).trans ?_
  exact Finset.sum_congr rfl fun k _ => congrArg₂ (· * ·) rfl (transpose_ix2_apply _ _ k q)

/-! ## The bias, laid out as a row and repeated along the rows -/

theorem ref_bias256 (y : Cert.Spec.Arr Cert.Spec.S100000x256) (b : Cert.Spec.Arr Cert.Spec.S256) :
    addf (F := Ideal) (φ := .f32) y (broadcastInDim S100000x256 ![0, 1] bcast_S1x256_S100000x256_0_1 (broadcastInDim S1x256 ![1] bcast_S256_S1x256_1 b))
      = Cert.Spec.addBias256 y b := by
  funext j
  obtain ⟨p, q, rfl⟩ : ∃ (p : Fin 100000) (q : Fin 256), j = ix2 p q := ⟨j 0, j 1, eq_ix2 j⟩
  show y (ix2 p q) + _ = y (ix2 p q) + b (ix1 q)
  refine congrArg (y (ix2 p q) + ·) ?_
  refine (broadcastInDim_apply ![0, 1] bcast_S1x256_S100000x256_0_1 _ (ix2 p q) (ix2 (0 : Fin 1) q)
    (fun a => by match a with | ⟨0, _⟩ => rfl | ⟨1, _⟩ => rfl)).trans ?_
  exact broadcastInDim_apply ![1] bcast_S256_S1x256_1 b (ix2 (0 : Fin 1) q) (ix1 q)
    (fun a => by match a with | ⟨0, _⟩ => rfl)

theorem ref_bias64 (y : Cert.Spec.Arr Cert.Spec.S100000x64) (b : Cert.Spec.Arr Cert.Spec.S64) :
    addf (F := Ideal) (φ := .f32) y (broadcastInDim S100000x64 ![0, 1] bcast_S1x64_S100000x64_0_1 (broadcastInDim S1x64 ![1] bcast_S64_S1x64_1 b))
      = Cert.Spec.addBias64 y b := by
  funext j
  obtain ⟨p, q, rfl⟩ : ∃ (p : Fin 100000) (q : Fin 64), j = ix2 p q := ⟨j 0, j 1, eq_ix2 j⟩
  show y (ix2 p q) + _ = y (ix2 p q) + b (ix1 q)
  refine congrArg (y (ix2 p q) + ·) ?_
  refine (broadcastInDim_apply ![0, 1] bcast_S1x64_S100000x64_0_1 _ (ix2 p q) (ix2 (0 : Fin 1) q)
    (fun a => by match a with | ⟨0, _⟩ => rfl | ⟨1, _⟩ => rfl)).trans ?_
  exact broadcastInDim_apply ![1] bcast_S64_S1x64_1 b (ix2 (0 : Fin 1) q) (ix1 q)
    (fun a => by match a with | ⟨0, _⟩ => rfl)

/-! ## The clamp at zero -/

theorem ref_relu (y : Cert.Spec.Arr Cert.Spec.S100000x256) :
    maximumf (F := Ideal) (φ := .f32) y (broadcastInDim S100000x256 ![] bcast_S_S100000x256 (constant (F := Ideal) S_ .f32 0x00000000#32))
      = Cert.Spec.relu y := by
  funext j
  show max (y j) _ = max (y j) 0
  refine congrArg (max (y j)) ?_
  refine (broadcastInDim_apply (s := S_) (t := S100000x256) ![] bcast_S_S100000x256 _ j
    (fun a => absurd a.isLt (Nat.not_lt_zero _)) (fun a => absurd a.isLt (Nat.not_lt_zero _))).trans ?_
  exact Ideal.ofBits_zero_f32

end Layers

end Cert.RefGlue
-- ==== Proof.RefValue.lean ====
/-
  The reference's result as the network of the specification.

  `RefRead` reads the reference's result buffer stage by stage: each layer boundary at the end of the line is its
  segment's host operations applied to the earlier boundaries. Here each of those stages is named: the two index
  rows with the self loops are `srcR` and `dstR` of the edge list; the edge weights are `normR`; a product against a
  transposed weight is the specification's matrix product; the gather, scale, scatter and bias is `aggR`; the
  mean, variance, reciprocal square root, scale, shift and clamp is the batch normalisation `bnRef`; a product, a
  bias and a clamp is `relu ∘ lin256`; the last product and bias is `lin64`. Substituting each stage into the
  next, from the arguments up, the result buffer holds `netRef` of the fourteen arguments.

  The equations about whole layers (`relu_lin256_chain`, `lin64_chain`) are stated for arbitrary arrays, and their
  inner steps (`mm256_under`, `bias256_under`) for an arbitrary second operand of the clamp, so that the reference's
  term meets them by unification and no constant's pattern is ever opened.
-/
import proofs.«166096_j40321152975189_1_alg».proof.Proof.RefRead
import proofs.«166096_j40321152975189_1_alg».proof.Proof.Net
import proofs.«166096_j40321152975189_1_alg».proof.Proof.RefBnGlue
import proofs.«166096_j40321152975189_1_alg».proof.Proof.RefGlue

noncomputable section

namespace Cert.ReferenceIdeal.RefValue

open Cert.ReferenceIdeal Cert.ReferenceIdeal.Gen Cert.ReferenceIdeal.RefRun Cert.ReferenceIdeal.RefRead Idealize.ShloMosaic Idealize.ShloMosaic.TcCoe Idealize.SL.Sem Idealize.ShloMosaic.StableHlo

/-! ## Two whole layers, for arbitrary arrays -/

/-- The product inside a sum inside a clamp, the other operands arbitrary. -/
theorem mm256_under (y : Cert.Spec.Arr Cert.Spec.S100000x256) (w : Cert.Spec.Arr Cert.Spec.S256x256)
    (B Z : Cert.Spec.Arr Cert.Spec.S100000x256) :
    maximumf (F := Ideal) (φ := .f32)
        (addf (F := Ideal) (φ := .f32)
          (Host.dotGeneral (F := Ideal) (φ₁ := .f32) (φ₂ := .f32) dot_S100000x256_S256x256_S100000x256_1_0_0_1_n_n none y
            (transpose (α := EReal) S256x256 [1, 0] w transposes_S256x256_S256x256_1_0)) B) Z
      = maximumf (F := Ideal) (φ := .f32) (addf (F := Ideal) (φ := .f32) (Cert.Spec.mm256 y w) B) Z := by
  rw [Cert.RefGlue.ref_mm256]

/-- The bias repeated along the rows inside a clamp, the clamp's other operand arbitrary. -/
theorem bias256_under (y : Cert.Spec.Arr Cert.Spec.S100000x256) (b : Cert.Spec.Arr Cert.Spec.S256)
    (Z : Cert.Spec.Arr Cert.Spec.S100000x256) :
    maximumf (F := Ideal) (φ := .f32)
        (addf (F := Ideal) (φ := .f32) y
          (broadcastInDim S100000x256 ![0, 1] bcast_S1x256_S100000x256_0_1 (broadcastInDim S1x256 ![1] bcast_S256_S1x256_1 b))) Z
      = maximumf (F := Ideal) (φ := .f32) (Cert.Spec.addBias256 y b) Z := by
  rw [Cert.RefGlue.ref_bias256]

/-- A product against a transposed `[256, 256]` weight, the bias repeated along the rows, and the clamp at zero:
    the specification's `relu (lin256 y w b)`. -/
theorem relu_lin256_chain (y : Cert.Spec.Arr Cert.Spec.S100000x256) (w : Cert.Spec.Arr Cert.Spec.S256x256)
    (b : Cert.Spec.Arr Cert.Spec.S256) :
    maximumf (F := Ideal) (φ := .f32)
        (addf (F := Ideal) (φ := .f32)
          (Host.dotGeneral (F := Ideal) (φ₁ := .f32) (φ₂ := .f32) dot_S100000x256_S256x256_S100000x256_1_0_0_1_n_n none y
            (transpose (α := EReal) S256x256 [1, 0] w transposes_S256x256_S256x256_1_0))
          (broadcastInDim S100000x256 ![0, 1] bcast_S1x256_S100000x256_0_1 (broadcastInDim S1x256 ![1] bcast_S256_S1x256_1 b)))
        (broadcastInDim S100000x256 ![] bcast_S_S100000x256 (constant (F := Ideal) S_ .f32 0x00000000#32))
      = Cert.Spec.relu (Cert.Spec.lin256 y w b) :=
  (mm256_under y w _ _).trans ((bias256_under (Cert.Spec.mm256 y w) b _).trans
    (Cert.RefGlue.ref_relu (Cert.Spec.addBias256 (Cert.Spec.mm256 y w) b)))

/-- A product against a transposed `[64, 256]` weight and the bias repeated along the rows: the specification's
    `lin64 y w b`. -/
theorem lin64_chain (y : Cert.Spec.Arr Cert.Spec.S100000x256) (w : Cert.Spec.Arr Cert.Spec.S64x256)
    (b : Cert.Spec.Arr Cert.Spec.S64) :
    addf (F := Ideal) (φ := .f32)
        (Host.dotGeneral (F := Ideal) (φ₁ := .f32) (φ₂ := .f32) dot_S100000x256_S256x64_S100000x64_1_0_0_1_n_n none y
          (transpose (α := EReal) S256x64 [1, 0] w transposes_S64x256_S256x64_1_0))
        (broadcastInDim S100000x64 ![0, 1] bcast_S1x64_S100000x64_0_1 (broadcastInDim S1x64 ![1] bcast_S64_S1x64_1 b))
      = Cert.Spec.lin64 y w b :=
  (congrArg (fun t : Cert.Spec.Arr Cert.Spec.S100000x64 =>
        addf (F := Ideal) (φ := .f32) t
          (broadcastInDim S100000x64 ![0, 1] bcast_S1x64_S100000x64_0_1 (broadcastInDim S1x64 ![1] bcast_S64_S1x64_1 b)))
      (Cert.RefGlue.ref_mm64 y w)).trans
    (Cert.RefGlue.ref_bias64 (Cert.Spec.mm64 y w) b)

/-! ## The stages -/

variable (V : Valuation τ sig (Elt Ideal))

/-- The source row with the self loops. -/
theorem v3_val : after ops V (Proc.devRef .tc main_v3) = Cert.Agg.srcR (V (Proc.devRef .tc main_arg1)) :=
  (v3_eq V).trans (by unfold Cert.Agg.srcR; rfl)

/-- The destination row with the self loops. -/
theorem v6_val : after ops V (Proc.devRef .tc main_v6) = Cert.Agg.dstR (V (Proc.devRef .tc main_arg1)) :=
  (v6_eq V).trans (by unfold Cert.Agg.dstR; rfl)

/-- The first product. -/
theorem v8_val : after ops V (Proc.devRef .tc main_v8) = Cert.Spec.mm128 (V (Proc.devRef .tc main_arg0)) (V (Proc.devRef .tc main_arg2)) :=
  (v8_eq V).trans (Cert.RefGlue.ref_mm128 (V (Proc.devRef .tc main_arg0)) (V (Proc.devRef .tc main_arg2)))

/-- The edge weights. -/
theorem v31_val : after ops V (Proc.devRef .tc main_v31) = Cert.Agg.normR (V (Proc.devRef .tc main_arg1)) := by
  have h := v31_eq V
  rw [v3_val V, v6_val V] at h
  exact h.trans (by unfold Cert.Agg.normR Cert.Agg.dinvR Cert.Agg.degR Cert.Agg.colR Cert.Agg.wrapR; rfl)

/-- The first aggregation. -/
theorem v47_val : after ops V (Proc.devRef .tc main_v47) = Cert.Agg.aggR (Cert.Spec.mm128 (V (Proc.devRef .tc main_arg0)) (V (Proc.devRef .tc main_arg2))) (V (Proc.devRef .tc main_arg1)) (Cert.Agg.normR (V (Proc.devRef .tc main_arg1))) (V (Proc.devRef .tc main_arg3)) := by
  have h := v47_eq V
  rw [v3_val V, v6_val V, v8_val V, v31_val V] at h
  exact h.trans (by unfold Cert.Agg.aggR Cert.Agg.colR Cert.Agg.wrapR; rfl)

/-- The first batch normalisation. -/
theorem v73_val : after ops V (Proc.devRef .tc main_v73) = Cert.Spec.bnRef (Cert.Agg.aggR (Cert.Spec.mm128 (V (Proc.devRef .tc main_arg0)) (V (Proc.devRef .tc main_arg2))) (V (Proc.devRef .tc main_arg1)) (Cert.Agg.normR (V (Proc.devRef .tc main_arg1))) (V (Proc.devRef .tc main_arg3))) (V (Proc.devRef .tc main_arg6)) (V (Proc.devRef .tc main_arg7)) := by
  have h := v73_eq V
  rw [v47_val V] at h
  exact h.trans (Eq.trans (by unfold Cert.RefGlue2.bnChainR Cert.RefGlue2.varChainR Cert.RefGlue2.centredR Cert.RefGlue2.meanChainR; rfl)
    (Cert.RefGlue2.bnChainR_eq (Cert.Agg.aggR (Cert.Spec.mm128 (V (Proc.devRef .tc main_arg0)) (V (Proc.devRef .tc main_arg2))) (V (Proc.devRef .tc main_arg1)) (Cert.Agg.normR (V (Proc.devRef .tc main_arg1))) (V (Proc.devRef .tc main_arg3))) (V (Proc.devRef .tc main_arg6)) (V (Proc.devRef .tc main_arg7))))

/-- The second product. -/
theorem v75_val : after ops V (Proc.devRef .tc main_v75) = Cert.Spec.mm256 (Cert.Spec.bnRef (Cert.Agg.aggR (Cert.Spec.mm128 (V (Proc.devRef .tc main_arg0)) (V (Proc.devRef .tc main_arg2))) (V (Proc.devRef .tc main_arg1)) (Cert.Agg.normR (V (Proc.devRef .tc main_arg1))) (V (Proc.devRef .tc main_arg3))) (V (Proc.devRef .tc main_arg6)) (V (Proc.devRef .tc main_arg7))) (V (Proc.devRef .tc main_arg4)) := by
  have h := v75_eq V
  rw [v73_val V] at h
  exact h.trans (Cert.RefGlue.ref_mm256 (Cert.Spec.bnRef (Cert.Agg.aggR (Cert.Spec.mm128 (V (Proc.devRef .tc main_arg0)) (V (Proc.devRef .tc main_arg2))) (V (Proc.devRef .tc main_arg1)) (Cert.Agg.normR (V (Proc.devRef .tc main_arg1))) (V (Proc.devRef .tc main_arg3))) (V (Proc.devRef .tc main_arg6)) (V (Proc.devRef .tc main_arg7))) (V (Proc.devRef .tc main_arg4)))

/-- The edge weights, computed a second time. -/
theorem v98_val : after ops V (Proc.devRef .tc main_v98) = Cert.Agg.normR (V (Proc.devRef .tc main_arg1)) := by
  have h := v98_eq V
  rw [v3_val V, v6_val V] at h
  exact h.trans (by unfold Cert.Agg.normR Cert.Agg.dinvR Cert.Agg.degR Cert.Agg.colR Cert.Agg.wrapR; rfl)

/-- The second aggregation. -/
theorem v114_val : after ops V (Proc.devRef .tc main_v114) = Cert.Agg.aggR (Cert.Spec.mm256 (Cert.Spec.bnRef (Cert.Agg.aggR (Cert.Spec.mm128 (V (Proc.devRef .tc main_arg0)) (V (Proc.devRef .tc main_arg2))) (V (Proc.devRef .tc main_arg1)) (Cert.Agg.normR (V (Proc.devRef .tc main_arg1))) (V (Proc.devRef .tc main_arg3))) (V (Proc.devRef .tc main_arg6)) (V (Proc.devRef .tc main_arg7))) (V (Proc.devRef .tc main_arg4))) (V (Proc.devRef .tc main_arg1)) (Cert.Agg.normR (V (Proc.devRef .tc main_arg1))) (V (Proc.devRef .tc main_arg5)) := by
  have h := v114_eq V
  rw [v3_val V, v6_val V, v75_val V, v98_val V] at h
  exact h.trans (by unfold Cert.Agg.aggR Cert.Agg.colR Cert.Agg.wrapR; rfl)

/-- The second batch normalisation. -/
theorem v140_val : after ops V (Proc.devRef .tc main_v140) = Cert.Spec.bnRef (Cert.Agg.aggR (Cert.Spec.mm256 (Cert.Spec.bnRef (Cert.Agg.aggR (Cert.Spec.mm128 (V (Proc.devRef .tc main_arg0)) (V (Proc.devRef .tc main_arg2))) (V (Proc.devRef .tc main_arg1)) (Cert.Agg.normR (V (Proc.devRef .tc main_arg1))) (V (Proc.devRef .tc main_arg3))) (V (Proc.devRef .tc main_arg6)) (V (Proc.devRef .tc main_arg7))) (V (Proc.devRef .tc main_arg4))) (V (Proc.devRef .tc main_arg1)) (Cert.Agg.normR (V (Proc.devRef .tc main_arg1))) (V (Proc.devRef .tc main_arg5))) (V (Proc.devRef .tc main_arg8)) (V (Proc.devRef .tc main_arg9)) := by
  have h := v140_eq V
  rw [v114_val V] at h
  exact h.trans (Eq.trans (by unfold Cert.RefGlue2.bnChainR Cert.RefGlue2.varChainR Cert.RefGlue2.centredR Cert.RefGlue2.meanChainR; rfl)
    (Cert.RefGlue2.bnChainR_eq (Cert.Agg.aggR (Cert.Spec.mm256 (Cert.Spec.bnRef (Cert.Agg.aggR (Cert.Spec.mm128 (V (Proc.devRef .tc main_arg0)) (V (Proc.devRef .tc main_arg2))) (V (Proc.devRef .tc main_arg1)) (Cert.Agg.normR (V (Proc.devRef .tc main_arg1))) (V (Proc.devRef .tc main_arg3))) (V (Proc.devRef .tc main_arg6)) (V (Proc.devRef .tc main_arg7))) (V (Proc.devRef .tc main_arg4))) (V (Proc.devRef .tc main_arg1)) (Cert.Agg.normR (V (Proc.devRef .tc main_arg1))) (V (Proc.devRef .tc main_arg5))) (V (Proc.devRef .tc main_arg8)) (V (Proc.devRef .tc main_arg9))))

/-- The first of the two last linear layers, with its clamp. -/
theorem v146_val : after ops V (Proc.devRef .tc main_v146) = Cert.Spec.relu (Cert.Spec.lin256 (Cert.Spec.bnRef (Cert.Agg.aggR (Cert.Spec.mm256 (Cert.Spec.bnRef (Cert.Agg.aggR (Cert.Spec.mm128 (V (Proc.devRef .tc main_arg0)) (V (Proc.devRef .tc main_arg2))) (V (Proc.devRef .tc main_arg1)) (Cert.Agg.normR (V (Proc.devRef .tc main_arg1))) (V (Proc.devRef .tc main_arg3))) (V (Proc.devRef .tc main_arg6)) (V (Proc.devRef .tc main_arg7))) (V (Proc.devRef .tc main_arg4))) (V (Proc.devRef .tc main_arg1)) (Cert.Agg.normR (V (Proc.devRef .tc main_arg1))) (V (Proc.devRef .tc main_arg5))) (V (Proc.devRef .tc main_arg8)) (V (Proc.devRef .tc main_arg9))) (V (Proc.devRef .tc main_arg10)) (V (Proc.devRef .tc main_arg11))) := by
  have h := v146_eq V
  rw [v140_val V] at h
  exact h.trans (relu_lin256_chain (Cert.Spec.bnRef (Cert.Agg.aggR (Cert.Spec.mm256 (Cert.Spec.bnRef (Cert.Agg.aggR (Cert.Spec.mm128 (V (Proc.devRef .tc main_arg0)) (V (Proc.devRef .tc main_arg2))) (V (Proc.devRef .tc main_arg1)) (Cert.Agg.normR (V (Proc.devRef .tc main_arg1))) (V (Proc.devRef .tc main_arg3))) (V (Proc.devRef .tc main_arg6)) (V (Proc.devRef .tc main_arg7))) (V (Proc.devRef .tc main_arg4))) (V (Proc.devRef .tc main_arg1)) (Cert.Agg.normR (V (Proc.devRef .tc main_arg1))) (V (Proc.devRef .tc main_arg5))) (V (Proc.devRef .tc main_arg8)) (V (Proc.devRef .tc main_arg9))) (V (Proc.devRef .tc main_arg10)) (V (Proc.devRef .tc main_arg11)))

/-- The reference's result: the network of the specification at the fourteen arguments. -/
theorem ref_value : after ops V (Proc.devRef .tc main_v151)
    = Cert.Net.netRef (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  have h := v151_eq V
  rw [v146_val V] at h
  exact h.trans ((lin64_chain (Cert.Spec.relu (Cert.Spec.lin256 (Cert.Spec.bnRef (Cert.Agg.aggR (Cert.Spec.mm256 (Cert.Spec.bnRef (Cert.Agg.aggR (Cert.Spec.mm128 (V (Proc.devRef .tc main_arg0)) (V (Proc.devRef .tc main_arg2))) (V (Proc.devRef .tc main_arg1)) (Cert.Agg.normR (V (Proc.devRef .tc main_arg1))) (V (Proc.devRef .tc main_arg3))) (V (Proc.devRef .tc main_arg6)) (V (Proc.devRef .tc main_arg7))) (V (Proc.devRef .tc main_arg4))) (V (Proc.devRef .tc main_arg1)) (Cert.Agg.normR (V (Proc.devRef .tc main_arg1))) (V (Proc.devRef .tc main_arg5))) (V (Proc.devRef .tc main_arg8)) (V (Proc.devRef .tc main_arg9))) (V (Proc.devRef .tc main_arg10)) (V (Proc.devRef .tc main_arg11)))) (V (Proc.devRef .tc main_arg12)) (V (Proc.devRef .tc main_arg13))).trans (by unfold Cert.Net.netRef; rfl))

end Cert.ReferenceIdeal.RefValue
-- ==== Proof.PreFin.lean ====
/-
  From the precondition to finiteness of every float argument.

  The precondition says of each float argument `a` that `|a| < +∞` holds at every entry, as one bit: the entrywise
  comparison of `|a|` with the constant `+∞`, folded with `and` over the whole array, and the thirteen bits folded with
  `and` again.  A fold by `and` that is `1` met only ones; a comparison "less than" that answers `1` holds; the
  constant's pattern denotes `⊤`; and an extended real whose absolute value is below `⊤` is a real number.
-/
import proofs.«166096_j40321152975189_1_alg».proof.Defs
import proofs.«166096_j40321152975189_1_alg».proof.Proof.LibFinite
import Idealize.ShloMosaic.Lib.ReduceAll
import Idealize.ShloMosaic.Lib.ValueIdx

noncomputable section

open Idealize.ShloMosaic Idealize.SL.Sem Cert.LibStats

namespace Cert.PreFin

open Cert.Pre_finite_inputs Cert.Pre_finite_inputs.Facts

/-- The scalar shape has one index. -/
instance : Subsingleton S_.Idx := ⟨fun _ _ => funext fun d => d.elim0⟩

/-- The pattern of `+∞` denotes `⊤`. -/
theorem ofBits_inf : Ideal.ofBits .f32 0x7F800000#32 = ⊤ := by
  simp [Ideal.ofBits, Ideal.ieee]

/-- A comparison "less than" that answers `1` holds. -/
theorem lt_of_cmp_olt {x y : EReal} (h : Ideal.cmp .olt x y = 1#1) : x < y := by
  unfold Ideal.cmp at h
  by_contra hn
  simp [hn] at h

/-- The entrywise test `|x| < c` against a spread scalar constant, read at an index, for any pattern `c`. -/
theorem test_apply {s : Shape} (x : FVec Ideal s .f32) (hb : S_.BroadcastsInDim s (![] : Fin 0 → Fin s.rank))
    (pat : BitVec 32) (i : s.Idx) :
    cmpf .olt (Host.absf (F := Ideal) x) (broadcastInDim s ![] hb (constant (F := Ideal) S_ .f32 pat)) i
      = Ideal.cmp .olt (max (x i) (-(x i))) (Ideal.ofBits .f32 pat) := rfl

/-- One conjunct of the precondition: if the fold by `and` of the test `|x| < +∞` over the whole array is `1`, every
    entry of `x` is finite. -/
theorem isFin_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf (F := Ideal) x) (broadcastInDim s ![] hb (constant (F := Ideal) S_ .f32 0x7F800000#32)))
        init hr hu j = 1#1) :
    ∀ i, IsFin (x i) := by
  intro i
  have h1 := Host.reduce_andi_all _ init hr hu j e i
  rw [test_apply, ofBits_inf] at h1
  exact LibFinite.isFin_of_abs_lt_top (lt_of_cmp_olt h1)

variable [Cert.Pre_finite_inputs.Facts]

/-- If the printed predicate answers all ones, every float argument has finite entries. -/
theorem allFin_of_fn (a0 : FVec Ideal S100000x128 .f32) (a1 : IVec S2x800000 32) (a2 : FVec Ideal S256x128 .f32)
    (a3 : FVec Ideal S256 .f32) (a4 : FVec Ideal S256x256 .f32) (a5 a6 a7 a8 a9 : FVec Ideal S256 .f32)
    (a10 : FVec Ideal S256x256 .f32) (a11 : FVec Ideal S256 .f32) (a12 : FVec Ideal S64x256 .f32)
    (a13 : FVec Ideal S64 .f32)
    (h : fn (F := Ideal) a0 a1 a2 a3 a4 a5 a6 a7 a8 a9 a10 a11 a12 a13 = fun _ => 1#1) :
    (∀ j, IsFin (a0 j)) ∧ (∀ j, IsFin (a2 j)) ∧ (∀ j, IsFin (a3 j)) ∧ (∀ j, IsFin (a4 j)) ∧ (∀ j, IsFin (a5 j))
      ∧ (∀ j, IsFin (a6 j)) ∧ (∀ j, IsFin (a7 j)) ∧ (∀ j, IsFin (a8 j)) ∧ (∀ j, IsFin (a9 j)) ∧ (∀ j, IsFin (a10 j))
      ∧ (∀ j, IsFin (a11 j)) ∧ (∀ j, IsFin (a12 j)) ∧ (∀ j, IsFin (a13 j)) := by
  have h0 := congrFun h ValueIdx.ix0
  dsimp only [fn, fn_part1, fn_part2, fn_part3, andi] at h0
  simp only [IntOp.andi_eq_one] at h0
  obtain ⟨⟨⟨⟨⟨⟨⟨⟨⟨⟨⟨⟨e0, e2⟩, e3⟩, e4⟩, e5⟩, e6⟩, e7⟩, e8⟩, e9⟩, e10⟩, e11⟩, e12⟩, e13⟩ := h0
  exact ⟨isFin_of_all _ _ _ _ _ _ e0, isFin_of_all _ _ _ _ _ _ e2, isFin_of_all _ _ _ _ _ _ e3,
    isFin_of_all _ _ _ _ _ _ e4, isFin_of_all _ _ _ _ _ _ e5, isFin_of_all _ _ _ _ _ _ e6,
    isFin_of_all _ _ _ _ _ _ e7, isFin_of_all _ _ _ _ _ _ e8, isFin_of_all _ _ _ _ _ _ e9,
    isFin_of_all _ _ _ _ _ _ e10, isFin_of_all _ _ _ _ _ _ e11, isFin_of_all _ _ _ _ _ _ e12,
    isFin_of_all _ _ _ _ _ _ e13⟩

/-- Under the second program's precondition every float argument array in memory has finite entries. -/
theorem allFin_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, IsFin (m ((c.tc : Thread Cert.KernelIdeal.nD Cert.KernelIdeal.τ).loc Cert.KernelIdeal.main_arg0) j))
      ∧ (∀ j, IsFin (m ((c.tc : Thread Cert.KernelIdeal.nD Cert.KernelIdeal.τ).loc Cert.KernelIdeal.main_arg2) j))
      ∧ (∀ j, IsFin (m ((c.tc : Thread Cert.KernelIdeal.nD Cert.KernelIdeal.τ).loc Cert.KernelIdeal.main_arg3) j))
      ∧ (∀ j, IsFin (m ((c.tc : Thread Cert.KernelIdeal.nD Cert.KernelIdeal.τ).loc Cert.KernelIdeal.main_arg4) j))
      ∧ (∀ j, IsFin (m ((c.tc : Thread Cert.KernelIdeal.nD Cert.KernelIdeal.τ).loc Cert.KernelIdeal.main_arg5) j))
      ∧ (∀ j, IsFin (m ((c.tc : Thread Cert.KernelIdeal.nD Cert.KernelIdeal.τ).loc Cert.KernelIdeal.main_arg6) j))
      ∧ (∀ j, IsFin (m ((c.tc : Thread Cert.KernelIdeal.nD Cert.KernelIdeal.τ).loc Cert.KernelIdeal.main_arg7) j))
      ∧ (∀ j, IsFin (m ((c.tc : Thread Cert.KernelIdeal.nD Cert.KernelIdeal.τ).loc Cert.KernelIdeal.main_arg8) j))
      ∧ (∀ j, IsFin (m ((c.tc : Thread Cert.KernelIdeal.nD Cert.KernelIdeal.τ).loc Cert.KernelIdeal.main_arg9) j))
      ∧ (∀ j, IsFin (m ((c.tc : Thread Cert.KernelIdeal.nD Cert.KernelIdeal.τ).loc Cert.KernelIdeal.main_arg10) j))
      ∧ (∀ j, IsFin (m ((c.tc : Thread Cert.KernelIdeal.nD Cert.KernelIdeal.τ).loc Cert.KernelIdeal.main_arg11) j))
      ∧ (∀ j, IsFin (m ((c.tc : Thread Cert.KernelIdeal.nD Cert.KernelIdeal.τ).loc Cert.KernelIdeal.main_arg12) j))
      ∧ (∀ j, IsFin (m ((c.tc : Thread Cert.KernelIdeal.nD Cert.KernelIdeal.τ).loc Cert.KernelIdeal.main_arg13) j)) :=
  allFin_of_fn
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (h c)

/-- Under the first program's precondition every float argument array in memory has finite entries. -/
theorem allFin_of_preRef (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ j, IsFin (m ((c.tc : Thread Cert.ReferenceIdeal.nD Cert.ReferenceIdeal.τ).loc Cert.ReferenceIdeal.main_arg0) j))
      ∧ (∀ j, IsFin (m ((c.tc : Thread Cert.ReferenceIdeal.nD Cert.ReferenceIdeal.τ).loc Cert.ReferenceIdeal.main_arg2) j))
      ∧ (∀ j, IsFin (m ((c.tc : Thread Cert.ReferenceIdeal.nD Cert.ReferenceIdeal.τ).loc Cert.ReferenceIdeal.main_arg3) j))
      ∧ (∀ j, IsFin (m ((c.tc : Thread Cert.ReferenceIdeal.nD Cert.ReferenceIdeal.τ).loc Cert.ReferenceIdeal.main_arg4) j))
      ∧ (∀ j, IsFin (m ((c.tc : Thread Cert.ReferenceIdeal.nD Cert.ReferenceIdeal.τ).loc Cert.ReferenceIdeal.main_arg5) j))
      ∧ (∀ j, IsFin (m ((c.tc : Thread Cert.ReferenceIdeal.nD Cert.ReferenceIdeal.τ).loc Cert.ReferenceIdeal.main_arg6) j))
      ∧ (∀ j, IsFin (m ((c.tc : Thread Cert.ReferenceIdeal.nD Cert.ReferenceIdeal.τ).loc Cert.ReferenceIdeal.main_arg7) j))
      ∧ (∀ j, IsFin (m ((c.tc : Thread Cert.ReferenceIdeal.nD Cert.ReferenceIdeal.τ).loc Cert.ReferenceIdeal.main_arg8) j))
      ∧ (∀ j, IsFin (m ((c.tc : Thread Cert.ReferenceIdeal.nD Cert.ReferenceIdeal.τ).loc Cert.ReferenceIdeal.main_arg9) j))
      ∧ (∀ j, IsFin (m ((c.tc : Thread Cert.ReferenceIdeal.nD Cert.ReferenceIdeal.τ).loc Cert.ReferenceIdeal.main_arg10) j))
      ∧ (∀ j, IsFin (m ((c.tc : Thread Cert.ReferenceIdeal.nD Cert.ReferenceIdeal.τ).loc Cert.ReferenceIdeal.main_arg11) j))
      ∧ (∀ j, IsFin (m ((c.tc : Thread Cert.ReferenceIdeal.nD Cert.ReferenceIdeal.τ).loc Cert.ReferenceIdeal.main_arg12) j))
      ∧ (∀ j, IsFin (m ((c.tc : Thread Cert.ReferenceIdeal.nD Cert.ReferenceIdeal.τ).loc Cert.ReferenceIdeal.main_arg13) j)) :=
  allFin_of_fn
    (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))
    (m ((c.tc : Thread Cert.ReferenceIdeal.nD Cert.ReferenceIdeal.τ).loc Cert.ReferenceIdeal.main_arg9))
    (m ((c.tc : Thread Cert.ReferenceIdeal.nD Cert.ReferenceIdeal.τ).loc Cert.ReferenceIdeal.main_arg10))
    (m ((c.tc : Thread Cert.ReferenceIdeal.nD Cert.ReferenceIdeal.τ).loc Cert.ReferenceIdeal.main_arg11))
    (m ((c.tc : Thread Cert.ReferenceIdeal.nD Cert.ReferenceIdeal.τ).loc Cert.ReferenceIdeal.main_arg12))
    (m ((c.tc : Thread Cert.ReferenceIdeal.nD Cert.ReferenceIdeal.τ).loc Cert.ReferenceIdeal.main_arg13))
    (h c)

end Cert.PreFin

end
-- ==== Proof.Final.lean ====
/-
  The two idealized programs compute the same network: the last conjunct of the claim, assembled.

  The second program's run ends with its result array at the network in the arrangement "mean of squares minus squared
  mean", as a function of its fourteen launch arguments; the first program's run ends with its result at the network in
  the arrangement "mean of squared deviations", as a function of its own arguments.  The two memories agree on the
  arguments, the precondition makes every float argument finite, and for finite arguments the two arrangements are one
  function.  Both runs hand the arguments back unchanged.
-/
import proofs.«166096_j40321152975189_1_alg».proof.Defs
import proofs.«166096_j40321152975189_1_alg».proof.Proof.Gen.Pre_finite_inputs
import proofs.«166096_j40321152975189_1_alg».proof.Proof.KI.Packs
import proofs.«166096_j40321152975189_1_alg».proof.Proof.RefRun
import proofs.«166096_j40321152975189_1_alg».proof.Proof.Net
import proofs.«166096_j40321152975189_1_alg».proof.Proof.PreFin

noncomputable section

open Idealize.ShloMosaic Idealize.ShloMosaic.TcCoe Idealize.SL.Sem Cert.LibStats Cert.Spec

namespace Cert.Final

/-- Equal arguments give equal networks. -/
theorem netRef_congr {x x' : Arr S100000x128} {ei ei' : IVec Cert.ReferenceIdeal.S2x800000 32} {W0 W0' : Arr S256x128}
    {b0 b0' : Arr S256} {W1 W1' : Arr S256x256} {b1 b1' g0 g0' be0 be0' g1 g1' be1 be1' : Arr S256}
    {Wl1 Wl1' : Arr S256x256} {bl1 bl1' : Arr S256} {Wl2 Wl2' : Arr S64x256} {bl2 bl2' : Arr S64}
    (h0 : x' = x) (h1 : ei' = ei) (h2 : W0' = W0) (h3 : b0' = b0) (h4 : W1' = W1) (h5 : b1' = b1) (h6 : g0' = g0)
    (h7 : be0' = be0) (h8 : g1' = g1) (h9 : be1' = be1) (h10 : Wl1' = Wl1) (h11 : bl1' = bl1) (h12 : Wl2' = Wl2)
    (h13 : bl2' = bl2) :
    Cert.Net.netRef x' ei' W0' b0' W1' b1' g0' be0' g1' be1' Wl1' bl1' Wl2' bl2'
      = Cert.Net.netRef x ei W0 b0 W1 b1 g0 be0 g1 be1 Wl1 bl1 Wl2 bl2 := by
  subst h0 h1 h2 h3 h4 h5 h6 h7 h8 h9 h10 h11 h12 h13
  rfl

/-- The algebraic conjunct, from the two programs' values: the second program's result as `netKer` of its launch
    arguments, the first program's as `netRef` of its own. -/
theorem algebraic
    (hK : ∀ (m : Cert.KernelIdeal.Hand.Mem Ideal) (c : Dev Cert.KernelIdeal.nD),
        Cert.KernelIdeal.Hand.W16 m (Cert.KernelIdeal.Hand.packs (F := Ideal)) c (Proc.devRef .tc Cert.KernelIdeal.main_v83)
          = Cert.Net.netKer
          (m (c, Proc.devRef .tc Cert.KernelIdeal.main_arg0))
          (m (c, Proc.devRef .tc Cert.KernelIdeal.main_arg1))
          (m (c, Proc.devRef .tc Cert.KernelIdeal.main_arg2))
          (m (c, Proc.devRef .tc Cert.KernelIdeal.main_arg3))
          (m (c, Proc.devRef .tc Cert.KernelIdeal.main_arg4))
          (m (c, Proc.devRef .tc Cert.KernelIdeal.main_arg5))
          (m (c, Proc.devRef .tc Cert.KernelIdeal.main_arg6))
          (m (c, Proc.devRef .tc Cert.KernelIdeal.main_arg7))
          (m (c, Proc.devRef .tc Cert.KernelIdeal.main_arg8))
          (m (c, Proc.devRef .tc Cert.KernelIdeal.main_arg9))
          (m (c, Proc.devRef .tc Cert.KernelIdeal.main_arg10))
          (m (c, Proc.devRef .tc Cert.KernelIdeal.main_arg11))
          (m (c, Proc.devRef .tc Cert.KernelIdeal.main_arg12))
          (m (c, Proc.devRef .tc Cert.KernelIdeal.main_arg13)))
    (hR : ∀ V : Valuation Cert.ReferenceIdeal.τ Cert.ReferenceIdeal.sig (Elt Ideal),
        StableHlo.after (Cert.ReferenceIdeal.RefRun.ops (F := Ideal)) V (Proc.devRef .tc Cert.ReferenceIdeal.main_v151)
          = Cert.Net.netRef
          (V (Proc.devRef .tc Cert.ReferenceIdeal.main_arg0))
          (V (Proc.devRef .tc Cert.ReferenceIdeal.main_arg1))
          (V (Proc.devRef .tc Cert.ReferenceIdeal.main_arg2))
          (V (Proc.devRef .tc Cert.ReferenceIdeal.main_arg3))
          (V (Proc.devRef .tc Cert.ReferenceIdeal.main_arg4))
          (V (Proc.devRef .tc Cert.ReferenceIdeal.main_arg5))
          (V (Proc.devRef .tc Cert.ReferenceIdeal.main_arg6))
          (V (Proc.devRef .tc Cert.ReferenceIdeal.main_arg7))
          (V (Proc.devRef .tc Cert.ReferenceIdeal.main_arg8))
          (V (Proc.devRef .tc Cert.ReferenceIdeal.main_arg9))
          (V (Proc.devRef .tc Cert.ReferenceIdeal.main_arg10))
          (V (Proc.devRef .tc Cert.ReferenceIdeal.main_arg11))
          (V (Proc.devRef .tc Cert.ReferenceIdeal.main_arg12))
          (V (Proc.devRef .tc Cert.ReferenceIdeal.main_arg13))) :
    Cert.algebraic_KernelIdeal_ReferenceIdeal := by
  intro m ρ m' ρ' hpre hagree
  refine ⟨fun c => Cert.KernelIdeal.Hand.W16 m (Cert.KernelIdeal.Hand.packs (F := Ideal)) c (Proc.devRef .tc Cert.KernelIdeal.main_v83),
    Cert.KernelIdeal.Hand.run_result m ρ Cert.KernelIdeal.Hand.packs, ?_⟩
  refine (θ_run Cert.ReferenceIdeal.defs _ _).mono (fun _ h c => ⟨(h c).1.trans ?_, (h c).2⟩)
    (Cert.ReferenceIdeal.RefRun.run (F := Ideal) m' ρ')
  obtain ⟨f0, f2, f3, f4, f5, f6, f7, _, _, _, _, _, _⟩ := Cert.PreFin.allFin_of_pre m hpre c
  obtain ⟨a0, a1, a2, a3, a4, a5, a6, a7, a8, a9, a10, a11, a12, a13⟩ := hagree c
  refine (hR (StableHlo.launchContents m' c)).trans ?_
  refine (netRef_congr a0 a1 a2 a3 a4 a5 a6 a7 a8 a9 a10 a11 a12 a13).trans ?_
  refine (Cert.Net.net_eq _ _ _ _ _ _ _ f0 f2 f3 f4 f5 f6 f7).symm.trans ?_
  exact (hK m c).symm

end Cert.Final

end
-- ==== Proof.lean ====
/-
  The claim: the word-level kernel program, its idealization and the idealized reference each run to the end with
  their argument arrays unchanged; the idealization rewrote no operation; and at the extended reals the idealized
  kernel and the idealized reference compute the same two-layer graph network from the same arguments.

  The kernel programs' runs are assembled from their eight regions (four dense layers computed row block by row
  block, two batch statistics accumulated over the fifty row blocks in two carried rows, two normalisations), the
  reference's from its list of host operations. The two sides differ in one arrangement — the variance as the
  mean of squares minus the squared mean against the mean of squared deviations — which agree on finite entries;
  finiteness of every intermediate array follows from the finiteness of the inputs.
-/
import proofs.«166096_j40321152975189_1_alg».proof.Defs
import proofs.«166096_j40321152975189_1_alg».proof.Proof.Gen.Kernel
import proofs.«166096_j40321152975189_1_alg».proof.Proof.Gen.KernelIdeal
import proofs.«166096_j40321152975189_1_alg».proof.Proof.Gen.ReferenceIdeal
import proofs.«166096_j40321152975189_1_alg».proof.Proof.Gen.Pre_finite_inputs
import proofs.«166096_j40321152975189_1_alg».proof.Proof.K.Packs
import proofs.«166096_j40321152975189_1_alg».proof.Proof.KI.Packs
import proofs.«166096_j40321152975189_1_alg».proof.Proof.RefRun
import proofs.«166096_j40321152975189_1_alg».proof.Proof.KI.KernelValue
import proofs.«166096_j40321152975189_1_alg».proof.Proof.RefValue
import proofs.«166096_j40321152975189_1_alg».proof.Proof.Final
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and hands its arguments back: the run assembled from its eight regions. -/
theorem frame_k : Cert.frame_Kernel := fun m ρ _ => Cert.Kernel.Hand.frame m ρ Cert.Kernel.Hand.packs
/-- The same for the idealized kernel program. -/
theorem frame_ki : Cert.frame_KernelIdeal := fun m ρ _ => Cert.KernelIdeal.Hand.frame m ρ Cert.KernelIdeal.Hand.packs
/-- The reference is a list of host operations none of which writes an argument. -/
theorem frame_ri : Cert.frame_ReferenceIdeal := fun m ρ _ =>
  (θ_run Cert.ReferenceIdeal.defs _ _).mono (fun _ h c => (h c).2) (Cert.ReferenceIdeal.RefRun.run (F := Ideal) m ρ)
/-- The idealization rewrote no operation. -/
theorem preserves : Cert.preserves_Kernel_KernelIdeal := trivial
/-- At the extended reals both programs end with the network of the (agreeing) arguments in their result arrays:
    the kernel's in the mean-of-squares arrangement of the variance, the reference's in the mean of squared
    deviations; the two arrangements agree because every array that reaches a normalisation is finite. -/
theorem algebraic : Cert.algebraic_KernelIdeal_ReferenceIdeal :=
  Cert.Final.algebraic (fun m c => Cert.KernelIdeal.Hand.kernel_value m c) (fun V => Cert.ReferenceIdeal.RefValue.ref_value V)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
